-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.truncf_extf.Statement Cert.KernelIdeal.S2048x512 .f32 .bf16
  ∧ IdealRules.truncf_extf.Statement Cert.KernelIdeal.S2048x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x784 : Shape := ⟨2, ![32768, 784]⟩
abbrev S512x784 : Shape := ⟨2, ![512, 784]⟩
abbrev S512 : Shape := ⟨1, ![512]⟩
abbrev S512x512 : Shape := ⟨2, ![512, 512]⟩
abbrev S10x512 : Shape := ⟨2, ![10, 512]⟩
abbrev S10 : Shape := ⟨1, ![10]⟩
abbrev S32768x512 : Shape := ⟨2, ![32768, 512]⟩
abbrev S_ : Shape := ⟨0, ![]⟩

class Facts : Prop where
  bcast_S_S32768x784 : S_.BroadcastsInDim S32768x784 (![] : Fin 0 → Fin S32768x784.rank)
  reducesTo_S32768x784_S_d0_1 : S32768x784.ReducesTo [0, 1] S_
  h_S_ : 0 < S_.numel
  bcast_S_S512x784 : S_.BroadcastsInDim S512x784 (![] : Fin 0 → Fin S512x784.rank)
  reducesTo_S512x784_S_d0_1 : S512x784.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S10x512 : S_.BroadcastsInDim S10x512 (![] : Fin 0 → Fin S10x512.rank)
  reducesTo_S10x512_S_d0_1 : S10x512.ReducesTo [0, 1] S_
  bcast_S_S10 : S_.BroadcastsInDim S10 (![] : Fin 0 → Fin S10.rank)
  reducesTo_S10_S_d0 : S10.ReducesTo [0] S_
  bcast_S_S32768x512 : S_.BroadcastsInDim S32768x512 (![] : Fin 0 → Fin S32768x512.rank)
  reducesTo_S32768x512_S_d0_1 : S32768x512.ReducesTo [0, 1] S_

variable [Facts]

def fn_part3 {F : FTy → Type} [FloatOps F] (main_arg11 : FVec F S32768x512 .f32) (main_arg12 : FVec F S32768x512 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S32768x512 .f32 := Host.absf main_arg11
  let main_cst_20 : FVec F S_ .f32 := constant S_ .f32 0x7F800000#32
  let main_v55 : FVec F S32768x512 .f32 := broadcastInDim S32768x512 ![] bcast_S_S32768x512 main_cst_20
  let main_v56 : IVec S32768x512 1 := cmpf .olt main_v54 main_v55
  let main_c_21 : IVec S_ 1 := constantI S_ 1 1#1
  let main_v57 : IVec S_ 1 := (fun x v => Host.reduce IntOp.andi x v reducesTo_S32768x512_S_d0_1 h_S_) main_v56 main_c_21
  let main_v58 : IVec S_ 1 := andi main_v53 main_v57
  let main_v59 : FVec F S32768x512 .f32 := Host.absf main_arg12
  let main_cst_22 : FVec F S_ .f32 := constant S_ .f32 0x7F800000#32
  let main_v60 : FVec F S32768x512 .f32 := broadcastInDim S32768x512 ![] bcast_S_S32768x512 main_cst_22
  let main_v61 : IVec S32768x512 1 := cmpf .olt main_v59 main_v60
  let main_c_23 : IVec S_ 1 := constantI S_ 1 1#1
  let main_v62 : IVec S_ 1 := (fun x v => Host.reduce IntOp.andi x v reducesTo_S32768x512_S_d0_1 h_S_) main_v61 main_c_23
  let main_v63 : IVec S_ 1 := andi main_v58 main_v62
  main_v63

def fn_part2 {F : FTy → Type} [FloatOps F] (main_arg7 : FVec F S512 .f32) (main_arg8 : FVec F S512 .f32) (main_arg9 : FVec F S10x512 .f32) (main_arg10 : FVec F S10 .f32) (main_arg11 : FVec F S32768x512 .f32) (main_arg12 : FVec F S32768x512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S10x512 .f32 := Host.absf main_arg9
  let main_cst_16 : FVec F S_ .f32 := constant S_ .f32 0x7F800000#32
  let main_v45 : FVec F S10x512 .f32 := broadcastInDim S10x512 ![] bcast_S_S10x512 main_cst_16
  let main_v46 : IVec S10x512 1 := cmpf .olt main_v44 main_v45
  let main_c_17 : IVec S_ 1 := constantI S_ 1 1#1
  let main_v47 : IVec S_ 1 := (fun x v => Host.reduce IntOp.andi x v reducesTo_S10x512_S_d0_1 h_S_) main_v46 main_c_17
  let main_v48 : IVec S_ 1 := andi main_v43 main_v47
  let main_v49 : FVec F S10 .f32 := Host.absf main_arg10
  let main_cst_18 : FVec F S_ .f32 := constant S_ .f32 0x7F800000#32
  let main_v50 : FVec F S10 .f32 := broadcastInDim S10 ![] bcast_S_S10 main_cst_18
  fn_part3 (F := F) main_arg11 main_arg12 main_v48 main_v49 main_v50

def fn_part1 {F : FTy → Type} [FloatOps F] (main_arg4 : FVec F S512 .f32) (main_arg5 : FVec F S512x512 .f32) (main_arg6 : FVec F S512 .f32) (main_arg7 : FVec F S512 .f32) (main_arg8 : FVec F S512 .f32) (main_arg9 : FVec F S10x512 .f32) (main_arg10 : FVec F S10 .f32) (main_arg11 : FVec F S32768x512 .f32) (main_arg12 : FVec F S32768x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32768x784 .f32) (main_arg1 : FVec F S512x784 .f32) (main_arg2 : FVec F S512 .f32) (main_arg3 : FVec F S512 .f32) (main_arg4 : FVec F S512 .f32) (main_arg5 : FVec F S512x512 .f32) (main_arg6 : FVec F S512 .f32) (main_arg7 : FVec F S512 .f32) (main_arg8 : FVec F S512 .f32) (main_arg9 : FVec F S10x512 .f32) (main_arg10 : FVec F S10 .f32) (main_arg11 : FVec F S32768x512 .f32) (main_arg12 : FVec F S32768x512 .f32) : IVec S_ 1 :=
  let main_v0 : FVec F S32768x784 .f32 := Host.absf main_arg0
  let main_cst : FVec F S_ .f32 := constant S_ .f32 0x7F800000#32
  let main_v1 : FVec F S32768x784 .f32 := broadcastInDim S32768x784 ![] bcast_S_S32768x784 main_cst
  let main_v2 : IVec S32768x784 1 := cmpf .olt main_v0 main_v1
  let main_c : IVec S_ 1 := constantI S_ 1 1#1
  let main_v3 : IVec S_ 1 := (fun x v => Host.reduce IntOp.andi x v reducesTo_S32768x784_S_d0_1 h_S_) main_v2 main_c
  let main_v4 : FVec F S512x784 .f32 := Host.absf main_arg1
  let main_cst_0 : FVec F S_ .f32 := constant S_ .f32 0x7F800000#32
  let main_v5 : FVec F S512x784 .f32 := broadcastInDim S512x784 ![] bcast_S_S512x784 main_cst_0
  let main_v6 : IVec S512x784 1 := cmpf .olt main_v4 main_v5
  let main_c_1 : IVec S_ 1 := constantI S_ 1 1#1
  let main_v7 : IVec S_ 1 := (fun x v => Host.reduce IntOp.andi x v reducesTo_S512x784_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_v13 main_v16
-- ==== Kernel.lean ====
abbrev S32768x784 : Shape := ⟨2, ![32768, 784]⟩
abbrev S512x784 : Shape := ⟨2, ![512, 784]⟩
abbrev S512 : Shape := ⟨1, ![512]⟩
abbrev S512x512 : Shape := ⟨2, ![512, 512]⟩
abbrev S10x512 : Shape := ⟨2, ![10, 512]⟩
abbrev S10 : Shape := ⟨1, ![10]⟩
abbrev S32768x512 : Shape := ⟨2, ![32768, 512]⟩
abbrev S784x512 : Shape := ⟨2, ![784, 512]⟩
abbrev S512x10 : Shape := ⟨2, ![512, 10]⟩
abbrev S_ : Shape := ⟨0, ![]⟩
abbrev S512x128 : Shape := ⟨2, ![512, 128]⟩
abbrev S128 : Shape := ⟨1, ![128]⟩
abbrev S2x1x512 : Shape := ⟨3, ![2, 1, 512]⟩
abbrev S2048x784 : Shape := ⟨2, ![2048, 784]⟩
abbrev S2048x512 : Shape := ⟨2, ![2048, 512]⟩
abbrev S1x1x512 : Shape := ⟨3, ![1, 1, 512]⟩
abbrev S1x512 : Shape := ⟨2, ![1, 512]⟩
abbrev S32768x128 : Shape := ⟨2, ![32768, 128]⟩
abbrev S2048x128 : Shape := ⟨2, ![2048, 128]⟩
abbrev S1x128 : Shape := ⟨2, ![1, 128]⟩
abbrev S32768x10 : Shape := ⟨2, ![32768, 10]⟩

abbrev nBuf : Space → Nat
  | .hbm => 63
  | .vmem => 38
  | .smem => 0
  | _ => 0

abbrev bufTy : (tb : Table) → Fin (tcTables nBuf tb) → BufTy
  | .hbm, ⟨0, _⟩ => ⟨S32768x784, .f32⟩
  | .hbm, ⟨1, _⟩ => ⟨S512x784, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S10x512, .f32⟩
  | .hbm, ⟨10, _⟩ => ⟨S10, .f32⟩
  | .hbm, ⟨11, _⟩ => ⟨S32768x512, .f32⟩
  | .hbm, ⟨12, _⟩ => ⟨S32768x512, .f32⟩
  | .hbm, ⟨13, _⟩ => ⟨S784x512, .f32⟩
  | .hbm, ⟨14, _⟩ => ⟨S784x512, .bf16⟩
  | .hbm, ⟨15, _⟩ => ⟨S512x512, .f32⟩
  | .hbm, ⟨16, _⟩ => ⟨S512x512, .bf16⟩
  | .hbm, ⟨17, _⟩ => ⟨S512x10, .f32⟩
  | .hbm, ⟨18, _⟩ => ⟨S_, .i32⟩
  | .hbm, ⟨19, _⟩ => ⟨S_, .f32⟩
  | .hbm, ⟨20, _⟩ => ⟨S512x128, .f32⟩
  | .hbm, ⟨21, _⟩ => ⟨S512x128, .bf16⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S32768x512, .bf16⟩
  | .hbm, ⟨26, _⟩ => ⟨S2x1x512, .f32⟩
  | .hbm, ⟨27, _⟩ => ⟨S2x1x512, .f32⟩
  | .hbm, ⟨28, _⟩ => ⟨S_, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S_, .f32⟩
  | .hbm, ⟨33, _⟩ => ⟨S1x512, .f32⟩
  | .hbm, ⟨34, _⟩ => ⟨S1x512, .f32⟩
  | .hbm, ⟨35, _⟩ => ⟨S_, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S1x512, .f32⟩
  | .hbm, ⟨42, _⟩ => ⟨S1x512, .f32⟩
  | .hbm, ⟨43, _⟩ => ⟨S32768x512, .bf16⟩
  | .hbm, ⟨44, _⟩ => ⟨S2x1x512, .f32⟩
  | .hbm, ⟨45, _⟩ => ⟨S2x1x512, .f32⟩
  | .hbm, ⟨46, _⟩ => ⟨S_, .f32⟩
  | .hbm, ⟨47, _⟩ => ⟨S1x512, .f32⟩
  | .hbm, ⟨48, _⟩ => ⟨S_, .f32⟩
  | .hbm, ⟨49, _⟩ => ⟨S1x512, .f32⟩
  | .hbm, ⟨50, _⟩ => ⟨S_, .f32⟩
  | .hbm, ⟨51, _⟩ => ⟨S1x512, .f32⟩
  | .hbm, ⟨52, _⟩ => ⟨S1x512, .f32⟩
  | .hbm, ⟨53, _⟩ => ⟨S_, .f32⟩
  | .hbm, ⟨54, _⟩ => ⟨S1x512, .f32⟩
  | .hbm, ⟨55, _⟩ => ⟨S1x512, .f32⟩
  | .hbm, ⟨56, _⟩ => ⟨S1x512, .f32⟩
  | .hbm, ⟨57, _⟩ => ⟨S1x512, .f32⟩
  | .hbm, ⟨58, _⟩ => ⟨S_, .f32⟩
  | .hbm, ⟨59, _⟩ => ⟨S1x512, .f32⟩
  | .hbm, ⟨60, _⟩ => ⟨S1x512, .f32⟩
  | .hbm, ⟨61, _⟩ => ⟨S32768x128, .f32⟩
  | .hbm, ⟨62, _⟩ => ⟨S32768x10, .f32⟩
  | .local _ .vmem, ⟨0, _⟩ => ⟨S2048x784, .f32⟩
  | .local _ .vmem, ⟨1, _⟩ => ⟨S2048x784, .f32⟩
  | .local _ .vmem, ⟨2, _⟩ => ⟨S784x512, .bf16⟩
  | .local _ .vmem, ⟨3, _⟩ => ⟨S512, .f32⟩
  | .local _ .vmem, ⟨4, _⟩ => ⟨S2048x512, .bf16⟩
  | .local _ .vmem, ⟨5, _⟩ => ⟨S2048x512, .bf16⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S2048x512, .bf16⟩
  | .local _ .vmem, ⟨11, _⟩ => ⟨S2048x512, .bf16⟩
  | .local _ .vmem, ⟨12, _⟩ => ⟨S1x512, .f32⟩
  | .local _ .vmem, ⟨13, _⟩ => ⟨S1x512, .f32⟩
  | .local _ .vmem, ⟨14, _⟩ => ⟨S512, .f32⟩
  | .local _ .vmem, ⟨15, _⟩ => ⟨S512, .f32⟩
  | .local _ .vmem, ⟨16, _⟩ => ⟨S2048x512, .f32⟩
  | .local _ .vmem, ⟨17, _⟩ => ⟨S2048x512, .f32⟩
  | .local _ .vmem, ⟨18, _⟩ => ⟨S512x512, .bf16⟩
  | .local _ .vmem, ⟨19, _⟩ => ⟨S512, .f32⟩
  | .local _ .vmem, ⟨20, _⟩ => ⟨S2048x512, .bf16⟩
  | .local _ .vmem, ⟨21, _⟩ => ⟨S2048x512, .bf16⟩
  | .local _ .vmem, ⟨22, _⟩ => ⟨S1x1x512, .f32⟩
  | .local _ .vmem, ⟨23, _⟩ => ⟨S1x1x512, .f32⟩
  | .local _ .vmem, ⟨24, _⟩ => ⟨S1x1x512, .f32⟩
  | .local _ .vmem, ⟨25, _⟩ => ⟨S1x1x512, .f32⟩
  | .local _ .vmem, ⟨26, _⟩ => ⟨S2048x512, .bf16⟩
  | .local _ .vmem, ⟨27, _⟩ => ⟨S2048x512, .bf16⟩
  | .local _ .vmem, ⟨28, _⟩ => ⟨S1x512, .f32⟩
  | .local _ .vmem, ⟨29, _⟩ => ⟨S1x512, .f32⟩
  | .local _ .vmem, ⟨30, _⟩ => ⟨S512, .f32⟩
  | .local _ .vmem, ⟨31, _⟩ => ⟨S512, .f32⟩
  | .local _ .vmem, ⟨32, _⟩ => ⟨S2048x512, .f32⟩
  | .local _ .vmem, ⟨33, _⟩ => ⟨S2048x512, .f32⟩
  | .local _ .vmem, ⟨34, _⟩ => ⟨S512x128, .bf16⟩
  | .local _ .vmem, ⟨35, _⟩ => ⟨S128, .f32⟩
  | .local _ .vmem, ⟨36, _⟩ => ⟨S2048x128, .f32⟩
  | .local _ .vmem, ⟨37, _⟩ => ⟨S2048x128, .f32⟩
  | _, _ => ⟨S32768x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_call1_v0 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev main_v8_2 : Ref sig .tc := ⟨.hbm, 27, rfl⟩
abbrev main_cst : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_4 : Ref sig .tc := ⟨.hbm, 40, rfl⟩
abbrev main_v17 : Ref sig .tc := ⟨.hbm, 41, rfl⟩
abbrev main_v18 : Ref sig .tc := ⟨.hbm, 42, rfl⟩
abbrev main_v19_0 : Ref sig .tc := ⟨.hbm, 43, rfl⟩
abbrev main_v19_1 : Ref sig .tc := ⟨.hbm, 44, rfl⟩
abbrev main_v19_2 : Ref sig .tc := ⟨.hbm, 45, rfl⟩
abbrev main_cst_5 : Ref sig .tc := ⟨.hbm, 46, rfl⟩
abbrev main_v20 : Ref sig .tc := ⟨.hbm, 47, rfl⟩
abbrev main_cst_6 : Ref sig .tc := ⟨.hbm, 48, rfl⟩
abbrev main_v21 : Ref sig .tc := ⟨.hbm, 49, rfl⟩
abbrev main_cst_7 : Ref sig .tc := ⟨.hbm, 50, rfl⟩
abbrev main_v22 : Ref sig .tc := ⟨.hbm, 51, rfl⟩
abbrev main_v23 : Ref sig .tc := ⟨.hbm, 52, rfl⟩
abbrev main_cst_8 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_9 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg8_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem7_0 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem5_1 : DmaSem sig := 33
abbrev cc2_sem6_0 : DmaSem sig := 34
abbrev cc2_sem7_0 : DmaSem sig := 35
abbrev cc2_sem8_0 : DmaSem sig := 36
abbrev cc2_sem8_1 : DmaSem sig := 37

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S784x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2048x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S512x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S2048x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x1x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x1x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2048x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S512x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2048x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  transposes_S512x784_S784x512_1_0 : S512x784.Transposes [1, 0] S784x512
  bitsLt_bf16_f32 : FTy.bits .bf16 < FTy.bits .f32
  transposes_S512x512_S512x512_1_0 : S512x512.Transposes [1, 0] S512x512
  transposes_S10x512_S512x10_1_0 : S10x512.Transposes [1, 0] S512x10
  pads_S512x10_S512x128_000_01180 : S512x10.Pads (![0, 0] : Fin 2 → Nat) ![0, 118] ![0, 0] S512x128
  h_S_ : 0 < S_.numel
  pads_S10_S128_01180 : S10.Pads (![0] : Fin 1 → Nat) ![118] ![0] S128
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S2048x784_S2048x784_0_0 : ∀ a, (![0, 0] : Fin 2 → Nat) a + S2048x784.size a ≤ S2048x784.size a
  h_S2048x784 : 0 < S2048x784.numel
  inb_S784x512_S784x512_0_0 : ∀ a, (![0, 0] : Fin 2 → Nat) a + S784x512.size a ≤ S784x512.size a
  h_S784x512 : 0 < S784x512.numel
  shapeCasts_S784x512_S784x512 : S784x512.ShapeCasts S784x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  packedbf16_S2048x512_S2048x512_0_0 : (Rect.unit (s := S2048x512) ![0, 0] S2048x512.size inb_S2048x512_S2048x512_0_0).PackedRows (EltTy.packing .bf16)
  reduces_S2048x512_S512 : S2048x512.Reduces [0] S512
  reducesTo_S2x1x512_S1x512_d0 : S2x1x512.ReducesTo [0] S1x512
  bcast_S_S1x512 : S_.BroadcastsInDim S1x512 (![] : Fin 0 → Fin S1x512.rank)
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  slices_S32768x128_S32768x10_0_0 : S32768x128.Slices ![0, 0] S32768x10
  dot_S2048x784_S784x512_S2048x512_1_0_0_1_n_n_wf : DotDims.WF S2048x784 S784x512 S2048x512 [1] [0] [0] [1] [] []
  dot_S2048x512_S512x512_S2048x512_1_0_0_1_n_n_wf : DotDims.WF S2048x512 S512x512 S2048x512 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S32768x784.size a
  hwx0_0 : ∀ i : grid0.Coords, EltTy.bits .f32 = 32 ∨ (Rect.block (s := S32768x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x512.size a ≤ S784x512.size a
  hwx0_1 : ∀ i : grid0.Coords, EltTy.bits .bf16 = 32 ∨ (Rect.block (s := S784x512) S784x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S32768x512.size a
  hwx0_3 : ∀ i : grid0.Coords, EltTy.bits .bf16 = 32 ∨ (Rect.block (s := S32768x512) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S2x1x512.size a
  hwx0_4 : ∀ i : grid0.Coords, EltTy.bits .f32 = 32 ∨ (Rect.block (s := S2x1x512) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S2x1x512.size a
  hwx0_5 : ∀ i : grid0.Coords, EltTy.bits .f32 = 32 ∨ (Rect.block (s := S2x1x512) S1x1x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S32768x512.size a
  hwx1_0 : ∀ i : grid1.Coords, EltTy.bits .bf16 = 32 ∨ (Rect.block (s := S32768x512) S2048x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x512.size a ≤ S32768x512.size a
  hwx1_5 : ∀ i : grid1.Coords, EltTy.bits .f32 = 32 ∨ (Rect.block (s := S32768x512) S2048x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S512x512.size a
  hwx1_6 : ∀ i : grid1.Coords, EltTy.bits .bf16 = 32 ∨ (Rect.block (s := S512x512) S512x512.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512.size a ≤ S512.size a
  hwx1_7 : ∀ i : grid1.Coords, EltTy.bits .f32 = 32 ∨ (Rect.block (s := S512) S512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x512.size a ≤ S32768x512.size a
  hwx1_8 : ∀ i : grid1.Coords, EltTy.bits .bf16 = 32 ∨ (Rect.block (s := S32768x512) S2048x512.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x512.size a ≤ S2x1x512.size a
  hwx1_9 : ∀ i : grid1.Coords, EltTy.bits .f32 = 32 ∨ (Rect.block (s := S2x1x512) S1x1x512.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x1x512.size a ≤ S2x1x512.size a
  hwx1_10 : ∀ i : grid1.Coords, EltTy.bits .f32 = 32 ∨ (Rect.block (s := S2x1x512) S1x1x512.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S32768x512.size a
  hwx2_0 : ∀ i : grid2.Coords, EltTy.bits .bf16 = 32 ∨ (Rect.block (s := S32768x512) S2048x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x512.size a ≤ S1x512.size a
  hwx2_1 : ∀ i : grid2.Coords, EltTy.bits .f32 = 32 ∨ (Rect.block (s := S1x512) S1x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512.size a ≤ S512.size a
  hwx2_3 : ∀ i : grid2.Coords, EltTy.bits .f32 = 32 ∨ (Rect.block (s := S512) S512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512.size a ≤ S512.size a
  hwx2_4 : ∀ i : grid2.Coords, EltTy.bits .f32 = 32 ∨ (Rect.block (s := S512) S512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x512.size a ≤ S32768x512.size a
  hwx2_5 : ∀ i : grid2.Coords, EltTy.bits .f32 = 32 ∨ (Rect.block (s := S32768x512) S2048x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S512x128.size a ≤ S512x128.size a
  hwx2_6 : ∀ i : grid2.Coords, EltTy.bits .bf16 = 32 ∨ (Rect.block (s := S512x128) S512x128.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2048x128.size a ≤ S32768x128.size a
  hwx2_8 : ∀ i : grid2.Coords, EltTy.bits .f32 = 32 ∨ (Rect.block (s := S32768x128) S2048x128.size (cc2_transform_8 i) (hinb2_8 i)).WholeWords (EltTy.packing .f32)

variable [Facts₀]

def dot_S2048x784_S784x512_S2048x512_1_0_0_1_n_n : DotDims S2048x784 S784x512 S2048x512 where
  lhsContracting := [1]
  rhsContracting := [0]
  lhsNonContracting := [0]
  rhsNonContracting := [1]
  lhsBatch := []
  rhsBatch := []
  wf := dot_S2048x784_S784x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S784x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S2048x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S1x1x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_2) S1x1x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8_0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S2048x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3) S512x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg6) S512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v19_0) S2048x512.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v19_1) S1x1x512.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v19_2) S1x1x512.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v19_0) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S1x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S2048x512.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v6) S512x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v7) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v30) S2048x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S32768x784 : Shape := ⟨2, ![32768, 784]⟩
abbrev S512x784 : Shape := ⟨2, ![512, 784]⟩
abbrev S512 : Shape := ⟨1, ![512]⟩
abbrev S512x512 : Shape := ⟨2, ![512, 512]⟩
abbrev S10x512 : Shape := ⟨2, ![10, 512]⟩
abbrev S10 : Shape := ⟨1, ![10]⟩
abbrev S32768x512 : Shape := ⟨2, ![32768, 512]⟩
abbrev S784x512 : Shape := ⟨2, ![784, 512]⟩
abbrev S1x512 : Shape := ⟨2, ![1, 512]⟩
abbrev S_ : Shape := ⟨0, ![]⟩
abbrev S512x10 : Shape := ⟨2, ![512, 10]⟩
abbrev S32768x10 : Shape := ⟨2, ![32768, 10]⟩
abbrev S1x10 : Shape := ⟨2, ![1, 10]⟩

abbrev nBuf : Space → Nat
  | .hbm => 130
  | .vmem => 0
  | .smem => 0
  | _ => 0

abbrev hbmTy0_0 (i : Nat) : BufTy := match i % 128 with
  | 0 => ⟨S32768x784, .f32⟩
  | 1 => ⟨S512x784, .f32⟩
  | 2 => ⟨S512, .f32⟩
  | 3 => ⟨S512, .f32⟩
  | 4 => ⟨S512, .f32⟩
  | 5 => ⟨S512x512, .f32⟩
  | 6 => ⟨S512, .f32⟩
  | 7 => ⟨S512, .f32⟩
  | 8 => ⟨S512, .f32⟩
  | 9 => ⟨S10x512, .f32⟩
  | 10 => ⟨S10, .f32⟩
  | 11 => ⟨S32768x512, .f32⟩
  | 12 => ⟨S32768x512, .f32⟩
  | 13 => ⟨S784x512, .f32⟩
  | 14 => ⟨S32768x512, .f32⟩
  | 15 => ⟨S1x512, .f32⟩
  | 16 => ⟨S32768x512, .f32⟩
  | 17 => ⟨S32768x512, .f32⟩
  | 18 => ⟨S_, .f32⟩
  | 19 => ⟨S512, .f32⟩
  | 20 => ⟨S_, .f32⟩
  | 21 => ⟨S512, .f32⟩
  | 22 => ⟨S512, .f32⟩
  | 23 => ⟨S_, .i32⟩
  | 24 => ⟨S_, .f32⟩
  | 25 => ⟨S512, .f32⟩
  | 26 => ⟨S1x512, .f32⟩
  | 27 => ⟨S_, .f32⟩
  | 28 => ⟨S1x512, .f32⟩
  | 29 => ⟨S1x512, .f32⟩
  | 30 => ⟨S32768x512, .f32⟩
  | 31 => ⟨S32768x512, .f32⟩
  | 32 => ⟨S32768x512, .f32⟩
  | 33 => ⟨S_, .f32⟩
  | 34 => ⟨S_, .f32⟩
  | 35 => ⟨S_, .f32⟩
  | 36 => ⟨S_, .f32⟩
  | 37 => ⟨S512, .f32⟩
  | 38 => ⟨S512, .f32⟩
  | 39 => ⟨S512, .f32⟩
  | 40 => ⟨S_, .f32⟩
  | 41 => ⟨S_, .i1⟩
  | 42 => ⟨S_, .f32⟩
  | 43 => ⟨S_, .f32⟩
  | 44 => ⟨S512, .f32⟩
  | 45 => ⟨S512, .f32⟩
  | 46 => ⟨S1x512, .f32⟩
  | 47 => ⟨S32768x512, .f32⟩
  | 48 => ⟨S32768x512, .f32⟩
  | 49 => ⟨S_, .f32⟩
  | 50 => ⟨S512, .f32⟩
  | 51 => ⟨S512, .f32⟩
  | 52 => ⟨S512, .f32⟩
  | 53 => ⟨S1x512, .f32⟩
  | 54 => ⟨S32768x512, .f32⟩
  | 55 => ⟨S32768x512, .f32⟩
  | 56 => ⟨S1x512, .f32⟩
  | 57 => ⟨S32768x512, .f32⟩
  | 58 => ⟨S32768x512, .f32⟩
  | 59 => ⟨S1x512, .f32⟩
  | 60 => ⟨S32768x512, .f32⟩
  | 61 => ⟨S32768x512, .f32⟩
  | 62 => ⟨S_, .f32⟩
  | 63 => ⟨S32768x512, .f32⟩
  | 64 => ⟨S32768x512, .f32⟩
  | 65 => ⟨S32768x512, .f32⟩
  | 66 => ⟨S_, .f32⟩
  | 67 => ⟨S32768x512, .f32⟩
  | 68 => ⟨S32768x512, .f32⟩
  | 69 => ⟨S512x512, .f32⟩
  | 70 => ⟨S32768x512, .f32⟩
  | 71 => ⟨S1x512, .f32⟩
  | 72 => ⟨S32768x512, .f32⟩
  | 73 => ⟨S32768x512, .f32⟩
  | 74 => ⟨S_, .f32⟩
  | 75 => ⟨S512, .f32⟩
  | 76 => ⟨S_, .f32⟩
  | 77 => ⟨S512, .f32⟩
  | 78 => ⟨S512, .f32⟩
  | 79 => ⟨S_, .i32⟩
  | 80 => ⟨S_, .f32⟩
  | 81 => ⟨S512, .f32⟩
  | 82 => ⟨S1x512, .f32⟩
  | 83 => ⟨S_, .f32⟩
  | 84 => ⟨S1x512, .f32⟩
  | 85 => ⟨S1x512, .f32⟩
  | 86 => ⟨S32768x512, .f32⟩
  | 87 => ⟨S32768x512, .f32⟩
  | 88 => ⟨S32768x512, .f32⟩
  | 89 => ⟨S_, .f32⟩
  | 90 => ⟨S_, .f32⟩
  | 91 => ⟨S_, .f32⟩
  | 92 => ⟨S_, .f32⟩
  | 93 => ⟨S512, .f32⟩
  | 94 => ⟨S512, .f32⟩
  | 95 => ⟨S512, .f32⟩
  | 96 => ⟨S_, .f32⟩
  | 97 => ⟨S_, .i1⟩
  | 98 => ⟨S_, .f32⟩
  | 99 => ⟨S_, .f32⟩
  | 100 => ⟨S512, .f32⟩
  | 101 => ⟨S512, .f32⟩
  | 102 => ⟨S1x512, .f32⟩
  | 103 => ⟨S32768x512, .f32⟩
  | 104 => ⟨S32768x512, .f32⟩
  | 105 => ⟨S_, .f32⟩
  | 106 => ⟨S512, .f32⟩
  | 107 => ⟨S512, .f32⟩
  | 108 => ⟨S512, .f32⟩
  | 109 => ⟨S1x512, .f32⟩
  | 110 => ⟨S32768x512, .f32⟩
  | 111 => ⟨S32768x512, .f32⟩
  | 112 => ⟨S1x512, .f32⟩
  | 113 => ⟨S32768x512, .f32⟩
  | 114 => ⟨S32768x512, .f32⟩
  | 115 => ⟨S1x512, .f32⟩
  | 116 => ⟨S32768x512, .f32⟩
  | 117 => ⟨S32768x512, .f32⟩
  | 118 => ⟨S_, .f32⟩
  | 119 => ⟨S32768x512, .f32⟩
  | 120 => ⟨S32768x512, .f32⟩
  | 121 => ⟨S32768x512, .f32⟩
  | 122 => ⟨S_, .f32⟩
  | 123 => ⟨S32768x512, .f32⟩
  | 124 => ⟨S32768x512, .f32⟩
  | 125 => ⟨S512x10, .f32⟩
  | 126 => ⟨S32768x10, .f32⟩
  | 127 => ⟨S1x10, .f32⟩
  | _ => ⟨S32768x784, .f32⟩

abbrev hbmTy0_1 (i : Nat) : BufTy := match i % 128 with
  | 0 => ⟨S32768x10, .f32⟩
  | 1 => ⟨S32768x10, .f32⟩
  | _ => ⟨S32768x784, .f32⟩

abbrev hbmTy (i : Nat) : BufTy := match i / 128 with
  | 0 => hbmTy0_0 i
  | 1 => hbmTy0_1 i
  | _ => ⟨S32768x784, .f32⟩

abbrev bufTy : (tb : Table) → Fin (tcTables nBuf tb) → BufTy
  | .hbm, ⟨i, _⟩ => hbmTy i
  | _, _ => ⟨S32768x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_cst_3 : Ref sig .tc := ⟨.hbm, 40, rfl⟩
abbrev main_call0_v12 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst_1 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_2 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_3 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_4 : Ref sig .tc := ⟨.hbm, 74, rfl⟩
abbrev main_v34 : Ref sig .tc := ⟨.hbm, 75, rfl⟩
abbrev main_cst_5 : Ref sig .tc := ⟨.hbm, 76, rfl⟩
abbrev main_v35 : Ref sig .tc := ⟨.hbm, 77, rfl⟩
abbrev main_v36 : Ref sig .tc := ⟨.hbm, 78, rfl⟩
abbrev main_c_6 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_cst_1 : Ref sig .tc := ⟨.hbm, 90, rfl⟩
abbrev main_call1_v8 : Ref sig .tc := ⟨.hbm, 91, rfl⟩
abbrev main_call1_cst_2 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_cst_3 : Ref sig .tc := ⟨.hbm, 96, rfl⟩
abbrev main_call1_v12 : Ref sig .tc := ⟨.hbm, 97, rfl⟩
abbrev main_call1_cst_4 : Ref sig .tc := ⟨.hbm, 98, rfl⟩
abbrev main_call1_call0_v0 : Ref sig .tc := ⟨.hbm, 99, rfl⟩
abbrev main_call1_call0_v1 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_cst_7 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_cst_8 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_cst_9 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩

abbrev nD : Nat := 1
abbrev τ : Topo := Topo.v7x

variable {F : FTy → Type} [FloatOps F]

class Facts₀ : Prop where
  transposes_S512x784_S784x512_1_0 : S512x784.Transposes [1, 0] S784x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  reducesTo_S32768x512_S512_d0 : S32768x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  bcast_S_S32768x512 : S_.BroadcastsInDim S32768x512 (![] : Fin 0 → Fin S32768x512.rank)
  transposes_S512x512_S512x512_1_0 : S512x512.Transposes [1, 0] S512x512
  transposes_S10x512_S512x10_1_0 : S10x512.Transposes [1, 0] S512x10
  bcast_S10_S1x10_1 : S10.BroadcastsInDim S1x10 (![1] : Fin 1 → Fin S1x10.rank)
  bcast_S1x10_S32768x10_0_1 : S1x10.BroadcastsInDim S32768x10 (![0, 1] : Fin 2 → Fin S32768x10.rank)
  dot_S32768x784_S784x512_S32768x512_1_0_0_1_n_n_wf : DotDims.WF S32768x784 S784x512 S32768x512 [1] [0] [0] [1] [] []
  dot_S32768x512_S512x512_S32768x512_1_0_0_1_n_n_wf : DotDims.WF S32768x512 S512x512 S32768x512 [1] [0] [0] [1] [] []
  dot_S32768x512_S512x10_S32768x10_1_0_0_1_n_n_wf : DotDims.WF S32768x512 S512x10 S32768x10 [1] [0] [0] [1] [] []

variable [Facts₀]

def dot_S32768x784_S784x512_S32768x512_1_0_0_1_n_n : DotDims S32768x784 S784x512 S32768x512 where
  lhsContracting := [1]
  rhsContracting := [0]
  lhsNonContracting := [0]
  rhsNonContracting := [1]
  lhsBatch := []
  rhsBatch := []
  wf := dot_S32768x784_S784x512_S32768x512_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x10_S32768x10_1_0_0_1_n_n : DotDims S32768x512 S512x10 S32768x10 where
  lhsContracting := [1]
  rhsContracting := [0]
  lhsNonContracting := [0]
  rhsNonContracting := [1]
  lhsBatch := []
  rhsBatch := []
  wf := dot_S32768x512_S512x10_S32768x10_1_0_0_1_n_n_wf

class Facts : Prop extends Facts₀ where

variable [Facts]
-- ==== Proof.RefTerm.lean ====
/-
  The reference program's result as ONE pure term of its thirteen argument arrays, stage by stage.

  Three affine layers (a product against a transposed weight matrix plus a row vector repeated down the batch).
  After each of the first two: the column mean (the column sum over the batch divided by 32768), the column
  variance as jnp.var writes it (the column sum of the squared deviations from the column sum divided by 32768,
  divided by 32768 − 0, chosen against a not-a-number constant by the test 32768 − 0 > 0), then the deviation
  from the mean divided by the square root of variance plus a stabiliser, scaled, shifted, rectified, masked and
  multiplied by a constant.
-/
import proofs.«105324_j53815940219270_2_alg».proof.Proof.Gen.ReferenceIdeal

noncomputable section

namespace Cert.ReferenceIdeal.RefTerm

open Cert.ReferenceIdeal Cert.ReferenceIdeal.Gen Idealize.ShloMosaic

variable {F : FTy → Type} [FloatOps F]

/-- A vector of 512 repeated down the 32768 rows. -/
def rowB (v : FVec F S512 .f32) : FVec F S32768x512 .f32 :=
  broadcastInDim S32768x512 ![0, 1] bcast_S1x512_S32768x512_0_1 (broadcastInDim S1x512 ![1] bcast_S512_S1x512_1 v)

/-- A scalar repeated along 512 columns. -/
def colS (c : FVec F S_ .f32) : FVec F S512 .f32 := broadcastInDim S512 ![] bcast_S_S512 c

/-- A scalar repeated over the whole 32768 × 512 array. -/
def fullS (c : FVec F S_ .f32) : FVec F S32768x512 .f32 := broadcastInDim S32768x512 ![] bcast_S_S32768x512 c

/-- The first affine layer. -/
def lin1 (x : FVec F S32768x784 .f32) (w : FVec F S512x784 .f32) (b : FVec F S512 .f32) : FVec F S32768x512 .f32 :=
  addf (Host.dotGeneral dot_S32768x784_S784x512_S32768x512_1_0_0_1_n_n none x
      (transpose S784x512 [1, 0] w transposes_S512x784_S784x512_1_0)) (rowB b)

/-- The second affine layer. -/
def lin2 (a : FVec F S32768x512 .f32) (w : FVec F S512x512 .f32) (b : FVec F S512 .f32) : FVec F S32768x512 .f32 :=
  addf (Host.dotGeneral dot_S32768x512_S512x512_S32768x512_1_0_0_1_n_n none a
      (transpose S512x512 [1, 0] w transposes_S512x512_S512x512_1_0)) (rowB b)

/-- The third affine layer. -/
def lin3 (a : FVec F S32768x512 .f32) (w : FVec F S10x512 .f32) (b : FVec F S10 .f32) : FVec F S32768x10 .f32 :=
  addf (Host.dotGeneral dot_S32768x512_S512x10_S32768x10_1_0_0_1_n_n none a
      (transpose S512x10 [1, 0] w transposes_S10x512_S512x10_1_0))
    (broadcastInDim S32768x10 ![0, 1] bcast_S1x10_S32768x10_0_1 (broadcastInDim S1x10 ![1] bcast_S10_S1x10_1 b))

/-- The column sums over the batch, from zero. -/
def colSum (h : FVec F S32768x512 .f32) : FVec F S512 .f32 :=
  Host.reduceAdd h (constant S_ .f32 0x00000000#32) reducesTo_S32768x512_S512_d0 h_S_

/-- The column means. -/
def meanOf (h : FVec F S32768x512 .f32) : FVec F S512 .f32 :=
  Host.divf (colSum h) (colS (constant S_ .f32 0x47000000#32))

/-- The divisor of the variance: the batch size minus the converted integer zero. -/
def cnt : FVec F S_ .f32 := subf (constant S_ .f32 0x47000000#32) (sitofp .f32 (constantI S_ 32 0#32))

/-- The deviations from the column mean, the mean kept as a one-row array. -/
def centred (h : FVec F S32768x512 .f32) : FVec F S32768x512 .f32 :=
  subf h (broadcastInDim S32768x512 ![0, 1] bcast_S1x512_S32768x512_0_1
    (Host.divf (broadcastInDim S1x512 ![1] bcast_S512_S1x512_1 (colSum h))
      (broadcastInDim S1x512 ![] bcast_S_S1x512 (constant S_ .f32 0x47000000#32))))

/-- The column variances. -/
def varOf (h : FVec F S32768x512 .f32) : FVec F S512 .f32 :=
  select (broadcastInDim S512 ![] bcast_S_S512 (cmpf .ogt (cnt (F := F)) (constant S_ .f32 0x00000000#32)))
    (Host.divf (colSum (mulf (centred h) (centred h))) (colS cnt))
    (colS (constant S_ .f32 0x7FC00000#32))

/-- Normalisation by given column means and variances, scale, shift, rectifier, mask, constant factor. -/
def bnDrop (h : FVec F S32768x512 .f32) (mu va g be : FVec F S512 .f32) (mk : FVec F S32768x512 .f32) :
    FVec F S32768x512 .f32 :=
  mulf (mulf (maximumf (addf (mulf (Host.divf (subf h (rowB mu))
      (rowB (Host.sqrt (addf va (colS (constant S_ .f32 0x3727C5AC#32)))))) (rowB g)) (rowB be))
      (fullS (constant S_ .f32 0x00000000#32))) mk) (fullS (constant S_ .f32 0x3FB6DB6E#32))

/-- A normalised layer from the layer's own statistics. -/
def act (h : FVec F S32768x512 .f32) (g be : FVec F S512 .f32) (mk : FVec F S32768x512 .f32) : FVec F S32768x512 .f32 :=
  bnDrop h (meanOf h) (varOf h) g be mk

/-- The whole reference. -/
def out (x : FVec F S32768x784 .f32) (w1 : FVec F S512x784 .f32) (b1 g1 be1 : FVec F S512 .f32)
    (w2 : FVec F S512x512 .f32) (b2 g2 be2 : FVec F S512 .f32) (w3 : FVec F S10x512 .f32) (b3 : FVec F S10 .f32)
    (m1 m2 : FVec F S32768x512 .f32) : FVec F S32768x10 .f32 :=
  lin3 (act (lin2 (act (lin1 x w1 b1) g1 be1 m1) w2 b2) g2 be2 m2) w3 b3

end Cert.ReferenceIdeal.RefTerm

end
-- ==== Proof.RefRun.lean ====
/-
  The reference program's run, read back.

  @main is a straight line of 117 host operations once the two calls of the variance function (and, inside each,
  the call of the selection function) are written out at their call sites over the calls' own buffers. The line is
  cut into nine consecutive pieces, one per stage of the network: affine layer, column mean, column variance,
  normalised activation, twice, and the last affine layer. For each piece, from ANY buffer contents: the buffer
  holding the stage's result is the stage's pure term of the buffers it reads, and a buffer the piece does not
  write keeps its contents. Chained, the result buffer after the whole line is the network's term of the thirteen
  argument arrays, and no argument array is written.
-/
import proofs.«105324_j53815940219270_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Piece 1: the first affine layer. -/
abbrev seg1 : List (HloOp τ sig (Elt F)) :=
  [ unary main_arg1 main_v0 ((transpose S784x512 [1, 0] · transposes_S512x784_S784x512_1_0) : (⟨S512x784, .f32⟩ : BufTy).Contents (Elt F) → (⟨S784x512, .f32⟩ : BufTy).Contents (Elt F)),
    binary main_arg0 main_v0 main_v1 ((fun l r => Host.dotGeneral dot_S32768x784_S784x512_S32768x512_1_0_0_1_n_n none l r) : (⟨S32768x784, .f32⟩ : BufTy).Contents (Elt F) → (⟨S784x512, .f32⟩ : BufTy).Contents (Elt F) → (⟨S32768x512, .f32⟩ : BufTy).Contents (Elt F)),
    unary main_arg2 main_v2 (broadcastInDim S1x512 ![1] bcast_S512_S1x512_1 : (⟨S512, .f32⟩ : BufTy).Contents (Elt F) → (⟨S1x512, .f32⟩ : BufTy).Contents (Elt F)),
    unary main_v2 main_v3 (broadcastInDim S32768x512 ![0, 1] bcast_S1x512_S32768x512_0_1 : (⟨S1x512, .f32⟩ : BufTy).Contents (Elt F) → (⟨S32768x512, .f32⟩ : BufTy).Contents (Elt F)),
    binary main_v1 main_v3 main_v4 (addf : (⟨S32768x512, .f32⟩ : BufTy).Contents (Elt F) → (⟨S32768x512, .f32⟩ : BufTy).Contents (Elt F) → (⟨S32768x512, .f32⟩ : BufTy).Contents (Elt F)) ]

/-- Piece 2: the first column mean. -/
abbrev seg2 : List (HloOp τ sig (Elt F)) :=
  [ nullary main_cst (constant S_ .f32 0x00000000#32),
    binary main_v4 main_cst main_v5 ((fun x v => Host.reduceAdd x v reducesTo_S32768x512_S512_d0 h_S_) : (⟨S32768x512, .f32⟩ : BufTy).Contents (Elt F) → (⟨S_, .f32⟩ : BufTy).Contents (Elt F) → (⟨S512, .f32⟩ : BufTy).Contents (Elt F)),
    nullary main_cst_0 (constant S_ .f32 0x47000000#32),
    unary main_cst_0 main_v6 (broadcastInDim S512 ![] bcast_S_S512 : (⟨S_, .f32⟩ : BufTy).Contents (Elt F) → (⟨S512, .f32⟩ : BufTy).Contents (Elt F)),
    binary main_v5 main_v6 main_v7 (Host.divf : (⟨S512, .f32⟩ : BufTy).Contents (Elt F) → (⟨S512, .f32⟩ : BufTy).Contents (Elt F) → (⟨S512, .f32⟩ : BufTy).Contents (Elt F)) ]

/-- Piece 3: the first column variance: the integer zero, then the variance function's nineteen operations and the selection function's three. -/
abbrev seg3 : List (HloOp τ sig (Elt F)) :=
  [ nullary main_c (constantI S_ 32 0#32),
    TRef.nullary main_call0.cst (constant S_ .f32 0x00000000#32),
    TRef.binary (.of main_v4) main_call0.cst main_call0.v0 (fun x v => Host.reduceAdd x v reducesTo_S32768x512_S512_d0 h_S_),
    TRef.unary main_call0.v0 main_call0.v1 (broadcastInDim S1x512 ![1] bcast_S512_S1x512_1),
    TRef.nullary main_call0.cst_0 (constant S_ .f32 0x47000000#32),
    TRef.unary main_call0.cst_0 main_call0.v2 (broadcastInDim S1x512 ![] bcast_S_S1x512),
    TRef.binary main_call0.v1 main_call0.v2 main_call0.v3 Host.divf,
    TRef.unary main_call0.v3 main_call0.v4 (broadcastInDim S32768x512 ![0, 1] bcast_S1x512_S32768x512_0_1),
    TRef.binary (.of main_v4) main_call0.v4 main_call0.v5 subf,
    TRef.binary main_call0.v5 main_call0.v5 main_call0.v6 mulf,
    TRef.unary (.of main_c) main_call0.v7 (sitofp .f32),
    TRef.nullary main_call0.cst_1 (constant S_ .f32 0x47000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S32768x512_S512_d0 h_S_),
    TRef.unary main_call0.v8 main_call0.v10 (broadcastInDim S512 ![] bcast_S_S512),
    TRef.binary main_call0.v9 main_call0.v10 main_call0.v11 Host.divf,
    TRef.nullary main_call0.cst_3 (constant S_ .f32 0x00000000#32),
    TRef.binary main_call0.v8 main_call0.cst_3 main_call0.v12 (cmpf (F := F) .ogt),
    TRef.nullary main_call0.cst_4 (constant S_ .f32 0x7FC00000#32),
    TRef.unary main_call0.cst_4 main_call0.call0.v0 id,
    TRef.unary main_call0.call0.v0 main_call0.call0.v1 (broadcastInDim S512 ![] bcast_S_S512),
    TRef.ternary main_call0.v12 main_call0.v11 main_call0.call0.v1 main_call0.call0.v2 (fun p a b => select (broadcastInDim S512 ![] bcast_S_S512 p) a b) ]

/-- Piece 4: the first normalised activation. -/
abbrev seg4 : List (HloOp τ sig (Elt F)) :=
  [ unary main_v7 main_v9 (broadcastInDim S1x512 ![1] bcast_S512_S1x512_1 : (⟨S512, .f32⟩ : BufTy).Contents (Elt F) → (⟨S1x512, .f32⟩ : BufTy).Contents (Elt F)),
    unary main_v9 main_v10 (broadcastInDim S32768x512 ![0, 1] bcast_S1x512_S32768x512_0_1 : (⟨S1x512, .f32⟩ : BufTy).Contents (Elt F) → (⟨S32768x512, .f32⟩ : BufTy).Contents (Elt F)),
    binary main_v4 main_v10 main_v11 (subf : (⟨S32768x512, .f32⟩ : BufTy).Contents (Elt F) → (⟨S32768x512, .f32⟩ : BufTy).Contents (Elt F) → (⟨S32768x512, .f32⟩ : BufTy).Contents (Elt F)),
    nullary main_cst_1 (constant S_ .f32 0x3727C5AC#32),
    unary main_cst_1 main_v12 (broadcastInDim S512 ![] bcast_S_S512 : (⟨S_, .f32⟩ : BufTy).Contents (Elt F) → (⟨S512, .f32⟩ : BufTy).Contents (Elt F)),
    binary main_v8 main_v12 main_v13 (addf : (⟨S512, .f32⟩ : BufTy).Contents (Elt F) → (⟨S512, .f32⟩ : BufTy).Contents (Elt F) → (⟨S512, .f32⟩ : BufTy).Contents (Elt F)),
    unary main_v13 main_v14 (Host.sqrt : (⟨S512, .f32⟩ : BufTy).Contents (Elt F) → (⟨S512, .f32⟩ : BufTy).Contents (Elt F)),
    unary main_v14 main_v15 (broadcastInDim S1x512 ![1] bcast_S512_S1x512_1 : (⟨S512, .f32⟩ : BufTy).Contents (Elt F) → (⟨S1x512, .f32⟩ : BufTy).Contents (Elt F)),
    unary main_v15 main_v16 (broadcastInDim S32768x512 ![0, 1] bcast_S1x512_S32768x512_0_1 : (⟨S1x512, .f32⟩ : BufTy).Contents (Elt F) → (⟨S32768x512, .f32⟩ : BufTy).Contents (Elt F)),
    binary main_v11 main_v16 main_v17 (Host.divf : (⟨S32768x512, .f32⟩ : BufTy).Contents (Elt F) → (⟨S32768x512, .f32⟩ : BufTy).Contents (Elt F) → (⟨S32768x512, .f32⟩ : BufTy).Contents (Elt F)),
    unary main_arg3 main_v18 (broadcastInDim S1x512 ![1] bcast_S512_S1x512_1 : (⟨S512, .f32⟩ : BufTy).Contents (Elt F) → (⟨S1x512, .f32⟩ : BufTy).Contents (Elt F)),
    unary main_v18 main_v19 (broadcastInDim S32768x512 ![0, 1] bcast_S1x512_S32768x512_0_1 : (⟨S1x512, .f32⟩ : BufTy).Contents (Elt F) → (⟨S32768x512, .f32⟩ : BufTy).Contents (Elt F)),
    binary main_v17 main_v19 main_v20 (mulf : (⟨S32768x512, .f32⟩ : BufTy).Contents (Elt F) → (⟨S32768x512, .f32⟩ : BufTy).Contents (Elt F) → (⟨S32768x512, .f32⟩ : BufTy).Contents (Elt F)),
    unary main_arg4 main_v21 (broadcastInDim S1x512 ![1] bcast_S512_S1x512_1 : (⟨S512, .f32⟩ : BufTy).Contents (Elt F) → (⟨S1x512, .f32⟩ : BufTy).Contents (Elt F)),
    unary main_v21 main_v22 (broadcastInDim S32768x512 ![0, 1] bcast_S1x512_S32768x512_0_1 : (⟨S1x512, .f32⟩ : BufTy).Contents (Elt F) → (⟨S32768x512, .f32⟩ : BufTy).Contents (Elt F)),
    binary main_v20 main_v22 main_v23 (addf : (⟨S32768x512, .f32⟩ : BufTy).Contents (Elt F) → (⟨S32768x512, .f32⟩ : BufTy).Contents (Elt F) → (⟨S32768x512, .f32⟩ : BufTy).Contents (Elt F)),
    nullary main_cst_2 (constant S_ .f32 0x00000000#32),
    unary main_cst_2 main_v24 (broadcastInDim S32768x512 ![] bcast_S_S32768x512 : (⟨S_, .f32⟩ : BufTy).Contents (Elt F) → (⟨S32768x512, .f32⟩ : BufTy).Contents (Elt F)),
    binary main_v23 main_v24 main_v25 (maximumf : (⟨S32768x512, .f32⟩ : BufTy).Contents (Elt F) → (⟨S32768x512, .f32⟩ : BufTy).Contents (Elt F) → (⟨S32768x512, .f32⟩ : BufTy).Contents (Elt F)),
    binary main_v25 main_arg11 main_v26 (mulf : (⟨S32768x512, .f32⟩ : BufTy).Contents (Elt F) → (⟨S32768x512, .f32⟩ : BufTy).Contents (Elt F) → (⟨S32768x512, .f32⟩ : BufTy).Contents (Elt F)),
    nullary main_cst_3 (constant S_ .f32 0x3FB6DB6E#32),
    unary main_cst_3 main_v27 (broadcastInDim S32768x512 ![] bcast_S_S32768x512 : (⟨S_, .f32⟩ : BufTy).Contents (Elt F) → (⟨S32768x512, .f32⟩ : BufTy).Contents (Elt F)),
    binary main_v26 main_v27 main_v28 (mulf : (⟨S32768x512, .f32⟩ : BufTy).Contents (Elt F) → (⟨S32768x512, .f32⟩ : BufTy).Contents (Elt F) → (⟨S32768x512, .f32⟩ : BufTy).Contents (Elt F)) ]

/-- Piece 5: the second affine layer. -/
abbrev seg5 : List (HloOp τ sig (Elt F)) :=
  [ unary main_arg5 main_v29 ((transpose S512x512 [1, 0] · transposes_S512x512_S512x512_1_0) : (⟨S512x512, .f32⟩ : BufTy).Contents (Elt F) → (⟨S512x512, .f32⟩ : BufTy).Contents (Elt F)),
    binary main_v28 main_v29 main_v30 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)),
    unary main_arg6 main_v31 (broadcastInDim S1x512 ![1] bcast_S512_S1x512_1 : (⟨S512, .f32⟩ : BufTy).Contents (Elt F) → (⟨S1x512, .f32⟩ : BufTy).Contents (Elt F)),
    unary main_v31 main_v32 (broadcastInDim S32768x512 ![0, 1] bcast_S1x512_S32768x512_0_1 : (⟨S1x512, .f32⟩ : BufTy).Contents (Elt F) → (⟨S32768x512, .f32⟩ : BufTy).Contents (Elt F)),
    binary main_v30 main_v32 main_v33 (addf : (⟨S32768x512, .f32⟩ : BufTy).Contents (Elt F) → (⟨S32768x512, .f32⟩ : BufTy).Contents (Elt F) → (⟨S32768x512, .f32⟩ : BufTy).Contents (Elt F)) ]

/-- Piece 6: the second column mean. -/
abbrev seg6 : List (HloOp τ sig (Elt F)) :=
  [ nullary main_cst_4 (constant S_ .f32 0x00000000#32),
    binary main_v33 main_cst_4 main_v34 ((fun x v => Host.reduceAdd x v reducesTo_S32768x512_S512_d0 h_S_) : (⟨S32768x512, .f32⟩ : BufTy).Contents (Elt F) → (⟨S_, .f32⟩ : BufTy).Contents (Elt F) → (⟨S512, .f32⟩ : BufTy).Contents (Elt F)),
    nullary main_cst_5 (constant S_ .f32 0x47000000#32),
    unary main_cst_5 main_v35 (broadcastInDim S512 ![] bcast_S_S512 : (⟨S_, .f32⟩ : BufTy).Contents (Elt F) → (⟨S512, .f32⟩ : BufTy).Contents (Elt F)),
    binary main_v34 main_v35 main_v36 (Host.divf : (⟨S512, .f32⟩ : BufTy).Contents (Elt F) → (⟨S512, .f32⟩ : BufTy).Contents (Elt F) → (⟨S512, .f32⟩ : BufTy).Contents (Elt F)) ]

/-- Piece 7: the second column variance. -/
abbrev seg7 : List (HloOp τ sig (Elt F)) :=
  [ nullary main_c_6 (constantI S_ 32 0#32),
    TRef.nullary main_call1.cst (constant S_ .f32 0x00000000#32),
    TRef.binary (.of main_v33) main_call1.cst main_call1.v0 (fun x v => Host.reduceAdd x v reducesTo_S32768x512_S512_d0 h_S_),
    TRef.unary main_call1.v0 main_call1.v1 (broadcastInDim S1x512 ![1] bcast_S512_S1x512_1),
    TRef.nullary main_call1.cst_0 (constant S_ .f32 0x47000000#32),
    TRef.unary main_call1.cst_0 main_call1.v2 (broadcastInDim S1x512 ![] bcast_S_S1x512),
    TRef.binary main_call1.v1 main_call1.v2 main_call1.v3 Host.divf,
    TRef.unary main_call1.v3 main_call1.v4 (broadcastInDim S32768x512 ![0, 1] bcast_S1x512_S32768x512_0_1),
    TRef.binary (.of main_v33) main_call1.v4 main_call1.v5 subf,
    TRef.binary main_call1.v5 main_call1.v5 main_call1.v6 mulf,
    TRef.unary (.of main_c_6) main_call1.v7 (sitofp .f32),
    TRef.nullary main_call1.cst_1 (constant S_ .f32 0x47000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S32768x512_S512_d0 h_S_),
    TRef.unary main_call1.v8 main_call1.v10 (broadcastInDim S512 ![] bcast_S_S512),
    TRef.binary main_call1.v9 main_call1.v10 main_call1.v11 Host.divf,
    TRef.nullary main_call1.cst_3 (constant S_ .f32 0x00000000#32),
    TRef.binary main_call1.v8 main_call1.cst_3 main_call1.v12 (cmpf (F := F) .ogt),
    TRef.nullary main_call1.cst_4 (constant S_ .f32 0x7FC00000#32),
    TRef.unary main_call1.cst_4 main_call1.call0.v0 id,
    TRef.unary main_call1.call0.v0 main_call1.call0.v1 (broadcastInDim S512 ![] bcast_S_S512),
    TRef.ternary main_call1.v12 main_call1.v11 main_call1.call0.v1 main_call1.call0.v2 (fun p a b => select (broadcastInDim S512 ![] bcast_S_S512 p) a b) ]

/-- Piece 8: the second normalised activation. -/
abbrev seg8 : List (HloOp τ sig (Elt F)) :=
  [ unary main_v36 main_v38 (broadcastInDim S1x512 ![1] bcast_S512_S1x512_1 : (⟨S512, .f32⟩ : BufTy).Contents (Elt F) → (⟨S1x512, .f32⟩ : BufTy).Contents (Elt F)),
    unary main_v38 main_v39 (broadcastInDim S32768x512 ![0, 1] bcast_S1x512_S32768x512_0_1 : (⟨S1x512, .f32⟩ : BufTy).Contents (Elt F) → (⟨S32768x512, .f32⟩ : BufTy).Contents (Elt F)),
    binary main_v33 main_v39 main_v40 (subf : (⟨S32768x512, .f32⟩ : BufTy).Contents (Elt F) → (⟨S32768x512, .f32⟩ : BufTy).Contents (Elt F) → (⟨S32768x512, .f32⟩ : BufTy).Contents (Elt F)),
    nullary main_cst_7 (constant S_ .f32 0x3727C5AC#32),
    unary main_cst_7 main_v41 (broadcastInDim S512 ![] bcast_S_S512 : (⟨S_, .f32⟩ : BufTy).Contents (Elt F) → (⟨S512, .f32⟩ : BufTy).Contents (Elt F)),
    binary main_v37 main_v41 main_v42 (addf : (⟨S512, .f32⟩ : BufTy).Contents (Elt F) → (⟨S512, .f32⟩ : BufTy).Contents (Elt F) → (⟨S512, .f32⟩ : BufTy).Contents (Elt F)),
    unary main_v42 main_v43 (Host.sqrt : (⟨S512, .f32⟩ : BufTy).Contents (Elt F) → (⟨S512, .f32⟩ : BufTy).Contents (Elt F)),
    unary main_v43 main_v44 (broadcastInDim S1x512 ![1] bcast_S512_S1x512_1 : (⟨S512, .f32⟩ : BufTy).Contents (Elt F) → (⟨S1x512, .f32⟩ : BufTy).Contents (Elt F)),
    unary main_v44 main_v45 (broadcastInDim S32768x512 ![0, 1] bcast_S1x512_S32768x512_0_1 : (⟨S1x512, .f32⟩ : BufTy).Contents (Elt F) → (⟨S32768x512, .f32⟩ : BufTy).Contents (Elt F)),
    binary main_v40 main_v45 main_v46 (Host.divf : (⟨S32768x512, .f32⟩ : BufTy).Contents (Elt F) → (⟨S32768x512, .f32⟩ : BufTy).Contents (Elt F) → (⟨S32768x512, .f32⟩ : BufTy).Contents (Elt F)),
    unary main_arg7 main_v47 (broadcastInDim S1x512 ![1] bcast_S512_S1x512_1 : (⟨S512, .f32⟩ : BufTy).Contents (Elt F) → (⟨S1x512, .f32⟩ : BufTy).Contents (Elt F)),
    unary main_v47 main_v48 (broadcastInDim S32768x512 ![0, 1] bcast_S1x512_S32768x512_0_1 : (⟨S1x512, .f32⟩ : BufTy).Contents (Elt F) → (⟨S32768x512, .f32⟩ : BufTy).Contents (Elt F)),
    binary main_v46 main_v48 main_v49 (mulf : (⟨S32768x512, .f32⟩ : BufTy).Contents (Elt F) → (⟨S32768x512, .f32⟩ : BufTy).Contents (Elt F) → (⟨S32768x512, .f32⟩ : BufTy).Contents (Elt F)),
    unary main_arg8 main_v50 (broadcastInDim S1x512 ![1] bcast_S512_S1x512_1 : (⟨S512, .f32⟩ : BufTy).Contents (Elt F) → (⟨S1x512, .f32⟩ : BufTy).Contents (Elt F)),
    unary main_v50 main_v51 (broadcastInDim S32768x512 ![0, 1] bcast_S1x512_S32768x512_0_1 : (⟨S1x512, .f32⟩ : BufTy).Contents (Elt F) → (⟨S32768x512, .f32⟩ : BufTy).Contents (Elt F)),
    binary main_v49 main_v51 main_v52 (addf : (⟨S32768x512, .f32⟩ : BufTy).Contents (Elt F) → (⟨S32768x512, .f32⟩ : BufTy).Contents (Elt F) → (⟨S32768x512, .f32⟩ : BufTy).Contents (Elt F)),
    nullary main_cst_8 (constant S_ .f32 0x00000000#32),
    unary main_cst_8 main_v53 (broadcastInDim S32768x512 ![] bcast_S_S32768x512 : (⟨S_, .f32⟩ : BufTy).Contents (Elt F) → (⟨S32768x512, .f32⟩ : BufTy).Contents (Elt F)),
    binary main_v52 main_v53 main_v54 (maximumf : (⟨S32768x512, .f32⟩ : BufTy).Contents (Elt F) → (⟨S32768x512, .f32⟩ : BufTy).Contents (Elt F) → (⟨S32768x512, .f32⟩ : BufTy).Contents (Elt F)),
    binary main_v54 main_arg12 main_v55 (mulf : (⟨S32768x512, .f32⟩ : BufTy).Contents (Elt F) → (⟨S32768x512, .f32⟩ : BufTy).Contents (Elt F) → (⟨S32768x512, .f32⟩ : BufTy).Contents (Elt F)),
    nullary main_cst_9 (constant S_ .f32 0x3FB6DB6E#32),
    unary main_cst_9 main_v56 (broadcastInDim S32768x512 ![] bcast_S_S32768x512 : (⟨S_, .f32⟩ : BufTy).Contents (Elt F) → (⟨S32768x512, .f32⟩ : BufTy).Contents (Elt F)),
    binary main_v55 main_v56 main_v57 (mulf : (⟨S32768x512, .f32⟩ : BufTy).Contents (Elt F) → (⟨S32768x512, .f32⟩ : BufTy).Contents (Elt F) → (⟨S32768x512, .f32⟩ : BufTy).Contents (Elt F)) ]

/-- Piece 9: the third affine layer. -/
abbrev seg9 : List (HloOp τ sig (Elt F)) :=
  [ unary main_arg9 main_v58 ((transpose S512x10 [1, 0] · transposes_S10x512_S512x10_1_0) : (⟨S10x512, .f32⟩ : BufTy).Contents (Elt F) → (⟨S512x10, .f32⟩ : BufTy).Contents (Elt F)),
    binary main_v57 main_v58 main_v59 ((fun l r => Host.dotGeneral dot_S32768x512_S512x10_S32768x10_1_0_0_1_n_n none l r) : (⟨S32768x512, .f32⟩ : BufTy).Contents (Elt F) → (⟨S512x10, .f32⟩ : BufTy).Contents (Elt F) → (⟨S32768x10, .f32⟩ : BufTy).Contents (Elt F)),
    unary main_arg10 main_v60 (broadcastInDim S1x10 ![1] bcast_S10_S1x10_1 : (⟨S10, .f32⟩ : BufTy).Contents (Elt F) → (⟨S1x10, .f32⟩ : BufTy).Contents (Elt F)),
    unary main_v60 main_v61 (broadcastInDim S32768x10 ![0, 1] bcast_S1x10_S32768x10_0_1 : (⟨S1x10, .f32⟩ : BufTy).Contents (Elt F) → (⟨S32768x10, .f32⟩ : BufTy).Contents (Elt F)),
    binary main_v59 main_v61 main_v62 (addf : (⟨S32768x10, .f32⟩ : BufTy).Contents (Elt F) → (⟨S32768x10, .f32⟩ : BufTy).Contents (Elt F) → (⟨S32768x10, .f32⟩ : BufTy).Contents (Elt F)) ]

/-- @main's 117 operations, in order. -/
abbrev ops : List (HloOp τ sig (Elt F)) :=
  seg1 ++ (seg2 ++ (seg3 ++ (seg4 ++ (seg5 ++ (seg6 ++ (seg7 ++ (seg8 ++ seg9)))))))

set_option maxRecDepth 8192 in
set_option maxHeartbeats 4000000 in
/-- @main is that straight line: the two functions unfolded at their calls and the records at their fields, both sides
    are one chain of steps once sequencing is reassociated. -/
theorem main_eq (c : Dev nD) : main (F := F) c = seq ops := by
  simp only [main, main_part0, main_part1, fn_var.body, fn_where.body, ops, seg1, seg2, seg3, seg4, seg5, seg6, seg7, seg8, seg9,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem seg1_sub : (seg1 : List (HloOp τ sig (Elt F))).Forall fun op => op.bufs ⊆ tcRefs τ sig :=
  ⟨unary_bufs_sub .., binary_bufs_sub .., unary_bufs_sub .., unary_bufs_sub .., binary_bufs_sub ..⟩
theorem seg2_sub : (seg2 : List (HloOp τ sig (Elt F))).Forall fun op => op.bufs ⊆ tcRefs τ sig :=
  ⟨nullary_bufs_sub .., binary_bufs_sub .., nullary_bufs_sub .., unary_bufs_sub .., binary_bufs_sub ..⟩
theorem seg3_sub : (seg3 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem seg4_sub : (seg4 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub ..⟩
theorem seg5_sub : (seg5 : List (HloOp τ sig (Elt F))).Forall fun op => op.bufs ⊆ tcRefs τ sig :=
  ⟨unary_bufs_sub .., binary_bufs_sub .., unary_bufs_sub .., unary_bufs_sub .., binary_bufs_sub ..⟩
theorem seg6_sub : (seg6 : List (HloOp τ sig (Elt F))).Forall fun op => op.bufs ⊆ tcRefs τ sig :=
  ⟨nullary_bufs_sub .., binary_bufs_sub .., nullary_bufs_sub .., unary_bufs_sub .., binary_bufs_sub ..⟩
theorem seg7_sub : (seg7 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem seg8_sub : (seg8 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub ..⟩
theorem seg9_sub : (seg9 : List (HloOp τ sig (Elt F))).Forall fun op => op.bufs ⊆ tcRefs τ sig :=
  ⟨unary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h
    exacts [List.forall_iff_forall_mem.mp seg1_sub op h, List.forall_iff_forall_mem.mp seg2_sub op h, List.forall_iff_forall_mem.mp seg3_sub op h, List.forall_iff_forall_mem.mp seg4_sub op h, List.forall_iff_forall_mem.mp seg5_sub op h, List.forall_iff_forall_mem.mp seg6_sub op h, List.forall_iff_forall_mem.mp seg7_sub op h, List.forall_iff_forall_mem.mp seg8_sub op h, List.forall_iff_forall_mem.mp seg9_sub op h]

/-- The thirteen argument buffers. -/
abbrev argRefs : List (Ref sig .tc) := [main_arg0, main_arg1, main_arg2, main_arg3, main_arg4, main_arg5, main_arg6, main_arg7, main_arg8, main_arg9, main_arg10, main_arg11, main_arg12]

/-- The buffers piece 1 writes. -/
abbrev seg1_W : List (Ref sig .tc) := [main_v0, main_v1, main_v2, main_v3, main_v4]
set_option maxRecDepth 8192 in
theorem seg1_writes : (seg1 : List (HloOp τ sig (Elt F))).Forall fun op => op.writes ⊆ (seg1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 1 does not write keeps its contents through it. -/
theorem seg1_keep (V : Valuation τ sig (Elt F)) (r : Ref sig .tc) (h : r ∉ seg1_W) :
    after seg1 V (Proc.devRef .tc r) = V (Proc.devRef .tc r) :=
  after_of_writes_sub seg1 V seg1_writes h
theorem seg1_args : ∀ r ∈ argRefs, r ∉ seg1_W := by decide

/-- The buffers piece 2 writes. -/
abbrev seg2_W : List (Ref sig .tc) := [main_cst, main_v5, main_cst_0, main_v6, main_v7]
set_option maxRecDepth 8192 in
theorem seg2_writes : (seg2 : List (HloOp τ sig (Elt F))).Forall fun op => op.writes ⊆ (seg2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 2 does not write keeps its contents through it. -/
theorem seg2_keep (V : Valuation τ sig (Elt F)) (r : Ref sig .tc) (h : r ∉ seg2_W) :
    after seg2 V (Proc.devRef .tc r) = V (Proc.devRef .tc r) :=
  after_of_writes_sub seg2 V seg2_writes h
theorem seg2_args : ∀ r ∈ argRefs, r ∉ seg2_W := by decide

/-- The buffers piece 3 writes. -/
abbrev seg3_W : List (Ref sig .tc) := [main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v8]
set_option maxRecDepth 8192 in
theorem seg3_writes : (seg3 : List (HloOp τ sig (Elt F))).Forall fun op => op.writes ⊆ (seg3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 3 does not write keeps its contents through it. -/
theorem seg3_keep (V : Valuation τ sig (Elt F)) (r : Ref sig .tc) (h : r ∉ seg3_W) :
    after seg3 V (Proc.devRef .tc r) = V (Proc.devRef .tc r) :=
  after_of_writes_sub seg3 V seg3_writes h
theorem seg3_args : ∀ r ∈ argRefs, r ∉ seg3_W := by decide

/-- The buffers piece 4 writes. -/
abbrev seg4_W : List (Ref sig .tc) := [main_v9, main_v10, main_v11, main_cst_1, main_v12, main_v13, main_v14, main_v15, main_v16, main_v17, main_v18, main_v19, main_v20, main_v21, main_v22, main_v23, main_cst_2, main_v24, main_v25, main_v26, main_cst_3, main_v27, main_v28]
set_option maxRecDepth 8192 in
theorem seg4_writes : (seg4 : List (HloOp τ sig (Elt F))).Forall fun op => op.writes ⊆ (seg4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 4 does not write keeps its contents through it. -/
theorem seg4_keep (V : Valuation τ sig (Elt F)) (r : Ref sig .tc) (h : r ∉ seg4_W) :
    after seg4 V (Proc.devRef .tc r) = V (Proc.devRef .tc r) :=
  after_of_writes_sub seg4 V seg4_writes h
theorem seg4_args : ∀ r ∈ argRefs, r ∉ seg4_W := by decide

/-- The buffers piece 5 writes. -/
abbrev seg5_W : List (Ref sig .tc) := [main_v29, main_v30, main_v31, main_v32, main_v33]
set_option maxRecDepth 8192 in
theorem seg5_writes : (seg5 : List (HloOp τ sig (Elt F))).Forall fun op => op.writes ⊆ (seg5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 5 does not write keeps its contents through it. -/
theorem seg5_keep (V : Valuation τ sig (Elt F)) (r : Ref sig .tc) (h : r ∉ seg5_W) :
    after seg5 V (Proc.devRef .tc r) = V (Proc.devRef .tc r) :=
  after_of_writes_sub seg5 V seg5_writes h
theorem seg5_args : ∀ r ∈ argRefs, r ∉ seg5_W := by decide

/-- The buffers piece 6 writes. -/
abbrev seg6_W : List (Ref sig .tc) := [main_cst_4, main_v34, main_cst_5, main_v35, main_v36]
set_option maxRecDepth 8192 in
theorem seg6_writes : (seg6 : List (HloOp τ sig (Elt F))).Forall fun op => op.writes ⊆ (seg6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 6 does not write keeps its contents through it. -/
theorem seg6_keep (V : Valuation τ sig (Elt F)) (r : Ref sig .tc) (h : r ∉ seg6_W) :
    after seg6 V (Proc.devRef .tc r) = V (Proc.devRef .tc r) :=
  after_of_writes_sub seg6 V seg6_writes h
theorem seg6_args : ∀ r ∈ argRefs, r ∉ seg6_W := by decide

/-- The buffers piece 7 writes. -/
abbrev seg7_W : List (Ref sig .tc) := [main_c_6, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v37]
set_option maxRecDepth 8192 in
theorem seg7_writes : (seg7 : List (HloOp τ sig (Elt F))).Forall fun op => op.writes ⊆ (seg7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 7 does not write keeps its contents through it. -/
theorem seg7_keep (V : Valuation τ sig (Elt F)) (r : Ref sig .tc) (h : r ∉ seg7_W) :
    after seg7 V (Proc.devRef .tc r) = V (Proc.devRef .tc r) :=
  after_of_writes_sub seg7 V seg7_writes h
theorem seg7_args : ∀ r ∈ argRefs, r ∉ seg7_W := by decide

/-- The buffers piece 8 writes. -/
abbrev seg8_W : List (Ref sig .tc) := [main_v38, main_v39, main_v40, main_cst_7, main_v41, main_v42, main_v43, main_v44, main_v45, main_v46, main_v47, main_v48, main_v49, main_v50, main_v51, main_v52, main_cst_8, main_v53, main_v54, main_v55, main_cst_9, main_v56, main_v57]
set_option maxRecDepth 8192 in
theorem seg8_writes : (seg8 : List (HloOp τ sig (Elt F))).Forall fun op => op.writes ⊆ (seg8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 8 does not write keeps its contents through it. -/
theorem seg8_keep (V : Valuation τ sig (Elt F)) (r : Ref sig .tc) (h : r ∉ seg8_W) :
    after seg8 V (Proc.devRef .tc r) = V (Proc.devRef .tc r) :=
  after_of_writes_sub seg8 V seg8_writes h
theorem seg8_args : ∀ r ∈ argRefs, r ∉ seg8_W := by decide

/-- The buffers piece 9 writes. -/
abbrev seg9_W : List (Ref sig .tc) := [main_v58, main_v59, main_v60, main_v61, main_v62]
set_option maxRecDepth 8192 in
theorem seg9_writes : (seg9 : List (HloOp τ sig (Elt F))).Forall fun op => op.writes ⊆ (seg9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece 9 does not write keeps its contents through it. -/
theorem seg9_keep (V : Valuation τ sig (Elt F)) (r : Ref sig .tc) (h : r ∉ seg9_W) :
    after seg9 V (Proc.devRef .tc r) = V (Proc.devRef .tc r) :=
  after_of_writes_sub seg9 V seg9_writes h
theorem seg9_args : ∀ r ∈ argRefs, r ∉ seg9_W := by decide

/-- Piece 1's result, from any contents. -/
theorem seg1_val (V : Valuation τ sig (Elt F)) :
    after seg1 V (Proc.devRef .tc main_v4) = RefTerm.lin1 (V (Proc.devRef .tc main_arg0)) (V (Proc.devRef .tc main_arg1)) (V (Proc.devRef .tc main_arg2)) := by
  simp only [seg1]
  after_results_simp
  rfl

/-- Piece 2's result, from any contents. -/
theorem seg2_val (V : Valuation τ sig (Elt F)) :
    after seg2 V (Proc.devRef .tc main_v7) = RefTerm.meanOf (V (Proc.devRef .tc main_v4)) := by
  simp only [seg2]
  after_results_simp
  rfl

set_option maxRecDepth 16384 in
set_option maxHeartbeats 2000000 in
/-- Piece 3's result, from any contents. -/
theorem seg3_val (V : Valuation τ sig (Elt F)) :
    after seg3 V (Proc.devRef .tc main_v8) = RefTerm.varOf (V (Proc.devRef .tc main_v4)) := by
  simp only [seg3]
  after_results_simp
  rfl

set_option maxRecDepth 16384 in
set_option maxHeartbeats 2000000 in
/-- Piece 4's result, from any contents. -/
theorem seg4_val (V : Valuation τ sig (Elt F)) :
    after seg4 V (Proc.devRef .tc main_v28) = RefTerm.bnDrop (V (Proc.devRef .tc main_v4)) (V (Proc.devRef .tc main_v7)) (V (Proc.devRef .tc main_v8)) (V (Proc.devRef .tc main_arg3)) (V (Proc.devRef .tc main_arg4)) (V (Proc.devRef .tc main_arg11)) := by
  simp only [seg4]
  after_results_simp
  rfl

/-- Piece 5's result, from any contents. -/
theorem seg5_val (V : Valuation τ sig (Elt F)) :
    after seg5 V (Proc.devRef .tc main_v33) = RefTerm.lin2 (V (Proc.devRef .tc main_v28)) (V (Proc.devRef .tc main_arg5)) (V (Proc.devRef .tc main_arg6)) := by
  simp only [seg5]
  after_results_simp
  rfl

/-- Piece 6's result, from any contents. -/
theorem seg6_val (V : Valuation τ sig (Elt F)) :
    after seg6 V (Proc.devRef .tc main_v36) = RefTerm.meanOf (V (Proc.devRef .tc main_v33)) := by
  simp only [seg6]
  after_results_simp
  rfl

set_option maxRecDepth 16384 in
set_option maxHeartbeats 2000000 in
/-- Piece 7's result, from any contents. -/
theorem seg7_val (V : Valuation τ sig (Elt F)) :
    after seg7 V (Proc.devRef .tc main_v37) = RefTerm.varOf (V (Proc.devRef .tc main_v33)) := by
  simp only [seg7]
  after_results_simp
  rfl

set_option maxRecDepth 16384 in
set_option maxHeartbeats 2000000 in
/-- Piece 8's result, from any contents. -/
theorem seg8_val (V : Valuation τ sig (Elt F)) :
    after seg8 V (Proc.devRef .tc main_v57) = RefTerm.bnDrop (V (Proc.devRef .tc main_v33)) (V (Proc.devRef .tc main_v36)) (V (Proc.devRef .tc main_v37)) (V (Proc.devRef .tc main_arg7)) (V (Proc.devRef .tc main_arg8)) (V (Proc.devRef .tc main_arg12)) := by
  simp only [seg8]
  after_results_simp
  rfl

/-- Piece 9's result, from any contents. -/
theorem seg9_val (V : Valuation τ sig (Elt F)) :
    after seg9 V (Proc.devRef .tc main_v62) = RefTerm.lin3 (V (Proc.devRef .tc main_v57)) (V (Proc.devRef .tc main_arg9)) (V (Proc.devRef .tc main_arg10)) := by
  simp only [seg9]
  after_results_simp
  rfl

/-! ## The pieces chained -/

/-- The buffer contents after the first 1 piece. -/
def val1 (V : Valuation τ sig (Elt F)) : Valuation τ sig (Elt F) := after seg1 V
theorem val1_arg (V : Valuation τ sig (Elt F)) (r : Ref sig .tc) (hr : r ∈ argRefs) :
    val1 V (Proc.devRef .tc r) = V (Proc.devRef .tc r) :=
  seg1_keep V r (seg1_args r hr)
/-- The buffer contents after the first 2 pieces. -/
def val2 (V : Valuation τ sig (Elt F)) : Valuation τ sig (Elt F) := after seg2 (val1 V)
theorem val2_arg (V : Valuation τ sig (Elt F)) (r : Ref sig .tc) (hr : r ∈ argRefs) :
    val2 V (Proc.devRef .tc r) = V (Proc.devRef .tc r) :=
  (seg2_keep (val1 V) r (seg2_args r hr)).trans (val1_arg V r hr)
/-- The buffer contents after the first 3 pieces. -/
def val3 (V : Valuation τ sig (Elt F)) : Valuation τ sig (Elt F) := after seg3 (val2 V)
theorem val3_arg (V : Valuation τ sig (Elt F)) (r : Ref sig .tc) (hr : r ∈ argRefs) :
    val3 V (Proc.devRef .tc r) = V (Proc.devRef .tc r) :=
  (seg3_keep (val2 V) r (seg3_args r hr)).trans (val2_arg V r hr)
/-- The buffer contents after the first 4 pieces. -/
def val4 (V : Valuation τ sig (Elt F)) : Valuation τ sig (Elt F) := after seg4 (val3 V)
theorem val4_arg (V : Valuation τ sig (Elt F)) (r : Ref sig .tc) (hr : r ∈ argRefs) :
    val4 V (Proc.devRef .tc r) = V (Proc.devRef .tc r) :=
  (seg4_keep (val3 V) r (seg4_args r hr)).trans (val3_arg V r hr)
/-- The buffer contents after the first 5 pieces. -/
def val5 (V : Valuation τ sig (Elt F)) : Valuation τ sig (Elt F) := after seg5 (val4 V)
theorem val5_arg (V : Valuation τ sig (Elt F)) (r : Ref sig .tc) (hr : r ∈ argRefs) :
    val5 V (Proc.devRef .tc r) = V (Proc.devRef .tc r) :=
  (seg5_keep (val4 V) r (seg5_args r hr)).trans (val4_arg V r hr)
/-- The buffer contents after the first 6 pieces. -/
def val6 (V : Valuation τ sig (Elt F)) : Valuation τ sig (Elt F) := after seg6 (val5 V)
theorem val6_arg (V : Valuation τ sig (Elt F)) (r : Ref sig .tc) (hr : r ∈ argRefs) :
    val6 V (Proc.devRef .tc r) = V (Proc.devRef .tc r) :=
  (seg6_keep (val5 V) r (seg6_args r hr)).trans (val5_arg V r hr)
/-- The buffer contents after the first 7 pieces. -/
def val7 (V : Valuation τ sig (Elt F)) : Valuation τ sig (Elt F) := after seg7 (val6 V)
theorem val7_arg (V : Valuation τ sig (Elt F)) (r : Ref sig .tc) (hr : r ∈ argRefs) :
    val7 V (Proc.devRef .tc r) = V (Proc.devRef .tc r) :=
  (seg7_keep (val6 V) r (seg7_args r hr)).trans (val6_arg V r hr)
/-- The buffer contents after the first 8 pieces. -/
def val8 (V : Valuation τ sig (Elt F)) : Valuation τ sig (Elt F) := after seg8 (val7 V)
theorem val8_arg (V : Valuation τ sig (Elt F)) (r : Ref sig .tc) (hr : r ∈ argRefs) :
    val8 V (Proc.devRef .tc r) = V (Proc.devRef .tc r) :=
  (seg8_keep (val7 V) r (seg8_args r hr)).trans (val7_arg V r hr)
/-- The buffer contents after the first 9 pieces. -/
def val9 (V : Valuation τ sig (Elt F)) : Valuation τ sig (Elt F) := after seg9 (val8 V)
theorem val9_arg (V : Valuation τ sig (Elt F)) (r : Ref sig .tc) (hr : r ∈ argRefs) :
    val9 V (Proc.devRef .tc r) = V (Proc.devRef .tc r) :=
  (seg9_keep (val8 V) r (seg9_args r hr)).trans (val8_arg V r hr)

theorem val1_v4 (V : Valuation τ sig (Elt F)) : val1 V (Proc.devRef .tc main_v4) = (RefTerm.lin1 (V (Proc.devRef .tc main_arg0)) (V (Proc.devRef .tc main_arg1)) (V (Proc.devRef .tc main_arg2))) := seg1_val V
theorem val2_v4 (V : Valuation τ sig (Elt F)) : val2 V (Proc.devRef .tc main_v4) = (RefTerm.lin1 (V (Proc.devRef .tc main_arg0)) (V (Proc.devRef .tc main_arg1)) (V (Proc.devRef .tc main_arg2))) :=
  (seg2_keep (val1 V) main_v4 (by decide)).trans (val1_v4 V)
theorem val2_v7 (V : Valuation τ sig (Elt F)) : val2 V (Proc.devRef .tc main_v7) = (RefTerm.meanOf (RefTerm.lin1 (V (Proc.devRef .tc main_arg0)) (V (Proc.devRef .tc main_arg1)) (V (Proc.devRef .tc main_arg2)))) :=
  (seg2_val (val1 V)).trans (by rw [val1_v4])
theorem val3_v4 (V : Valuation τ sig (Elt F)) : val3 V (Proc.devRef .tc main_v4) = (RefTerm.lin1 (V (Proc.devRef .tc main_arg0)) (V (Proc.devRef .tc main_arg1)) (V (Proc.devRef .tc main_arg2))) :=
  (seg3_keep (val2 V) main_v4 (by decide)).trans (val2_v4 V)
theorem val3_v7 (V : Valuation τ sig (Elt F)) : val3 V (Proc.devRef .tc main_v7) = (RefTerm.meanOf (RefTerm.lin1 (V (Proc.devRef .tc main_arg0)) (V (Proc.devRef .tc main_arg1)) (V (Proc.devRef .tc main_arg2)))) :=
  (seg3_keep (val2 V) main_v7 (by decide)).trans (val2_v7 V)
theorem val3_v8 (V : Valuation τ sig (Elt F)) : val3 V (Proc.devRef .tc main_v8) = (RefTerm.varOf (RefTerm.lin1 (V (Proc.devRef .tc main_arg0)) (V (Proc.devRef .tc main_arg1)) (V (Proc.devRef .tc main_arg2)))) :=
  (seg3_val (val2 V)).trans (by rw [val2_v4])
theorem val4_v28 (V : Valuation τ sig (Elt F)) : val4 V (Proc.devRef .tc main_v28) = (RefTerm.act (RefTerm.lin1 (V (Proc.devRef .tc main_arg0)) (V (Proc.devRef .tc main_arg1)) (V (Proc.devRef .tc main_arg2))) (V (Proc.devRef .tc main_arg3)) (V (Proc.devRef .tc main_arg4)) (V (Proc.devRef .tc main_arg11))) :=
  (seg4_val (val3 V)).trans (by rw [val3_v4, val3_v7, val3_v8, val3_arg V main_arg3 (by decide), val3_arg V main_arg4 (by decide), val3_arg V main_arg11 (by decide)]; rfl)
theorem val5_v33 (V : Valuation τ sig (Elt F)) : val5 V (Proc.devRef .tc main_v33) = (RefTerm.lin2 (RefTerm.act (RefTerm.lin1 (V (Proc.devRef .tc main_arg0)) (V (Proc.devRef .tc main_arg1)) (V (Proc.devRef .tc main_arg2))) (V (Proc.devRef .tc main_arg3)) (V (Proc.devRef .tc main_arg4)) (V (Proc.devRef .tc main_arg11))) (V (Proc.devRef .tc main_arg5)) (V (Proc.devRef .tc main_arg6))) :=
  (seg5_val (val4 V)).trans (by rw [val4_v28, val4_arg V main_arg5 (by decide), val4_arg V main_arg6 (by decide)])
theorem val6_v33 (V : Valuation τ sig (Elt F)) : val6 V (Proc.devRef .tc main_v33) = (RefTerm.lin2 (RefTerm.act (RefTerm.lin1 (V (Proc.devRef .tc main_arg0)) (V (Proc.devRef .tc main_arg1)) (V (Proc.devRef .tc main_arg2))) (V (Proc.devRef .tc main_arg3)) (V (Proc.devRef .tc main_arg4)) (V (Proc.devRef .tc main_arg11))) (V (Proc.devRef .tc main_arg5)) (V (Proc.devRef .tc main_arg6))) :=
  (seg6_keep (val5 V) main_v33 (by decide)).trans (val5_v33 V)
theorem val6_v36 (V : Valuation τ sig (Elt F)) : val6 V (Proc.devRef .tc main_v36) = (RefTerm.meanOf (RefTerm.lin2 (RefTerm.act (RefTerm.lin1 (V (Proc.devRef .tc main_arg0)) (V (Proc.devRef .tc main_arg1)) (V (Proc.devRef .tc main_arg2))) (V (Proc.devRef .tc main_arg3)) (V (Proc.devRef .tc main_arg4)) (V (Proc.devRef .tc main_arg11))) (V (Proc.devRef .tc main_arg5)) (V (Proc.devRef .tc main_arg6)))) :=
  (seg6_val (val5 V)).trans (by rw [val5_v33])
theorem val7_v33 (V : Valuation τ sig (Elt F)) : val7 V (Proc.devRef .tc main_v33) = (RefTerm.lin2 (RefTerm.act (RefTerm.lin1 (V (Proc.devRef .tc main_arg0)) (V (Proc.devRef .tc main_arg1)) (V (Proc.devRef .tc main_arg2))) (V (Proc.devRef .tc main_arg3)) (V (Proc.devRef .tc main_arg4)) (V (Proc.devRef .tc main_arg11))) (V (Proc.devRef .tc main_arg5)) (V (Proc.devRef .tc main_arg6))) :=
  (seg7_keep (val6 V) main_v33 (by decide)).trans (val6_v33 V)
theorem val7_v36 (V : Valuation τ sig (Elt F)) : val7 V (Proc.devRef .tc main_v36) = (RefTerm.meanOf (RefTerm.lin2 (RefTerm.act (RefTerm.lin1 (V (Proc.devRef .tc main_arg0)) (V (Proc.devRef .tc main_arg1)) (V (Proc.devRef .tc main_arg2))) (V (Proc.devRef .tc main_arg3)) (V (Proc.devRef .tc main_arg4)) (V (Proc.devRef .tc main_arg11))) (V (Proc.devRef .tc main_arg5)) (V (Proc.devRef .tc main_arg6)))) :=
  (seg7_keep (val6 V) main_v36 (by decide)).trans (val6_v36 V)
theorem val7_v37 (V : Valuation τ sig (Elt F)) : val7 V (Proc.devRef .tc main_v37) = (RefTerm.varOf (RefTerm.lin2 (RefTerm.act (RefTerm.lin1 (V (Proc.devRef .tc main_arg0)) (V (Proc.devRef .tc main_arg1)) (V (Proc.devRef .tc main_arg2))) (V (Proc.devRef .tc main_arg3)) (V (Proc.devRef .tc main_arg4)) (V (Proc.devRef .tc main_arg11))) (V (Proc.devRef .tc main_arg5)) (V (Proc.devRef .tc main_arg6)))) :=
  (seg7_val (val6 V)).trans (by rw [val6_v33])
theorem val8_v57 (V : Valuation τ sig (Elt F)) : val8 V (Proc.devRef .tc main_v57) = (RefTerm.act (RefTerm.lin2 (RefTerm.act (RefTerm.lin1 (V (Proc.devRef .tc main_arg0)) (V (Proc.devRef .tc main_arg1)) (V (Proc.devRef .tc main_arg2))) (V (Proc.devRef .tc main_arg3)) (V (Proc.devRef .tc main_arg4)) (V (Proc.devRef .tc main_arg11))) (V (Proc.devRef .tc main_arg5)) (V (Proc.devRef .tc main_arg6))) (V (Proc.devRef .tc main_arg7)) (V (Proc.devRef .tc main_arg8)) (V (Proc.devRef .tc main_arg12))) :=
  (seg8_val (val7 V)).trans (by rw [val7_v33, val7_v36, val7_v37, val7_arg V main_arg7 (by decide), val7_arg V main_arg8 (by decide), val7_arg V main_arg12 (by decide)]; rfl)
theorem val9_v62 (V : Valuation τ sig (Elt F)) : val9 V (Proc.devRef .tc main_v62) = (RefTerm.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))) :=
  (seg9_val (val8 V)).trans (by rw [val8_v57, val8_arg V main_arg9 (by decide), val8_arg V main_arg10 (by decide)]; rfl)

/-- The whole line is the nine pieces in order. -/
theorem after_ops (V : Valuation τ sig (Elt F)) : after ops V = val9 V := by
  simp only [ops, after_append]
  rfl

/-- On every device, for any float values, from any memory with zero counters: every weakly fair execution of @main
    terminates with the result buffer at the network's term of the argument arrays and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62) = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v62).trans (by simp only [after_ops]; exact val9_v62 (launchContents m c)),
      (h c main_arg0).trans (by simp only [after_ops]; exact val9_arg (launchContents m c) main_arg0 (by decide)),
      (h c main_arg1).trans (by simp only [after_ops]; exact val9_arg (launchContents m c) main_arg1 (by decide)),
      (h c main_arg2).trans (by simp only [after_ops]; exact val9_arg (launchContents m c) main_arg2 (by decide)),
      (h c main_arg3).trans (by simp only [after_ops]; exact val9_arg (launchContents m c) main_arg3 (by decide)),
      (h c main_arg4).trans (by simp only [after_ops]; exact val9_arg (launchContents m c) main_arg4 (by decide)),
      (h c main_arg5).trans (by simp only [after_ops]; exact val9_arg (launchContents m c) main_arg5 (by decide)),
      (h c main_arg6).trans (by simp only [after_ops]; exact val9_arg (launchContents m c) main_arg6 (by decide)),
      (h c main_arg7).trans (by simp only [after_ops]; exact val9_arg (launchContents m c) main_arg7 (by decide)),
      (h c main_arg8).trans (by simp only [after_ops]; exact val9_arg (launchContents m c) main_arg8 (by decide)),
      (h c main_arg9).trans (by simp only [after_ops]; exact val9_arg (launchContents m c) main_arg9 (by decide)),
      (h c main_arg10).trans (by simp only [after_ops]; exact val9_arg (launchContents m c) main_arg10 (by decide)),
      (h c main_arg11).trans (by simp only [after_ops]; exact val9_arg (launchContents m c) main_arg11 (by decide)),
      (h c main_arg12).trans (by simp only [after_ops]; exact val9_arg (launchContents m c) main_arg12 (by decide))⟩)
    (run_seq scopedRefs_eq scopedSems_eq defs main (fun _ => ops) main_eq (fun _ => ops_sub) m ρ)

end Cert.ReferenceIdeal.RefRun

end
-- ==== Proof.Spec.lean ====
/-
  The network both programs compute, over the real numbers.

  Three affine layers x ↦ x·Wᵀ + b. After each of the first two, every column of the batch is normalised by
  its own batch statistics — mean μ = (Σ h)/B and biased variance σ² = (Σ (h − μ)²)/B over the B rows —,
  scaled and shifted, rectified, multiplied by a given mask and by a constant:
      a = max(((h − μ) · (√(σ² + ε))⁻¹) · γ + β, 0) · mask · s.
  An array of extended reals "is" a real array when every entry is the coercion of the corresponding real.
-/
import Idealize.ShloMosaic.Lib.ValueIdx
import Idealize.ShloMosaic.PureOps.Ideal

open Idealize.ShloMosaic Idealize.ShloMosaic.ValueIdx
open scoped BigOperators

noncomputable section

namespace Cert.Spec

/-- An affine layer: row r of X against row j of W, plus b j. -/
def lin {B K N : ℕ} (X : Fin B → Fin K → ℝ) (W : Fin N → Fin K → ℝ) (b : Fin N → ℝ) (r : Fin B) (j : Fin N) : ℝ :=
  (∑ k, X r k * W j k) + b j

/-- The mean of column j over the batch. -/
def mean {B N : ℕ} (H : Fin B → Fin N → ℝ) (j : Fin N) : ℝ := (∑ r, H r j) / B

/-- The biased variance of column j over the batch. -/
def var {B N : ℕ} (H : Fin B → Fin N → ℝ) (j : Fin N) : ℝ :=
  (∑ r, (H r j - mean H j) * (H r j - mean H j)) / B

/-- Batch normalisation with scale g and shift be, rectifier, mask M, constant factor s. -/
def bnDrop {B N : ℕ} (H : Fin B → Fin N → ℝ) (g be : Fin N → ℝ) (M : Fin B → Fin N → ℝ) (e s : ℝ)
    (r : Fin B) (j : Fin N) : ℝ :=
  max ((H r j - mean H j) * (Real.sqrt (var H j + e))⁻¹ * g j + be j) 0 * M r j * s

/-- The whole network. -/
def net {B D H O : ℕ} (x : Fin B → Fin D → ℝ) (W1 : Fin H → Fin D → ℝ) (b1 g1 be1 : Fin H → ℝ)
    (W2 : Fin H → Fin H → ℝ) (b2 g2 be2 : Fin H → ℝ) (W3 : Fin O → Fin H → ℝ) (b3 : Fin O → ℝ)
    (m1 m2 : Fin B → Fin H → ℝ) (e s : ℝ) : Fin B → Fin O → ℝ :=
  lin (bnDrop (lin (bnDrop (lin x W1 b1) g1 be1 m1 e s) W2 b2) g2 be2 m2 e s) W3 b3

/-- A matrix of extended reals whose entries are the coercions of a real matrix. -/
def Is2 {a b : ℕ} (A : (⟨2, ![a, b]⟩ : Shape).Idx → EReal) (X : Fin a → Fin b → ℝ) : Prop :=
  ∀ p q, A (ix2 p q) = (X p q : EReal)

/-- A vector of extended reals whose entries are the coercions of a real vector. -/
def Is1 {a : ℕ} (A : (⟨1, ![a]⟩ : Shape).Idx → EReal) (X : Fin a → ℝ) : Prop :=
  ∀ p, A (ix1 p) = (X p : EReal)

theorem Is2.eq {a b : ℕ} {A : (⟨2, ![a, b]⟩ : Shape).Idx → EReal} {X : Fin a → Fin b → ℝ} (h : Is2 A X) :
    A = fun i => (X (i 0) (i 1) : EReal) := by
  funext i; rw [eq_ix2 i]; exact h _ _

theorem Is1.eq {a : ℕ} {A : (⟨1, ![a]⟩ : Shape).Idx → EReal} {X : Fin a → ℝ} (h : Is1 A X) :
    A = fun i => (X (i 0) : EReal) := by
  funext i; rw [eq_ix1 i]; exact h _

/-- Two matrices that are the same real matrix are equal. -/
theorem Is2.unique {a b : ℕ} {A A' : (⟨2, ![a, b]⟩ : Shape).Idx → EReal} {X : Fin a → Fin b → ℝ}
    (h : Is2 A X) (h' : Is2 A' X) : A = A' := h.eq.trans h'.eq.symm

end Cert.Spec

end
-- ==== Proof.Consts.lean ====
/-
  The single-precision constants the two programs spell, as the real numbers their bit patterns denote:
  0, the batch size 32768, the stabiliser ε = 10995116 / 2^40 (the nearest single to 10⁻⁵) and the
  factor s = 11983726 / 2^23 (the nearest single to 10/7).
-/
import Idealize.ShloMosaic.PureOps.Ideal

noncomputable section

namespace Cert.Consts

open Idealize.ShloMosaic

/-- The stabiliser added to a variance. -/
def eps : ℝ := 10995116 / 2 ^ 40

/-- The constant factor applied after the mask. -/
def scl : ℝ := 11983726 / 2 ^ 23

theorem eps_pos : 0 < eps := by unfold eps; positivity

theorem ofBits_zero : Ideal.ofBits .f32 0x00000000#32 = 0 := by
  simp [Ideal.ofBits, Ideal.ieee]

theorem ofBits_batch : Ideal.ofBits .f32 0x47000000#32 = ((32768 : ℝ) : EReal) := by
  simp [Ideal.ofBits, Ideal.ieee, -EReal.coe_mul]; norm_num

theorem ofBits_eps : Ideal.ofBits .f32 0x3727C5AC#32 = ((eps : ℝ) : EReal) := by
  simp [Ideal.ofBits, Ideal.ieee, -EReal.coe_mul, eps]; norm_num

theorem ofBits_scl : Ideal.ofBits .f32 0x3FB6DB6E#32 = ((scl : ℝ) : EReal) := by
  simp [Ideal.ofBits, Ideal.ieee, -EReal.coe_mul, scl]; norm_num

end Cert.Consts

end
-- ==== Proof.LibBatchNorm.lean ====
/-
  Training-mode batch normalisation followed by a rectifier, over the extended reals, for a
  column of finite entries, written in two ways.

  For `h : Fin n → ℝ` with `n > 0`: the mean is `(∑ h) / n`, the (biased) variance is
  `(∑ (h k - mean)²) / n ≥ 0`, and `(∑ h²) / n - mean² = variance` (the divisor has to be exactly
  `n`), so the maximum of that difference with `0` is the variance again. With `e > 0` the sum
  `variance + e` is positive, so its reciprocal square root is the real `(√(variance + e))⁻¹`.
  Finally `h · (g · inv) + (b - g · mean · inv) = g · (h - mean) · inv + b`.
  Every intermediate value is a finite real, so each extended-real operation is the coercion of
  the real one.
-/
import Idealize.ShloMosaic.PureOps.Ideal

open Idealize.ShloMosaic
open scoped BigOperators

noncomputable section

namespace Cert.LibBatchNorm

/-- The mean of a column. -/
def mean {n : ℕ} (h : Fin n → ℝ) : ℝ := (∑ k, h k) / n

/-- The biased variance of a column: the mean of the squared deviations. -/
def var {n : ℕ} (h : Fin n → ℝ) : ℝ := (∑ k, (h k - mean h) * (h k - mean h)) / n

/-- Batch normalisation with scale `g`, shift `b`, stabiliser `e`, then the rectifier. -/
def bnRelu {n : ℕ} (h : Fin n → ℝ) (g b e : ℝ) (i : Fin n) : ℝ :=
  max (g * (h i - mean h) * (Real.sqrt (var h + e))⁻¹ + b) 0

/-! ### General helpers -/

/-- The coercion of a finite real sum is the sum of the coercions. -/
theorem coe_sum {ι : Type*} (s : Finset ι) (f : ι → ℝ) :
    ((∑ k ∈ s, f k : ℝ) : EReal) = ∑ k ∈ s, (f k : EReal) := by
  classical
  refine Finset.induction_on s (by simp) ?_
  intro a s ha ih
  rw [Finset.sum_insert ha, Finset.sum_insert ha, EReal.coe_add, ih]

/-- The quotient of two reals, the divisor nonzero, is the coercion of the real quotient. -/
theorem div_coe_coe (a : ℝ) {y : ℝ} (hy : y ≠ 0) :
    Ideal.div (a : EReal) (y : EReal) = ((a / y : ℝ) : EReal) := by
  rw [Ideal.div_coe hy, ← EReal.coe_mul, mul_one_div]

/-- A sum of products of reals is the coercion of the real sum of products. -/
theorem sum_mul_coe {ι : Type*} [Fintype ι] (a w : ι → ℝ) :
    ∑ k, (a k : EReal) * (w k : EReal) = ((∑ k, a k * w k : ℝ) : EReal) := by
  rw [coe_sum]
  exact Finset.sum_congr rfl (fun k _ => (EReal.coe_mul _ _).symm)

/-- The maximum of two reals: the coercion is monotone. -/
theorem coe_max (a b : ℝ) : max (a : EReal) (b : EReal) = ((max a b : ℝ) : EReal) :=
  (EReal.coe_strictMono.monotone.map_max).symm

/-- The reciprocal square root of a positive real is the real `(√r)⁻¹`. -/
theorem rsqrt_pos_coe {r : ℝ} (hr : 0 < r) :
    Ideal.rsqrt (r : EReal) = (((Real.sqrt r)⁻¹ : ℝ) : EReal) := by
  rw [Ideal.rsqrt_coe, if_neg (not_lt.mpr hr.le), if_neg hr.ne']

/-! ### The statistics -/

/-- A variance is a mean of squares. -/
theorem var_nonneg {n : ℕ} (h : Fin n → ℝ) : 0 ≤ var h :=
  div_nonneg (Finset.sum_nonneg fun k _ => mul_self_nonneg _) (Nat.cast_nonneg n)

/-- Mean of the squares minus square of the mean is the variance. -/
theorem var_eq {n : ℕ} (hn : 0 < n) (h : Fin n → ℝ) :
    (∑ k, h k * h k) / n - mean h * mean h = var h := by
  have hN : (n : ℝ) ≠ 0 := Nat.cast_ne_zero.mpr hn.ne'
  have hS : ∑ k, h k = n * mean h := by
    unfold mean
    field_simp
  have hexp : ∑ k, (h k - mean h) * (h k - mean h)
      = (∑ k, h k * h k) - 2 * mean h * (n * mean h) + n * (mean h * mean h) := by
    have hk : ∀ k, (h k - mean h) * (h k - mean h)
        = h k * h k - 2 * mean h * h k + mean h * mean h := fun k => by ring
    simp only [hk, Finset.sum_add_distrib, Finset.sum_sub_distrib, ← Finset.mul_sum,
      Finset.sum_const, Finset.card_univ, Fintype.card_fin, nsmul_eq_mul]
    rw [hS]
    ring
  unfold var
  rw [hexp]
  field_simp
  ring

/-- The variance plus a positive stabiliser is positive. -/
theorem var_add_pos {n : ℕ} (h : Fin n → ℝ) {e : ℝ} (he : 0 < e) : 0 < var h + e :=
  add_pos_of_nonneg_of_pos (var_nonneg h) he

/-! ### The two written forms -/

/-- The first written form: the statistics as the sum and the sum of squares, the output as
    the affine map `h · scale + shift`. -/
theorem scaleShift_form {n : ℕ} (hn : 0 < n) (h : Fin n → ℝ) (g b e : ℝ) (he : 0 < e)
    (c eps z : EReal) (hc : c = ((n : ℝ) : EReal)) (heps : eps = (e : EReal)) (hz : z = 0)
    (i : Fin n) :
    let S : EReal := ∑ k, (h k : EReal)
    let Q : EReal := ∑ k, (h k : EReal) * (h k : EReal)
    let mu : EReal := Ideal.div S c
    let inv : EReal := Ideal.rsqrt (max (Ideal.div Q c - mu * mu) z + eps)
    max ((h i : EReal) * ((g : EReal) * inv) + ((b : EReal) - (g : EReal) * mu * inv)) z
      = ((bnRelu h g b e i : ℝ) : EReal) := by
  intro S Q mu inv
  subst hc heps hz
  have hN : (n : ℝ) ≠ 0 := Nat.cast_ne_zero.mpr hn.ne'
  have hS : S = ((∑ k, h k : ℝ) : EReal) := (coe_sum _ _).symm
  have hQ : Q = ((∑ k, h k * h k : ℝ) : EReal) := sum_mul_coe h h
  have hmu : mu = ((mean h : ℝ) : EReal) := by
    show Ideal.div S _ = _
    rw [hS, div_coe_coe _ hN]
    rfl
  have hinv : inv = (((Real.sqrt (var h + e))⁻¹ : ℝ) : EReal) := by
    show Ideal.rsqrt (max (Ideal.div Q _ - mu * mu) 0 + _) = _
    rw [hQ, hmu, div_coe_coe _ hN, ← EReal.coe_mul, ← EReal.coe_sub, var_eq hn h,
      ← EReal.coe_zero, coe_max, max_eq_left (var_nonneg h), ← EReal.coe_add,
      rsqrt_pos_coe (var_add_pos h he)]
  show max ((h i : EReal) * ((g : EReal) * inv) + ((b : EReal) - (g : EReal) * mu * inv)) 0 = _
  rw [hinv, hmu]
  have hreal : (h i : EReal) * ((g : EReal) * (((Real.sqrt (var h + e))⁻¹ : ℝ) : EReal))
      + ((b : EReal) - (g : EReal) * ((mean h : ℝ) : EReal) * (((Real.sqrt (var h + e))⁻¹ : ℝ) : EReal))
      = ((g * (h i - mean h) * (Real.sqrt (var h + e))⁻¹ + b : ℝ) : EReal) := by
    rw [← EReal.coe_mul, ← EReal.coe_mul, ← EReal.coe_mul, ← EReal.coe_mul, ← EReal.coe_sub,
      ← EReal.coe_add]
    congr 1
    ring
  rw [hreal, ← EReal.coe_zero, coe_max]
  rfl

/-- The second written form: the centred statistics. -/
theorem centred_form {n : ℕ} (hn : 0 < n) (h : Fin n → ℝ) (g b e : ℝ) (he : 0 < e)
    (c eps z : EReal) (hc : c = ((n : ℝ) : EReal)) (heps : eps = (e : EReal)) (hz : z = 0)
    (i : Fin n) :
    let S : EReal := ∑ k, (h k : EReal)
    let mu : EReal := Ideal.div S c
    let D : EReal := ∑ k, ((h k : EReal) - mu) * ((h k : EReal) - mu)
    max ((g : EReal) * ((h i : EReal) - mu) * Ideal.rsqrt (Ideal.div D c + eps) + (b : EReal)) z
      = ((bnRelu h g b e i : ℝ) : EReal) := by
  intro S mu D
  subst hc heps hz
  have hN : (n : ℝ) ≠ 0 := Nat.cast_ne_zero.mpr hn.ne'
  have hS : S = ((∑ k, h k : ℝ) : EReal) := (coe_sum _ _).symm
  have hmu : mu = ((mean h : ℝ) : EReal) := by
    show Ideal.div S _ = _
    rw [hS, div_coe_coe _ hN]
    rfl
  have hD : D = ((∑ k, (h k - mean h) * (h k - mean h) : ℝ) : EReal) := by
    show ∑ k, ((h k : EReal) - mu) * ((h k : EReal) - mu) = _
    rw [hmu, coe_sum]
    refine Finset.sum_congr rfl (fun k _ => ?_)
    rw [EReal.coe_mul, EReal.coe_sub]
  have hr : Ideal.rsqrt (Ideal.div D ((n : ℝ) : EReal) + (e : EReal))
      = (((Real.sqrt (var h + e))⁻¹ : ℝ) : EReal) := by
    rw [hD, div_coe_coe _ hN, ← EReal.coe_add]
    exact rsqrt_pos_coe (var_add_pos h he)
  rw [hr, hmu, ← EReal.coe_sub, ← EReal.coe_mul, ← EReal.coe_mul, ← EReal.coe_add,
    ← EReal.coe_zero, coe_max]
  rfl

/-- The two written forms have the same value. -/
theorem scaleShift_eq_centred {n : ℕ} (hn : 0 < n) (h : Fin n → ℝ) (g b e : ℝ) (he : 0 < e)
    (c eps z : EReal) (hc : c = ((n : ℝ) : EReal)) (heps : eps = (e : EReal)) (hz : z = 0)
    (i : Fin n) :
    let S : EReal := ∑ k, (h k : EReal)
    let Q : EReal := ∑ k, (h k : EReal) * (h k : EReal)
    let mu : EReal := Ideal.div S c
    let inv : EReal := Ideal.rsqrt (max (Ideal.div Q c - mu * mu) z + eps)
    let D : EReal := ∑ k, ((h k : EReal) - mu) * ((h k : EReal) - mu)
    max ((h i : EReal) * ((g : EReal) * inv) + ((b : EReal) - (g : EReal) * mu * inv)) z
      = max ((g : EReal) * ((h i : EReal) - mu) * Ideal.rsqrt (Ideal.div D c + eps) + (b : EReal)) z := by
  intro S Q mu inv D
  exact (scaleShift_form hn h g b e he c eps z hc heps hz i).trans
    (centred_form hn h g b e he c eps z hc heps hz i).symm

/-! ### The same three statements with the abbreviations written out -/

/-- The first written form, every intermediate value written out in place. -/
theorem scaleShift_form_inl {n : ℕ} (hn : 0 < n) (h : Fin n → ℝ) (g b e : ℝ) (he : 0 < e)
    (c eps z : EReal) (hc : c = ((n : ℝ) : EReal)) (heps : eps = (e : EReal)) (hz : z = 0)
    (i : Fin n) :
    max ((h i : EReal) * ((g : EReal)
          * Ideal.rsqrt (max (Ideal.div (∑ k, (h k : EReal) * (h k : EReal)) c
              - Ideal.div (∑ k, (h k : EReal)) c * Ideal.div (∑ k, (h k : EReal)) c) z + eps))
        + ((b : EReal) - (g : EReal) * Ideal.div (∑ k, (h k : EReal)) c
          * Ideal.rsqrt (max (Ideal.div (∑ k, (h k : EReal) * (h k : EReal)) c
              - Ideal.div (∑ k, (h k : EReal)) c * Ideal.div (∑ k, (h k : EReal)) c) z + eps))) z
      = ((bnRelu h g b e i : ℝ) : EReal) :=
  scaleShift_form hn h g b e he c eps z hc heps hz i

/-- The second written form, every intermediate value written out in place. -/
theorem centred_form_inl {n : ℕ} (hn : 0 < n) (h : Fin n → ℝ) (g b e : ℝ) (he : 0 < e)
    (c eps z : EReal) (hc : c = ((n : ℝ) : EReal)) (heps : eps = (e : EReal)) (hz : z = 0)
    (i : Fin n) :
    max ((g : EReal) * ((h i : EReal) - Ideal.div (∑ k, (h k : EReal)) c)
        * Ideal.rsqrt (Ideal.div (∑ k, ((h k : EReal) - Ideal.div (∑ k, (h k : EReal)) c)
            * ((h k : EReal) - Ideal.div (∑ k, (h k : EReal)) c)) c + eps) + (b : EReal)) z
      = ((bnRelu h g b e i : ℝ) : EReal) :=
  centred_form hn h g b e he c eps z hc heps hz i

/-- The two written forms, written out in place, have the same value. -/
theorem scaleShift_eq_centred_inl {n : ℕ} (hn : 0 < n) (h : Fin n → ℝ) (g b e : ℝ) (he : 0 < e)
    (c eps z : EReal) (hc : c = ((n : ℝ) : EReal)) (heps : eps = (e : EReal)) (hz : z = 0)
    (i : Fin n) :
    max ((h i : EReal) * ((g : EReal)
          * Ideal.rsqrt (max (Ideal.div (∑ k, (h k : EReal) * (h k : EReal)) c
              - Ideal.div (∑ k, (h k : EReal)) c * Ideal.div (∑ k, (h k : EReal)) c) z + eps))
        + ((b : EReal) - (g : EReal) * Ideal.div (∑ k, (h k : EReal)) c
          * Ideal.rsqrt (max (Ideal.div (∑ k, (h k : EReal) * (h k : EReal)) c
              - Ideal.div (∑ k, (h k : EReal)) c * Ideal.div (∑ k, (h k : EReal)) c) z + eps))) z
      = max ((g : EReal) * ((h i : EReal) - Ideal.div (∑ k, (h k : EReal)) c)
        * Ideal.rsqrt (Ideal.div (∑ k, ((h k : EReal) - Ideal.div (∑ k, (h k : EReal)) c)
            * ((h k : EReal) - Ideal.div (∑ k, (h k : EReal)) c)) c + eps) + (b : EReal)) z :=
  (scaleShift_form_inl hn h g b e he c eps z hc heps hz i).trans
    (centred_form_inl hn h g b e he c eps z hc heps hz i).symm

end Cert.LibBatchNorm
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.RefValueMath.lean ====
/-
  The reference's term is the real network.

  When the thirteen argument arrays are coercions of real arrays, every stage of the reference's term is the coercion
  of the corresponding real stage: a product against a transposed matrix is a finite sum of real products; a column
  sum from zero is the real column sum; division by the constant 32768 is real division; the divisor of the variance,
  32768 minus the converted integer zero, is 32768, which is positive, so the selection keeps the quotient; a variance
  is nonnegative, so variance plus the positive stabiliser is positive and its square root and the division by it are
  the real ones; maximum and products are pointwise.
-/
import proofs.«105324_j53815940219270_2_alg».proof.Proof.RefTerm
import proofs.«105324_j53815940219270_2_alg».proof.Proof.Spec
import proofs.«105324_j53815940219270_2_alg».proof.Proof.Consts
import proofs.«105324_j53815940219270_2_alg».proof.Proof.LibBatchNorm
import proofs.«105324_j53815940219270_2_alg».proof.Proof.LibPlainProduct
import Idealize.ShloMosaic.Lib.Pipeline.Value
import Idealize.ShloMosaic.Lib.ValueIdx

open Idealize.ShloMosaic Idealize.ShloMosaic.ValueIdx
open scoped BigOperators

noncomputable section

namespace Cert.ReferenceIdeal.RefValue

open Cert.ReferenceIdeal Cert.ReferenceIdeal.Gen Cert.Spec
open Cert.LibBatchNorm (coe_sum div_coe_coe sum_mul_coe coe_max)

/-! ## Repeated vectors and scalars at an index -/

/-- A vector made one row and repeated down `m` rows, at `(p, q)`, is the vector at `q`. -/
theorem row_apply {α : Type} {m n : Nat} (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2))
    (v : (⟨1, ![n]⟩ : Shape).Idx → α) (p : Fin m) (q : Fin n) :
    broadcastInDim ⟨2, ![m, n]⟩ ![0, 1] h2 (broadcastInDim ⟨2, ![1, n]⟩ ![1] h1 v) (ix2 p q) = v (ix1 q) := by
  have e2 := broadcastInDim_apply (![0, 1] : Fin 2 → Fin 2) h2 (broadcastInDim ⟨2, ![1, n]⟩ ![1] h1 v) (ix2 p q)
    (ix2 (0 : Fin 1) q) (by
      intro a
      match a with
      | ⟨0, _⟩ => rfl
      | ⟨1, _⟩ =>
        show q.val = if n = 1 then 0 else q.val
        split
        · have := q.isLt; omega
        · rfl)
  have e1 := broadcastInDim_apply (![1] : Fin 1 → Fin 2) h1 v (ix2 (0 : Fin 1) q) (ix1 q) (by
      intro a
      match a with
      | ⟨0, _⟩ =>
        show q.val = if n = 1 then 0 else q.val
        split
        · have := q.isLt; omega
        · rfl)
  exact e2.trans e1

theorem rowB_apply (v : FVec Ideal S512 .f32) (p : Fin 32768) (q : Fin 512) :
    RefTerm.rowB v (ix2 p q) = v (ix1 q) :=
  row_apply bcast_S512_S1x512_1 bcast_S1x512_S32768x512_0_1 v p q

/-! ## An affine layer -/

/-- A product against a transposed weight matrix plus a repeated row vector, of real arrays, is the real affine layer. -/
theorem lin_is {m k n : Nat} (d : DotDims ⟨2, ![m, k]⟩ ⟨2, ![k, n]⟩ ⟨2, ![m, n]⟩) (hd : d = DotDims.plain m k n)
    (ht : (⟨2, ![n, k]⟩ : Shape).Transposes ([1, 0] : List (Fin 2)) ⟨2, ![k, n]⟩)
    (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2))
    (x : FVec Ideal ⟨2, ![m, k]⟩ .f32) (w : FVec Ideal ⟨2, ![n, k]⟩ .f32) (b : FVec Ideal ⟨1, ![n]⟩ .f32)
    (X : Fin m → Fin k → ℝ) (W : Fin n → Fin k → ℝ) (Bv : Fin n → ℝ)
    (hx : Is2 x X) (hw : Is2 w W) (hb : Is1 b Bv) :
    Is2 (addf (Host.dotGeneral d none x (transpose ⟨2, ![k, n]⟩ [1, 0] w ht))
      (broadcastInDim ⟨2, ![m, n]⟩ ![0, 1] h2 (broadcastInDim ⟨2, ![1, n]⟩ ![1] h1 b))) (lin X W Bv) := by
  intro p q
  rw [addf_apply, Cert.PlainProduct.dotGeneral_plain_apply' d hd, row_apply, hb q]
  have hs : ∀ c : Fin k, x (ix2 p c) * transpose ⟨2, ![k, n]⟩ [1, 0] w ht (ix2 c q) = (X p c : EReal) * (W q c : EReal) := by
    intro c
    rw [hx p c, transpose_apply [1, 0] w ht (ix2 c q) (ix2 q c) (by
      intro a
      match a with
      | ⟨0, _⟩ => rfl
      | ⟨1, _⟩ => rfl), hw q c]
  rw [Finset.sum_congr rfl (fun c _ => hs c), sum_mul_coe, ← EReal.coe_add]
  rfl

theorem lin1_is {x : FVec Ideal S32768x784 .f32} {w : FVec Ideal S512x784 .f32} {b : FVec Ideal S512 .f32}
    {X : Fin 32768 → Fin 784 → ℝ} {W : Fin 512 → Fin 784 → ℝ} {Bv : Fin 512 → ℝ}
    (hx : Is2 x X) (hw : Is2 w W) (hb : Is1 b Bv) : Is2 (RefTerm.lin1 x w b) (lin X W Bv) :=
  lin_is _ rfl _ _ _ x w b X W Bv hx hw hb

theorem lin2_is {x : FVec Ideal S32768x512 .f32} {w : FVec Ideal S512x512 .f32} {b : FVec Ideal S512 .f32}
    {X : Fin 32768 → Fin 512 → ℝ} {W : Fin 512 → Fin 512 → ℝ} {Bv : Fin 512 → ℝ}
    (hx : Is2 x X) (hw : Is2 w W) (hb : Is1 b Bv) : Is2 (RefTerm.lin2 x w b) (lin X W Bv) :=
  lin_is _ rfl _ _ _ x w b X W Bv hx hw hb

theorem lin3_is {x : FVec Ideal S32768x512 .f32} {w : FVec Ideal S10x512 .f32} {b : FVec Ideal S10 .f32}
    {X : Fin 32768 → Fin 512 → ℝ} {W : Fin 10 → Fin 512 → ℝ} {Bv : Fin 10 → ℝ}
    (hx : Is2 x X) (hw : Is2 w W) (hb : Is1 b Bv) : Is2 (RefTerm.lin3 x w b) (lin X W Bv) :=
  lin_is _ rfl _ _ _ x w b X W Bv hx hw hb

/-! ## Column sums, means and variances -/

theorem batch_cast : ((32768 : ℕ) : ℝ) = 32768 := by norm_num

theorem batch_ne : (32768 : ℝ) ≠ 0 := by norm_num

/-- The column sum from zero, at column `q`, is the sum over the rows. -/
theorem colSum_apply (h : FVec Ideal S32768x512 .f32) (q : Fin 512) :
    RefTerm.colSum h (ix1 q) = ∑ r : Fin 32768, h (ix2 r q) := by
  have hR : S32768x512.Reduces [0] S512 := by decide
  show Ideal.hostReduceAdd reducesTo_S32768x512_S512_d0 h (Ideal.ofBits .f32 0x00000000#32) (ix1 q) = _
  rw [Ideal.hostReduceAdd_single reducesTo_S32768x512_S512_d0 hR, Consts.ofBits_zero, zero_add]
  refine Finset.sum_congr rfl fun r _ => congrArg h ?_
  funext a
  match a with
  | ⟨0, _⟩ => rfl
  | ⟨1, _⟩ => rfl

/-- The column sums of a real array. -/
theorem colSum_is {h : FVec Ideal S32768x512 .f32} {H : Fin 32768 → Fin 512 → ℝ} (hh : Is2 h H) (q : Fin 512) :
    RefTerm.colSum h (ix1 q) = ((∑ r, H r q : ℝ) : EReal) := by
  rw [colSum_apply, coe_sum]
  exact Finset.sum_congr rfl fun r _ => hh r q

/-- The column means of a real array. -/
theorem meanOf_is {h : FVec Ideal S32768x512 .f32} {H : Fin 32768 → Fin 512 → ℝ} (hh : Is2 h H) :
    Is1 (RefTerm.meanOf h) (mean H) := by
  intro q
  show Ideal.div (RefTerm.colSum h (ix1 q)) (Ideal.ofBits .f32 0x47000000#32) = _
  rw [colSum_is hh, Consts.ofBits_batch, div_coe_coe _ batch_ne]
  unfold mean
  rw [batch_cast]

/-- The divisor of the variance is the batch size. -/
theorem cnt_apply (i : S_.Idx) : RefTerm.cnt (F := Ideal) i = ((32768 : ℝ) : EReal) := by
  show Ideal.ofBits .f32 0x47000000#32 - (((0#32 : BitVec 32).toInt : ℝ) : EReal) = _
  rw [Consts.ofBits_batch]
  simp

/-- The deviations from the column mean of a real array. -/
theorem centred_is {h : FVec Ideal S32768x512 .f32} {H : Fin 32768 → Fin 512 → ℝ} (hh : Is2 h H) (r : Fin 32768) (q : Fin 512) :
    RefTerm.centred h (ix2 r q) = ((H r q - mean H q : ℝ) : EReal) := by
  unfold RefTerm.centred
  rw [subf_apply, hh r q,
    broadcastInDim_apply (![0, 1] : Fin 2 → Fin 2) bcast_S1x512_S32768x512_0_1 _ (ix2 r q) (ix2 (0 : Fin 1) q) (by
      intro a
      match a with
      | ⟨0, _⟩ => rfl
      | ⟨1, _⟩ => rfl)]
  show (H r q : EReal) - Ideal.div (broadcastInDim S1x512 ![1] bcast_S512_S1x512_1 (RefTerm.colSum h) (ix2 (0 : Fin 1) q))
    (Ideal.ofBits .f32 0x47000000#32) = _
  rw [broadcastInDim_apply (![1] : Fin 1 → Fin 2) bcast_S512_S1x512_1 _ (ix2 (0 : Fin 1) q) (ix1 q) (by
      intro a
      match a with
      | ⟨0, _⟩ => rfl), colSum_is hh, Consts.ofBits_batch, div_coe_coe _ batch_ne, ← EReal.coe_sub]
  unfold mean
  rw [batch_cast]

/-- The column variances of a real array. -/
theorem varOf_is {h : FVec Ideal S32768x512 .f32} {H : Fin 32768 → Fin 512 → ℝ} (hh : Is2 h H) :
    Is1 (RefTerm.varOf h) (var H) := by
  intro q
  unfold RefTerm.varOf
  rw [select_apply]
  have hc : broadcastInDim S512 ![] bcast_S_S512 (cmpf .ogt (RefTerm.cnt (F := Ideal)) (constant S_ .f32 0x00000000#32)) (ix1 q) = 1#1 := by
    show Ideal.cmp .ogt (RefTerm.cnt (F := Ideal) _) (Ideal.ofBits .f32 0x00000000#32) = 1#1
    rw [cnt_apply, Consts.ofBits_zero]
    have : (0 : EReal) < ((32768 : ℝ) : EReal) := by exact_mod_cast (by norm_num : (0 : ℝ) < 32768)
    simp [Ideal.cmp, this]
  rw [hc, select_one]
  show Ideal.div (RefTerm.colSum (mulf (RefTerm.centred h) (RefTerm.centred h)) (ix1 q)) (RefTerm.cnt (F := Ideal) _) = _
  have hsq : Is2 (mulf (RefTerm.centred h) (RefTerm.centred h)) (fun r j => (H r j - mean H j) * (H r j - mean H j)) := by
    intro r j
    rw [mulf_apply, centred_is hh, ← EReal.coe_mul]
  rw [colSum_is hsq, cnt_apply, div_coe_coe _ batch_ne]
  unfold var
  rw [batch_cast]

/-! ## The normalised activation -/

theorem fullS_const (b : BitVec 32) (i : S32768x512.Idx) :
    RefTerm.fullS (F := Ideal) (constant S_ .f32 b) i = Ideal.ofBits .f32 b := rfl

theorem colS_const (b : BitVec 32) (i : S512.Idx) :
    RefTerm.colS (F := Ideal) (constant S_ .f32 b) i = Ideal.ofBits .f32 b := rfl

/-- Normalisation by the column means and variances of a real array, with real scale, shift and mask. -/
theorem bnDrop_is {h : FVec Ideal S32768x512 .f32} {g be : FVec Ideal S512 .f32} {mk : FVec Ideal S32768x512 .f32}
    {H : Fin 32768 → Fin 512 → ℝ} {G Be : Fin 512 → ℝ} {M : Fin 32768 → Fin 512 → ℝ}
    (hh : Is2 h H) (hg : Is1 g G) (hbe : Is1 be Be) (hm : Is2 mk M) :
    Is2 (RefTerm.act h g be mk) (bnDrop H G Be M Consts.eps Consts.scl) := by
  intro p q
  have hv : 0 ≤ var H q := div_nonneg (Finset.sum_nonneg fun k _ => mul_self_nonneg _) (Nat.cast_nonneg _)
  have hpos : 0 < var H q + Consts.eps := add_pos_of_nonneg_of_pos hv Consts.eps_pos
  have hsq : Real.sqrt (var H q + Consts.eps) ≠ 0 := (Real.sqrt_pos.mpr hpos).ne'
  unfold RefTerm.act RefTerm.bnDrop
  rw [mulf_apply, mulf_apply, maximumf_apply, addf_apply, mulf_apply, fullS_const, fullS_const, rowB_apply, rowB_apply,
    hg q, hbe q, hm p q, Consts.ofBits_zero, Consts.ofBits_scl]
  show max (Ideal.div (subf h (RefTerm.rowB (RefTerm.meanOf h)) (ix2 p q))
      (RefTerm.rowB (Host.sqrt (addf (RefTerm.varOf h) (RefTerm.colS (constant S_ .f32 0x3727C5AC#32)))) (ix2 p q)) * (G q : EReal)
        + (Be q : EReal)) 0 * (M p q : EReal) * (Consts.scl : EReal) = _
  rw [subf_apply, rowB_apply, rowB_apply, hh p q, meanOf_is hh q]
  show max (Ideal.div ((H p q : EReal) - (mean H q : EReal))
      (Ideal.sqrt (RefTerm.varOf h (ix1 q) + Ideal.ofBits .f32 0x3727C5AC#32)) * (G q : EReal)
        + (Be q : EReal)) 0 * (M p q : EReal) * (Consts.scl : EReal) = _
  rw [varOf_is hh q, Consts.ofBits_eps, ← EReal.coe_add, Ideal.sqrt_coe, if_neg (not_lt.mpr hpos.le), ← EReal.coe_sub,
    div_coe_coe _ hsq, ← EReal.coe_mul, ← EReal.coe_add, ← EReal.coe_zero, coe_max, ← EReal.coe_mul, ← EReal.coe_mul]
  unfold bnDrop
  rw [div_eq_mul_inv]

/-! ## The whole network -/

/-- The reference's term of thirteen real arrays is the real network. -/
theorem out_is {x : FVec Ideal S32768x784 .f32} {w1 : FVec Ideal S512x784 .f32} {b1 g1 be1 : FVec Ideal S512 .f32}
    {w2 : FVec Ideal S512x512 .f32} {b2 g2 be2 : FVec Ideal S512 .f32} {w3 : FVec Ideal S10x512 .f32} {b3 : FVec Ideal S10 .f32}
    {m1 m2 : FVec Ideal S32768x512 .f32}
    {X : Fin 32768 → Fin 784 → ℝ} {W1 : Fin 512 → Fin 784 → ℝ} {B1 G1 Be1 : Fin 512 → ℝ}
    {W2 : Fin 512 → Fin 512 → ℝ} {B2 G2 Be2 : Fin 512 → ℝ} {W3 : Fin 10 → Fin 512 → ℝ} {B3 : Fin 10 → ℝ}
    {M1 M2 : Fin 32768 → Fin 512 → ℝ}
    (hx : Is2 x X) (hw1 : Is2 w1 W1) (hb1 : Is1 b1 B1) (hg1 : Is1 g1 G1) (hbe1 : Is1 be1 Be1)
    (hw2 : Is2 w2 W2) (hb2 : Is1 b2 B2) (hg2 : Is1 g2 G2) (hbe2 : Is1 be2 Be2)
    (hw3 : Is2 w3 W3) (hb3 : Is1 b3 B3) (hm1 : Is2 m1 M1) (hm2 : Is2 m2 M2) :
    Is2 (RefTerm.out x w1 b1 g1 be1 w2 b2 g2 be2 w3 b3 m1 m2)
      (net X W1 B1 G1 Be1 W2 B2 G2 Be2 W3 B3 M1 M2 Consts.eps Consts.scl) :=
  lin3_is (bnDrop_is (lin2_is (bnDrop_is (lin1_is hx hw1 hb1) hg1 hbe1 hm1) hw2 hb2) hg2 hbe2 hm2) hw3 hb3

end Cert.ReferenceIdeal.RefValue

end
-- ==== Proof.RefValue.lean ====
/-
  The reference's run ends at the real network.

  From a memory whose thirteen argument arrays are coercions of real arrays, every weakly fair execution of the
  reference terminates with its result array the coercion of the real network of those arrays, and with the
  argument arrays unchanged: the run read back as a pure term of the arguments, and that term read stage by stage
  over the reals.
-/
import proofs.«105324_j53815940219270_2_alg».proof.Proof.RefRun
import proofs.«105324_j53815940219270_2_alg».proof.Proof.RefValueMath

open Idealize.ShloMosaic Idealize.ShloMosaic.TcCoe Idealize.SL.Sem

noncomputable section

namespace Cert.ReferenceIdeal.RefValue

open Cert.ReferenceIdeal Cert.ReferenceIdeal.Gen Cert

/-- The reference, run from real arguments, ends holding the real network, its arguments unchanged. -/
theorem run_net (x : Fin 32768 → Fin 784 → ℝ) (W1 : Fin 512 → Fin 784 → ℝ) (b1 g1 be1 : Fin 512 → ℝ)
    (W2 : Fin 512 → Fin 512 → ℝ) (b2 g2 be2 : Fin 512 → ℝ) (W3 : Fin 10 → Fin 512 → ℝ) (b3 : Fin 10 → ℝ)
    (m1 m2 : Fin 32768 → Fin 512 → ℝ)
    (m : (ℓ : Loc nD τ sig) → Buf (Elt Ideal) ℓ) (ρ : Dev nD → PrngReg)
    (hyps : ∀ c : Dev nD,
      Spec.Is2 (m ((c.tc : Thread nD τ).loc main_arg0)) x
      ∧ Spec.Is2 (m ((c.tc : Thread nD τ).loc main_arg1)) W1
      ∧ Spec.Is1 (m ((c.tc : Thread nD τ).loc main_arg2)) b1
      ∧ Spec.Is1 (m ((c.tc : Thread nD τ).loc main_arg3)) g1
      ∧ Spec.Is1 (m ((c.tc : Thread nD τ).loc main_arg4)) be1
      ∧ Spec.Is2 (m ((c.tc : Thread nD τ).loc main_arg5)) W2
      ∧ Spec.Is1 (m ((c.tc : Thread nD τ).loc main_arg6)) b2
      ∧ Spec.Is1 (m ((c.tc : Thread nD τ).loc main_arg7)) g2
      ∧ Spec.Is1 (m ((c.tc : Thread nD τ).loc main_arg8)) be2
      ∧ Spec.Is2 (m ((c.tc : Thread nD τ).loc main_arg9)) W3
      ∧ Spec.Is1 (m ((c.tc : Thread nD τ).loc main_arg10)) b3
      ∧ Spec.Is2 (m ((c.tc : Thread nD τ).loc main_arg11)) m1
      ∧ Spec.Is2 (m ((c.tc : Thread nD τ).loc main_arg12)) m2) :
    θ_run Cert.ReferenceIdeal.defs (onTc (τ := τ) (main (F := Ideal))) ⟨m, fun _ => 0, ρ⟩ fun r => ∀ c : Dev nD,
      Spec.Is2 (r.2.mem ((c.tc : Thread nD τ).loc main_v62)) (Spec.net x W1 b1 g1 be1 W2 b2 g2 be2 W3 b3 m1 m2 Consts.eps Consts.scl)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run Cert.ReferenceIdeal.defs _ _).mono (fun _ h c => by
      obtain ⟨h0, h1, h2, h3, h4, h5, h6, h7, h8, h9, h10, h11, h12⟩ := hyps c
      obtain ⟨hv, hkeep⟩ := h c
      refine ⟨?_, hkeep⟩
      rw [hv]
      exact out_is h0 h1 h2 h3 h4 h5 h6 h7 h8 h9 h10 h11 h12)
    (RefRun.run (F := Ideal) m ρ)

end Cert.ReferenceIdeal.RefValue

end
-- ==== Proof.LibFinite.lean ====
/-
  Real-valuedness inside the extended reals, and the operations that keep it.

  An extended real is REAL when it is the image of a real number, i.e. it is neither of the two infinities.  The
  distributive law `x * (a + b) = x * a + x * b` holds on the extended reals only off the infinities, so a proof that
  regroups sums of products first has to know that everything in sight is real.  This file collects the closure facts:
  sums, products, maxima, negations, finite sums and quotients by a real that is at least one stay real; an accumulating
  scatter of real updates into a real operand is real at every index, and so is any gather of a real operand (a gathered
  element is an element of the operand); the mean of a segment — an accumulated sum divided by a count clamped from
  below by one — is real; and a product of a real row with a sum of two or three real rows distributes.
-/
import Idealize.ShloMosaic.Lib.ValueIdx
import Idealize.ShloMosaic.Lib.IdealHost
import Idealize.ShloMosaic.Lib.KernelVsHost

noncomputable section

open scoped BigOperators

namespace Cert.Finite

open Idealize.ShloMosaic

/-! ## Real extended reals -/

/-- An extended real is real when it is the image of a real number. -/
def IsReal (x : EReal) : Prop := ∃ r : ℝ, x = (r : EReal)

theorem isReal_coe (r : ℝ) : IsReal (r : EReal) := ⟨r, rfl⟩

/-- Real means: neither infinity. -/
theorem isReal_iff (x : EReal) : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | coe r => exact ⟨r, rfl⟩
    | top => exact absurd rfl ht

theorem IsReal.ne_top {x : EReal} (h : IsReal x) : x ≠ ⊤ := ((isReal_iff x).mp h).2

theorem IsReal.ne_bot {x : EReal} (h : IsReal x) : x ≠ ⊥ := ((isReal_iff x).mp h).1

/-- Strictly between the infinities means real. -/
theorem isReal_of_lt {x : EReal} (hb : ⊥ < x) (ht : x < ⊤) : IsReal x :=
  (isReal_iff x).mpr ⟨ne_of_gt hb, ne_of_lt ht⟩

theorem isReal_zero : IsReal 0 := ⟨0, EReal.coe_zero.symm⟩

theorem isReal_one : IsReal 1 := ⟨1, EReal.coe_one.symm⟩

/-- The single-precision pattern of all zeros is the real zero. -/
theorem isReal_ofBits_zero_f32 : IsReal (Ideal.ofBits .f32 0x00000000#32) := by
  rw [Ideal.ofBits_zero_f32]; exact isReal_zero

/-- The single-precision pattern `0x3F800000` is the real one. -/
theorem isReal_ofBits_one_f32 : IsReal (Ideal.ofBits .f32 0x3F800000#32) := by
  rw [Ideal.ofBits_one_f32]; exact isReal_one

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.neg {a : EReal} (ha : IsReal a) : IsReal (-a) := by
  obtain ⟨r, rfl⟩ := ha
  exact ⟨-r, (EReal.coe_neg r).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The larger of two reals is one of them. -/
theorem IsReal.max {a b : EReal} (ha : IsReal a) (hb : IsReal b) : IsReal (max a b) := by
  rcases le_total a b with h | h
  · rw [max_eq_right h]; exact hb
  · rw [max_eq_left h]; exact ha

/-- The smaller of two reals is one of them. -/
theorem IsReal.min {a b : EReal} (ha : IsReal a) (hb : IsReal b) : IsReal (min a b) := by
  rcases le_total a b with h | h
  · rw [min_eq_left h]; exact ha
  · rw [min_eq_right h]; exact hb

/-- A finite sum of reals is real. -/
theorem IsReal.sum {ι : Type*} (S : Finset ι) (f : ι → EReal) (h : ∀ k ∈ S, IsReal (f k)) :
    IsReal (∑ k ∈ S, f k) := by
  classical
  induction S using Finset.induction_on with
  | empty => rw [Finset.sum_empty]; exact isReal_zero
  | insert a S ha ih =>
    rw [Finset.sum_insert ha]
    exact (h a (Finset.mem_insert_self a S)).add (ih fun k hk => h k (Finset.mem_insert_of_mem hk))

/-- A sum of reals over a whole finite type is real. -/
theorem IsReal.sum_univ {ι : Type*} [Fintype ι] (f : ι → EReal) (h : ∀ k, IsReal (f k)) : IsReal (∑ k, f k) :=
  IsReal.sum Finset.univ f fun k _ => h k

/-- A sum of reals over `Fin n` is real. -/
theorem IsReal.sum_fin {n : Nat} (f : Fin n → EReal) (h : ∀ k, IsReal (f k)) : IsReal (∑ k : Fin n, f k) :=
  IsReal.sum_univ f h

/-- A real divided by a real that is at least one is real: the divisor is a nonzero real, and division by a nonzero
    real is the product with its reciprocal. -/
theorem IsReal.div {a b : EReal} (ha : IsReal a) (hb : IsReal b) (h1 : 1 ≤ b) : IsReal (Ideal.div a b) := by
  obtain ⟨r, rfl⟩ := ha
  obtain ⟨s, rfl⟩ := hb
  have hs1 : (1 : ℝ) ≤ s := by exact_mod_cast h1
  have hs : s ≠ 0 := by linarith
  rw [Ideal.div_coe hs]
  exact ⟨r * (1 / s), (EReal.coe_mul r (1 / s)).symm⟩

/-- A real divided by a real count clamped from below by one is real. -/
theorem isReal_div_max_one {a d : EReal} (ha : IsReal a) (hd : IsReal d) : IsReal (Ideal.div a (max d 1)) :=
  ha.div (hd.max isReal_one) (le_max_right d 1)

/-- The same with the one spelled as its single-precision pattern: THE SEGMENT MEAN IS REAL. -/
theorem isReal_div_max_ofBits_one {a d : EReal} (ha : IsReal a) (hd : IsReal d) :
    IsReal (Ideal.div a (max d (Ideal.ofBits .f32 0x3F800000#32))) := by
  rw [Ideal.ofBits_one_f32]; exact isReal_div_max_one ha hd

/-! ## The accumulating scatter and the gather keep realness -/

/-- An accumulating scatter read at an index: the operand's element plus the sum of the updates that land there. -/
theorem scatterAdd_apply {s si u : Shape} {φ : FTy} {w : Nat} (d : ScatterDims s si u) (x : FVec Ideal s φ)
    (idx : IVec si w) (upd : FVec Ideal u φ) (i : s.Idx) :
    Host.scatterAdd d x idx upd i
      = x i + ∑ j ∈ Finset.univ.filter (fun j => d.resultIdx? j idx = some i), upd j := by
  simp only [Host.scatterAdd, Ideal.hostScatterAdd_def, Ideal.hostScatterAdd]

/-- An accumulating scatter of real updates into a real operand is real at every index, whatever the dimension
    numbers and the indices: each element is the operand's plus a finite sum of updates. -/
theorem scatterAdd_isReal {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) := by
  rw [scatterAdd_apply]
  exact (hx i).add (IsReal.sum _ _ fun j _ => hu j)

/-- Scattering ones into zeros counts: every element is a nonnegative real (the number of updates landing there). -/
theorem scatterAdd_count_nonneg {s si u : Shape} {φ : FTy} {w : Nat} (d : ScatterDims s si u) (x : FVec Ideal s φ)
    (idx : IVec si w) (upd : FVec Ideal u φ) (hx : ∀ i, x i = 0) (hu : ∀ j, upd j = 1) (i : s.Idx) :
    0 ≤ Host.scatterAdd d x idx upd i := by
  rw [scatterAdd_apply, hx i, zero_add]
  exact Finset.sum_nonneg fun j _ => by rw [hu j]; exact zero_le_one

/-- The count is real … -/
theorem scatterAdd_count_isReal {s si u : Shape} {φ : FTy} {w : Nat} (d : ScatterDims s si u) (x : FVec Ideal s φ)
    (idx : IVec si w) (upd : FVec Ideal u φ) (hx : ∀ i, x i = 0) (hu : ∀ j, upd j = 1) (i : s.Idx) :
    IsReal (Host.scatterAdd d x idx upd i) :=
  scatterAdd_isReal d x idx upd (fun i => by rw [hx i]; exact isReal_zero) (fun j => by rw [hu j]; exact isReal_one) i

/-- … and clamped from below by one it is a real that is at least one: a divisor that keeps quotients real. -/
theorem scatterAdd_count_max_one {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (max (Host.scatterAdd d x idx upd i) 1) ∧ 1 ≤ max (Host.scatterAdd d x idx upd i) 1 :=
  ⟨(scatterAdd_isReal d x idx upd hx hu i).max isReal_one, le_max_right _ _⟩

/-- A gather of a real operand is real at every index, whatever the dimension numbers and the start indices: a
    gathered element is an element of the operand. -/
theorem gather_isReal {s si t : Shape} {w : Nat} (d : GatherDims s si t) (x : s.Idx → EReal) (idx : IVec si w)
    (hx : ∀ i, IsReal (x i)) (j : t.Idx) : IsReal (Host.gather d x idx j) := by
  unfold Host.gather
  exact hx _

/-- THE SEGMENT MEAN IS REAL, assembled: gather rows of a real matrix, accumulate them into a real accumulator, and
    divide by a real count clamped from below by one (spelled with the pattern of one). -/
theorem segment_mean_isReal {s si t s' si' u' : Shape} {φ : FTy} {w w' : Nat}
    (g : GatherDims s si t) (X : s.Idx → EReal) (idx1 : IVec si w)
    {si2 : Shape} {w2 : Nat} {sa : Shape} (d2 : ScatterDims sa si2 t) (Z : FVec Ideal sa φ) (idx2 : IVec si2 w2)
    (d1 : ScatterDims s' si' u') (Z1 : FVec Ideal s' φ) (idx1' : IVec si' w') (Ones : FVec Ideal u' φ)
    (hX : ∀ i, IsReal (X i)) (hZ : ∀ i, IsReal (Z i)) (hZ1 : ∀ i, IsReal (Z1 i)) (hOnes : ∀ j, IsReal (Ones j))
    (i : sa.Idx) (n : s'.Idx) :
    IsReal (Ideal.div (Host.scatterAdd d2 Z idx2 (Host.gather g X idx1 : FVec Ideal t φ) i)
      (max (Host.scatterAdd d1 Z1 idx1' Ones n) (Ideal.ofBits .f32 0x3F800000#32))) :=
  isReal_div_max_ofBits_one
    (scatterAdd_isReal d2 Z idx2 _ hZ (gather_isReal g X idx1 hX) i)
    (scatterAdd_isReal d1 Z1 idx1' Ones hZ1 hOnes n)

/-! ## Distributivity over real summands -/

/-- A real times a sum of two reals distributes. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add, mul_add]

/-- A real times a sum of three reals distributes. -/
theorem mul_add_add_of_isReal {x a b c : EReal} (hx : IsReal x) (ha : IsReal a) (hb : IsReal b) (hc : IsReal c) :
    x * ((a + b) + c) = x * a + x * b + x * c := by
  rw [mul_add_of_isReal hx (ha.add hb) hc, mul_add_of_isReal hx ha hb]

/-- A row product with a sum of two real weight rows is the sum of the two row products. -/
theorem sum_mul_add {ι : Type*} (S : Finset ι) (x a b : ι → EReal)
    (hx : ∀ k, IsReal (x k)) (ha : ∀ k, IsReal (a k)) (hb : ∀ k, IsReal (b k)) :
    ∑ k ∈ S, x k * (a k + b k) = (∑ k ∈ S, x k * a k) + (∑ k ∈ S, x k * b k) := by
  rw [← Finset.sum_add_distrib]
  exact Finset.sum_congr rfl fun k _ => mul_add_of_isReal (hx k) (ha k) (hb k)

/-- A ROW PRODUCT WITH A SUM OF THREE REAL WEIGHT ROWS is the sum of the three row products. -/
theorem sum_mul_add_add {ι : Type*} (S : Finset ι) (x a b c : ι → EReal)
    (hx : ∀ k, IsReal (x k)) (ha : ∀ k, IsReal (a k)) (hb : ∀ k, IsReal (b k)) (hc : ∀ k, IsReal (c k)) :
    ∑ k ∈ S, x k * ((a k + b k) + c k)
      = (∑ k ∈ S, x k * a k) + (∑ k ∈ S, x k * b k) + (∑ k ∈ S, x k * c k) := by
  rw [← Finset.sum_add_distrib, ← Finset.sum_add_distrib]
  exact Finset.sum_congr rfl fun k _ => mul_add_add_of_isReal (hx k) (ha k) (hb k) (hc k)

/-- The same over `Fin K`. -/
theorem sum_fin_mul_add_add {K : Nat} (x a b c : Fin K → EReal)
    (hx : ∀ k, IsReal (x k)) (ha : ∀ k, IsReal (a k)) (hb : ∀ k, IsReal (b k)) (hc : ∀ k, IsReal (c k)) :
    ∑ k, x k * ((a k + b k) + c k) = (∑ k, x k * a k) + (∑ k, x k * b k) + (∑ k, x k * c k) :=
  sum_mul_add_add Finset.univ x a b c hx ha hb hc

/-- The same over `Fin K`, for two rows. -/
theorem sum_fin_mul_add {K : Nat} (x a b : Fin K → EReal)
    (hx : ∀ k, IsReal (x k)) (ha : ∀ k, IsReal (a k)) (hb : ∀ k, IsReal (b k)) :
    ∑ k, x k * (a k + b k) = (∑ k, x k * a k) + (∑ k, x k * b k) :=
  sum_mul_add Finset.univ x a b hx ha hb

end Cert.Finite

end
-- ==== Proof.LibFiniteInputs.lean ====
/-
  What a finite-inputs precondition gives.

  A test "every entry x of the array has |x| < +∞" is computed as a reduction by "and", over all the array's axes,
  of the entrywise comparison of |x| = max x (-x) with the pattern of +∞. Over the extended reals |x| is +∞ at both
  infinities and nowhere else, so the comparison holds at an entry exactly when the entry is a real number; and a
  reduction by "and" into a single value that comes out true had a true at every entry. Hence: every entry of an
  array whose all-entries test |x| < +∞ holds is a real number. A conjunction of several such tests, computed as a
  pointwise "and" of one-entry arrays, holds only when each of them does.
-/
import Mathlib
import Idealize.ShloMosaic.Lib.ReduceAll
import Idealize.ShloMosaic.Lib.ValueIdx
import Idealize.ShloMosaic.PureOps.Ideal
import proofs.«105324_j53815940219270_2_alg».proof.Proof.LibFinite

noncomputable section

namespace Cert.Lib.FiniteInputs

open Idealize.ShloMosaic Idealize.ShloMosaic.ValueIdx
open Cert.Finite

/-- The shape with no axes has one index. -/
instance subsingleton_scalar_idx : Subsingleton (⟨0, ![]⟩ : Shape).Idx := ⟨fun a b => funext fun d => d.elim0⟩

/-- The single-precision pattern 0x7F800000 (sign zero, exponent field all ones, fraction zero) denotes +∞. -/
theorem ofBits_inf : Ideal.ofBits .f32 0x7F800000#32 = (⊤ : EReal) := by
  simp [Ideal.ofBits, Ideal.ieee]

/-- An extended real whose absolute value max x (-x) is strictly below +∞ is a real number: at either infinity the
    absolute value is +∞ itself. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact isReal_coe r
  | top => simp [Ideal.cmp] at h

/-- One all-entries test, over an array of any shape: if the reduction by "and", over all the axes, of the entrywise
    comparison |x| < +∞ is true, every entry of the array is a real number. -/
theorem all_real {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (e : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu ix0 = 1#1)
    (i : s.Idx) : IsReal (x i) :=
  isReal_of_abs_lt_inf (x i) (Host.reduce_andi_all _ _ hr hu ix0 e i)

/-- A pointwise "and" of two one-entry arrays is true only when both are. -/
theorem and_scalar (A B : IVec (⟨0, ![]⟩ : Shape) 1) (h : andi A B ix0 = 1#1) : A ix0 = 1#1 ∧ B ix0 = 1#1 :=
  IntOp.andi_eq_one.1 h

end Cert.Lib.FiniteInputs

end
-- ==== Proof.FiniteArgs.lean ====
/-
  From the precondition to real arrays.

  The precondition is the conjunction, over the thirteen argument arrays, of the tests "every entry has absolute value
  below +∞". Each conjunct makes every entry of its array a real number, so each argument array is the coercion of
  a real array: the array of its entries' real parts.
-/
import proofs.«105324_j53815940219270_2_alg».proof.Pre_finite_inputs
import proofs.«105324_j53815940219270_2_alg».proof.Proof.LibFiniteInputs
import proofs.«105324_j53815940219270_2_alg».proof.Proof.Spec

noncomputable section

namespace Cert.FiniteArgs

open Idealize.ShloMosaic Idealize.ShloMosaic.ValueIdx Cert.Finite Cert.Lib.FiniteInputs Cert.Spec

/-- A matrix of real entries is the coercion of the matrix of its real parts. -/
theorem is2_of_real {a b : ℕ} (A : (⟨2, ![a, b]⟩ : Shape).Idx → EReal) (h : ∀ i, IsReal (A i)) :
    Is2 A (fun p q => (A (ix2 p q)).toReal) := by
  intro p q
  obtain ⟨r, hr⟩ := h (ix2 p q)
  show A (ix2 p q) = ((A (ix2 p q)).toReal : EReal)
  rw [hr, EReal.toReal_coe]

/-- A vector of real entries is the coercion of the vector of its real parts. -/
theorem is1_of_real {a : ℕ} (A : (⟨1, ![a]⟩ : Shape).Idx → EReal) (h : ∀ i, IsReal (A i)) :
    Is1 A (fun p => (A (ix1 p)).toReal) := by
  intro p
  obtain ⟨r, hr⟩ := h (ix1 p)
  show A (ix1 p) = ((A (ix1 p)).toReal : EReal)
  rw [hr, EReal.toReal_coe]

open Cert.Pre_finite_inputs in
/-- Under the precondition every entry of every argument array is a real number. -/
theorem real_of_pre [Cert.Pre_finite_inputs.Facts]
    (a0 : FVec Ideal S32768x784 .f32) (a1 : FVec Ideal S512x784 .f32) (a2 a3 a4 : FVec Ideal S512 .f32)
    (a5 : FVec Ideal S512x512 .f32) (a6 a7 a8 : FVec Ideal S512 .f32) (a9 : FVec Ideal S10x512 .f32)
    (a10 : FVec Ideal S10 .f32) (a11 a12 : FVec Ideal S32768x512 .f32)
    (h : Cert.Pre_finite_inputs.fn (F := Ideal) a0 a1 a2 a3 a4 a5 a6 a7 a8 a9 a10 a11 a12 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) ∧ (∀ i, IsReal (a12 i)) := by
  have h0 := congrFun h ix0
  dsimp only [fn, fn_part1, fn_part2, fn_part3] at h0
  obtain ⟨h0, h12⟩ := and_scalar _ _ h0
  obtain ⟨h0, h11⟩ := and_scalar _ _ h0
  obtain ⟨h0, h10⟩ := and_scalar _ _ h0
  obtain ⟨h0, h9⟩ := and_scalar _ _ h0
  obtain ⟨h0, h8⟩ := and_scalar _ _ h0
  obtain ⟨h0, h7⟩ := and_scalar _ _ h0
  obtain ⟨h0, h6⟩ := and_scalar _ _ h0
  obtain ⟨h0, h5⟩ := and_scalar _ _ h0
  obtain ⟨h0, h4⟩ := and_scalar _ _ h0
  obtain ⟨h0, h3⟩ := and_scalar _ _ h0
  obtain ⟨h0, h2⟩ := and_scalar _ _ h0
  obtain ⟨h0, h1⟩ := and_scalar _ _ h0
  exact ⟨all_real _ _ _ _ h0, all_real _ _ _ _ h1, all_real _ _ _ _ h2, all_real _ _ _ _ h3, all_real _ _ _ _ h4,
    all_real _ _ _ _ h5, all_real _ _ _ _ h6, all_real _ _ _ _ h7, all_real _ _ _ _ h8, all_real _ _ _ _ h9,
    all_real _ _ _ _ h10, all_real _ _ _ _ h11, all_real _ _ _ _ h12⟩

end Cert.FiniteArgs

end
-- ==== Proof.Assemble.lean ====
/-
  The five conjuncts of the claim, from the kernel's value statement.

  Two of the frames are the frame theorems of the two kernel programs; the reference's frame is its run with
  the result dropped; the idealization's two rewrites are the round trip through the narrower format, the identity
  at the extended reals. For the equality of results: under the precondition every entry of the thirteen argument
  arrays is a real number, so each array is the coercion of the real array of its entries' real parts (one device,
  so the arrays of device 0 are the arrays of every device); the reference's memory agrees with the kernel's on the
  arguments, so it holds the same real arrays; the kernel's run ends at the coercion of the real network of those
  arrays by hypothesis, and so does the reference's run; the common result is that coercion.
-/
import proofs.«105324_j53815940219270_2_alg».proof.Defs
import proofs.«105324_j53815940219270_2_alg».proof.Proof.Gen.Kernel.Frame
import proofs.«105324_j53815940219270_2_alg».proof.Proof.Gen.KernelIdeal.Frame
import proofs.«105324_j53815940219270_2_alg».proof.Proof.Gen.Pre_finite_inputs
import proofs.«105324_j53815940219270_2_alg».proof.Proof.RefValue
import proofs.«105324_j53815940219270_2_alg».proof.Proof.FiniteArgs

open Idealize.ShloMosaic Idealize.ShloMosaic.ValueIdx Idealize.SL.Sem

noncomputable section

namespace Cert.Proof.Assemble

open Cert

/-- The kernel's value statement: run from real arguments, the idealized kernel ends holding the real network,
    its arguments unchanged. -/
def KernelNet : Prop :=
  ∀ (x : Fin 32768 → Fin 784 → ℝ) (W1 : Fin 512 → Fin 784 → ℝ) (b1 g1 be1 : Fin 512 → ℝ)
    (W2 : Fin 512 → Fin 512 → ℝ) (b2 g2 be2 : Fin 512 → ℝ) (W3 : Fin 10 → Fin 512 → ℝ) (b3 : Fin 10 → ℝ)
    (m1 m2 : Fin 32768 → Fin 512 → ℝ)
    (m : (ℓ : Loc Cert.KernelIdeal.nD Cert.KernelIdeal.τ Cert.KernelIdeal.sig) → Buf (Elt Ideal) ℓ) (ρ : Dev Cert.KernelIdeal.nD → PrngReg)
    (_ : ∀ c : Dev Cert.KernelIdeal.nD,
      Spec.Is2 (m ((c.tc : Thread Cert.KernelIdeal.nD Cert.KernelIdeal.τ).loc Cert.KernelIdeal.main_arg0)) x
      ∧ Spec.Is2 (m ((c.tc : Thread Cert.KernelIdeal.nD Cert.KernelIdeal.τ).loc Cert.KernelIdeal.main_arg1)) W1
      ∧ Spec.Is1 (m ((c.tc : Thread Cert.KernelIdeal.nD Cert.KernelIdeal.τ).loc Cert.KernelIdeal.main_arg2)) b1
      ∧ Spec.Is1 (m ((c.tc : Thread Cert.KernelIdeal.nD Cert.KernelIdeal.τ).loc Cert.KernelIdeal.main_arg3)) g1
      ∧ Spec.Is1 (m ((c.tc : Thread Cert.KernelIdeal.nD Cert.KernelIdeal.τ).loc Cert.KernelIdeal.main_arg4)) be1
      ∧ Spec.Is2 (m ((c.tc : Thread Cert.KernelIdeal.nD Cert.KernelIdeal.τ).loc Cert.KernelIdeal.main_arg5)) W2
      ∧ Spec.Is1 (m ((c.tc : Thread Cert.KernelIdeal.nD Cert.KernelIdeal.τ).loc Cert.KernelIdeal.main_arg6)) b2
      ∧ Spec.Is1 (m ((c.tc : Thread Cert.KernelIdeal.nD Cert.KernelIdeal.τ).loc Cert.KernelIdeal.main_arg7)) g2
      ∧ Spec.Is1 (m ((c.tc : Thread Cert.KernelIdeal.nD Cert.KernelIdeal.τ).loc Cert.KernelIdeal.main_arg8)) be2
      ∧ Spec.Is2 (m ((c.tc : Thread Cert.KernelIdeal.nD Cert.KernelIdeal.τ).loc Cert.KernelIdeal.main_arg9)) W3
      ∧ Spec.Is1 (m ((c.tc : Thread Cert.KernelIdeal.nD Cert.KernelIdeal.τ).loc Cert.KernelIdeal.main_arg10)) b3
      ∧ Spec.Is2 (m ((c.tc : Thread Cert.KernelIdeal.nD Cert.KernelIdeal.τ).loc Cert.KernelIdeal.main_arg11)) m1
      ∧ Spec.Is2 (m ((c.tc : Thread Cert.KernelIdeal.nD Cert.KernelIdeal.τ).loc Cert.KernelIdeal.main_arg12)) m2),
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      Spec.Is2 (r.2.mem ((c.tc : Thread Cert.KernelIdeal.nD Cert.KernelIdeal.τ).loc Cert.KernelIdeal.main_v31)) (Spec.net x W1 b1 g1 be1 W2 b2 g2 be2 W3 b3 m1 m2 Consts.eps Consts.scl)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)

/-- There is one device. -/
theorem dev_eq_zero (c : Dev Cert.KernelIdeal.nD) : c = 0 := Subsingleton.elim _ _

/-- The two idealized programs, from memories agreeing on the arguments, end with equal results. -/
theorem algebraic (hk : KernelNet) :
    algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m g m' g' hpre hagree
  obtain ⟨r0, r1, r2, r3, r4, r5, r6, r7, r8, r9, r10, r11, r12⟩ :=
    Cert.FiniteArgs.real_of_pre _ _ _ _ _ _ _ _ _ _ _ _ _ (hpre 0)
  have hyps : ∀ c : Dev Cert.KernelIdeal.nD,
      Spec.Is2 (m ((c.tc : Thread Cert.KernelIdeal.nD Cert.KernelIdeal.τ).loc Cert.KernelIdeal.main_arg0)) (fun p q => ((m ((((0 : Dev Cert.KernelIdeal.nD)).tc : Thread Cert.KernelIdeal.nD Cert.KernelIdeal.τ).loc Cert.KernelIdeal.main_arg0)) (ix2 p q)).toReal)
      ∧ Spec.Is2 (m ((c.tc : Thread Cert.KernelIdeal.nD Cert.KernelIdeal.τ).loc Cert.KernelIdeal.main_arg1)) (fun p q => ((m ((((0 : Dev Cert.KernelIdeal.nD)).tc : Thread Cert.KernelIdeal.nD Cert.KernelIdeal.τ).loc Cert.KernelIdeal.main_arg1)) (ix2 p q)).toReal)
      ∧ Spec.Is1 (m ((c.tc : Thread Cert.KernelIdeal.nD Cert.KernelIdeal.τ).loc Cert.KernelIdeal.main_arg2)) (fun p => ((m ((((0 : Dev Cert.KernelIdeal.nD)).tc : Thread Cert.KernelIdeal.nD Cert.KernelIdeal.τ).loc Cert.KernelIdeal.main_arg2)) (ix1 p)).toReal)
      ∧ Spec.Is1 (m ((c.tc : Thread Cert.KernelIdeal.nD Cert.KernelIdeal.τ).loc Cert.KernelIdeal.main_arg3)) (fun p => ((m ((((0 : Dev Cert.KernelIdeal.nD)).tc : Thread Cert.KernelIdeal.nD Cert.KernelIdeal.τ).loc Cert.KernelIdeal.main_arg3)) (ix1 p)).toReal)
      ∧ Spec.Is1 (m ((c.tc : Thread Cert.KernelIdeal.nD Cert.KernelIdeal.τ).loc Cert.KernelIdeal.main_arg4)) (fun p => ((m ((((0 : Dev Cert.KernelIdeal.nD)).tc : Thread Cert.KernelIdeal.nD Cert.KernelIdeal.τ).loc Cert.KernelIdeal.main_arg4)) (ix1 p)).toReal)
      ∧ Spec.Is2 (m ((c.tc : Thread Cert.KernelIdeal.nD Cert.KernelIdeal.τ).loc Cert.KernelIdeal.main_arg5)) (fun p q => ((m ((((0 : Dev Cert.KernelIdeal.nD)).tc : Thread Cert.KernelIdeal.nD Cert.KernelIdeal.τ).loc Cert.KernelIdeal.main_arg5)) (ix2 p q)).toReal)
      ∧ Spec.Is1 (m ((c.tc : Thread Cert.KernelIdeal.nD Cert.KernelIdeal.τ).loc Cert.KernelIdeal.main_arg6)) (fun p => ((m ((((0 : Dev Cert.KernelIdeal.nD)).tc : Thread Cert.KernelIdeal.nD Cert.KernelIdeal.τ).loc Cert.KernelIdeal.main_arg6)) (ix1 p)).toReal)
      ∧ Spec.Is1 (m ((c.tc : Thread Cert.KernelIdeal.nD Cert.KernelIdeal.τ).loc Cert.KernelIdeal.main_arg7)) (fun p => ((m ((((0 : Dev Cert.KernelIdeal.nD)).tc : Thread Cert.KernelIdeal.nD Cert.KernelIdeal.τ).loc Cert.KernelIdeal.main_arg7)) (ix1 p)).toReal)
      ∧ Spec.Is1 (m ((c.tc : Thread Cert.KernelIdeal.nD Cert.KernelIdeal.τ).loc Cert.KernelIdeal.main_arg8)) (fun p => ((m ((((0 : Dev Cert.KernelIdeal.nD)).tc : Thread Cert.KernelIdeal.nD Cert.KernelIdeal.τ).loc Cert.KernelIdeal.main_arg8)) (ix1 p)).toReal)
      ∧ Spec.Is2 (m ((c.tc : Thread Cert.KernelIdeal.nD Cert.KernelIdeal.τ).loc Cert.KernelIdeal.main_arg9)) (fun p q => ((m ((((0 : Dev Cert.KernelIdeal.nD)).tc : Thread Cert.KernelIdeal.nD Cert.KernelIdeal.τ).loc Cert.KernelIdeal.main_arg9)) (ix2 p q)).toReal)
      ∧ Spec.Is1 (m ((c.tc : Thread Cert.KernelIdeal.nD Cert.KernelIdeal.τ).loc Cert.KernelIdeal.main_arg10)) (fun p => ((m ((((0 : Dev Cert.KernelIdeal.nD)).tc : Thread Cert.KernelIdeal.nD Cert.KernelIdeal.τ).loc Cert.KernelIdeal.main_arg10)) (ix1 p)).toReal)
      ∧ Spec.Is2 (m ((c.tc : Thread Cert.KernelIdeal.nD Cert.KernelIdeal.τ).loc Cert.KernelIdeal.main_arg11)) (fun p q => ((m ((((0 : Dev Cert.KernelIdeal.nD)).tc : Thread Cert.KernelIdeal.nD Cert.KernelIdeal.τ).loc Cert.KernelIdeal.main_arg11)) (ix2 p q)).toReal)
      ∧ Spec.Is2 (m ((c.tc : Thread Cert.KernelIdeal.nD Cert.KernelIdeal.τ).loc Cert.KernelIdeal.main_arg12)) (fun p q => ((m ((((0 : Dev Cert.KernelIdeal.nD)).tc : Thread Cert.KernelIdeal.nD Cert.KernelIdeal.τ).loc Cert.KernelIdeal.main_arg12)) (ix2 p q)).toReal) := by
    intro c
    rw [dev_eq_zero c]
    exact ⟨Cert.FiniteArgs.is2_of_real _ r0, Cert.FiniteArgs.is2_of_real _ r1, Cert.FiniteArgs.is1_of_real _ r2, Cert.FiniteArgs.is1_of_real _ r3, Cert.FiniteArgs.is1_of_real _ r4, Cert.FiniteArgs.is2_of_real _ r5, Cert.FiniteArgs.is1_of_real _ r6, Cert.FiniteArgs.is1_of_real _ r7, Cert.FiniteArgs.is1_of_real _ r8, Cert.FiniteArgs.is2_of_real _ r9, Cert.FiniteArgs.is1_of_real _ r10, Cert.FiniteArgs.is2_of_real _ r11, Cert.FiniteArgs.is2_of_real _ r12⟩
  have hyps' : ∀ c : Dev Cert.ReferenceIdeal.nD,
      Spec.Is2 (m' ((c.tc : Thread Cert.ReferenceIdeal.nD Cert.ReferenceIdeal.τ).loc Cert.ReferenceIdeal.main_arg0)) (fun p q => ((m ((((0 : Dev Cert.KernelIdeal.nD)).tc : Thread Cert.KernelIdeal.nD Cert.KernelIdeal.τ).loc Cert.KernelIdeal.main_arg0)) (ix2 p q)).toReal)
      ∧ Spec.Is2 (m' ((c.tc : Thread Cert.ReferenceIdeal.nD Cert.ReferenceIdeal.τ).loc Cert.ReferenceIdeal.main_arg1)) (fun p q => ((m ((((0 : Dev Cert.KernelIdeal.nD)).tc : Thread Cert.KernelIdeal.nD Cert.KernelIdeal.τ).loc Cert.KernelIdeal.main_arg1)) (ix2 p q)).toReal)
      ∧ Spec.Is1 (m' ((c.tc : Thread Cert.ReferenceIdeal.nD Cert.ReferenceIdeal.τ).loc Cert.ReferenceIdeal.main_arg2)) (fun p => ((m ((((0 : Dev Cert.KernelIdeal.nD)).tc : Thread Cert.KernelIdeal.nD Cert.KernelIdeal.τ).loc Cert.KernelIdeal.main_arg2)) (ix1 p)).toReal)
      ∧ Spec.Is1 (m' ((c.tc : Thread Cert.ReferenceIdeal.nD Cert.ReferenceIdeal.τ).loc Cert.ReferenceIdeal.main_arg3)) (fun p => ((m ((((0 : Dev Cert.KernelIdeal.nD)).tc : Thread Cert.KernelIdeal.nD Cert.KernelIdeal.τ).loc Cert.KernelIdeal.main_arg3)) (ix1 p)).toReal)
      ∧ Spec.Is1 (m' ((c.tc : Thread Cert.ReferenceIdeal.nD Cert.ReferenceIdeal.τ).loc Cert.ReferenceIdeal.main_arg4)) (fun p => ((m ((((0 : Dev Cert.KernelIdeal.nD)).tc : Thread Cert.KernelIdeal.nD Cert.KernelIdeal.τ).loc Cert.KernelIdeal.main_arg4)) (ix1 p)).toReal)
      ∧ Spec.Is2 (m' ((c.tc : Thread Cert.ReferenceIdeal.nD Cert.ReferenceIdeal.τ).loc Cert.ReferenceIdeal.main_arg5)) (fun p q => ((m ((((0 : Dev Cert.KernelIdeal.nD)).tc : Thread Cert.KernelIdeal.nD Cert.KernelIdeal.τ).loc Cert.KernelIdeal.main_arg5)) (ix2 p q)).toReal)
      ∧ Spec.Is1 (m' ((c.tc : Thread Cert.ReferenceIdeal.nD Cert.ReferenceIdeal.τ).loc Cert.ReferenceIdeal.main_arg6)) (fun p => ((m ((((0 : Dev Cert.KernelIdeal.nD)).tc : Thread Cert.KernelIdeal.nD Cert.KernelIdeal.τ).loc Cert.KernelIdeal.main_arg6)) (ix1 p)).toReal)
      ∧ Spec.Is1 (m' ((c.tc : Thread Cert.ReferenceIdeal.nD Cert.ReferenceIdeal.τ).loc Cert.ReferenceIdeal.main_arg7)) (fun p => ((m ((((0 : Dev Cert.KernelIdeal.nD)).tc : Thread Cert.KernelIdeal.nD Cert.KernelIdeal.τ).loc Cert.KernelIdeal.main_arg7)) (ix1 p)).toReal)
      ∧ Spec.Is1 (m' ((c.tc : Thread Cert.ReferenceIdeal.nD Cert.ReferenceIdeal.τ).loc Cert.ReferenceIdeal.main_arg8)) (fun p => ((m ((((0 : Dev Cert.KernelIdeal.nD)).tc : Thread Cert.KernelIdeal.nD Cert.KernelIdeal.τ).loc Cert.KernelIdeal.main_arg8)) (ix1 p)).toReal)
      ∧ Spec.Is2 (m' ((c.tc : Thread Cert.ReferenceIdeal.nD Cert.ReferenceIdeal.τ).loc Cert.ReferenceIdeal.main_arg9)) (fun p q => ((m ((((0 : Dev Cert.KernelIdeal.nD)).tc : Thread Cert.KernelIdeal.nD Cert.KernelIdeal.τ).loc Cert.KernelIdeal.main_arg9)) (ix2 p q)).toReal)
      ∧ Spec.Is1 (m' ((c.tc : Thread Cert.ReferenceIdeal.nD Cert.ReferenceIdeal.τ).loc Cert.ReferenceIdeal.main_arg10)) (fun p => ((m ((((0 : Dev Cert.KernelIdeal.nD)).tc : Thread Cert.KernelIdeal.nD Cert.KernelIdeal.τ).loc Cert.KernelIdeal.main_arg10)) (ix1 p)).toReal)
      ∧ Spec.Is2 (m' ((c.tc : Thread Cert.ReferenceIdeal.nD Cert.ReferenceIdeal.τ).loc Cert.ReferenceIdeal.main_arg11)) (fun p q => ((m ((((0 : Dev Cert.KernelIdeal.nD)).tc : Thread Cert.KernelIdeal.nD Cert.KernelIdeal.τ).loc Cert.KernelIdeal.main_arg11)) (ix2 p q)).toReal)
      ∧ Spec.Is2 (m' ((c.tc : Thread Cert.ReferenceIdeal.nD Cert.ReferenceIdeal.τ).loc Cert.ReferenceIdeal.main_arg12)) (fun p q => ((m ((((0 : Dev Cert.KernelIdeal.nD)).tc : Thread Cert.KernelIdeal.nD Cert.KernelIdeal.τ).loc Cert.KernelIdeal.main_arg12)) (ix2 p q)).toReal) := by
    intro c
    obtain ⟨e0, e1, e2, e3, e4, e5, e6, e7, e8, e9, e10, e11, e12⟩ := hagree c
    rw [e0, e1, e2, e3, e4, e5, e6, e7, e8, e9, e10, e11, e12]
    exact hyps c
  have HK := hk _ _ _ _ _ _ _ _ _ _ _ _ _ m g hyps
  have HR := Cert.ReferenceIdeal.RefValue.run_net _ _ _ _ _ _ _ _ _ _ _ _ _ m' g' hyps'
  refine ⟨fun _ => fun i : (⟨2, ![32768, 10]⟩ : Shape).Idx =>
      ((Spec.net (fun p q => ((m ((((0 : Dev Cert.KernelIdeal.nD)).tc : Thread Cert.KernelIdeal.nD Cert.KernelIdeal.τ).loc Cert.KernelIdeal.main_arg0)) (ix2 p q)).toReal) (fun p q => ((m ((((0 : Dev Cert.KernelIdeal.nD)).tc : Thread Cert.KernelIdeal.nD Cert.KernelIdeal.τ).loc Cert.KernelIdeal.main_arg1)) (ix2 p q)).toReal) (fun p => ((m ((((0 : Dev Cert.KernelIdeal.nD)).tc : Thread Cert.KernelIdeal.nD Cert.KernelIdeal.τ).loc Cert.KernelIdeal.main_arg2)) (ix1 p)).toReal) (fun p => ((m ((((0 : Dev Cert.KernelIdeal.nD)).tc : Thread Cert.KernelIdeal.nD Cert.KernelIdeal.τ).loc Cert.KernelIdeal.main_arg3)) (ix1 p)).toReal) (fun p => ((m ((((0 : Dev Cert.KernelIdeal.nD)).tc : Thread Cert.KernelIdeal.nD Cert.KernelIdeal.τ).loc Cert.KernelIdeal.main_arg4)) (ix1 p)).toReal) (fun p q => ((m ((((0 : Dev Cert.KernelIdeal.nD)).tc : Thread Cert.KernelIdeal.nD Cert.KernelIdeal.τ).loc Cert.KernelIdeal.main_arg5)) (ix2 p q)).toReal) (fun p => ((m ((((0 : Dev Cert.KernelIdeal.nD)).tc : Thread Cert.KernelIdeal.nD Cert.KernelIdeal.τ).loc Cert.KernelIdeal.main_arg6)) (ix1 p)).toReal) (fun p => ((m ((((0 : Dev Cert.KernelIdeal.nD)).tc : Thread Cert.KernelIdeal.nD Cert.KernelIdeal.τ).loc Cert.KernelIdeal.main_arg7)) (ix1 p)).toReal) (fun p => ((m ((((0 : Dev Cert.KernelIdeal.nD)).tc : Thread Cert.KernelIdeal.nD Cert.KernelIdeal.τ).loc Cert.KernelIdeal.main_arg8)) (ix1 p)).toReal) (fun p q => ((m ((((0 : Dev Cert.KernelIdeal.nD)).tc : Thread Cert.KernelIdeal.nD Cert.KernelIdeal.τ).loc Cert.KernelIdeal.main_arg9)) (ix2 p q)).toReal) (fun p => ((m ((((0 : Dev Cert.KernelIdeal.nD)).tc : Thread Cert.KernelIdeal.nD Cert.KernelIdeal.τ).loc Cert.KernelIdeal.main_arg10)) (ix1 p)).toReal) (fun p q => ((m ((((0 : Dev Cert.KernelIdeal.nD)).tc : Thread Cert.KernelIdeal.nD Cert.KernelIdeal.τ).loc Cert.KernelIdeal.main_arg11)) (ix2 p q)).toReal) (fun p q => ((m ((((0 : Dev Cert.KernelIdeal.nD)).tc : Thread Cert.KernelIdeal.nD Cert.KernelIdeal.τ).loc Cert.KernelIdeal.main_arg12)) (ix2 p q)).toReal) Consts.eps Consts.scl (i 0) (i 1) : ℝ) : EReal), ?_, ?_⟩
  · exact (θ_run (Cert.KernelIdeal.defs (F := Ideal)) _ _).mono (fun _ h c => ⟨(h c).1.eq, (h c).2⟩) HK
  · exact (θ_run (Cert.ReferenceIdeal.defs (F := Ideal)) _ _).mono (fun _ h c => ⟨(h c).1.eq, (h c).2⟩) HR

/-- The claim, from the kernel's value statement. -/
theorem claim_of (hk : KernelNet) : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run (Cert.ReferenceIdeal.defs (F := Ideal)) _ _).mono (fun _ h c => (h c).2) (Cert.ReferenceIdeal.RefRun.run (F := Ideal) m ρ),
    ⟨IdealRules.truncf_extf.statement _ _ _, IdealRules.truncf_extf.statement _ _ _⟩,
    algebraic hk⟩

end Cert.Proof.Assemble

end
-- ==== Proof.HostStats.lean ====
/-
  The host glue between the kernel program's regions, read at an index.

  Between two regions the program adds the two per-core partial rows of column sums (and of sums of squares),
  divides by the batch size to get the column means, and forms mean of squares minus square of the mean,
  floored at zero: the column variances.
-/
import proofs.«105324_j53815940219270_2_alg».proof.Proof.Gen.KernelIdeal.Launch
import Idealize.ShloMosaic.Lib.StableHlo.Run
import Idealize.ShloMosaic.Lib.IdealHost
import Idealize.ShloMosaic.Lib.ValueIdx
import Idealize.ShloMosaic.PureOps.Ideal.Laws

noncomputable section

namespace Cert.KernelIdeal.HostRead

open Cert.KernelIdeal Cert.KernelIdeal.Gen Idealize.ShloMosaic Idealize.ShloMosaic.ValueIdx
open scoped BigOperators

/-- The column means from the two cores' partial sums. -/
def colMean (P : FVec Ideal S2x1x512 .f32) : FVec Ideal S1x512 .f32 :=
  Host.divf (Host.reduceAdd P (constant (F := Ideal) S_ .f32 0x00000000#32) reducesTo_S2x1x512_S1x512_d0 h_S_)
    (broadcastInDim S1x512 ![] bcast_S_S1x512 (constant (F := Ideal) S_ .f32 0x47000000#32))

/-- The column variances from the two cores' partial sums and partial sums of squares. -/
def colVar (P Q : FVec Ideal S2x1x512 .f32) : FVec Ideal S1x512 .f32 :=
  maximumf
    (subf
      (Host.divf (Host.reduceAdd Q (constant (F := Ideal) S_ .f32 0x00000000#32) reducesTo_S2x1x512_S1x512_d0 h_S_)
        (broadcastInDim S1x512 ![] bcast_S_S1x512 (constant (F := Ideal) S_ .f32 0x47000000#32)))
      (mulf (colMean P) (colMean P)))
    (broadcastInDim S1x512 ![] bcast_S_S1x512 (constant (F := Ideal) S_ .f32 0x00000000#32))

/-- The sum over the leading axis of a [2,1,512] array, from an initial value, at column k. -/
theorem reduce_cores (P : FVec Ideal S2x1x512 .f32) (k : Fin 512) :
    Host.reduceAdd P (constant (F := Ideal) S_ .f32 0x00000000#32) reducesTo_S2x1x512_S1x512_d0 h_S_ (ix2 (0 : Fin 1) k)
      = Ideal.ofBits .f32 0x00000000#32 + ∑ core : Fin 2, P (ix3 core (0 : Fin 1) k) := by
  rw [hostReduceAdd_apply, Ideal.hostReduceAdd_single reducesTo_S2x1x512_S1x512_d0 (by decide)]
  refine congrArg (_ + ·) (Finset.sum_congr rfl fun core _ => ?_)
  exact congrArg P (funext fun a => Fin.ext (by match a with | ⟨0, _⟩ => rfl | ⟨1, _⟩ => rfl | ⟨2, _⟩ => rfl))

theorem colMean_apply (P : FVec Ideal S2x1x512 .f32) (k : Fin 512) :
    colMean P (ix2 (0 : Fin 1) k)
      = Ideal.div (Ideal.ofBits .f32 0x00000000#32 + ∑ core : Fin 2, P (ix3 core (0 : Fin 1) k))
          (Ideal.ofBits .f32 0x47000000#32) := by
  unfold colMean
  rw [hostDivf_apply, reduce_cores, broadcastInDim_scalar_apply]
  rfl

theorem colVar_apply (P Q : FVec Ideal S2x1x512 .f32) (k : Fin 512) :
    colVar P Q (ix2 (0 : Fin 1) k)
      = max (Ideal.div (Ideal.ofBits .f32 0x00000000#32 + ∑ core : Fin 2, Q (ix3 core (0 : Fin 1) k))
              (Ideal.ofBits .f32 0x47000000#32)
            - colMean P (ix2 (0 : Fin 1) k) * colMean P (ix2 (0 : Fin 1) k))
          (Ideal.ofBits .f32 0x00000000#32) := by
  unfold colVar
  rw [maximumf_apply, subf_apply, mulf_apply, hostDivf_apply, reduce_cores, broadcastInDim_scalar_apply,
    broadcastInDim_scalar_apply]
  rfl

variable (W : Valuation τ sig (Elt Ideal))

theorem ops1_mean : StableHlo.after (hostOps1 (F := Ideal)) W (Proc.devRef .tc main_v12)
    = colMean (W (Proc.devRef .tc main_v8_1)) := by
  after_results; rfl

theorem ops1_var : StableHlo.after (hostOps1 (F := Ideal)) W (Proc.devRef .tc main_v18)
    = colVar (W (Proc.devRef .tc main_v8_1)) (W (Proc.devRef .tc main_v8_2)) := by
  after_results; rfl

theorem ops2_mean : StableHlo.after (hostOps2 (F := Ideal)) W (Proc.devRef .tc main_v23)
    = colMean (W (Proc.devRef .tc main_v19_1)) := by
  after_results; rfl

theorem ops2_var : StableHlo.after (hostOps2 (F := Ideal)) W (Proc.devRef .tc main_v29)
    = colVar (W (Proc.devRef .tc main_v19_1)) (W (Proc.devRef .tc main_v19_2)) := by
  after_results; rfl

end Cert.KernelIdeal.HostRead

end
-- ==== Proof.HostLayout.lean ====
/-
  The host glue before the kernel program's first region, read at an index: the three weight matrices
  transposed (the last one and the last bias also padded with zero columns up to 128 lanes), every other
  argument untouched.
-/
import proofs.«105324_j53815940219270_2_alg».proof.Proof.Gen.KernelIdeal.Launch
import Idealize.ShloMosaic.Lib.StableHlo.Run
import Idealize.ShloMosaic.Lib.IdealHost
import Idealize.ShloMosaic.Lib.KernelVsHost
import Idealize.ShloMosaic.Lib.ValueIdx
import Idealize.ShloMosaic.Lib.Pipeline.Value
import Idealize.ShloMosaic.PureOps.Ideal.Laws

noncomputable section

namespace Cert.KernelIdeal.HostRead

open Cert.KernelIdeal Cert.KernelIdeal.Gen Idealize.ShloMosaic Idealize.ShloMosaic.ValueIdx
open scoped BigOperators

variable (W : Valuation τ sig (Elt Ideal))

/-- The buffer contents after the four stretches of host operations that precede the first region. -/
def prep : Valuation τ sig (Elt Ideal) :=
  StableHlo.after (hostOps0_3 (F := Ideal)) (StableHlo.after (hostOps0_2 (F := Ideal))
    (StableHlo.after (hostOps0_1 (F := Ideal)) (StableHlo.after (hostOps0 (F := Ideal)) W)))

/-- The first weight matrix, transposed. -/
def wt1 (A : FVec Ideal S512x784 .f32) : FVec Ideal S784x512 .bf16 :=
  truncf .bf16 (transpose S784x512 [1, 0] A transposes_S512x784_S784x512_1_0) bitsLt_bf16_f32

/-- The second weight matrix, transposed. -/
def wt2 (A : FVec Ideal S512x512 .f32) : FVec Ideal S512x512 .bf16 :=
  truncf .bf16 (transpose S512x512 [1, 0] A transposes_S512x512_S512x512_1_0) bitsLt_bf16_f32

/-- The third weight matrix, transposed and padded with zero columns. -/
def wt3 (A : FVec Ideal S10x512 .f32) : FVec Ideal S512x128 .bf16 :=
  truncf .bf16 (pad S512x128 ![0, 0] ![0, 118] ![0, 0]
    (transpose S512x10 [1, 0] A transposes_S10x512_S512x10_1_0)
    (sitofp (F := Ideal) .f32 (constantI S_ 32 0#32)) pads_S512x10_S512x128_000_01180 h_S_) bitsLt_bf16_f32

/-- The third bias, padded with zeros. -/
def bias3 (A : FVec Ideal S10 .f32) : FVec Ideal S128 .f32 :=
  pad S128 ![0] ![118] ![0] A (sitofp (F := Ideal) .f32 (constantI S_ 32 0#32)) pads_S10_S128_01180 h_S_

theorem prep_v1 : prep W (Proc.devRef .tc main_v1) = wt1 (W (Proc.devRef .tc main_arg1)) := by
  unfold prep; after_results; rfl

theorem prep_v3 : prep W (Proc.devRef .tc main_v3) = wt2 (W (Proc.devRef .tc main_arg5)) := by
  unfold prep; after_results; rfl

theorem prep_v6 : prep W (Proc.devRef .tc main_v6) = wt3 (W (Proc.devRef .tc main_arg9)) := by
  unfold prep; after_results; rfl

theorem prep_v7 : prep W (Proc.devRef .tc main_v7) = bias3 (W (Proc.devRef .tc main_arg10)) := by
  unfold prep; after_results; rfl

theorem prep_arg0 : prep W (Proc.devRef .tc main_arg0) = W (Proc.devRef .tc main_arg0) := by unfold prep; after_results
theorem prep_arg2 : prep W (Proc.devRef .tc main_arg2) = W (Proc.devRef .tc main_arg2) := by unfold prep; after_results
theorem prep_arg3 : prep W (Proc.devRef .tc main_arg3) = W (Proc.devRef .tc main_arg3) := by unfold prep; after_results
theorem prep_arg4 : prep W (Proc.devRef .tc main_arg4) = W (Proc.devRef .tc main_arg4) := by unfold prep; after_results
theorem prep_arg6 : prep W (Proc.devRef .tc main_arg6) = W (Proc.devRef .tc main_arg6) := by unfold prep; after_results
theorem prep_arg7 : prep W (Proc.devRef .tc main_arg7) = W (Proc.devRef .tc main_arg7) := by unfold prep; after_results
theorem prep_arg8 : prep W (Proc.devRef .tc main_arg8) = W (Proc.devRef .tc main_arg8) := by unfold prep; after_results
theorem prep_arg11 : prep W (Proc.devRef .tc main_arg11) = W (Proc.devRef .tc main_arg11) := by unfold prep; after_results
theorem prep_arg12 : prep W (Proc.devRef .tc main_arg12) = W (Proc.devRef .tc main_arg12) := by unfold prep; after_results

/-- A transposed matrix at (k, j) is the matrix at (j, k). -/
theorem transpose2_apply {a b : ℕ} {α : Type} (x : (⟨2, ![a, b]⟩ : Shape).Idx → α)
    (h : (⟨2, ![a, b]⟩ : Shape).Transposes [1, 0] (⟨2, ![b, a]⟩ : Shape)) (k : Fin b) (j : Fin a) :
    transpose (⟨2, ![b, a]⟩ : Shape) [1, 0] x h (ix2 k j) = x (ix2 j k) :=
  transpose_apply _ x h (ix2 k j) (ix2 j k) (fun c => by match c with | ⟨0, _⟩ => rfl | ⟨1, _⟩ => rfl)

theorem prep_v1_apply (k : Fin 784) (j : Fin 512) :
    (prep W (Proc.devRef .tc main_v1) : S784x512.Idx → EReal) (ix2 k j)
      = (W (Proc.devRef .tc main_arg1) : S512x784.Idx → EReal) (ix2 j k) := by
  rw [prep_v1]; unfold wt1; rw [truncf_apply]; exact transpose2_apply _ _ k j

theorem prep_v3_apply (k j : Fin 512) :
    (prep W (Proc.devRef .tc main_v3) : S512x512.Idx → EReal) (ix2 k j)
      = (W (Proc.devRef .tc main_arg5) : S512x512.Idx → EReal) (ix2 j k) := by
  rw [prep_v3]; unfold wt2; rw [truncf_apply]; exact transpose2_apply _ _ k j

theorem prep_v6_apply (k : Fin 512) (j : Fin 10) :
    (prep W (Proc.devRef .tc main_v6) : S512x128.Idx → EReal) (ix2 k (⟨j.val, by omega⟩ : Fin 128))
      = (W (Proc.devRef .tc main_arg9) : S10x512.Idx → EReal) (ix2 j k) := by
  rw [prep_v6]; unfold wt3; rw [truncf_apply]
  rw [pad_apply_of_inside _ _ _ _ _ pads_S512x10_S512x128_000_01180 h_S_ _ (ix2 k j)
    (fun c => by match c with | ⟨0, _⟩ => simp | ⟨1, _⟩ => simp)]
  exact transpose2_apply _ _ k j

theorem prep_v7_apply (j : Fin 10) :
    (prep W (Proc.devRef .tc main_v7) : S128.Idx → EReal) (ix1 (⟨j.val, by omega⟩ : Fin 128))
      = (W (Proc.devRef .tc main_arg10) : S10.Idx → EReal) (ix1 j) := by
  rw [prep_v7]; unfold bias3
  exact pad_apply_of_inside _ _ _ _ _ pads_S10_S128_01180 h_S_ _ (ix1 j)
    (fun c => by match c with | ⟨0, _⟩ => simp)

/-! ### The prepared weights at an index, over any operand -/

theorem wt1_apply (A : FVec Ideal S512x784 .f32) (k : Fin 784) (j : Fin 512) : wt1 A (ix2 k j) = A (ix2 j k) := by
  unfold wt1; rw [truncf_apply]; exact transpose2_apply _ _ k j

theorem wt2_apply (A : FVec Ideal S512x512 .f32) (k j : Fin 512) : wt2 A (ix2 k j) = A (ix2 j k) := by
  unfold wt2; rw [truncf_apply]; exact transpose2_apply _ _ k j

theorem wt3_apply (A : FVec Ideal S10x512 .f32) (k : Fin 512) (j : Fin 10) :
    wt3 A (ix2 k (⟨j.val, by omega⟩ : Fin 128)) = A (ix2 j k) := by
  unfold wt3; rw [truncf_apply]
  rw [pad_apply_of_inside _ _ _ _ _ pads_S512x10_S512x128_000_01180 h_S_ _ (ix2 k j)
    (fun c => by match c with | ⟨0, _⟩ => simp | ⟨1, _⟩ => simp)]
  exact transpose2_apply _ _ k j

theorem bias3_apply (A : FVec Ideal S10 .f32) (j : Fin 10) :
    bias3 A (ix1 (⟨j.val, by omega⟩ : Fin 128)) = A (ix1 j) := by
  unfold bias3
  exact pad_apply_of_inside _ _ _ _ _ pads_S10_S128_01180 h_S_ _ (ix1 j)
    (fun c => by match c with | ⟨0, _⟩ => simp)

end Cert.KernelIdeal.HostRead

end
-- ==== Proof.HostKeep.lean ====
/-
  The statistics glue between two regions of the kernel program leaves every other buffer as it was.
-/
import proofs.«105324_j53815940219270_2_alg».proof.Proof.Gen.KernelIdeal.Launch
import Idealize.ShloMosaic.Lib.StableHlo.Run
import Idealize.ShloMosaic.Lib.IdealHost
import Idealize.ShloMosaic.PureOps.Ideal.Laws

noncomputable section

namespace Cert.KernelIdeal.HostRead

open Cert.KernelIdeal Cert.KernelIdeal.Gen Idealize.ShloMosaic

variable (W : Valuation τ sig (Elt Ideal))

theorem ops1_main_arg3 : StableHlo.after (hostOps1 (F := Ideal)) W (Proc.devRef .tc main_arg3) = W (Proc.devRef .tc main_arg3) := by after_results
theorem ops1_main_arg4 : StableHlo.after (hostOps1 (F := Ideal)) W (Proc.devRef .tc main_arg4) = W (Proc.devRef .tc main_arg4) := by after_results
theorem ops1_main_arg6 : StableHlo.after (hostOps1 (F := Ideal)) W (Proc.devRef .tc main_arg6) = W (Proc.devRef .tc main_arg6) := by after_results
theorem ops1_main_arg7 : StableHlo.after (hostOps1 (F := Ideal)) W (Proc.devRef .tc main_arg7) = W (Proc.devRef .tc main_arg7) := by after_results
theorem ops1_main_arg8 : StableHlo.after (hostOps1 (F := Ideal)) W (Proc.devRef .tc main_arg8) = W (Proc.devRef .tc main_arg8) := by after_results
theorem ops1_main_arg11 : StableHlo.after (hostOps1 (F := Ideal)) W (Proc.devRef .tc main_arg11) = W (Proc.devRef .tc main_arg11) := by after_results
theorem ops1_main_arg12 : StableHlo.after (hostOps1 (F := Ideal)) W (Proc.devRef .tc main_arg12) = W (Proc.devRef .tc main_arg12) := by after_results
theorem ops1_main_v3 : StableHlo.after (hostOps1 (F := Ideal)) W (Proc.devRef .tc main_v3) = W (Proc.devRef .tc main_v3) := by after_results
theorem ops1_main_v6 : StableHlo.after (hostOps1 (F := Ideal)) W (Proc.devRef .tc main_v6) = W (Proc.devRef .tc main_v6) := by after_results
theorem ops1_main_v7 : StableHlo.after (hostOps1 (F := Ideal)) W (Proc.devRef .tc main_v7) = W (Proc.devRef .tc main_v7) := by after_results
theorem ops1_main_v8_0 : StableHlo.after (hostOps1 (F := Ideal)) W (Proc.devRef .tc main_v8_0) = W (Proc.devRef .tc main_v8_0) := by after_results
theorem ops2_main_arg7 : StableHlo.after (hostOps2 (F := Ideal)) W (Proc.devRef .tc main_arg7) = W (Proc.devRef .tc main_arg7) := by after_results
theorem ops2_main_arg8 : StableHlo.after (hostOps2 (F := Ideal)) W (Proc.devRef .tc main_arg8) = W (Proc.devRef .tc main_arg8) := by after_results
theorem ops2_main_arg12 : StableHlo.after (hostOps2 (F := Ideal)) W (Proc.devRef .tc main_arg12) = W (Proc.devRef .tc main_arg12) := by after_results
theorem ops2_main_v6 : StableHlo.after (hostOps2 (F := Ideal)) W (Proc.devRef .tc main_v6) = W (Proc.devRef .tc main_v6) := by after_results
theorem ops2_main_v7 : StableHlo.after (hostOps2 (F := Ideal)) W (Proc.devRef .tc main_v7) = W (Proc.devRef .tc main_v7) := by after_results
theorem ops2_main_v19_0 : StableHlo.after (hostOps2 (F := Ideal)) W (Proc.devRef .tc main_v19_0) = W (Proc.devRef .tc main_v19_0) := by after_results

/-- The result is the first ten columns of the last region's output. -/
theorem ops3_result : StableHlo.after (hostOps3 (F := Ideal)) W (Proc.devRef .tc main_v31)
    = (extractStridedSlice S32768x10 ![0, 0] (W (Proc.devRef .tc main_v30) : FVec Ideal S32768x128 .f32) slices_S32768x128_S32768x10_0_0 : FVec Ideal S32768x10 .f32) := by
  after_results

end Cert.KernelIdeal.HostRead

end
-- ==== Proof.KernelChain.lean ====
/-
  What each region of the kernel program finds in its operand arrays, traced back through the host glue and the
  regions before it to the launch memory: region 0 reads the input, the first weight matrix transposed and the first
  bias; region 1 reads region 0's three outputs — the activations directly, the two statistics rows through the
  mean / variance glue — and its own parameters; region 2 likewise from region 1; the result is the first ten columns of
  region 2's output.
-/
import proofs.«105324_j53815940219270_2_alg».proof.Proof.Gen.KernelIdeal.Frame
import proofs.«105324_j53815940219270_2_alg».proof.Proof.HostStats
import proofs.«105324_j53815940219270_2_alg».proof.Proof.HostLayout
import proofs.«105324_j53815940219270_2_alg».proof.Proof.HostKeep

noncomputable section

namespace Cert.KernelIdeal.Chain

open Cert.KernelIdeal Cert.KernelIdeal.Gen Cert.KernelIdeal.HostRead Idealize.ShloMosaic Idealize.ShloMosaic.ValueIdx
open Idealize.ShloMosaic.TcCoe Idealize.SL.Sem

variable (m : (ℓ : Loc nD τ sig) → Buf (Elt Ideal) ℓ) (ρ : Dev nD → PrngReg) (c : Dev nD)

/-- The contents at region 0's entry are the launch memory after the preparing host operations. -/
theorem W4_eq : W4 m ρ c = prep (W0 m ρ c) := rfl

/-! ### Region 0's operands -/

theorem in0_0 : V4 m ρ c (Pipeline.arrRef spec0 0) = m ((c : Thread nD τ).loc main_arg0) := prep_arg0 (W0 m ρ c)
theorem in0_1 : V4 m ρ c (Pipeline.arrRef spec0 1) = wt1 (m ((c : Thread nD τ).loc main_arg1)) := prep_v1 (W0 m ρ c)
theorem in0_2 : V4 m ρ c (Pipeline.arrRef spec0 2) = m ((c : Thread nD τ).loc main_arg2) := prep_arg2 (W0 m ρ c)

/-! ### Region 1's operands -/

theorem in1_0 : V6 m ρ c (Pipeline.arrRef spec1 0) = (dat0 (V4 m ρ) c).arrAt 3 cfg0.N :=
  (ops1_main_v8_0 (W5 m ρ c)).trans (W5_arr m ρ c 3)
theorem in1_1 : V6 m ρ c (Pipeline.arrRef spec1 1) = colMean ((dat0 (V4 m ρ) c).arrAt 4 cfg0.N) :=
  (ops1_mean (W5 m ρ c)).trans (congrArg colMean (W5_arr m ρ c 4))
theorem in1_2 : V6 m ρ c (Pipeline.arrRef spec1 2)
    = colVar ((dat0 (V4 m ρ) c).arrAt 4 cfg0.N) ((dat0 (V4 m ρ) c).arrAt 5 cfg0.N) :=
  (ops1_var (W5 m ρ c)).trans (congrArg₂ colVar (W5_arr m ρ c 4) (W5_arr m ρ c 5))
theorem in1_3 : V6 m ρ c (Pipeline.arrRef spec1 3) = m ((c : Thread nD τ).loc main_arg3) :=
  (ops1_main_arg3 (W5 m ρ c)).trans ((W5_of_ne m ρ c main_arg3 (by decide)).trans (prep_arg3 (W0 m ρ c)))
theorem in1_4 : V6 m ρ c (Pipeline.arrRef spec1 4) = m ((c : Thread nD τ).loc main_arg4) :=
  (ops1_main_arg4 (W5 m ρ c)).trans ((W5_of_ne m ρ c main_arg4 (by decide)).trans (prep_arg4 (W0 m ρ c)))
theorem in1_5 : V6 m ρ c (Pipeline.arrRef spec1 5) = m ((c : Thread nD τ).loc main_arg11) :=
  (ops1_main_arg11 (W5 m ρ c)).trans ((W5_of_ne m ρ c main_arg11 (by decide)).trans (prep_arg11 (W0 m ρ c)))
theorem in1_6 : V6 m ρ c (Pipeline.arrRef spec1 6) = wt2 (m ((c : Thread nD τ).loc main_arg5)) :=
  (ops1_main_v3 (W5 m ρ c)).trans ((W5_of_ne m ρ c main_v3 (by decide)).trans (prep_v3 (W0 m ρ c)))
theorem in1_7 : V6 m ρ c (Pipeline.arrRef spec1 7) = m ((c : Thread nD τ).loc main_arg6) :=
  (ops1_main_arg6 (W5 m ρ c)).trans ((W5_of_ne m ρ c main_arg6 (by decide)).trans (prep_arg6 (W0 m ρ c)))

/-! ### Region 2's operands -/

/-- A buffer that neither the statistics glue nor region 0 or 1 writes holds at region 2's entry what the preparing
    host operations left. -/
theorem kept2 (b : Ref sig .tc) (h2 : StableHlo.after (hostOps2 (F := Ideal)) (W7 m ρ c) (Proc.devRef .tc b) = W7 m ρ c (Proc.devRef .tc b))
    (hn1 : ∀ w, Pipeline.arrRef spec1 w ≠ b)
    (h1 : StableHlo.after (hostOps1 (F := Ideal)) (W5 m ρ c) (Proc.devRef .tc b) = W5 m ρ c (Proc.devRef .tc b))
    (hn0 : ∀ w, Pipeline.arrRef spec0 w ≠ b) :
    V8 m ρ c b = prep (W0 m ρ c) (Proc.devRef .tc b) :=
  h2.trans ((W7_of_ne m ρ c b hn1).trans (h1.trans (W5_of_ne m ρ c b hn0)))

theorem in2_0 : V8 m ρ c (Pipeline.arrRef spec2 0) = (dat1 (V6 m ρ) c).arrAt 8 cfg1.N :=
  (ops2_main_v19_0 (W7 m ρ c)).trans (W7_arr m ρ c 8)
theorem in2_1 : V8 m ρ c (Pipeline.arrRef spec2 1) = colMean ((dat1 (V6 m ρ) c).arrAt 9 cfg1.N) :=
  (ops2_mean (W7 m ρ c)).trans (congrArg colMean (W7_arr m ρ c 9))
theorem in2_2 : V8 m ρ c (Pipeline.arrRef spec2 2)
    = colVar ((dat1 (V6 m ρ) c).arrAt 9 cfg1.N) ((dat1 (V6 m ρ) c).arrAt 10 cfg1.N) :=
  (ops2_var (W7 m ρ c)).trans (congrArg₂ colVar (W7_arr m ρ c 9) (W7_arr m ρ c 10))
theorem in2_3 : V8 m ρ c (Pipeline.arrRef spec2 3) = m ((c : Thread nD τ).loc main_arg7) :=
  (kept2 m ρ c main_arg7 (ops2_main_arg7 _) (by decide) (ops1_main_arg7 _) (by decide)).trans (prep_arg7 (W0 m ρ c))
theorem in2_4 : V8 m ρ c (Pipeline.arrRef spec2 4) = m ((c : Thread nD τ).loc main_arg8) :=
  (kept2 m ρ c main_arg8 (ops2_main_arg8 _) (by decide) (ops1_main_arg8 _) (by decide)).trans (prep_arg8 (W0 m ρ c))
theorem in2_5 : V8 m ρ c (Pipeline.arrRef spec2 5) = m ((c : Thread nD τ).loc main_arg12) :=
  (kept2 m ρ c main_arg12 (ops2_main_arg12 _) (by decide) (ops1_main_arg12 _) (by decide)).trans (prep_arg12 (W0 m ρ c))
theorem in2_6 : V8 m ρ c (Pipeline.arrRef spec2 6) = wt3 (m ((c : Thread nD τ).loc main_arg9)) :=
  (kept2 m ρ c main_v6 (ops2_main_v6 _) (by decide) (ops1_main_v6 _) (by decide)).trans (prep_v6 (W0 m ρ c))
theorem in2_7 : V8 m ρ c (Pipeline.arrRef spec2 7) = bias3 (m ((c : Thread nD τ).loc main_arg10)) :=
  (kept2 m ρ c main_v7 (ops2_main_v7 _) (by decide) (ops1_main_v7 _) (by decide)).trans (prep_v7 (W0 m ρ c))

/-! ### The result -/

theorem result_eq : W10 m ρ c (Proc.devRef .tc main_v31)
    = (extractStridedSlice S32768x10 ![0, 0] ((dat2 (V8 m ρ) c).arrAt 8 cfg2.N : FVec Ideal S32768x128 .f32)
        slices_S32768x128_S32768x10_0_0 : FVec Ideal S32768x10 .f32) :=
  (ops3_result (W9 m ρ c)).trans (congrArg (fun v : FVec Ideal S32768x128 .f32 =>
    (extractStridedSlice S32768x10 ![0, 0] v slices_S32768x128_S32768x10_0_0 : FVec Ideal S32768x10 .f32)) (W9_arr m ρ c 8))

end Cert.KernelIdeal.Chain

end
-- ==== Proof.RegionAPay.lean ====
/-
  The arithmetic of the first layer's body, read entry by entry over the extended reals.

  One grid point holds a block of 2048 rows of the input, the whole 784 × 512 weight (already transposed) and the bias.
  Over the extended reals a change of float format is the identity, so the body computes, at row r and column j of the
  block,
      L r j = (∑ k, x r k · w k j) + b j,
  stores L as the block of the first result, and adds to the two running rows, at column j, the column sums
  ∑ r, L r j and ∑ r, L r j · L r j of the block. The running rows are zeroed before the first block of a core.
-/
import proofs.«105324_j53815940219270_2_alg».proof.Proof.Gen.KernelIdeal.Skeleton
import Idealize.ShloMosaic.Lib.Pipeline.Value
import Idealize.ShloMosaic.Lib.ValueIdx
import Idealize.ShloMosaic.Lib.ValueLayout
import Idealize.ShloMosaic.Lib.StackMember
import Idealize.ShloMosaic.Lib.KernelVsHost
import Idealize.ShloMosaic.PureOps.Ideal.Laws

noncomputable section

namespace Cert.KernelIdeal.RegionA

open Idealize.ShloMosaic Idealize.ShloMosaic.ValueIdx Idealize.ShloMosaic.StackMember
open Cert.KernelIdeal Cert.KernelIdeal.Gen

/-! ## Layout operations at an index -/

section Layout
variable {α : Type} {n : Nat}

/-- A vector cast to one row and repeated down `m` rows reads, at `(p, q)`, the vector at `q`. -/
theorem rowBroadcast_apply {m : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have hrow := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have := q.isLt; omega
      · rfl)
  have hcast := shapeCast_apply x h1 (ix2 (0 : Fin 1) q) (ix1 q) (by
    rw [Shape.rowMajor_val_two, Shape.rowMajor_val_one]; show q.val = 0 * n + q.val; omega)
  exact hrow.trans hcast

/-- A vector cast to one row reads, at `(0, q)`, the vector at `q`. -/
theorem cast_n_1n (x : (⟨1, ![n]⟩ : Shape).Idx → α) (h : (⟨1, ![n]⟩ : Shape).ShapeCasts ⟨2, ![1, n]⟩) (u : Fin 1) (q : Fin n) :
    shapeCast ⟨2, ![1, n]⟩ x h (ix2 u q) = x (ix1 q) :=
  shapeCast_apply x h _ _ (by
    have hu : u.val = 0 := by omega
    rw [Shape.rowMajor_val_two, Shape.rowMajor_val_one]; show q.val = u.val * n + q.val; rw [hu]; omega)

/-- A `[1, 1, n]` array cast to one row reads, at `(0, q)`, the array at `(0, 0, q)`. -/
theorem cast_11n_1n (x : (⟨3, ![1, 1, n]⟩ : Shape).Idx → α) (h : (⟨3, ![1, 1, n]⟩ : Shape).ShapeCasts ⟨2, ![1, n]⟩)
    (u v w : Fin 1) (q : Fin n) :
    shapeCast ⟨2, ![1, n]⟩ x h (ix2 u q) = x (ix3 v w q) :=
  shapeCast_apply x h _ _ (by
    have hu : u.val = 0 := by omega
    have hv : v.val = 0 := by omega
    have hw : w.val = 0 := by omega
    rw [Shape.rowMajor_val_three, Shape.rowMajor_val_two]
    show (v.val * 1 + w.val) * n + q.val = u.val * n + q.val
    rw [hu, hv, hw])

/-- A row cast to `[1, 1, n]` reads, at `(0, 0, q)`, the row at `(0, q)`. -/
theorem cast_1n_11n (x : (⟨2, ![1, n]⟩ : Shape).Idx → α) (h : (⟨2, ![1, n]⟩ : Shape).ShapeCasts ⟨3, ![1, 1, n]⟩)
    (u v w : Fin 1) (q : Fin n) :
    shapeCast ⟨3, ![1, 1, n]⟩ x h (ix3 v w q) = x (ix2 u q) :=
  shapeCast_apply x h _ _ (by
    have hu : u.val = 0 := by omega
    have hv : v.val = 0 := by omega
    have hw : w.val = 0 := by omega
    rw [Shape.rowMajor_val_three, Shape.rowMajor_val_two]
    show u.val * n + q.val = (v.val * 1 + w.val) * n + q.val
    rw [hu, hv, hw])

end Layout

/-- Summing a `[2048, 512]` array over its rows: the row `k` inserted above column `j` is the entry `(k, j)`. -/
theorem lift_rows (j : Fin 512) (k : Fin (S2048x512.size 0)) :
    reduces_S2048x512_S512.lift (ix1 j) k = ix2 (n0 := 2048) k j := by
  funext c
  apply Fin.ext
  show reduces_S2048x512_S512.liftVal (ix1 j) k.val c = _
  unfold Shape.Reduces.liftVal
  match c with
  | ⟨0, _⟩ => rfl
  | ⟨1, _⟩ => rfl

/-! ## The affine layer of one block -/

/-- Entry `(r, j)` of the affine layer of one block: row `r` of the block against column `j` of the weight, plus the
    bias at `j`. -/
def blockLin (x0 : Vec Ideal S2048x784 .f32) (x1 : Vec Ideal S784x512 .bf16) (x2 : Vec Ideal S512 .f32)
    (r : Fin 2048) (j : Fin 512) : EReal :=
  (∑ k : Fin 784, x0 (ix2 r k) * x1 (ix2 k j)) + x2 (ix1 j)

/-- The product into a zero accumulator plus the bias repeated down the rows, at `(r, j)`. -/
theorem pay4_apply (x0 : Vec Ideal S2048x784 .f32) (x1 : Vec Ideal S784x512 .bf16) (x2 : Vec Ideal S512 .f32)
    (r : Fin 2048) (j : Fin 512) : k0_pay4 x0 x1 x2 (ix2 r j) = blockLin x0 x1 x2 r j := by
  unfold k0_pay4 blockLin
  refine congrArg₂ (· + ·) ?_ (rowBroadcast_apply (m := 2048) x2 shapeCasts_S512_S1x512 broadcasts_S1x512_S2048x512 r j)
  refine (congrFun (matmul_zero_eq_dotGeneral dot_S2048x784_S784x512_S2048x512_1_0_0_1_n_n none
    (truncf .bf16 x0 bitsLt_bf16_f32) (shapeCast S784x512 x1 shapeCasts_S784x512_S784x512)) (ix2 r j)).trans ?_
  have e : shapeCast S784x512 x1 shapeCasts_S784x512_S784x512 = x1 := shapeCast_self x1 _
  rw [e]
  exact dotGeneral_plain_apply (m := 2048) (k := 784) (n := 512) none (truncf .bf16 x0 bitsLt_bf16_f32) x1 r j

/-- The block the first result receives, at `(r, j)`. -/
theorem pay5_apply (x0 : Vec Ideal S2048x784 .f32) (x1 : Vec Ideal S784x512 .bf16) (x2 : Vec Ideal S512 .f32)
    (r : Fin 2048) (j : Fin 512) : k0_pay5 x0 x1 x2 (ix2 r j) = blockLin x0 x1 x2 r j :=
  pay4_apply x0 x1 x2 r j

/-- The values the column sums are taken of, at `(r, j)`. -/
theorem pay6_apply (x0 : Vec Ideal S2048x784 .f32) (x1 : Vec Ideal S784x512 .bf16) (x2 : Vec Ideal S512 .f32)
    (r : Fin 2048) (j : Fin 512) : k0_pay6 x0 x1 x2 (ix2 r j) = blockLin x0 x1 x2 r j :=
  pay4_apply x0 x1 x2 r j

/-- What the running row of sums receives: what it held plus the block's column sums. -/
theorem pay7_apply (x0 : Vec Ideal S2048x784 .f32) (x1 : Vec Ideal S784x512 .bf16) (x2 : Vec Ideal S512 .f32)
    (v15 : Vec Ideal S1x1x512 .f32) (j : Fin 512) :
    k0_pay7 x0 x1 x2 v15 (ix3 (0 : Fin 1) (0 : Fin 1) j)
      = v15 (ix3 (0 : Fin 1) (0 : Fin 1) j) + ∑ r : Fin 2048, blockLin x0 x1 x2 r j := by
  unfold k0_pay7
  refine (cast_1n_11n _ shapeCasts_S1x512_S1x1x512 0 0 0 j).trans ?_
  refine congrArg₂ (· + ·) (cast_11n_1n v15 shapeCasts_S1x1x512_S1x512 0 0 0 j) ?_
  refine (cast_n_1n _ shapeCasts_S512_S1x512 0 j).trans ?_
  refine (Ideal.multiReduction_add_single (k0_pay6 x0 x1 x2) _ reduces_S2048x512_S512 _ _ (ix1 j)).trans ?_
  refine Finset.sum_congr rfl fun k _ => ?_
  rw [lift_rows]
  exact pay6_apply x0 x1 x2 k j

/-- What the running row of sums of squares receives: what it held plus the block's column sums of squares. -/
theorem pay1_pay8_apply (x0 : Vec Ideal S2048x784 .f32) (x1 : Vec Ideal S784x512 .bf16) (x2 : Vec Ideal S512 .f32)
    (v23 : Vec Ideal S1x1x512 .f32) (j : Fin 512) :
    k0_pay1 (k0_pay8 x0 x1 x2 v23) (ix3 (0 : Fin 1) (0 : Fin 1) j)
      = v23 (ix3 (0 : Fin 1) (0 : Fin 1) j) + ∑ r : Fin 2048, blockLin x0 x1 x2 r j * blockLin x0 x1 x2 r j := by
  unfold k0_pay1 k0_pay8
  refine (cast_1n_11n _ shapeCasts_S1x512_S1x1x512 0 0 0 j).trans ?_
  refine congrArg₂ (· + ·) (cast_11n_1n v23 shapeCasts_S1x1x512_S1x512 0 0 0 j) ?_
  refine (cast_n_1n _ shapeCasts_S512_S1x512 0 j).trans ?_
  refine (Ideal.multiReduction_add_single (mulf (k0_pay6 x0 x1 x2) (k0_pay6 x0 x1 x2)) _ reduces_S2048x512_S512 _ _ (ix1 j)).trans ?_
  refine Finset.sum_congr rfl fun k _ => ?_
  rw [lift_rows]
  exact congrArg₂ (· * ·) (pay6_apply x0 x1 x2 k j) (pay6_apply x0 x1 x2 k j)

/-- The zero row the running sums are reset to. -/
theorem pay2_apply (i : S1x1x512.Idx) : k0_pay2 (F := Ideal) i = 0 := by
  unfold k0_pay2
  obtain ⟨u, v, q, rfl⟩ : ∃ (u v : Fin 1) (q : Fin 512), i = ix3 u v q := ⟨i 0, i 1, i 2, eq_ix3 i⟩
  refine (cast_1n_11n _ shapeCasts_S1x512_S1x1x512 0 u v q).trans ?_
  exact Ideal.ofBits_zero_f32

theorem pay3_apply (i : S1x1x512.Idx) : k0_pay3 (F := Ideal) i = 0 := by
  unfold k0_pay3
  obtain ⟨u, v, q, rfl⟩ : ∃ (u v : Fin 1) (q : Fin 512), i = ix3 u v q := ⟨i 0, i 1, i 2, eq_ix3 i⟩
  refine (cast_1n_11n _ shapeCasts_S1x512_S1x1x512 0 u v q).trans ?_
  exact Ideal.ofBits_zero_f32

end Cert.KernelIdeal.RegionA

end
-- ==== Proof.RegionAOut.lean ====
/-
  What one run of the first layer's body leaves in its three result blocks, as functions of what it loaded.

  The body stores each result block whole, so what a block holds afterwards is the value of its last store. At the
  first grid point of a core the two running rows are first overwritten with zeros and then read back; at the other
  points they are read as the point before left them.
-/
import proofs.«105324_j53815940219270_2_alg».proof.Proof.Gen.KernelIdeal.Frame
import Idealize.ShloMosaic.Lib.Pipeline.Value
import Idealize.ShloMosaic.Lib.Tactic

set_option maxRecDepth 16384

noncomputable section

namespace Cert.KernelIdeal.RegionA

open Idealize.ShloMosaic Idealize.ShloMosaic.TcCoe Idealize.SL.Sem
open Idealize.ShloMosaic.Pipeline (Dat)
open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## A point that continues a core's run: the running rows are read as the point before left them -/

/-- The block of the affine layer. -/
theorem outB3 (c : Dev nD) (i : grid0.Coords) (arg2 : Memref sig .tc .vmem S2048x784 .f32) (harg2 : arg2.IsWhole) (arg3 : Memref sig .tc .vmem S784x512 .bf16) (harg3 : arg3.IsWhole) (arg4 : Memref sig .tc .vmem S512 .f32) (harg4 : arg4.IsWhole) (arg5 : Memref sig .tc .vmem S2048x512 .bf16) (harg5 : arg5.IsWhole) (arg6 : Memref sig .tc .vmem S1x1x512 .f32) (harg6 : arg6.IsWhole) (arg7 : Memref sig .tc .vmem S1x1x512 .f32) (harg7 : arg7.IsWhole) (hc0 : ¬cond0_0 i)
    (x0 : Vec F S2048x784 .f32) (x1 : Vec F S784x512 .bf16) (x2 : Vec F S512 .f32) (xo4 : Vec F S1x1x512 .f32) (xo5 : Vec F S1x1x512 .f32) :
    out0_B_3 c i arg2 harg2 arg3 harg3 arg4 harg4 arg5 harg5 arg6 harg6 arg7 harg7 hc0 x0 x1 x2 xo4 xo5 = k0_pay5 x0 x1 x2 := by
  unfold out0_B_3
  rw [View.read_writes_eq_canon _ _ _ (cover0_B_3 c i arg2 harg2 arg3 harg3 arg4 harg4 arg5 harg5 arg6 harg6 arg7 harg7 hc0 x0 x1 x2 xo4 xo5)]
  unfold kernelRun0_B
  dsimp only
  rw [View.canon_unit_zero hz2]
  simp only [View.readAt_eq_ld, harg2.read_unread, harg3.read_unread, harg4.read_unread, harg6.read_unread, harg7.read_unread,
    View.ld_unit_zero (S := S2048x784) hz2, View.ld_unit_zero (S := S784x512) hz2, View.ld_unit_zero (S := S512) hz1,
    View.ld_unit_zero (S := S1x1x512) hz3]

/-- The running row of sums: what it held plus the block's column sums. -/
theorem outB4 (c : Dev nD) (i : grid0.Coords) (arg2 : Memref sig .tc .vmem S2048x784 .f32) (harg2 : arg2.IsWhole) (arg3 : Memref sig .tc .vmem S784x512 .bf16) (harg3 : arg3.IsWhole) (arg4 : Memref sig .tc .vmem S512 .f32) (harg4 : arg4.IsWhole) (arg5 : Memref sig .tc .vmem S2048x512 .bf16) (harg5 : arg5.IsWhole) (arg6 : Memref sig .tc .vmem S1x1x512 .f32) (harg6 : arg6.IsWhole) (arg7 : Memref sig .tc .vmem S1x1x512 .f32) (harg7 : arg7.IsWhole) (hc0 : ¬cond0_0 i)
    (x0 : Vec F S2048x784 .f32) (x1 : Vec F S784x512 .bf16) (x2 : Vec F S512 .f32) (xo4 : Vec F S1x1x512 .f32) (xo5 : Vec F S1x1x512 .f32) :
    out0_B_4 c i arg2 harg2 arg3 harg3 arg4 harg4 arg5 harg5 arg6 harg6 arg7 harg7 hc0 x0 x1 x2 xo4 xo5 = k0_pay7 x0 x1 x2 xo4 := by
  unfold out0_B_4
  rw [View.read_writes_eq_canon _ _ _ (cover0_B_4 c i arg2 harg2 arg3 harg3 arg4 harg4 arg5 harg5 arg6 harg6 arg7 harg7 hc0 x0 x1 x2 xo4 xo5)]
  unfold kernelRun0_B
  dsimp only
  rw [View.canon_unit_zero hz3]
  simp only [View.readAt_eq_ld, harg2.read_unread, harg3.read_unread, harg4.read_unread, harg6.read_unread, harg7.read_unread,
    View.ld_unit_zero (S := S2048x784) hz2, View.ld_unit_zero (S := S784x512) hz2, View.ld_unit_zero (S := S512) hz1,
    View.ld_unit_zero (S := S1x1x512) hz3]

/-- The running row of sums of squares: what it held plus the block's column sums of squares. -/
theorem outB5 (c : Dev nD) (i : grid0.Coords) (arg2 : Memref sig .tc .vmem S2048x784 .f32) (harg2 : arg2.IsWhole) (arg3 : Memref sig .tc .vmem S784x512 .bf16) (harg3 : arg3.IsWhole) (arg4 : Memref sig .tc .vmem S512 .f32) (harg4 : arg4.IsWhole) (arg5 : Memref sig .tc .vmem S2048x512 .bf16) (harg5 : arg5.IsWhole) (arg6 : Memref sig .tc .vmem S1x1x512 .f32) (harg6 : arg6.IsWhole) (arg7 : Memref sig .tc .vmem S1x1x512 .f32) (harg7 : arg7.IsWhole) (hc0 : ¬cond0_0 i)
    (x0 : Vec F S2048x784 .f32) (x1 : Vec F S784x512 .bf16) (x2 : Vec F S512 .f32) (xo4 : Vec F S1x1x512 .f32) (xo5 : Vec F S1x1x512 .f32) :
    out0_B_5 c i arg2 harg2 arg3 harg3 arg4 harg4 arg5 harg5 arg6 harg6 arg7 harg7 hc0 x0 x1 x2 xo4 xo5 = k0_pay1 (k0_pay8 x0 x1 x2 xo5) := by
  unfold out0_B_5
  rw [View.read_writes_eq_canon _ _ _ (cover0_B_5 c i arg2 harg2 arg3 harg3 arg4 harg4 arg5 harg5 arg6 harg6 arg7 harg7 hc0 x0 x1 x2 xo4 xo5)]
  unfold kernelRun0_B
  dsimp only
  sl_unfold_words
  rw [View.canon_unit_zero hz3]
  simp only [View.readAt_eq_ld, harg2.read_unread, harg3.read_unread, harg4.read_unread, harg6.read_unread, harg7.read_unread,
    View.ld_unit_zero (S := S2048x784) hz2, View.ld_unit_zero (S := S784x512) hz2, View.ld_unit_zero (S := S512) hz1,
    View.ld_unit_zero (S := S1x1x512) hz3]

/-! ## The first point of a core's run: the running rows are zeroed first -/

/-- The block of the affine layer. -/
theorem outA3 (c : Dev nD) (i : grid0.Coords) (arg2 : Memref sig .tc .vmem S2048x784 .f32) (harg2 : arg2.IsWhole) (arg3 : Memref sig .tc .vmem S784x512 .bf16) (harg3 : arg3.IsWhole) (arg4 : Memref sig .tc .vmem S512 .f32) (harg4 : arg4.IsWhole) (arg5 : Memref sig .tc .vmem S2048x512 .bf16) (harg5 : arg5.IsWhole) (arg6 : Memref sig .tc .vmem S1x1x512 .f32) (harg6 : arg6.IsWhole) (arg7 : Memref sig .tc .vmem S1x1x512 .f32) (harg7 : arg7.IsWhole) (hc0 : cond0_0 i)
    (x0 : Vec F S2048x784 .f32) (x1 : Vec F S784x512 .bf16) (x2 : Vec F S512 .f32) :
    out0_A_3 c i arg2 harg2 arg3 harg3 arg4 harg4 arg5 harg5 arg6 harg6 arg7 harg7 hc0 x0 x1 x2 = k0_pay5 x0 x1 x2 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  rw [View.canon_unit_zero hz2]
  simp only [View.readAt_eq_ld, harg2.read_unread, harg3.read_unread, harg4.read_unread,
    View.ld_unit_zero (S := S2048x784) hz2, View.ld_unit_zero (S := S784x512) hz2, View.ld_unit_zero (S := S512) hz1]

/-- The running row of sums: the zero row plus the block's column sums. -/
theorem outA4 (c : Dev nD) (i : grid0.Coords) (arg2 : Memref sig .tc .vmem S2048x784 .f32) (harg2 : arg2.IsWhole) (arg3 : Memref sig .tc .vmem S784x512 .bf16) (harg3 : arg3.IsWhole) (arg4 : Memref sig .tc .vmem S512 .f32) (harg4 : arg4.IsWhole) (arg5 : Memref sig .tc .vmem S2048x512 .bf16) (harg5 : arg5.IsWhole) (arg6 : Memref sig .tc .vmem S1x1x512 .f32) (harg6 : arg6.IsWhole) (arg7 : Memref sig .tc .vmem S1x1x512 .f32) (harg7 : arg7.IsWhole) (hc0 : cond0_0 i)
    (x0 : Vec F S2048x784 .f32) (x1 : Vec F S784x512 .bf16) (x2 : Vec F S512 .f32) :
    out0_A_4 c i arg2 harg2 arg3 harg3 arg4 harg4 arg5 harg5 arg6 harg6 arg7 harg7 hc0 x0 x1 x2 = k0_pay7 x0 x1 x2 (k0_pay2 (F := F)) := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_cons_unit_zero (S := S1x1x512) hz3, View.readCov_unit_zero (S := S1x1x512) _ hz3]
  simp only [View.readAt_eq_ld, harg2.read_unread, harg3.read_unread, harg4.read_unread,
    View.ld_unit_zero (S := S2048x784) hz2, View.ld_unit_zero (S := S784x512) hz2, View.ld_unit_zero (S := S512) hz1]

/-- The running row of sums of squares: the zero row plus the block's column sums of squares. -/
theorem outA5 (c : Dev nD) (i : grid0.Coords) (arg2 : Memref sig .tc .vmem S2048x784 .f32) (harg2 : arg2.IsWhole) (arg3 : Memref sig .tc .vmem S784x512 .bf16) (harg3 : arg3.IsWhole) (arg4 : Memref sig .tc .vmem S512 .f32) (harg4 : arg4.IsWhole) (arg5 : Memref sig .tc .vmem S2048x512 .bf16) (harg5 : arg5.IsWhole) (arg6 : Memref sig .tc .vmem S1x1x512 .f32) (harg6 : arg6.IsWhole) (arg7 : Memref sig .tc .vmem S1x1x512 .f32) (harg7 : arg7.IsWhole) (hc0 : cond0_0 i)
    (x0 : Vec F S2048x784 .f32) (x1 : Vec F S784x512 .bf16) (x2 : Vec F S512 .f32) :
    out0_A_5 c i arg2 harg2 arg3 harg3 arg4 harg4 arg5 harg5 arg6 harg6 arg7 harg7 hc0 x0 x1 x2 = k0_pay1 (k0_pay8 x0 x1 x2 (k0_pay3 (F := F))) := by
  unfold out0_A_5
  rw [View.read_writes_eq_canon _ _ _ (cover0_A_5 c i arg2 harg2 arg3 harg3 arg4 harg4 arg5 harg5 arg6 harg6 arg7 harg7 hc0 x0 x1 x2)]
  unfold kernelRun0_A
  dsimp only
  sl_unfold_words
  rw [View.canon_cons_unit_zero (S := S1x1x512) hz3, View.readCov_unit_zero (S := S1x1x512) _ hz3]
  simp only [View.readAt_eq_ld, harg2.read_unread, harg3.read_unread, harg4.read_unread,
    View.ld_unit_zero (S := S2048x784) hz2, View.ld_unit_zero (S := S784x512) hz2, View.ld_unit_zero (S := S512) hz1]

end Cert.KernelIdeal.RegionA

end
-- ==== Proof.RegionASums.lean ====
/-
  Running sums that restart every eighth step.

  A sequence `f` that restarts at the value `g n` whenever `n` is a multiple of 8 and adds `g (n + 1)` at every other
  step is, at step `n`, the sum of `g` over the steps of the current run: from the last multiple of 8 up to `n`.
  Addition in a commutative monoid is all that is used.
-/
import Mathlib.Algebra.BigOperators.Fin
import Mathlib.Algebra.BigOperators.Intervals
import Mathlib.Data.Fintype.BigOperators

namespace Cert.KernelIdeal.RegionA

variable {M : Type*} [AddCommMonoid M]

/-- The sequence at step `n` is the sum of `g` from the last multiple of 8 up to `n`. -/
theorem run_sum (f g : ℕ → M) (N : ℕ)
    (h0 : ∀ n, n < N → n % 8 = 0 → f n = g n)
    (hs : ∀ n, n + 1 < N → ¬(n + 1) % 8 = 0 → f (n + 1) = f n + g (n + 1)) :
    ∀ n, n < N → f n = ∑ s ∈ Finset.range (n % 8 + 1), g (n - n % 8 + s) := by
  intro n
  induction n with
  | zero =>
    intro h
    rw [h0 0 h rfl]
    simp
  | succ n ih =>
    intro h
    by_cases hm : (n + 1) % 8 = 0
    · rw [h0 (n + 1) h hm, hm, Finset.sum_range_one]
      rfl
    · have e1 : (n + 1) % 8 = n % 8 + 1 := by omega
      have e2 : n + 1 - (n % 8 + 1) = n - n % 8 := by omega
      have e3 : n - n % 8 + (n % 8 + 1) = n + 1 := by omega
      rw [hs n h hm, ih (Nat.lt_of_succ_lt h), e1, e2, Finset.sum_range_succ _ (n % 8 + 1), e3]

/-- At the last step of run `q` the sequence is the sum of `g` over the eight steps of the run. -/
theorem run_sum_last (f g : ℕ → M) (N : ℕ)
    (h0 : ∀ n, n < N → n % 8 = 0 → f n = g n)
    (hs : ∀ n, n + 1 < N → ¬(n + 1) % 8 = 0 → f (n + 1) = f n + g (n + 1))
    (q : ℕ) (h : q * 8 + 7 < N) : f (q * 8 + 7) = ∑ s : Fin 8, g (q * 8 + s.val) := by
  rw [run_sum f g N h0 hs (q * 8 + 7) h]
  have e1 : (q * 8 + 7) % 8 = 7 := by omega
  have e2 : q * 8 + 7 - 7 = q * 8 := by omega
  rw [e1, e2]
  exact Finset.sum_range (fun s => g (q * 8 + s))

end Cert.KernelIdeal.RegionA
-- ==== Proof.RegionAInv.lean ====
/-
  What the three result blocks hold after each grid point of the first layer, over the extended reals.

  Grid point t stages rows 2048·t … 2048·t + 2047 of the input. After its body the first result's block holds the affine
  layer of those rows. The two running rows restart at the first point of each core (every eighth point) and otherwise
  add the block's column sums, so after point t they hold the column sums, and the column sums of squares, of the affine
  layer over all the blocks of the core's run so far.
-/
import proofs.«105324_j53815940219270_2_alg».proof.Proof.RegionAPay
import proofs.«105324_j53815940219270_2_alg».proof.Proof.RegionAOut
import proofs.«105324_j53815940219270_2_alg».proof.Proof.RegionASums

set_option maxRecDepth 16384

noncomputable section

namespace Cert.KernelIdeal.RegionA

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Entry `(r, j)` of the affine layer of the block staged at point `t`. -/
def lin (c : Dev nD) (t : Fin cfg0.N) (r : Fin 2048) (j : Fin 512) : EReal :=
  blockLin (iblk0 V c 0 t) (iblk0 V c 1 t) (iblk0 V c 2 t) r j

/-- Column `j`'s sum over the block staged at point `n` (zero past the grid). -/
def colSum (c : Dev nD) (j : Fin 512) (n : ℕ) : EReal :=
  if h : n < cfg0.N then ∑ r : Fin 2048, lin V c ⟨n, h⟩ r j else 0

/-- Column `j`'s sum of squares over the block staged at point `n` (zero past the grid). -/
def colSumSq (c : Dev nD) (j : Fin 512) (n : ℕ) : EReal :=
  if h : n < cfg0.N then ∑ r : Fin 2048, lin V c ⟨n, h⟩ r j * lin V c ⟨n, h⟩ r j else 0

/-- The running row of sums after point `n`, at column `j` (zero past the grid). -/
def run4 (c : Dev nD) (j : Fin 512) (n : ℕ) : EReal :=
  if h : n < cfg0.N then (outsAt0 V c n h).2.1 (ix3 (0 : Fin 1) (0 : Fin 1) j) else 0

/-- The running row of sums of squares after point `n`, at column `j` (zero past the grid). -/
def run5 (c : Dev nD) (j : Fin 512) (n : ℕ) : EReal :=
  if h : n < cfg0.N then (outsAt0 V c n h).2.2 (ix3 (0 : Fin 1) (0 : Fin 1) j) else 0

/-- After every point the first result's block holds the affine layer of the staged rows. -/
theorem out3_eq (c : Dev nD) (t : Fin cfg0.N) :
    (outsAt0 V c t.val t.isLt).1 = k0_pay5 (iblk0 V c 0 t) (iblk0 V c 1 t) (iblk0 V c 2 t) := by
  by_cases h0 : t.val % 8 = 0
  · rw [outsAt0_A V c t h0]
    dsimp only
    exact outA3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)
  · rw [outsAt0_B V c t h0]
    dsimp only
    exact outB3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
        (outsAt0 V c (t.val - 1) (Nat.lt_of_le_of_lt (Nat.sub_le _ _) t.isLt)).2.1 (outsAt0 V c (t.val - 1) (Nat.lt_of_le_of_lt (Nat.sub_le _ _) t.isLt)).2.2

theorem out3_apply (c : Dev nD) (t : Fin cfg0.N) (r : Fin 2048) (j : Fin 512) :
    (outsAt0 V c t.val t.isLt).1 (ix2 r j) = lin V c t r j :=
  (congrFun (out3_eq V c t) (ix2 r j)).trans (pay5_apply (iblk0 V c 0 t) (iblk0 V c 1 t) (iblk0 V c 2 t) r j)

/-- At the first point of a core's run the running row of sums is the zero row plus the block's column sums. -/
theorem out4_first (c : Dev nD) (t : Fin cfg0.N) (h0 : t.val % 8 = 0) :
    (outsAt0 V c t.val t.isLt).2.1 = k0_pay7 (iblk0 V c 0 t) (iblk0 V c 1 t) (iblk0 V c 2 t) (k0_pay2 (F := Ideal)) := by
  rw [outsAt0_A V c t h0]
  dsimp only
  exact outA4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)

/-- At the other points it is what the point before left plus the block's column sums. -/
theorem out4_step (c : Dev nD) (t : Fin cfg0.N) (h0 : ¬t.val % 8 = 0) :
    (outsAt0 V c t.val t.isLt).2.1 = k0_pay7 (iblk0 V c 0 t) (iblk0 V c 1 t) (iblk0 V c 2 t) (outsAt0 V c (t.val - 1) (Nat.lt_of_le_of_lt (Nat.sub_le _ _) t.isLt)).2.1 := by
  rw [outsAt0_B V c t h0]
  dsimp only
  exact outB4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
      (outsAt0 V c (t.val - 1) (Nat.lt_of_le_of_lt (Nat.sub_le _ _) t.isLt)).2.1 (outsAt0 V c (t.val - 1) (Nat.lt_of_le_of_lt (Nat.sub_le _ _) t.isLt)).2.2

theorem out5_first (c : Dev nD) (t : Fin cfg0.N) (h0 : t.val % 8 = 0) :
    (outsAt0 V c t.val t.isLt).2.2 = k0_pay1 (k0_pay8 (iblk0 V c 0 t) (iblk0 V c 1 t) (iblk0 V c 2 t) (k0_pay3 (F := Ideal))) := by
  rw [outsAt0_A V c t h0]
  dsimp only
  exact outA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)

theorem out5_step (c : Dev nD) (t : Fin cfg0.N) (h0 : ¬t.val % 8 = 0) :
    (outsAt0 V c t.val t.isLt).2.2 = k0_pay1 (k0_pay8 (iblk0 V c 0 t) (iblk0 V c 1 t) (iblk0 V c 2 t) (outsAt0 V c (t.val - 1) (Nat.lt_of_le_of_lt (Nat.sub_le _ _) t.isLt)).2.2) := by
  rw [outsAt0_B V c t h0]
  dsimp only
  exact outB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t)
      (outsAt0 V c (t.val - 1) (Nat.lt_of_le_of_lt (Nat.sub_le _ _) t.isLt)).2.1 (outsAt0 V c (t.val - 1) (Nat.lt_of_le_of_lt (Nat.sub_le _ _) t.isLt)).2.2

/-- At the first point of a core's run the running row of sums holds the block's column sums. -/
theorem run4_first (c : Dev nD) (j : Fin 512) (n : ℕ) (h : n < cfg0.N) (h0 : n % 8 = 0) :
    run4 V c j n = colSum V c j n := by
  unfold run4 colSum
  rw [dif_pos h, dif_pos h]
  refine (congrFun (out4_first V c ⟨n, h⟩ h0) (ix3 (0 : Fin 1) (0 : Fin 1) j)).trans ?_
  refine (pay7_apply _ _ _ (k0_pay2 (F := Ideal)) j).trans ?_
  rw [pay2_apply, zero_add]
  rfl

/-- At the other points it adds the block's column sums to what the point before left. -/
theorem run4_step (c : Dev nD) (j : Fin 512) (n : ℕ) (h : n + 1 < cfg0.N) (h0 : ¬(n + 1) % 8 = 0) :
    run4 V c j (n + 1) = run4 V c j n + colSum V c j (n + 1) := by
  unfold run4 colSum
  rw [dif_pos h, dif_pos h, dif_pos (Nat.lt_of_succ_lt h)]
  refine (congrFun (out4_step V c ⟨n + 1, h⟩ h0) (ix3 (0 : Fin 1) (0 : Fin 1) j)).trans ?_
  refine (pay7_apply _ _ _ _ j).trans ?_
  rfl

theorem run5_first (c : Dev nD) (j : Fin 512) (n : ℕ) (h : n < cfg0.N) (h0 : n % 8 = 0) :
    run5 V c j n = colSumSq V c j n := by
  unfold run5 colSumSq
  rw [dif_pos h, dif_pos h]
  refine (congrFun (out5_first V c ⟨n, h⟩ h0) (ix3 (0 : Fin 1) (0 : Fin 1) j)).trans ?_
  refine (pay1_pay8_apply _ _ _ (k0_pay3 (F := Ideal)) j).trans ?_
  rw [pay3_apply, zero_add]
  rfl

theorem run5_step (c : Dev nD) (j : Fin 512) (n : ℕ) (h : n + 1 < cfg0.N) (h0 : ¬(n + 1) % 8 = 0) :
    run5 V c j (n + 1) = run5 V c j n + colSumSq V c j (n + 1) := by
  unfold run5 colSumSq
  rw [dif_pos h, dif_pos h, dif_pos (Nat.lt_of_succ_lt h)]
  refine (congrFun (out5_step V c ⟨n + 1, h⟩ h0) (ix3 (0 : Fin 1) (0 : Fin 1) j)).trans ?_
  refine (pay1_pay8_apply _ _ _ _ j).trans ?_
  rfl

/-- After the last point of core `q`'s run the running row of sums holds the column sums over the run's eight blocks. -/
theorem run4_last (c : Dev nD) (j : Fin 512) (q : ℕ) (h : q * 8 + 7 < cfg0.N) :
    (outsAt0 V c (q * 8 + 7) h).2.1 (ix3 (0 : Fin 1) (0 : Fin 1) j) = ∑ s : Fin 8, colSum V c j (q * 8 + s.val) := by
  have e := run_sum_last (run4 V c j) (colSum V c j) cfg0.N (run4_first V c j) (run4_step V c j) q h
  unfold run4 at e
  rw [dif_pos h] at e
  exact e

/-- And the running row of sums of squares holds the column sums of squares over the run's eight blocks. -/
theorem run5_last (c : Dev nD) (j : Fin 512) (q : ℕ) (h : q * 8 + 7 < cfg0.N) :
    (outsAt0 V c (q * 8 + 7) h).2.2 (ix3 (0 : Fin 1) (0 : Fin 1) j) = ∑ s : Fin 8, colSumSq V c j (q * 8 + s.val) := by
  have e := run_sum_last (run5 V c j) (colSumSq V c j) cfg0.N (run5_first V c j) (run5_step V c j) q h
  unfold run5 at e
  rw [dif_pos h] at e
  exact e

end Cert.KernelIdeal.RegionA

end
-- ==== Proof.RegionAH.lean ====
/-
  What the first layer's three result arrays hold when its grid has run, over the extended reals.

  Write X for the [32768, 784] input, Wt for the [784, 512] weight (already transposed) and b for the bias as the
  region finds them. Grid point t stages rows 2048·t … 2048·t + 2047 of X and all of Wt and b, so the block it writes
  to the first result is rows 2048·t … of
      h r j = (∑ k, X r k · Wt k j) + b j,
  and the sixteen blocks tile the array. Core c's points are 8c … 8c + 7; the row c of each of the two small results
  is written once, after point 8c + 7, and holds the sums over the core's 8 · 2048 rows of h and of h².
-/
import proofs.«105324_j53815940219270_2_alg».proof.Proof.RegionAInv
import Idealize.ShloMosaic.Lib.Pipeline.Value

set_option maxRecDepth 16384

noncomputable section

namespace Cert.KernelIdeal.RegionA

open Idealize.ShloMosaic Idealize.ShloMosaic.TcCoe Idealize.ShloMosaic.ValueIdx Idealize.SL.Sem
open Idealize.ShloMosaic.Pipeline (Dat)
open Cert.KernelIdeal Cert.KernelIdeal.Gen

/-- Entry `(r, j)` of the affine layer: row `r` of the input against column `j` of the weight, plus the bias at `j`. -/
def hval (X : S32768x784.Idx → EReal) (Wt : S784x512.Idx → EReal) (bias : S512.Idx → EReal)
    (r : Fin 32768) (j : Fin 512) : EReal :=
  (∑ k : Fin 784, X (ix2 r k) * Wt (ix2 k j)) + bias (ix1 j)

theorem N16 : cfg0.N = 16 := N_0

/-- Row `r` of the block staged at point `t` is row `2048·t + r` of the input. -/
def rowOf (t : Fin cfg0.N) (r : Fin 2048) : Fin 32768 :=
  ⟨t.val * 2048 + r.val, by have := t.isLt; have := N16; have := r.isLt; omega⟩

/-- Row `r` of the `q`-th block of core `core`. -/
def rowIdx (core : Fin 2) (q : Fin 8) (r : Fin 2048) : Fin 32768 :=
  ⟨(core.val * 8 + q.val) * 2048 + r.val, by have := core.isLt; have := q.isLt; have := r.isLt; omega⟩

/-- The printed index maps, decided over the grid: which block of its array each window holds at point `t`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 3) = t.val / 8 ∧ win0_4.index t (1 : Fin 3) = 0 ∧ win0_4.index t (2 : Fin 3) = 0
    ∧ win0_5.index t (0 : Fin 3) = t.val / 8 ∧ win0_5.index t (1 : Fin 3) = 0 ∧ win0_5.index t (2 : Fin 3) = 0 :=
  (by decide +kernel : ∀ t : Fin grid0.N, _)

variable (V : (c : Dev nD) → (b : Ref sig .tc) → Buf (Elt Ideal) ((c : Thread nD τ).loc b))

/-! ## The staged blocks, read in the arrays -/

theorem iblk0_0_apply (c : Dev nD) (t : Fin cfg0.N) (r : Fin 2048) (k : Fin 784) :
    iblk0 V c 0 t (ix2 r k) = V c (Pipeline.arrRef spec0 0) (ix2 (rowOf t r) k) := by
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 2048 + 1 * r.val = t.val * 2048 + r.val; rw [(idx_facts t).1]; omega
  | ⟨1, _⟩ => show win0_0.index t (1 : Fin 2) * 784 + 1 * k.val = k.val; rw [(idx_facts t).2.1]; omega

theorem iblk0_1_apply (c : Dev nD) (t : Fin cfg0.N) (k : Fin 784) (j : Fin 512) :
    iblk0 V c 1 t (ix2 k j) = V c (Pipeline.arrRef spec0 1) (ix2 k j) := by
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 784 + 1 * k.val = k.val; rw [(idx_facts t).2.2.1]; omega
  | ⟨1, _⟩ => show win0_1.index t (1 : Fin 2) * 512 + 1 * j.val = j.val; rw [(idx_facts t).2.2.2.1]; omega

theorem iblk0_2_apply (c : Dev nD) (t : Fin cfg0.N) (j : Fin 512) :
    iblk0 V c 2 t (ix1 j) = V c (Pipeline.arrRef spec0 2) (ix1 j) := by
  unfold iblk0
  rw [View.read_apply]
  show V c (Pipeline.arrRef spec0 2) _ = V c (Pipeline.arrRef spec0 2) _
  congr 1
  funext a
  apply Fin.ext
  match a with
  | ⟨0, _⟩ => show win0_2.index t (0 : Fin 1) * 512 + 1 * j.val = j.val; rw [(idx_facts t).2.2.2.2.1]; omega

/-- The affine layer of the block staged at point `t` is the affine layer of the input's rows `2048·t …`. -/
theorem lin_eq (c : Dev nD) (t : Fin cfg0.N) (r : Fin 2048) (j : Fin 512) :
    lin V c t r j = hval (V c (Pipeline.arrRef spec0 0)) (V c (Pipeline.arrRef spec0 1)) (V c (Pipeline.arrRef spec0 2)) (rowOf t r) j := by
  unfold lin blockLin hval
  exact congrArg₂ (· + ·)
    (Finset.sum_congr rfl fun k _ => congrArg₂ (· * ·) (iblk0_0_apply V c t r k) (iblk0_1_apply V c t k j))
    (iblk0_2_apply V c t j)

/-! ## The first result: the affine layer, block by block -/

/-- The whole first result. -/
def G3 (c : Dev nD) : S32768x512.Idx → EReal := fun i =>
  hval (V c (Pipeline.arrRef spec0 0)) (V c (Pipeline.arrRef spec0 1)) (V c (Pipeline.arrRef spec0 2)) (i 0) (i 1)

/-- What point `t` writes back to the first result is block `t` of the affine layer. -/
theorem flushed3 (c : Dev nD) (t : Fin cfg0.N) :
    (dat0 V c).flushed 3 t = ((cfg0.win 3).blk t).view.read (Elt Ideal) (G3 V c) := by
  show (cfg0.win 3).cut (grid0.coords t) ((dat0 V c).after 3 t) = _
  rw [after0_3]
  funext y
  obtain ⟨r, j, rfl⟩ : ∃ (r : Fin 2048) (j : Fin 512), y = ix2 r j := ⟨y 0, y 1, eq_ix2 y⟩
  show (outsAt0 V c t.val t.isLt).1 (ix2 r j) = G3 V c (((cfg0.win 3).blk t).view.emb (ix2 r j))
  rw [out3_apply, lin_eq]
  unfold G3
  have e0 : ((cfg0.win 3).blk t).view.emb (ix2 r j) 0 = rowOf t r := Fin.ext (by
    show win0_3.index t (0 : Fin 2) * 2048 + 1 * r.val = t.val * 2048 + r.val
    rw [(idx_facts t).2.2.2.2.2.1]; omega)
  have e1 : ((cfg0.win 3).blk t).view.emb (ix2 r j) 1 = j := Fin.ext (by
    show win0_3.index t (1 : Fin 2) * 512 + 1 * j.val = j.val
    rw [(idx_facts t).2.2.2.2.2.2.1]; omega)
  rw [e0, e1]

/-- An index of the first result is in point `t`'s block iff each coordinate is in the block's range on its axis. -/
theorem mem_blk3 (t : Fin cfg0.N) (i : S32768x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v8_0).slice (win0_3.rect t)).set ↔ _
  rw [View.set_slice_whole, Rect.mem_set_unit]
  exact Iff.rfl

/-- The sixteen blocks tile the first result: row `r` is in the block of point `r / 2048`. -/
theorem cover3 (i : S32768x512.Idx) :
    ∃ t : Fin cfg0.N, (cfg0.win 3).flush t = true ∧ i ∈ ((cfg0.win 3).blk t).view.set := by
  have hi0 : (i 0).val < 32768 := (i 0).isLt
  have hi1 : (i 1).val < 512 := (i 1).isLt
  let t : Fin cfg0.N := ⟨(i 0).val / 2048, by rw [N16]; omega⟩
  refine ⟨t, flush0_3 t, ?_⟩
  rw [mem_blk3]
  intro a
  match a with
  | ⟨0, _⟩ =>
    show win0_3.index t (0 : Fin 2) * 2048 ≤ (i 0).val ∧ (i 0).val < win0_3.index t (0 : Fin 2) * 2048 + 2048
    rw [(idx_facts t).2.2.2.2.2.1]
    show (i 0).val / 2048 * 2048 ≤ (i 0).val ∧ (i 0).val < (i 0).val / 2048 * 2048 + 2048
    omega
  | ⟨1, _⟩ =>
    show win0_3.index t (1 : Fin 2) * 512 ≤ (i 1).val ∧ (i 1).val < win0_3.index t (1 : Fin 2) * 512 + 512
    rw [(idx_facts t).2.2.2.2.2.2.1]
    omega

/-- So the first result ends holding the affine layer of the whole input. -/
theorem final3 (c : Dev nD) : (dat0 V c).arrAt 3 cfg0.N = G3 V c :=
  (dat0 V c).arrAt_eq_of_cover 3 (G3 V c) (fun t _ => flushed3 V c t) cover3

/-- THE FIRST RESULT, entry by entry. -/
theorem arr_h (c : Dev nD) (r : Fin 32768) (j : Fin 512) :
    (dat0 V c).arrAt 3 cfg0.N (ix2 r j)
      = hval (V c (Pipeline.arrRef spec0 0)) (V c (Pipeline.arrRef spec0 1)) (V c (Pipeline.arrRef spec0 2)) r j := by
  rw [final3]
  rfl

end Cert.KernelIdeal.RegionA

end
-- ==== Proof.RegionA.lean ====
/-
  The two small results of the first layer: per core, the column sums of the affine layer and of its square.

  Core c's grid points are 8c … 8c + 7; their blocks are rows 2048·(8c + q) + r of the input (q < 8, r < 2048). The
  running rows restart at point 8c, add one block's column sums per point, and are written back once, after point
  8c + 7, to row c of the [2, 1, 512] results. So entry (c, 0, j) is the sum over q and r of h and of h·h at row
  2048·(8c + q) + r and column j, where h is the affine layer of the whole input.
-/
import proofs.«105324_j53815940219270_2_alg».proof.Proof.RegionAH

set_option maxRecDepth 16384

noncomputable section

namespace Cert.KernelIdeal.RegionA

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The contents after a point do not depend on how the point's number is written. -/
theorem outs_cast (c : Dev nD) (n n' : ℕ) (h : n < cfg0.N) (h' : n' < cfg0.N) (e : n = n') :
    outsAt0 V c n h = outsAt0 V c n' h' := by
  subst e; rfl

/-- The whole second result: row `c` holds, column by column, the sums of the affine layer over core `c`'s 8 · 2048 rows. -/
def G4 (c : Dev nD) : S2x1x512.Idx → EReal := fun i =>
  ∑ q : Fin 8, ∑ r : Fin 2048, hval (V c (Pipeline.arrRef spec0 0)) (V c (Pipeline.arrRef spec0 1)) (V c (Pipeline.arrRef spec0 2)) (rowIdx (i 0) q r) (i 2)

theorem colSum_eq (c : Dev nD) (j : Fin 512) (core : Fin 2) (s : Fin 8) :
    colSum V c j (core.val * 8 + s.val) = ∑ r : Fin 2048, hval (V c (Pipeline.arrRef spec0 0)) (V c (Pipeline.arrRef spec0 1)) (V c (Pipeline.arrRef spec0 2)) (rowIdx core s r) j := by
  have hlt : core.val * 8 + s.val < cfg0.N := by rw [N16]; have := core.isLt; have := s.isLt; omega
  unfold colSum
  rw [dif_pos hlt]
  refine Finset.sum_congr rfl fun r _ => ?_
  rw [lin_eq]
  rfl

/-- After the last point of a core's run the running row holds the sums over the core's rows. -/
theorem acc4 (c : Dev nD) (core : Fin 2) (j : Fin 512) (t : Fin cfg0.N) (ht : t.val = core.val * 8 + 7) :
    (outsAt0 V c t.val t.isLt).2.1 (ix3 (0 : Fin 1) (0 : Fin 1) j)
      = ∑ q : Fin 8, ∑ r : Fin 2048, hval (V c (Pipeline.arrRef spec0 0)) (V c (Pipeline.arrRef spec0 1)) (V c (Pipeline.arrRef spec0 2)) (rowIdx core q r) j := by
  have hlt : core.val * 8 + 7 < cfg0.N := by rw [N16]; have := core.isLt; omega
  rw [outs_cast V c t.val (core.val * 8 + 7) t.isLt hlt ht, run4_last V c j core.val hlt]
  exact Finset.sum_congr rfl fun s _ => colSum_eq V c j core s

/-- What the last point of a core's run writes back is the core's row of the sums. -/
theorem flushed4 (c : Dev nD) (t : Fin cfg0.N) (hf : (cfg0.win 4).flush t = true) :
    (dat0 V c).flushed 4 t = ((cfg0.win 4).blk t).view.read (Elt Ideal) (G4 V c) := by
  have h7 : t.val % 8 = 7 := (flush0_4 t).mp hf
  have hN := N16
  have htl := t.isLt
  obtain ⟨f00, f01, f10, f11, f20, f30, f31, f40, f41, f42, f50, f51, f52⟩ := idx_facts t
  show (cfg0.win 4).cut (grid0.coords t) ((dat0 V c).after 4 t) = _
  rw [after0_4]
  funext y
  obtain ⟨u, v, j, rfl⟩ : ∃ (u v : Fin 1) (j : Fin 512), y = ix3 u v j := ⟨y 0, y 1, y 2, eq_ix3 y⟩
  obtain rfl : u = 0 := Subsingleton.elim _ _
  obtain rfl : v = 0 := Subsingleton.elim _ _
  show (outsAt0 V c t.val t.isLt).2.1 (ix3 (0 : Fin 1) (0 : Fin 1) j)
    = G4 V c (((cfg0.win 4).blk t).view.emb (ix3 (0 : Fin 1) (0 : Fin 1) j))
  have hc : t.val / 8 < 2 := by omega
  rw [acc4 V c ⟨t.val / 8, hc⟩ j t (by show t.val = t.val / 8 * 8 + 7; omega)]
  unfold G4
  have e0 : ((cfg0.win 4).blk t).view.emb (ix3 (0 : Fin 1) (0 : Fin 1) j) 0 = (⟨t.val / 8, hc⟩ : Fin 2) := Fin.ext (by
    show win0_4.index t (0 : Fin 3) * 1 + 1 * 0 = t.val / 8
    rw [f40]; omega)
  have e2 : ((cfg0.win 4).blk t).view.emb (ix3 (0 : Fin 1) (0 : Fin 1) j) 2 = j := Fin.ext (by
    show win0_4.index t (2 : Fin 3) * 512 + 1 * j.val = j.val
    rw [f42]; omega)
  rw [e0, e2]

theorem mem_blk4 (t : Fin cfg0.N) (i : S2x1x512.Idx) :
    i ∈ ((cfg0.win 4).blk t).view.set ↔ ∀ a : Fin 3, win0_4.index t a * S1x1x512.size a ≤ (i a).val ∧ (i a).val < win0_4.index t a * S1x1x512.size a + S1x1x512.size a := by
  show i ∈ ((View.whole main_v8_1).slice (win0_4.rect t)).set ↔ _
  rw [View.set_slice_whole, Rect.mem_set_unit]
  exact Iff.rfl

/-- Row `c` of the small result is the block written back after point `8c + 7`. -/
theorem cover4 (i : S2x1x512.Idx) :
    ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 512 := (i 2).isLt
  have hlt : (i 0).val * 8 + 7 < cfg0.N := by rw [N16]; omega
  obtain ⟨f00, f01, f10, f11, f20, f30, f31, f40, f41, f42, f50, f51, f52⟩ := idx_facts ⟨(i 0).val * 8 + 7, hlt⟩
  refine ⟨⟨(i 0).val * 8 + 7, hlt⟩, (flush0_4 _).mpr (by show ((i 0).val * 8 + 7) % 8 = 7; omega), ?_⟩
  rw [mem_blk4]
  intro a
  match a with
  | ⟨0, _⟩ =>
    show win0_4.index ⟨(i 0).val * 8 + 7, hlt⟩ (0 : Fin 3) * 1 ≤ (i 0).val ∧ (i 0).val < win0_4.index ⟨(i 0).val * 8 + 7, hlt⟩ (0 : Fin 3) * 1 + 1
    rw [f40]
    show ((i 0).val * 8 + 7) / 8 * 1 ≤ (i 0).val ∧ (i 0).val < ((i 0).val * 8 + 7) / 8 * 1 + 1
    omega
  | ⟨1, _⟩ =>
    show win0_4.index ⟨(i 0).val * 8 + 7, hlt⟩ (1 : Fin 3) * 1 ≤ (i 1).val ∧ (i 1).val < win0_4.index ⟨(i 0).val * 8 + 7, hlt⟩ (1 : Fin 3) * 1 + 1
    rw [f41]
    omega
  | ⟨2, _⟩ =>
    show win0_4.index ⟨(i 0).val * 8 + 7, hlt⟩ (2 : Fin 3) * 512 ≤ (i 2).val ∧ (i 2).val < win0_4.index ⟨(i 0).val * 8 + 7, hlt⟩ (2 : Fin 3) * 512 + 512
    rw [f42]
    omega

theorem final4 (c : Dev nD) : (dat0 V c).arrAt 4 cfg0.N = G4 V c :=
  (dat0 V c).arrAt_eq_of_cover 4 (G4 V c) (flushed4 V c) cover4

/-- THE SECOND RESULT, entry by entry: the core's column sums of the affine layer. -/
theorem arr_sum (c : Dev nD) (core : Fin 2) (j : Fin 512) :
    (dat0 V c).arrAt 4 cfg0.N (ix3 core (0 : Fin 1) j)
      = ∑ q : Fin 8, ∑ r : Fin 2048, hval (V c (Pipeline.arrRef spec0 0)) (V c (Pipeline.arrRef spec0 1)) (V c (Pipeline.arrRef spec0 2)) (rowIdx core q r) j := by
  rw [final4]
  rfl

/-- The whole third result: row `c` holds, column by column, the sums of the squares of the affine layer over core `c`'s rows. -/
def G5 (c : Dev nD) : S2x1x512.Idx → EReal := fun i =>
  ∑ q : Fin 8, ∑ r : Fin 2048, hval (V c (Pipeline.arrRef spec0 0)) (V c (Pipeline.arrRef spec0 1)) (V c (Pipeline.arrRef spec0 2)) (rowIdx (i 0) q r) (i 2) * hval (V c (Pipeline.arrRef spec0 0)) (V c (Pipeline.arrRef spec0 1)) (V c (Pipeline.arrRef spec0 2)) (rowIdx (i 0) q r) (i 2)

theorem colSumSq_eq (c : Dev nD) (j : Fin 512) (core : Fin 2) (s : Fin 8) :
    colSumSq V c j (core.val * 8 + s.val) = ∑ r : Fin 2048, hval (V c (Pipeline.arrRef spec0 0)) (V c (Pipeline.arrRef spec0 1)) (V c (Pipeline.arrRef spec0 2)) (rowIdx core s r) j * hval (V c (Pipeline.arrRef spec0 0)) (V c (Pipeline.arrRef spec0 1)) (V c (Pipeline.arrRef spec0 2)) (rowIdx core s r) j := by
  have hlt : core.val * 8 + s.val < cfg0.N := by rw [N16]; have := core.isLt; have := s.isLt; omega
  unfold colSumSq
  rw [dif_pos hlt]
  refine Finset.sum_congr rfl fun r _ => ?_
  rw [lin_eq]
  rfl

/-- After the last point of a core's run the running row holds the sums over the core's rows. -/
theorem acc5 (c : Dev nD) (core : Fin 2) (j : Fin 512) (t : Fin cfg0.N) (ht : t.val = core.val * 8 + 7) :
    (outsAt0 V c t.val t.isLt).2.2 (ix3 (0 : Fin 1) (0 : Fin 1) j)
      = ∑ q : Fin 8, ∑ r : Fin 2048, hval (V c (Pipeline.arrRef spec0 0)) (V c (Pipeline.arrRef spec0 1)) (V c (Pipeline.arrRef spec0 2)) (rowIdx core q r) j * hval (V c (Pipeline.arrRef spec0 0)) (V c (Pipeline.arrRef spec0 1)) (V c (Pipeline.arrRef spec0 2)) (rowIdx core q r) j := by
  have hlt : core.val * 8 + 7 < cfg0.N := by rw [N16]; have := core.isLt; omega
  rw [outs_cast V c t.val (core.val * 8 + 7) t.isLt hlt ht, run5_last V c j core.val hlt]
  exact Finset.sum_congr rfl fun s _ => colSumSq_eq V c j core s

/-- What the last point of a core's run writes back is the core's row of the sums. -/
theorem flushed5 (c : Dev nD) (t : Fin cfg0.N) (hf : (cfg0.win 5).flush t = true) :
    (dat0 V c).flushed 5 t = ((cfg0.win 5).blk t).view.read (Elt Ideal) (G5 V c) := by
  have h7 : t.val % 8 = 7 := (flush0_5 t).mp hf
  have hN := N16
  have htl := t.isLt
  obtain ⟨f00, f01, f10, f11, f20, f30, f31, f40, f41, f42, f50, f51, f52⟩ := idx_facts t
  show (cfg0.win 5).cut (grid0.coords t) ((dat0 V c).after 5 t) = _
  rw [after0_5]
  funext y
  obtain ⟨u, v, j, rfl⟩ : ∃ (u v : Fin 1) (j : Fin 512), y = ix3 u v j := ⟨y 0, y 1, y 2, eq_ix3 y⟩
  obtain rfl : u = 0 := Subsingleton.elim _ _
  obtain rfl : v = 0 := Subsingleton.elim _ _
  show (outsAt0 V c t.val t.isLt).2.2 (ix3 (0 : Fin 1) (0 : Fin 1) j)
    = G5 V c (((cfg0.win 5).blk t).view.emb (ix3 (0 : Fin 1) (0 : Fin 1) j))
  have hc : t.val / 8 < 2 := by omega
  rw [acc5 V c ⟨t.val / 8, hc⟩ j t (by show t.val = t.val / 8 * 8 + 7; omega)]
  unfold G5
  have e0 : ((cfg0.win 5).blk t).view.emb (ix3 (0 : Fin 1) (0 : Fin 1) j) 0 = (⟨t.val / 8, hc⟩ : Fin 2) := Fin.ext (by
    show win0_5.index t (0 : Fin 3) * 1 + 1 * 0 = t.val / 8
    rw [f50]; omega)
  have e2 : ((cfg0.win 5).blk t).view.emb (ix3 (0 : Fin 1) (0 : Fin 1) j) 2 = j := Fin.ext (by
    show win0_5.index t (2 : Fin 3) * 512 + 1 * j.val = j.val
    rw [f52]; omega)
  rw [e0, e2]

theorem mem_blk5 (t : Fin cfg0.N) (i : S2x1x512.Idx) :
    i ∈ ((cfg0.win 5).blk t).view.set ↔ ∀ a : Fin 3, win0_5.index t a * S1x1x512.size a ≤ (i a).val ∧ (i a).val < win0_5.index t a * S1x1x512.size a + S1x1x512.size a := by
  show i ∈ ((View.whole main_v8_2).slice (win0_5.rect t)).set ↔ _
  rw [View.set_slice_whole, Rect.mem_set_unit]
  exact Iff.rfl

/-- Row `c` of the small result is the block written back after point `8c + 7`. -/
theorem cover5 (i : S2x1x512.Idx) :
    ∃ t : Fin cfg0.N, (cfg0.win 5).flush t = true ∧ i ∈ ((cfg0.win 5).blk t).view.set := by
  have hi0 : (i 0).val < 2 := (i 0).isLt
  have hi1 : (i 1).val < 1 := (i 1).isLt
  have hi2 : (i 2).val < 512 := (i 2).isLt
  have hlt : (i 0).val * 8 + 7 < cfg0.N := by rw [N16]; omega
  obtain ⟨f00, f01, f10, f11, f20, f30, f31, f40, f41, f42, f50, f51, f52⟩ := idx_facts ⟨(i 0).val * 8 + 7, hlt⟩
  refine ⟨⟨(i 0).val * 8 + 7, hlt⟩, (flush0_5 _).mpr (by show ((i 0).val * 8 + 7) % 8 = 7; omega), ?_⟩
  rw [mem_blk5]
  intro a
  match a with
  | ⟨0, _⟩ =>
    show win0_5.index ⟨(i 0).val * 8 + 7, hlt⟩ (0 : Fin 3) * 1 ≤ (i 0).val ∧ (i 0).val < win0_5.index ⟨(i 0).val * 8 + 7, hlt⟩ (0 : Fin 3) * 1 + 1
    rw [f50]
    show ((i 0).val * 8 + 7) / 8 * 1 ≤ (i 0).val ∧ (i 0).val < ((i 0).val * 8 + 7) / 8 * 1 + 1
    omega
  | ⟨1, _⟩ =>
    show win0_5.index ⟨(i 0).val * 8 + 7, hlt⟩ (1 : Fin 3) * 1 ≤ (i 1).val ∧ (i 1).val < win0_5.index ⟨(i 0).val * 8 + 7, hlt⟩ (1 : Fin 3) * 1 + 1
    rw [f51]
    omega
  | ⟨2, _⟩ =>
    show win0_5.index ⟨(i 0).val * 8 + 7, hlt⟩ (2 : Fin 3) * 512 ≤ (i 2).val ∧ (i 2).val < win0_5.index ⟨(i 0).val * 8 + 7, hlt⟩ (2 : Fin 3) * 512 + 512
    rw [f52]
    omega

theorem final5 (c : Dev nD) : (dat0 V c).arrAt 5 cfg0.N = G5 V c :=
  (dat0 V c).arrAt_eq_of_cover 5 (G5 V c) (flushed5 V c) cover5

/-- THE THIRD RESULT, entry by entry: the core's column sums of squares of the affine layer. -/
theorem arr_sumsq (c : Dev nD) (core : Fin 2) (j : Fin 512) :
    (dat0 V c).arrAt 5 cfg0.N (ix3 core (0 : Fin 1) j)
      = ∑ q : Fin 8, ∑ r : Fin 2048, hval (V c (Pipeline.arrRef spec0 0)) (V c (Pipeline.arrRef spec0 1)) (V c (Pipeline.arrRef spec0 2)) (rowIdx core q r) j * hval (V c (Pipeline.arrRef spec0 0)) (V c (Pipeline.arrRef spec0 1)) (V c (Pipeline.arrRef spec0 2)) (rowIdx core q r) j := by
  rw [final5]
  rfl

end Cert.KernelIdeal.RegionA

end
-- ==== Proof.KernelMath.lean ====
/-
  The coercions that carry the network's stages from real arrays to extended-real arrays.

  An affine layer over real entries is the coercion of the real affine layer. For a real column the
  quotient of its sum by the batch size is its mean; the quotient of its sum of squares, minus the square
  of the mean, is its variance (mean of squares minus square of the mean), which is nonnegative, so
  the maximum with 0 changes nothing; the variance plus a positive stabiliser is positive, so its reciprocal
  square root is the real one; and the normalised, scaled, shifted, rectified, masked and rescaled entry is a product
  and sum of reals.
-/
import proofs.«105324_j53815940219270_2_alg».proof.Proof.Spec
import proofs.«105324_j53815940219270_2_alg».proof.Proof.Consts
import proofs.«105324_j53815940219270_2_alg».proof.Proof.LibBatchNorm

open Idealize.ShloMosaic
open scoped BigOperators

noncomputable section

namespace Cert.KernelMath

open Cert.Spec Cert.LibBatchNorm

/-- An affine layer over coerced reals is the coercion of the real affine layer. -/
theorem lin_coe {B K N : ℕ} (X : Fin B → Fin K → ℝ) (W : Fin N → Fin K → ℝ) (b : Fin N → ℝ) (r : Fin B) (j : Fin N) :
    (∑ k, (X r k : EReal) * (W j k : EReal)) + (b j : EReal) = ((lin X W b r j : ℝ) : EReal) := by
  rw [sum_mul_coe, ← EReal.coe_add]; rfl

theorem spec_mean_eq {B N : ℕ} (H : Fin B → Fin N → ℝ) (j : Fin N) :
    Spec.mean H j = LibBatchNorm.mean (fun r => H r j) := rfl

theorem spec_var_eq {B N : ℕ} (H : Fin B → Fin N → ℝ) (j : Fin N) :
    Spec.var H j = LibBatchNorm.var (fun r => H r j) := rfl

/-- The quotient of a column's sum by the batch size is its mean. -/
theorem mean_coe {B N : ℕ} (hB : 0 < B) (H : Fin B → Fin N → ℝ) (j : Fin N) (c : EReal) (hc : c = ((B : ℝ) : EReal)) :
    Ideal.div ((∑ r, H r j : ℝ) : EReal) c = ((Spec.mean H j : ℝ) : EReal) := by
  subst hc
  rw [div_coe_coe _ (Nat.cast_ne_zero.mpr hB.ne')]; rfl

/-- Mean of squares minus square of the mean, floored at 0, is the variance. -/
theorem var_coe {B N : ℕ} (hB : 0 < B) (H : Fin B → Fin N → ℝ) (j : Fin N) (c z : EReal) (hc : c = ((B : ℝ) : EReal))
    (hz : z = 0) :
    max (Ideal.div ((∑ r, H r j * H r j : ℝ) : EReal) c - ((Spec.mean H j : ℝ) : EReal) * ((Spec.mean H j : ℝ) : EReal)) z
      = ((Spec.var H j : ℝ) : EReal) := by
  subst hc hz
  rw [div_coe_coe _ (Nat.cast_ne_zero.mpr hB.ne'), ← EReal.coe_mul, ← EReal.coe_sub, spec_mean_eq, spec_var_eq,
    var_eq hB (fun r => H r j), ← EReal.coe_zero, coe_max, max_eq_left (var_nonneg _)]

/-- The normalised, scaled, shifted, rectified, masked and rescaled entry. -/
theorem bn_coe {B N : ℕ} (H : Fin B → Fin N → ℝ) (g be : Fin N → ℝ) (M : Fin B → Fin N → ℝ) (e s : ℝ) (he : 0 < e)
    (z : EReal) (hz : z = 0) (r : Fin B) (j : Fin N) :
    max ((((H r j : ℝ) : EReal) - ((Spec.mean H j : ℝ) : EReal)) * Ideal.rsqrt (((Spec.var H j : ℝ) : EReal) + ((e : ℝ) : EReal))
          * ((g j : ℝ) : EReal) + ((be j : ℝ) : EReal)) z * ((M r j : ℝ) : EReal) * ((s : ℝ) : EReal)
      = ((Spec.bnDrop H g be M e s r j : ℝ) : EReal) := by
  subst hz
  rw [← EReal.coe_add, spec_var_eq, rsqrt_pos_coe (var_add_pos _ he), ← EReal.coe_sub, ← EReal.coe_mul, ← EReal.coe_mul,
    ← EReal.coe_add, ← EReal.coe_zero, coe_max, ← EReal.coe_mul, ← EReal.coe_mul]
  rfl

end Cert.KernelMath

end
-- ==== Proof.KernelLayers.lean ====
/-
  One stage of the network over operands that are coercions of real arrays: the normalised, rectified, masked
  entry is the coercion of the real one, and a row of such entries against a row of real weights plus a real bias is the
  coercion of the real affine layer.
-/
import proofs.«105324_j53815940219270_2_alg».proof.Proof.KernelMath

noncomputable section

namespace Cert.KernelLayers

open Idealize.ShloMosaic Idealize.ShloMosaic.ValueIdx Cert.Spec Cert.KernelMath
open scoped BigOperators

/-- The normalised, scaled, shifted, rectified, masked and rescaled entry over coerced operands. -/
theorem act_real (H : Fin 32768 → Fin 512 → ℝ) (g be : Fin 512 → ℝ) (M : Fin 32768 → Fin 512 → ℝ)
    (A0 : (⟨2, ![32768, 512]⟩ : Shape).Idx → EReal) (A1 A2 : (⟨2, ![1, 512]⟩ : Shape).Idx → EReal)
    (A3 A4 : (⟨1, ![512]⟩ : Shape).Idx → EReal) (A5 : (⟨2, ![32768, 512]⟩ : Shape).Idx → EReal)
    (h0 : Is2 A0 H) (h1 : ∀ k, A1 (ix2 (0 : Fin 1) k) = ((Spec.mean H k : ℝ) : EReal))
    (h2 : ∀ k, A2 (ix2 (0 : Fin 1) k) = ((Spec.var H k : ℝ) : EReal)) (h3 : Is1 A3 g) (h4 : Is1 A4 be) (h5 : Is2 A5 M)
    (r : Fin 32768) (k : Fin 512) :
    max (((A0 (ix2 r k) - A1 (ix2 (0 : Fin 1) k)) * Ideal.rsqrt (A2 (ix2 (0 : Fin 1) k) + Ideal.ofBits .f32 0x3727C5AC#32))
          * A3 (ix1 k) + A4 (ix1 k)) (Ideal.ofBits .f32 0x00000000#32) * A5 (ix2 r k) * Ideal.ofBits .f32 0x3FB6DB6E#32
      = ((Spec.bnDrop H g be M Cert.Consts.eps Cert.Consts.scl r k : ℝ) : EReal) := by
  rw [h0 r k, h1 k, h2 k, h3 k, h4 k, h5 r k, Cert.Consts.ofBits_eps, Cert.Consts.ofBits_scl]
  exact bn_coe H g be M Cert.Consts.eps Cert.Consts.scl Cert.Consts.eps_pos _ Cert.Consts.ofBits_zero r k

/-- A row of coerced reals against a row of coerced weights, plus a coerced bias. -/
theorem lin_real {B K N : ℕ} (Act : Fin B → Fin K → ℝ) (W : Fin N → Fin K → ℝ) (b : Fin N → ℝ) (a w : Fin K → EReal)
    (bb : EReal) (r : Fin B) (j : Fin N) (ha : ∀ k, a k = ((Act r k : ℝ) : EReal)) (hw : ∀ k, w k = ((W j k : ℝ) : EReal))
    (hb : bb = ((b j : ℝ) : EReal)) :
    (∑ k, a k * w k) + bb = ((Spec.lin Act W b r j : ℝ) : EReal) := by
  rw [Finset.sum_congr rfl (fun k _ => by rw [ha k, hw k]), hb]
  exact lin_coe Act W b r j

end Cert.KernelLayers

end
-- ==== Proof.LibBlockSum.lean ====
/-
  A finite sum regrouped into equal blocks.

  Over any commutative additive monoid, the sum of `g` over the `n = a · b` indices `0, …, n - 1` is the sum, over
  the `a` blocks `p`, of the sums over the `b` positions `r` inside a block of `g` at index `b · p + r`. Addition
  being commutative and associative, no finiteness of the summands is involved.
-/
import Mathlib.Algebra.BigOperators.Fin
import Mathlib.Data.Fintype.BigOperators
import Mathlib.Logic.Equiv.Fin.Basic

namespace Cert.Lib.BlockSum

/-- Position `r` of block `p` (blocks of `b` positions, `a` of them) is an index below `n = a · b`. -/
theorem block_index_lt {a b n : ℕ} (hn : a * b = n) (p : Fin a) (r : Fin b) : b * p.val + r.val < n := by
  have h1 : b * p.val + r.val < b * (p.val + 1) := by rw [Nat.mul_succ]; exact Nat.add_lt_add_left r.isLt _
  have h2 : b * (p.val + 1) ≤ b * a := Nat.mul_le_mul_left _ p.isLt
  calc b * p.val + r.val < b * (p.val + 1) := h1
    _ ≤ b * a := h2
    _ = n := by rw [Nat.mul_comm]; exact hn

/-- The sum over `n = a · b` indices is the sum over the `a` blocks of the sums over the `b` positions of a block. -/
theorem sum_eq_sum_blocks {M : Type*} [AddCommMonoid M] {n : ℕ} (a b : ℕ) (hn : a * b = n) (g : Fin n → M) :
    ∑ i : Fin n, g i = ∑ p : Fin a, ∑ r : Fin b, g ⟨b * p.val + r.val, block_index_lt hn p r⟩ := by
  subst hn
  rw [← finProdFinEquiv.sum_comp, Fintype.sum_prod_type]
  refine Finset.sum_congr rfl fun p _ => Finset.sum_congr rfl fun r _ => congrArg g (Fin.ext ?_)
  show (finProdFinEquiv (p, r)).val = b * p.val + r.val
  rw [finProdFinEquiv_apply_val]
  exact Nat.add_comm _ _

/-! ## Running sums

A sequence that starts at `f 0` and adds `f (n + 1)` at step `n + 1` is the sequence of the partial sums of `f`; sums
over the first `N` natural numbers and over the `N` indices below `N` are the same sums. -/

variable {M : Type*} [AddCommMonoid M]

/-- A sequence that starts at `f 0` and adds `f (n + 1)` at step `n + 1` is, at step `n`, the sum of `f` over
    `0, …, n`. -/
theorem acc_eq_sum_range (f acc : ℕ → M) (h0 : acc 0 = f 0) (hs : ∀ n, acc (n + 1) = acc n + f (n + 1)) (n : ℕ) :
    acc n = ∑ p ∈ Finset.range (n + 1), f p := by
  induction n with
  | zero => rw [h0, Finset.sum_range_one]
  | succ n ih => rw [hs, ih, Finset.sum_range_succ _ (n + 1)]

/-- The same when the steps are known only below a bound `N`: at every step `n` below `N` the sequence is the sum of
    `f` over `0, …, n`. -/
theorem acc_eq_sum_range_of_lt (N : ℕ) (f acc : ℕ → M) (h0 : acc 0 = f 0)
    (hs : ∀ n, n + 1 < N → acc (n + 1) = acc n + f (n + 1)) (n : ℕ) (hn : n < N) :
    acc n = ∑ p ∈ Finset.range (n + 1), f p := by
  induction n with
  | zero => rw [h0, Finset.sum_range_one]
  | succ n ih => rw [hs n hn, ih (Nat.lt_of_succ_lt hn), Finset.sum_range_succ _ (n + 1)]

/-- A sum over the first `N` natural numbers is the sum over the `N` indices below `N`. -/
theorem sum_range_eq_sum_fin (N : ℕ) (f : ℕ → M) : ∑ p ∈ Finset.range N, f p = ∑ t : Fin N, f t.val :=
  Finset.sum_range f

/-- A family on the `N` indices below `N`, continued by `0` to every natural number, has over the first `N` natural
    numbers the family's own sum. -/
theorem sum_range_dite (N : ℕ) (g : Fin N → M) :
    ∑ p ∈ Finset.range N, (if h : p < N then g ⟨p, h⟩ else 0) = ∑ t : Fin N, g t := by
  rw [Finset.sum_range]
  refine Finset.sum_congr rfl fun t _ => ?_
  show (if h : t.val < N then g ⟨t.val, h⟩ else 0) = g t
  rw [dif_pos t.isLt]

/-- For sequences indexed by the `n + 1` indices `0, …, n`: one that starts at `g 0` and adds `g (k + 1)` at step
    `k + 1` is, at step `k`, the sum of `g` over the indices `0, …, k`. -/
theorem acc_fin_eq_sum {n : ℕ} (g acc : Fin (n + 1) → M) (h0 : acc 0 = g 0)
    (hs : ∀ k : Fin n, acc k.succ = acc k.castSucc + g k.succ) (k : Fin (n + 1)) :
    acc k = ∑ t : Fin (k.val + 1), g ⟨t.val, Nat.lt_of_lt_of_le t.isLt k.isLt⟩ := by
  let G : ℕ → M := fun i => if h : i < n + 1 then g ⟨i, h⟩ else 0
  let A : ℕ → M := fun i => if h : i < n + 1 then acc ⟨i, h⟩ else 0
  have hA0 : A 0 = G 0 := by
    show (if h : 0 < n + 1 then acc ⟨0, h⟩ else 0) = if h : 0 < n + 1 then g ⟨0, h⟩ else 0
    rw [dif_pos (Nat.succ_pos n), dif_pos (Nat.succ_pos n)]
    exact h0
  have hAs : ∀ i, i + 1 < n + 1 → A (i + 1) = A i + G (i + 1) := by
    intro i hi
    have hi' : i < n := Nat.lt_of_succ_lt_succ hi
    show (if h : i + 1 < n + 1 then acc ⟨i + 1, h⟩ else 0)
      = (if h : i < n + 1 then acc ⟨i, h⟩ else 0) + if h : i + 1 < n + 1 then g ⟨i + 1, h⟩ else 0
    rw [dif_pos hi, dif_pos hi, dif_pos (Nat.lt_succ_of_lt hi')]
    exact hs ⟨i, hi'⟩
  have hk := acc_eq_sum_range_of_lt (n + 1) G A hA0 hAs k.val k.isLt
  have hAk : A k.val = acc k := by
    show (if h : k.val < n + 1 then acc ⟨k.val, h⟩ else 0) = acc k
    rw [dif_pos k.isLt]
  rw [← hAk, hk, sum_range_eq_sum_fin]
  refine Finset.sum_congr rfl fun t _ => ?_
  show (if h : t.val < n + 1 then g ⟨t.val, h⟩ else 0) = _
  rw [dif_pos (Nat.lt_of_lt_of_le t.isLt k.isLt)]

/-- At the last step such a sequence is the sum of `g` over all its indices. -/
theorem acc_fin_last {n : ℕ} (g acc : Fin (n + 1) → M) (h0 : acc 0 = g 0)
    (hs : ∀ k : Fin n, acc k.succ = acc k.castSucc + g k.succ) :
    acc (Fin.last n) = ∑ t : Fin (n + 1), g t :=
  acc_fin_eq_sum g acc h0 hs (Fin.last n)

end Cert.Lib.BlockSum
-- ==== Proof.KernelStats.lean ====
/-
  The column statistics from the two cores' partial sums.

  Each core sums its own half of the batch (16384 rows); the two halves together are the whole batch, so the sum of
  the two partial sums of a real column is the column's sum, its quotient by the batch size is the column's mean, and
  mean of squares minus square of the mean, floored at zero, is the column's variance.
-/
import proofs.«105324_j53815940219270_2_alg».proof.Proof.HostStats
import proofs.«105324_j53815940219270_2_alg».proof.Proof.KernelMath
import proofs.«105324_j53815940219270_2_alg».proof.Proof.LibBlockSum

noncomputable section

namespace Cert.KernelIdeal.Stats

open Cert.KernelIdeal Cert.KernelIdeal.Gen Cert.KernelIdeal.HostRead Idealize.ShloMosaic Idealize.ShloMosaic.ValueIdx
open Cert.LibBatchNorm Cert.KernelMath
open scoped BigOperators

/-- Row r of core p's half of the batch. -/
def halfRow (p : Fin 2) (r : Fin 16384) : Fin 32768 := ⟨16384 * p.val + r.val, by have := p.isLt; have := r.isLt; omega⟩

/-- The two halves are the whole batch. -/
theorem sum_halves (f : Fin 32768 → ℝ) : ∑ p : Fin 2, ∑ r : Fin 16384, f (halfRow p r) = ∑ i, f i :=
  (Cert.Lib.BlockSum.sum_eq_sum_blocks 2 16384 (by norm_num) f).symm

theorem batch_cast : Ideal.ofBits .f32 0x47000000#32 = (((32768 : ℕ) : ℝ) : EReal) := by
  rw [Cert.Consts.ofBits_batch]; norm_num

theorem total_of_partial (f : Fin 32768 → ℝ) (P : FVec Ideal S2x1x512 .f32) (k : Fin 512)
    (hP : ∀ core : Fin 2, P (ix3 core (0 : Fin 1) k) = ((∑ r : Fin 16384, f (halfRow core r) : ℝ) : EReal)) :
    Ideal.ofBits .f32 0x00000000#32 + ∑ core : Fin 2, P (ix3 core (0 : Fin 1) k) = ((∑ i, f i : ℝ) : EReal) := by
  rw [Cert.Consts.ofBits_zero, zero_add, Finset.sum_congr rfl (fun core _ => hP core), ← coe_sum, sum_halves]

/-- Mean and variance of column k of a real matrix h from per-core partial sums of h and of h². -/
theorem stats_of_partial (h : Fin 32768 → Fin 512 → ℝ) (P Q : FVec Ideal S2x1x512 .f32) (k : Fin 512)
    (hP : ∀ core : Fin 2, P (ix3 core (0 : Fin 1) k) = ((∑ r : Fin 16384, h (halfRow core r) k : ℝ) : EReal))
    (hQ : ∀ core : Fin 2, Q (ix3 core (0 : Fin 1) k)
      = ((∑ r : Fin 16384, h (halfRow core r) k * h (halfRow core r) k : ℝ) : EReal)) :
    colMean P (ix2 (0 : Fin 1) k) = ((Spec.mean h k : ℝ) : EReal)
      ∧ colVar P Q (ix2 (0 : Fin 1) k) = ((Spec.var h k : ℝ) : EReal) := by
  have hm : colMean P (ix2 (0 : Fin 1) k) = ((Spec.mean h k : ℝ) : EReal) := by
    rw [colMean_apply, total_of_partial (fun i => h i k) P k hP]
    exact mean_coe (by norm_num) h k _ batch_cast
  refine ⟨hm, ?_⟩
  rw [colVar_apply, hm, total_of_partial (fun i => h i k * h i k) Q k hQ]
  exact var_coe (by norm_num) h k _ _ batch_cast Cert.Consts.ofBits_zero

end Cert.KernelIdeal.Stats

end
-- ==== Proof.KernelStatsBlocks.lean ====
/-
  The column statistics from per-core partial sums written block by block: a core's half of the batch is eight
  blocks of 2048 rows, so a sum over the eight blocks of sums over a block's rows is the sum over the half.
-/
import proofs.«105324_j53815940219270_2_alg».proof.Proof.KernelStats

noncomputable section

namespace Cert.KernelIdeal.Stats

open Cert.KernelIdeal Cert.KernelIdeal.Gen Cert.KernelIdeal.HostRead Idealize.ShloMosaic Idealize.ShloMosaic.ValueIdx
open Cert.LibBatchNorm Cert.KernelMath
open scoped BigOperators

/-- A core's half of the batch, block by block. -/
theorem half_eq_blocks (f : Fin 32768 → ℝ) (core : Fin 2) (idx : Fin 8 → Fin 2048 → Fin 32768)
    (hidx : ∀ q r, (idx q r).val = (core.val * 8 + q.val) * 2048 + r.val) :
    ∑ q : Fin 8, ∑ r : Fin 2048, f (idx q r) = ∑ r : Fin 16384, f (halfRow core r) := by
  rw [Cert.Lib.BlockSum.sum_eq_sum_blocks 8 2048 (by norm_num) (fun i : Fin 16384 => f (halfRow core i))]
  refine Finset.sum_congr rfl fun q _ => Finset.sum_congr rfl fun r _ => congrArg f (Fin.ext ?_)
  rw [hidx q r]
  show (core.val * 8 + q.val) * 2048 + r.val = 16384 * core.val + (2048 * q.val + r.val)
  ring

/-- A block-by-block sum of coerced reals is the coercion of the real sum over the half. -/
theorem coe_blocks (f : Fin 32768 → ℝ) (core : Fin 2) (idx : Fin 8 → Fin 2048 → Fin 32768)
    (hidx : ∀ q r, (idx q r).val = (core.val * 8 + q.val) * 2048 + r.val) :
    ∑ q : Fin 8, ∑ r : Fin 2048, ((f (idx q r) : ℝ) : EReal) = ((∑ r : Fin 16384, f (halfRow core r) : ℝ) : EReal) := by
  rw [← half_eq_blocks f core idx hidx, coe_sum]
  exact Finset.sum_congr rfl fun q _ => (coe_sum _ _).symm

/-- Mean and variance of column k of a real matrix h from per-core partial sums given block by block. -/
theorem stats_of_blocks (h : Fin 32768 → Fin 512 → ℝ) (P Q : FVec Ideal S2x1x512 .f32) (k : Fin 512)
    (idx : Fin 2 → Fin 8 → Fin 2048 → Fin 32768)
    (hidx : ∀ p q r, (idx p q r).val = (p.val * 8 + q.val) * 2048 + r.val)
    (hP : ∀ core : Fin 2, P (ix3 core (0 : Fin 1) k) = ∑ q : Fin 8, ∑ r : Fin 2048, ((h (idx core q r) k : ℝ) : EReal))
    (hQ : ∀ core : Fin 2, Q (ix3 core (0 : Fin 1) k)
      = ∑ q : Fin 8, ∑ r : Fin 2048, ((h (idx core q r) k : ℝ) : EReal) * ((h (idx core q r) k : ℝ) : EReal)) :
    colMean P (ix2 (0 : Fin 1) k) = ((Spec.mean h k : ℝ) : EReal)
      ∧ colVar P Q (ix2 (0 : Fin 1) k) = ((Spec.var h k : ℝ) : EReal) := by
  refine stats_of_partial h P Q k (fun core => ?_) (fun core => ?_)
  · rw [hP core]
    exact coe_blocks (fun i => h i k) core (idx core) (hidx core)
  · rw [hQ core]
    rw [Finset.sum_congr rfl fun q _ => Finset.sum_congr rfl fun r _ => (EReal.coe_mul (h (idx core q r) k) (h (idx core q r) k)).symm]
    exact coe_blocks (fun i => h i k * h i k) core (idx core) (hidx core)

end Cert.KernelIdeal.Stats

end
-- ==== Proof.KernelStage1.lean ====
/-
  The first region over real operands: when the region finds the input, the transposed first weight matrix and the
  first bias as coercions of real arrays, its activation output is the coercion of the real first affine layer h,
  and the column means and variances that the host glue forms from its two partial-sum outputs are the coercions of
  the batch mean and variance of h's columns.
-/
import proofs.«105324_j53815940219270_2_alg».proof.Proof.RegionA
import proofs.«105324_j53815940219270_2_alg».proof.Proof.KernelLayers
import proofs.«105324_j53815940219270_2_alg».proof.Proof.KernelStatsBlocks

open Idealize.ShloMosaic Idealize.ShloMosaic.TcCoe Idealize.SL.Sem Idealize.ShloMosaic.ValueIdx
open Idealize.ShloMosaic.Pipeline (Dat)
open scoped BigOperators

noncomputable section

namespace Cert.KernelIdeal.Stage1

open Cert.KernelIdeal Cert.KernelIdeal.Gen Cert.KernelIdeal.HostRead Cert.Spec Cert.KernelLayers Cert.KernelIdeal.Stats

variable (V : (c : Dev nD) → (b : Ref sig .tc) → Buf (Elt Ideal) ((c : Thread nD τ).loc b)) (c : Dev nD)
variable (x : Fin 32768 → Fin 784 → ℝ) (W : Fin 512 → Fin 784 → ℝ) (b : Fin 512 → ℝ)

/-- The region's affine entry over coerced operands. -/
theorem hval_real (h0 : Is2 (V c (Pipeline.arrRef spec0 0)) x)
    (h1 : ∀ (k : Fin 784) (j : Fin 512), (V c (Pipeline.arrRef spec0 1) : S784x512.Idx → EReal) (ix2 k j) = ((W j k : ℝ) : EReal))
    (h2 : Is1 (V c (Pipeline.arrRef spec0 2)) b) (r : Fin 32768) (j : Fin 512) :
    RegionA.hval (V c (Pipeline.arrRef spec0 0)) (V c (Pipeline.arrRef spec0 1)) (V c (Pipeline.arrRef spec0 2)) r j
      = ((Spec.lin x W b r j : ℝ) : EReal) :=
  lin_real x W b _ _ _ r j (fun k => h0 r k) (fun k => h1 k j) (h2 j)

theorem out_real (h0 : Is2 (V c (Pipeline.arrRef spec0 0)) x)
    (h1 : ∀ (k : Fin 784) (j : Fin 512), (V c (Pipeline.arrRef spec0 1) : S784x512.Idx → EReal) (ix2 k j) = ((W j k : ℝ) : EReal))
    (h2 : Is1 (V c (Pipeline.arrRef spec0 2)) b) :
    Is2 ((dat0 (F := Ideal) V c).arrAt 3 cfg0.N) (Spec.lin x W b) :=
  fun r j => (RegionA.arr_h V c r j).trans (hval_real V c x W b h0 h1 h2 r j)

theorem stats_real (h0 : Is2 (V c (Pipeline.arrRef spec0 0)) x)
    (h1 : ∀ (k : Fin 784) (j : Fin 512), (V c (Pipeline.arrRef spec0 1) : S784x512.Idx → EReal) (ix2 k j) = ((W j k : ℝ) : EReal))
    (h2 : Is1 (V c (Pipeline.arrRef spec0 2)) b) (k : Fin 512) :
    colMean ((dat0 (F := Ideal) V c).arrAt 4 cfg0.N) (ix2 (0 : Fin 1) k) = ((Spec.mean (Spec.lin x W b) k : ℝ) : EReal)
      ∧ colVar ((dat0 (F := Ideal) V c).arrAt 4 cfg0.N) ((dat0 (F := Ideal) V c).arrAt 5 cfg0.N) (ix2 (0 : Fin 1) k)
          = ((Spec.var (Spec.lin x W b) k : ℝ) : EReal) := by
  refine stats_of_blocks (Spec.lin x W b) _ _ k RegionA.rowIdx (fun _ _ _ => rfl) (fun core => ?_) (fun core => ?_)
  · rw [RegionA.arr_sum V c core k]
    exact Finset.sum_congr rfl fun q _ => Finset.sum_congr rfl fun r _ => hval_real V c x W b h0 h1 h2 _ k
  · rw [RegionA.arr_sumsq V c core k]
    exact Finset.sum_congr rfl fun q _ => Finset.sum_congr rfl fun r _ => by
      rw [hval_real V c x W b h0 h1 h2 _ k]

end Cert.KernelIdeal.Stage1

end
-- ==== Proof.RegionBSpec.lean ====
/-
  The second layer's values, entry by entry, as extended-real expressions of the eight arrays it reads.

  A0 is the [32768, 512] array of incoming activations, A1 and A2 the one-row arrays of column means and variances,
  A3 and A4 the scale and shift vectors, A5 the [32768, 512] mask, A6 the [512, 512] weight matrix (contracted along
  its first coordinate) and A7 the bias vector.
-/
import Idealize.ShloMosaic.Lib.ValueIdx
import Idealize.ShloMosaic.PureOps.Ideal

open Idealize.ShloMosaic Idealize.ShloMosaic.ValueIdx
open scoped BigOperators

noncomputable section

namespace Cert.KernelIdeal.RegionB

/-- Entry (r, k) of the activated input: normalised with the column's mean and variance, scaled, shifted, rectified,
    masked and rescaled. -/
def act (A0 : (⟨2, ![32768, 512]⟩ : Shape).Idx → EReal) (A1 A2 : (⟨2, ![1, 512]⟩ : Shape).Idx → EReal)
    (A3 A4 : (⟨1, ![512]⟩ : Shape).Idx → EReal) (A5 : (⟨2, ![32768, 512]⟩ : Shape).Idx → EReal)
    (r : Fin 32768) (k : Fin 512) : EReal :=
  max (((A0 (ix2 r k) - A1 (ix2 (0 : Fin 1) k)) * Ideal.rsqrt (A2 (ix2 (0 : Fin 1) k) + Ideal.ofBits .f32 0x3727C5AC#32))
      * A3 (ix1 k) + A4 (ix1 k)) (Ideal.ofBits .f32 0x00000000#32) * A5 (ix2 r k) * Ideal.ofBits .f32 0x3FB6DB6E#32

/-- Entry (r, j) of the layer's output: row r of the activated input against column j of the weights, plus the bias. -/
def hval (A0 : (⟨2, ![32768, 512]⟩ : Shape).Idx → EReal) (A1 A2 : (⟨2, ![1, 512]⟩ : Shape).Idx → EReal)
    (A3 A4 : (⟨1, ![512]⟩ : Shape).Idx → EReal) (A5 : (⟨2, ![32768, 512]⟩ : Shape).Idx → EReal)
    (A6 : (⟨2, ![512, 512]⟩ : Shape).Idx → EReal) (A7 : (⟨1, ![512]⟩ : Shape).Idx → EReal)
    (r : Fin 32768) (j : Fin 512) : EReal :=
  (∑ k : Fin 512, act A0 A1 A2 A3 A4 A5 r k * A6 (ix2 k j)) + A7 (ix1 j)

/-- Row r of block p (2048 rows to a block, 8 blocks to a core) is a row of the batch. -/
theorem row_lt (core : Fin 2) (q : Fin 8) (r : Fin 2048) : (core.val * 8 + q.val) * 2048 + r.val < 32768 := by
  have := core.isLt; have := q.isLt; have := r.isLt; omega

end Cert.KernelIdeal.RegionB

end
-- ==== Proof.KernelStage2.lean ====
/-
  The second layer over real operands: when the activations, their column means and variances, the scale, the shift, the
  mask, the transposed weights and the bias are coercions of real arrays, the layer's entry is the coercion of the real
  affine layer of the normalised, rectified, masked activations; and column statistics formed from per-core partial sums
  of such entries (and of their squares) are the coercions of that real layer's batch means and variances.
-/
import proofs.«105324_j53815940219270_2_alg».proof.Proof.RegionBSpec
import proofs.«105324_j53815940219270_2_alg».proof.Proof.KernelLayers
import proofs.«105324_j53815940219270_2_alg».proof.Proof.KernelStatsBlocks

open Idealize.ShloMosaic Idealize.ShloMosaic.ValueIdx
open scoped BigOperators

noncomputable section

namespace Cert.KernelIdeal.Stage2

open Cert.KernelIdeal Cert.KernelIdeal.Gen Cert.KernelIdeal.HostRead Cert.Spec Cert.KernelLayers Cert.KernelIdeal.Stats

variable (H : Fin 32768 → Fin 512 → ℝ) (g be : Fin 512 → ℝ) (M : Fin 32768 → Fin 512 → ℝ)
  (W : Fin 512 → Fin 512 → ℝ) (b : Fin 512 → ℝ)
  (A0 : (⟨2, ![32768, 512]⟩ : Shape).Idx → EReal) (A1 A2 : (⟨2, ![1, 512]⟩ : Shape).Idx → EReal)
  (A3 A4 : (⟨1, ![512]⟩ : Shape).Idx → EReal) (A5 : (⟨2, ![32768, 512]⟩ : Shape).Idx → EReal)
  (A6 : (⟨2, ![512, 512]⟩ : Shape).Idx → EReal) (A7 : (⟨1, ![512]⟩ : Shape).Idx → EReal)

/-- The layer's entry over coerced operands. -/
theorem hval_real (h0 : Is2 A0 H) (h1 : ∀ k, A1 (ix2 (0 : Fin 1) k) = ((Spec.mean H k : ℝ) : EReal))
    (h2 : ∀ k, A2 (ix2 (0 : Fin 1) k) = ((Spec.var H k : ℝ) : EReal)) (h3 : Is1 A3 g) (h4 : Is1 A4 be) (h5 : Is2 A5 M)
    (h6 : ∀ (k j : Fin 512), A6 (ix2 k j) = ((W j k : ℝ) : EReal)) (h7 : Is1 A7 b) (r : Fin 32768) (j : Fin 512) :
    RegionB.hval A0 A1 A2 A3 A4 A5 A6 A7 r j
      = ((Spec.lin (Spec.bnDrop H g be M Cert.Consts.eps Cert.Consts.scl) W b r j : ℝ) : EReal) :=
  lin_real (Spec.bnDrop H g be M Cert.Consts.eps Cert.Consts.scl) W b _ _ _ r j
    (fun k => act_real H g be M A0 A1 A2 A3 A4 A5 h0 h1 h2 h3 h4 h5 r k) (fun k => h6 k j) (h7 j)

/-- Column statistics of the layer from per-core partial sums of its entries and of their squares. -/
theorem stats_real (h0 : Is2 A0 H) (h1 : ∀ k, A1 (ix2 (0 : Fin 1) k) = ((Spec.mean H k : ℝ) : EReal))
    (h2 : ∀ k, A2 (ix2 (0 : Fin 1) k) = ((Spec.var H k : ℝ) : EReal)) (h3 : Is1 A3 g) (h4 : Is1 A4 be) (h5 : Is2 A5 M)
    (h6 : ∀ (k j : Fin 512), A6 (ix2 k j) = ((W j k : ℝ) : EReal)) (h7 : Is1 A7 b)
    (P Q : FVec Ideal S2x1x512 .f32) (k : Fin 512) (idx : Fin 2 → Fin 8 → Fin 2048 → Fin 32768)
    (hidx : ∀ p q r, (idx p q r).val = (p.val * 8 + q.val) * 2048 + r.val)
    (hP : ∀ core : Fin 2, P (ix3 core (0 : Fin 1) k)
      = ∑ q : Fin 8, ∑ r : Fin 2048, RegionB.hval A0 A1 A2 A3 A4 A5 A6 A7 (idx core q r) k)
    (hQ : ∀ core : Fin 2, Q (ix3 core (0 : Fin 1) k)
      = ∑ q : Fin 8, ∑ r : Fin 2048, RegionB.hval A0 A1 A2 A3 A4 A5 A6 A7 (idx core q r) k
          * RegionB.hval A0 A1 A2 A3 A4 A5 A6 A7 (idx core q r) k) :
    colMean P (ix2 (0 : Fin 1) k)
        = ((Spec.mean (Spec.lin (Spec.bnDrop H g be M Cert.Consts.eps Cert.Consts.scl) W b) k : ℝ) : EReal)
      ∧ colVar P Q (ix2 (0 : Fin 1) k)
        = ((Spec.var (Spec.lin (Spec.bnDrop H g be M Cert.Consts.eps Cert.Consts.scl) W b) k : ℝ) : EReal) := by
  refine stats_of_blocks (Spec.lin (Spec.bnDrop H g be M Cert.Consts.eps Cert.Consts.scl) W b) P Q k idx hidx
    (fun core => ?_) (fun core => ?_)
  · rw [hP core]
    exact Finset.sum_congr rfl fun q _ => Finset.sum_congr rfl fun r _ =>
      hval_real H g be M W b A0 A1 A2 A3 A4 A5 A6 A7 h0 h1 h2 h3 h4 h5 h6 h7 _ k
  · rw [hQ core]
    exact Finset.sum_congr rfl fun q _ => Finset.sum_congr rfl fun r _ => by
      rw [hval_real H g be M W b A0 A1 A2 A3 A4 A5 A6 A7 h0 h1 h2 h3 h4 h5 h6 h7 _ k]

end Cert.KernelIdeal.Stage2

end
-- ==== Proof.LibRowVector.lean ====
/-
  A vector laid along every row of a matrix, read at an index.

  A length-`n` vector is cast to a single row `[1, n]` and that row is repeated down `m` rows. Entry `(p, q)` of the
  result is entry `q` of the vector, whatever `p` is: the broadcast reads its one-row operand at row 0 and the same
  column, and the cast keeps the row-major position `0·n + q = q`.
-/
import Idealize.ShloMosaic.Lib.Pipeline.Value
import Idealize.ShloMosaic.Lib.ValueIdx

noncomputable section

namespace Cert.RowVector

open Idealize.ShloMosaic Idealize.ShloMosaic.ValueIdx

variable {α : Type} {m n : Nat}

/-- A vector cast to one row and repeated down `m` rows, at `(p, q)`, is the vector at `q`. -/
theorem rowBroadcast_apply (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have hrow := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have := q.isLt; omega
      · rfl)
  have hcast := shapeCast_apply x h1 (ix2 (0 : Fin 1) q) (ix1 q) (by
    rw [Shape.rowMajor_val_two, Shape.rowMajor_val_one]; show q.val = 0 * n + q.val; omega)
  exact hrow.trans hcast

end Cert.RowVector

end
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.RegionCPayload.lean ====
/-
  The third layer's block computation, entry by entry.

  From a block of 2048 rows of the second layer's activations H, the per-column batch mean μ and variance σ²
  (one row each), the scale γ, the shift β, the mask M and two constants ε and s, the body forms
      a(p, k) = max(((H(p, k) − μ(k)) · rsqrt(σ²(k) + ε)) · γ(k) + β(k), 0) · M(p, k) · s
  and then the affine map: entry (p, j) of its result is Σₖ a(p, k) · W(k, j) + b(j). The matrix product
  starts from a zero accumulator, so at the extended reals it is the textbook contraction; the row vectors are
  laid along every row of the block; changes of float format are the identity.
-/
import proofs.«105324_j53815940219270_2_alg».proof.Proof.Gen.KernelIdeal.Skeleton
import proofs.«105324_j53815940219270_2_alg».proof.Proof.LibPlainProduct
import proofs.«105324_j53815940219270_2_alg».proof.Proof.LibRowVector
import proofs.«105324_j53815940219270_2_alg».proof.Proof.LibRepeat
import Idealize.ShloMosaic.Lib.ValueIdx
import Idealize.ShloMosaic.Lib.Pipeline.Value

open Idealize.ShloMosaic Idealize.ShloMosaic.ValueIdx
open scoped BigOperators

noncomputable section

namespace Cert.KernelIdeal.RegionC

open Cert.KernelIdeal

/-- One activation entry from the six numbers it depends on, in the body's order of operations. -/
def actOf (h mu v g b mk : EReal) : EReal :=
  max (((h - mu) * Ideal.rsqrt (v + Ideal.ofBits .f32 0x3727C5AC#32)) * g + b) (Ideal.ofBits .f32 0x00000000#32)
    * mk * Ideal.ofBits .f32 0x3FB6DB6E#32

/-- The dimension numbers of the body's product are the plain ones: rows of the left operand against columns
    of the right. -/
theorem dot_plain : dot_S2048x512_S512x128_S2048x128_1_0_0_1_n_n = DotDims.plain 2048 512 128 := rfl

/-- The block's result at (p, j): the contraction of row p of the activations with column j of the weights,
    plus the bias at j. -/
theorem pay_apply (v0 : Vec Ideal S2048x512 .bf16) (v3 v8 : Vec Ideal S1x512 .f32) (v14 v18 : Vec Ideal S512 .f32)
    (v24 : Vec Ideal S2048x512 .f32) (v29 : Vec Ideal S512x128 .bf16) (v32 : Vec Ideal S128 .f32)
    (p : Fin 2048) (j : Fin 128) :
    Gen.k2_pay1 (F := Ideal) v0 v3 v8 v14 v18 v24 v29 v32 (ix2 p j)
      = (∑ k : Fin 512, actOf (v0 (ix2 p k)) (v8 (ix2 0 k)) (v3 (ix2 0 k)) (v14 (ix1 k)) (v18 (ix1 k)) (v24 (ix2 p k))
            * v29 (ix2 k j)) + v32 (ix1 j) := by
  unfold Gen.k2_pay1
  refine (addf_apply _ _ _).trans ?_
  refine congrArg₂ (· + ·) ?_ ?_
  · refine (Cert.PlainProduct.matmul_plain_apply _ dot_plain none _ _ p j).trans ?_
    refine Finset.sum_congr rfl fun k _ => ?_
    refine congrArg₂ (· * ·) ?_ ?_
    · unfold actOf
      simp only [truncf_apply, mulf_apply, maximumf_apply, addf_apply, subf_apply, extf_apply, broadcast_apply,
        shapeCast_self, Cert.RowVector.rowBroadcast_apply]
      simp only [Cert.Lib.Repeat.rowRepeat_apply]
      rfl
    · exact congrFun (shapeCast_self _ _) _
  · exact (Cert.RowVector.rowBroadcast_apply _ _ _ p j).trans (congrFun (shapeCast_self v32 _) _)

/-- The same at an arbitrary index of the block, through its two coordinates. -/
theorem pay_at (v0 : Vec Ideal S2048x512 .bf16) (v3 v8 : Vec Ideal S1x512 .f32) (v14 v18 : Vec Ideal S512 .f32)
    (v24 : Vec Ideal S2048x512 .f32) (v29 : Vec Ideal S512x128 .bf16) (v32 : Vec Ideal S128 .f32)
    (y : S2048x128.Idx) (p : Fin 2048) (j : Fin 128) (hp : (y 0).val = p.val) (hj : (y 1).val = j.val) :
    Gen.k2_pay1 (F := Ideal) v0 v3 v8 v14 v18 v24 v29 v32 y
      = (∑ k : Fin 512, actOf (v0 (ix2 p k)) (v8 (ix2 0 k)) (v3 (ix2 0 k)) (v14 (ix1 k)) (v18 (ix1 k)) (v24 (ix2 p k))
            * v29 (ix2 k j)) + v32 (ix1 j) := by
  have hy : y = ix2 p j := by
    funext a
    match a with
    | ⟨0, _⟩ => exact Fin.ext hp
    | ⟨1, _⟩ => exact Fin.ext hj
  rw [hy]
  exact pay_apply v0 v3 v8 v14 v18 v24 v29 v32 p j

end Cert.KernelIdeal.RegionC

end
-- ==== Proof.RegionC.lean ====
/-
  The third region's result array, entry by entry.

  The region runs over 16 grid points. Point t stages rows 2048·t … 2048·t + 2047 of the activations and of the
  mask, the whole of the six small operands (mean, variance, scale, shift, weights, bias), and writes back rows
  2048·t … 2048·t + 2047 of the result. So an entry of a staged block is the entry of its array at the same
  column and at the row shifted by 2048·t; the sixteen written blocks tile the 32768 rows, row r lying in the
  block of point r / 2048; and the result array ends holding, at (r, j), the contraction of row r of the
  activations a(r, ·) with column j of the weights plus the bias at j.
-/
import proofs.«105324_j53815940219270_2_alg».proof.Proof.Gen.KernelIdeal.Frame
import proofs.«105324_j53815940219270_2_alg».proof.Proof.RegionCPayload
import Idealize.ShloMosaic.Lib.Pipeline.Value
import Idealize.ShloMosaic.Lib.Tactic

open Idealize.ShloMosaic Idealize.ShloMosaic.TcCoe Idealize.SL.Sem Idealize.ShloMosaic.ValueIdx
open Idealize.ShloMosaic.Pipeline (Dat)
open scoped BigOperators

noncomputable section

namespace Cert.KernelIdeal.RegionC

open Cert.KernelIdeal Cert.KernelIdeal.Gen

variable (V : (c : Dev nD) → (b : Ref sig .tc) → Buf (Elt Ideal) ((c : Thread nD τ).loc b)) (c : Dev nD)

/-! ## The arrays the region reads, as it finds them -/

/-- The activations of the second layer, 32768 rows of 512. -/
abbrev arr0 : S32768x512.Idx → EReal := V c (Pipeline.arrRef spec2 0)
/-- The batch mean of each of the 512 columns, as one row. -/
abbrev arr1 : S1x512.Idx → EReal := V c (Pipeline.arrRef spec2 1)
/-- The batch variance of each column, as one row. -/
abbrev arr2 : S1x512.Idx → EReal := V c (Pipeline.arrRef spec2 2)
/-- The scale. -/
abbrev arr3 : S512.Idx → EReal := V c (Pipeline.arrRef spec2 3)
/-- The shift. -/
abbrev arr4 : S512.Idx → EReal := V c (Pipeline.arrRef spec2 4)
/-- The mask. -/
abbrev arr5 : S32768x512.Idx → EReal := V c (Pipeline.arrRef spec2 5)
/-- The weights, 512 rows of 128. -/
abbrev arr6 : S512x128.Idx → EReal := V c (Pipeline.arrRef spec2 6)
/-- The bias. -/
abbrev arr7 : S128.Idx → EReal := V c (Pipeline.arrRef spec2 7)

/-- The masked, rescaled activation at row r and column k, from the six arrays it depends on. -/
def act (A0 : S32768x512.Idx → EReal) (A1 A2 : S1x512.Idx → EReal) (A3 A4 : S512.Idx → EReal)
    (A5 : S32768x512.Idx → EReal) (r : Fin 32768) (k : Fin 512) : EReal :=
  max (((A0 (ix2 r k) - A1 (ix2 0 k)) * Ideal.rsqrt (A2 (ix2 0 k) + Ideal.ofBits .f32 0x3727C5AC#32)) * A3 (ix1 k)
      + A4 (ix1 k)) (Ideal.ofBits .f32 0x00000000#32) * A5 (ix2 r k) * Ideal.ofBits .f32 0x3FB6DB6E#32

/-- The result array as one function of the eight arrays: at (r, j), row r of the activations against column j
    of the weights, plus the bias at j. -/
def outArr (A0 : S32768x512.Idx → EReal) (A1 A2 : S1x512.Idx → EReal) (A3 A4 : S512.Idx → EReal)
    (A5 : S32768x512.Idx → EReal) (A6 : S512x128.Idx → EReal) (A7 : S128.Idx → EReal) : S32768x128.Idx → EReal :=
  fun i => (∑ k : Fin 512, act A0 A1 A2 A3 A4 A5 (i 0) k * A6 (ix2 k (i 1))) + A7 (ix1 (i 1))

/-! ## Where each window's block sits in its array -/

/-- The block indices over the grid: the activations, the mask and the result move down one block of rows per
    point; the six small operands stay at their one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 1) = 0
    ∧ win2_4.index t (0 : Fin 1) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 1) = 0
    ∧ win2_8.index t (0 : Fin 2) = t.val ∧ win2_8.index t (1 : Fin 2) = 0 :=
  (by decide +kernel : ∀ t : Fin grid2.N, _)

/-- Row p of the block of activations staged at point t is row 2048·t + p of the array. -/
theorem blk0_apply (t : Fin cfg2.N) (p : Fin 2048) (k : Fin 512) (r : Fin 32768) (hr : r.val = 2048 * t.val + p.val) :
    (iblk2 V c 0 t : S2048x512.Idx → EReal) (ix2 p k) = arr0 V c (ix2 r k) := by
  obtain ⟨e0, e1, -⟩ := idx_facts t
  have h : ((cfg2.win 0).blk t).view.emb (ix2 p k) = (ix2 r k : S32768x512.Idx) := by
    funext a; apply Fin.ext
    match a with
    | ⟨0, _⟩ => show win2_0.index t (0 : Fin 2) * 2048 + 1 * p.val = r.val; omega
    | ⟨1, _⟩ => show win2_0.index t (1 : Fin 2) * 512 + 1 * k.val = k.val; omega
  unfold iblk2
  rw [View.read_apply]
  show arr0 V c (((cfg2.win 0).blk t).view.emb (ix2 p k)) = _
  rw [h]

/-- The same for the mask. -/
theorem blk5_apply (t : Fin cfg2.N) (p : Fin 2048) (k : Fin 512) (r : Fin 32768) (hr : r.val = 2048 * t.val + p.val) :
    (iblk2 V c 5 t : S2048x512.Idx → EReal) (ix2 p k) = arr5 V c (ix2 r k) := by
  obtain ⟨-, -, -, -, -, -, -, -, e0, e1, -⟩ := idx_facts t
  have h : ((cfg2.win 5).blk t).view.emb (ix2 p k) = (ix2 r k : S32768x512.Idx) := by
    funext a; apply Fin.ext
    match a with
    | ⟨0, _⟩ => show win2_5.index t (0 : Fin 2) * 2048 + 1 * p.val = r.val; omega
    | ⟨1, _⟩ => show win2_5.index t (1 : Fin 2) * 512 + 1 * k.val = k.val; omega
  unfold iblk2
  rw [View.read_apply]
  show arr5 V c (((cfg2.win 5).blk t).view.emb (ix2 p k)) = _
  rw [h]

/-- The staged row of means is the array's one row. -/
theorem blk1_apply (t : Fin cfg2.N) (k : Fin 512) :
    (iblk2 V c 1 t : S1x512.Idx → EReal) (ix2 0 k) = arr1 V c (ix2 0 k) := by
  obtain ⟨-, -, e0, e1, -⟩ := idx_facts t
  have h : ((cfg2.win 1).blk t).view.emb (ix2 (0 : Fin 1) k) = (ix2 (0 : Fin 1) k : S1x512.Idx) := by
    funext a; apply Fin.ext
    match a with
    | ⟨0, _⟩ => show win2_1.index t (0 : Fin 2) * 1 + 1 * 0 = 0; omega
    | ⟨1, _⟩ => show win2_1.index t (1 : Fin 2) * 512 + 1 * k.val = k.val; omega
  unfold iblk2
  rw [View.read_apply]
  show arr1 V c (((cfg2.win 1).blk t).view.emb (ix2 (0 : Fin 1) k)) = _
  rw [h]

/-- The staged row of variances is the array's one row. -/
theorem blk2_apply (t : Fin cfg2.N) (k : Fin 512) :
    (iblk2 V c 2 t : S1x512.Idx → EReal) (ix2 0 k) = arr2 V c (ix2 0 k) := by
  obtain ⟨-, -, -, -, e0, e1, -⟩ := idx_facts t
  have h : ((cfg2.win 2).blk t).view.emb (ix2 (0 : Fin 1) k) = (ix2 (0 : Fin 1) k : S1x512.Idx) := by
    funext a; apply Fin.ext
    match a with
    | ⟨0, _⟩ => show win2_2.index t (0 : Fin 2) * 1 + 1 * 0 = 0; omega
    | ⟨1, _⟩ => show win2_2.index t (1 : Fin 2) * 512 + 1 * k.val = k.val; omega
  unfold iblk2
  rw [View.read_apply]
  show arr2 V c (((cfg2.win 2).blk t).view.emb (ix2 (0 : Fin 1) k)) = _
  rw [h]

/-- The staged scale is the array. -/
theorem blk3_apply (t : Fin cfg2.N) (k : Fin 512) :
    (iblk2 V c 3 t : S512.Idx → EReal) (ix1 k) = arr3 V c (ix1 k) := by
  obtain ⟨-, -, -, -, -, -, e0, -⟩ := idx_facts t
  have h : ((cfg2.win 3).blk t).view.emb (ix1 k) = (ix1 k : S512.Idx) := by
    funext a; apply Fin.ext
    match a with
    | ⟨0, _⟩ => show win2_3.index t (0 : Fin 1) * 512 + 1 * k.val = k.val; omega
  unfold iblk2
  rw [View.read_apply]
  show arr3 V c (((cfg2.win 3).blk t).view.emb (ix1 k)) = _
  rw [h]

/-- The staged shift is the array. -/
theorem blk4_apply (t : Fin cfg2.N) (k : Fin 512) :
    (iblk2 V c 4 t : S512.Idx → EReal) (ix1 k) = arr4 V c (ix1 k) := by
  obtain ⟨-, -, -, -, -, -, -, e0, -⟩ := idx_facts t
  have h : ((cfg2.win 4).blk t).view.emb (ix1 k) = (ix1 k : S512.Idx) := by
    funext a; apply Fin.ext
    match a with
    | ⟨0, _⟩ => show win2_4.index t (0 : Fin 1) * 512 + 1 * k.val = k.val; omega
  unfold iblk2
  rw [View.read_apply]
  show arr4 V c (((cfg2.win 4).blk t).view.emb (ix1 k)) = _
  rw [h]

/-- The staged weights are the array. -/
theorem blk6_apply (t : Fin cfg2.N) (k : Fin 512) (j : Fin 128) :
    (iblk2 V c 6 t : S512x128.Idx → EReal) (ix2 k j) = arr6 V c (ix2 k j) := by
  obtain ⟨-, -, -, -, -, -, -, -, -, -, e0, e1, -⟩ := idx_facts t
  have h : ((cfg2.win 6).blk t).view.emb (ix2 k j) = (ix2 k j : S512x128.Idx) := by
    funext a; apply Fin.ext
    match a with
    | ⟨0, _⟩ => show win2_6.index t (0 : Fin 2) * 512 + 1 * k.val = k.val; omega
    | ⟨1, _⟩ => show win2_6.index t (1 : Fin 2) * 128 + 1 * j.val = j.val; omega
  unfold iblk2
  rw [View.read_apply]
  show arr6 V c (((cfg2.win 6).blk t).view.emb (ix2 k j)) = _
  rw [h]

/-- The staged bias is the array. -/
theorem blk7_apply (t : Fin cfg2.N) (j : Fin 128) :
    (iblk2 V c 7 t : S128.Idx → EReal) (ix1 j) = arr7 V c (ix1 j) := by
  obtain ⟨-, -, -, -, -, -, -, -, -, -, -, -, e0, -⟩ := idx_facts t
  have h : ((cfg2.win 7).blk t).view.emb (ix1 j) = (ix1 j : S128.Idx) := by
    funext a; apply Fin.ext
    match a with
    | ⟨0, _⟩ => show win2_7.index t (0 : Fin 1) * 128 + 1 * j.val = j.val; omega
  unfold iblk2
  rw [View.read_apply]
  show arr7 V c (((cfg2.win 7).blk t).view.emb (ix1 j)) = _
  rw [h]

/-! ## What a point writes back, and the array after the last point -/

theorem hz2 : (![0, 0] : Fin 2 → Nat) = fun _ => 0 := funext fun a => by fin_cases a <;> rfl
theorem hz1 : (![0] : Fin 1 → Nat) = fun _ => 0 := funext fun a => by fin_cases a <;> rfl

/-- What point t writes back is block t of `outArr` of the arrays as the region finds them. -/
theorem flushed_eq (t : Fin cfg2.N) :
    (dat2 (F := Ideal) V c).flushed 8 t
      = ((cfg2.win 8).blk t).view.read (Elt Ideal)
          (outArr (arr0 V c) (arr1 V c) (arr2 V c) (arr3 V c) (arr4 V c) (arr5 V c) (arr6 V c) (arr7 V c)) := by
  show (cfg2.win 8).cut (grid2.coords t) ((dat2 V c).after 8 t) = _
  rw [after2_8]
  unfold out2_8
  rw [View.canon_unit_zero hz2]
  simp only [View.ld_unit_zero (S := S2048x512) hz2, View.ld_unit_zero (S := S1x512) hz2,
    View.ld_unit_zero (S := S512) hz1, View.ld_unit_zero (S := S512x128) hz2, View.ld_unit_zero (S := S128) hz1]
  obtain ⟨-, -, -, -, -, -, -, -, -, -, -, -, -, e0, e1⟩ := idx_facts t
  have ht : t.val < 16 := lt_of_lt_of_eq t.isLt N_2
  funext y
  have hy0 : (y 0).val < 2048 := (y 0).isLt
  have hy1 : (y 1).val < 128 := (y 1).isLt
  rw [View.read_apply]
  show k2_pay1 (F := Ideal) (iblk2 V c 0 t) (iblk2 V c 2 t) (iblk2 V c 1 t) (iblk2 V c 3 t) (iblk2 V c 4 t)
      (iblk2 V c 5 t) (iblk2 V c 6 t) (iblk2 V c 7 t) ((cfg2.win 8).xinj (grid2.coords t) y)
    = outArr (arr0 V c) (arr1 V c) (arr2 V c) (arr3 V c) (arr4 V c) (arr5 V c) (arr6 V c) (arr7 V c)
        (((cfg2.win 8).blk t).view.emb y)
  refine (pay_at (iblk2 V c 0 t) (iblk2 V c 2 t) (iblk2 V c 1 t) (iblk2 V c 3 t) (iblk2 V c 4 t)
      (iblk2 V c 5 t) (iblk2 V c 6 t) (iblk2 V c 7 t) ((cfg2.win 8).xinj (grid2.coords t) y)
      ⟨(y 0).val, hy0⟩ ⟨(y 1).val, hy1⟩ rfl rfl).trans ?_
  have hi : ((cfg2.win 8).blk t).view.emb y
      = (ix2 (⟨2048 * t.val + (y 0).val, by omega⟩ : Fin 32768) (⟨(y 1).val, hy1⟩ : Fin 128) : S32768x128.Idx) := by
    funext a; apply Fin.ext
    match a with
    | ⟨0, _⟩ => show win2_8.index t (0 : Fin 2) * 2048 + 1 * (y 0).val = 2048 * t.val + (y 0).val; omega
    | ⟨1, _⟩ => show win2_8.index t (1 : Fin 2) * 128 + 1 * (y 1).val = (y 1).val; omega
  rw [hi]
  refine congrArg₂ (· + ·) (Finset.sum_congr rfl fun k _ => ?_) (blk7_apply V c t _)
  rw [blk0_apply V c t ⟨(y 0).val, hy0⟩ k ⟨2048 * t.val + (y 0).val, by omega⟩ rfl,
    blk5_apply V c t ⟨(y 0).val, hy0⟩ k ⟨2048 * t.val + (y 0).val, by omega⟩ rfl,
    blk1_apply V c t k, blk2_apply V c t k, blk3_apply V c t k, blk4_apply V c t k, blk6_apply V c t k _]
  rfl

/-- An index of the result array is in point t's block iff each coordinate is in the block's range on its axis. -/
theorem mem_blk (t : Fin cfg2.N) (i : S32768x128.Idx) :
    i ∈ ((cfg2.win 8).blk t).view.set ↔ ∀ a : Fin 2, win2_8.index t a * S2048x128.size a ≤ (i a).val
      ∧ (i a).val < win2_8.index t a * S2048x128.size a + S2048x128.size a := by
  show i ∈ ((View.whole main_v30).slice (win2_8.rect t)).set ↔ _
  rw [View.set_slice_whole, Rect.mem_set_unit]
  exact Iff.rfl

/-- Row r of the result lies in the block written at point r / 2048. -/
theorem cover (i : S32768x128.Idx) :
    ∃ t : Fin cfg2.N, (cfg2.win 8).flush t = true ∧ i ∈ ((cfg2.win 8).blk t).view.set := by
  have hi0 : (i 0).val < 32768 := (i 0).isLt
  have hi1 : (i 1).val < 128 := (i 1).isLt
  obtain ⟨t, ht⟩ : ∃ t : Fin cfg2.N, t.val = (i 0).val / 2048 :=
    ⟨⟨(i 0).val / 2048, lt_of_lt_of_eq (by omega : (i 0).val / 2048 < 16) N_2.symm⟩, rfl⟩
  obtain ⟨-, -, -, -, -, -, -, -, -, -, -, -, -, e0, e1⟩ := idx_facts t
  refine ⟨t, flush2_8 t, ?_⟩
  rw [mem_blk]
  intro a
  match a with
  | ⟨0, _⟩ =>
    show win2_8.index t (0 : Fin 2) * 2048 ≤ (i 0).val ∧ (i 0).val < win2_8.index t (0 : Fin 2) * 2048 + 2048
    omega
  | ⟨1, _⟩ =>
    show win2_8.index t (1 : Fin 2) * 128 ≤ (i 1).val ∧ (i 1).val < win2_8.index t (1 : Fin 2) * 128 + 128
    omega

/-- The result array when the region ends, as one function of the eight arrays the region found. -/
theorem final :
    (dat2 (F := Ideal) V c).arrAt 8 cfg2.N
      = outArr (arr0 V c) (arr1 V c) (arr2 V c) (arr3 V c) (arr4 V c) (arr5 V c) (arr6 V c) (arr7 V c) :=
  (dat2 (F := Ideal) V c).arrAt_eq_of_cover 8 _ (fun t _ => flushed_eq V c t) cover

/-- Entry (r, j) of the result array when the region ends. -/
theorem arr_out (r : Fin 32768) (j : Fin 128) :
    ((dat2 (F := Ideal) V c).arrAt 8 cfg2.N : S32768x128.Idx → EReal) (ix2 r j)
      = (∑ k : Fin 512, act (arr0 V c) (arr1 V c) (arr2 V c) (arr3 V c) (arr4 V c) (arr5 V c) r k * arr6 V c (ix2 k j))
        + arr7 V c (ix1 j) := by
  rw [final V c]
  rfl

end Cert.KernelIdeal.RegionC

end
-- ==== Proof.KernelStage3.lean ====
/-
  The third region over real operands: when the region finds the second layer's activations, their column means and
  variances, the scale, the shift, the mask, the transposed zero-padded weights and the padded bias as coercions of
  real arrays, the first ten columns of its result array are the coercion of the real third affine layer of the
  normalised, rectified, masked activations.
-/
import proofs.«105324_j53815940219270_2_alg».proof.Proof.RegionC
import proofs.«105324_j53815940219270_2_alg».proof.Proof.KernelLayers

open Idealize.ShloMosaic Idealize.ShloMosaic.TcCoe Idealize.SL.Sem Idealize.ShloMosaic.ValueIdx
open Idealize.ShloMosaic.Pipeline (Dat)
open scoped BigOperators

noncomputable section

namespace Cert.KernelIdeal.Stage3

open Cert.KernelIdeal Cert.KernelIdeal.Gen Cert.Spec Cert.KernelLayers

variable (V : (c : Dev nD) → (b : Ref sig .tc) → Buf (Elt Ideal) ((c : Thread nD τ).loc b)) (c : Dev nD)

theorem out_real (H : Fin 32768 → Fin 512 → ℝ) (g be : Fin 512 → ℝ) (M : Fin 32768 → Fin 512 → ℝ)
    (W : Fin 10 → Fin 512 → ℝ) (b : Fin 10 → ℝ)
    (h0 : Is2 (RegionC.arr0 V c) H)
    (h1 : ∀ k, RegionC.arr1 V c (ix2 (0 : Fin 1) k) = ((Spec.mean H k : ℝ) : EReal))
    (h2 : ∀ k, RegionC.arr2 V c (ix2 (0 : Fin 1) k) = ((Spec.var H k : ℝ) : EReal))
    (h3 : Is1 (RegionC.arr3 V c) g) (h4 : Is1 (RegionC.arr4 V c) be) (h5 : Is2 (RegionC.arr5 V c) M)
    (h6 : ∀ (k : Fin 512) (j : Fin 10), RegionC.arr6 V c (ix2 k (⟨j.val, by omega⟩ : Fin 128)) = ((W j k : ℝ) : EReal))
    (h7 : ∀ j : Fin 10, RegionC.arr7 V c (ix1 (⟨j.val, by omega⟩ : Fin 128)) = ((b j : ℝ) : EReal))
    (r : Fin 32768) (j : Fin 10) :
    ((dat2 (F := Ideal) V c).arrAt 8 cfg2.N : S32768x128.Idx → EReal) (ix2 r (⟨j.val, by omega⟩ : Fin 128))
      = ((Spec.lin (Spec.bnDrop H g be M Cert.Consts.eps Cert.Consts.scl) W b r j : ℝ) : EReal) := by
  rw [RegionC.arr_out V c r ⟨j.val, by omega⟩]
  exact lin_real (Spec.bnDrop H g be M Cert.Consts.eps Cert.Consts.scl) W b _ _ _ r j
    (fun k => act_real H g be M _ _ _ _ _ _ h0 h1 h2 h3 h4 h5 r k) (fun k => h6 k j) (h7 j)

end Cert.KernelIdeal.Stage3

end
-- ==== Proof.RegionBAccPay.lean ====
/-
  The arithmetic of the second layer's body, read entry by entry over the extended reals.

  One grid point holds a block of 2048 rows of the first layer's activations H and of the mask M, and the whole of
  the per-column mean μ and variance σ² (one row each), the scale γ, the shift β, the 512 × 512 weight W and the
  bias b. Over the extended reals a change of float format is the identity, so the body computes, at row r and
  column j of the block,
      L r j = (∑ k, a r k · W k j) + b j,   a r k = max(((H r k − μ k) · rsqrt(σ² k + ε)) · γ k + β k, 0) · M r k · s,
  and adds to the two running rows, at column j, the column sums ∑ r, L r j and ∑ r, L r j · L r j of the block.
  The running rows are zeroed before the first block of a core.
-/
import proofs.«105324_j53815940219270_2_alg».proof.Proof.Gen.KernelIdeal.Skeleton
import proofs.«105324_j53815940219270_2_alg».proof.Proof.RegionCPayload
import Idealize.ShloMosaic.Lib.Pipeline.Value
import Idealize.ShloMosaic.Lib.ValueIdx
import Idealize.ShloMosaic.Lib.ValueLayout
import Idealize.ShloMosaic.PureOps.Ideal.Laws

open Idealize.ShloMosaic Idealize.ShloMosaic.ValueIdx
open scoped BigOperators

noncomputable section

namespace Cert.KernelIdeal.RegionBAcc

open Cert.KernelIdeal Cert.KernelIdeal.Gen
open Cert.KernelIdeal.RegionC (actOf)

/-! ## Layout operations at an index -/

section Layout
variable {α : Type} {n : Nat}

/-- A vector cast to one row reads, at `(0, q)`, the vector at `q`. -/
theorem cast_n_1n (x : (⟨1, ![n]⟩ : Shape).Idx → α) (h : (⟨1, ![n]⟩ : Shape).ShapeCasts ⟨2, ![1, n]⟩) (u : Fin 1) (q : Fin n) :
    shapeCast ⟨2, ![1, n]⟩ x h (ix2 u q) = x (ix1 q) :=
  shapeCast_apply x h _ _ (by
    have hu : u.val = 0 := by omega
    rw [Shape.rowMajor_val_two, Shape.rowMajor_val_one]; show q.val = u.val * n + q.val; rw [hu]; omega)

/-- A `[1, 1, n]` array cast to one row reads, at `(0, q)`, the array at `(0, 0, q)`. -/
theorem cast_11n_1n (x : (⟨3, ![1, 1, n]⟩ : Shape).Idx → α) (h : (⟨3, ![1, 1, n]⟩ : Shape).ShapeCasts ⟨2, ![1, n]⟩)
    (u v w : Fin 1) (q : Fin n) :
    shapeCast ⟨2, ![1, n]⟩ x h (ix2 u q) = x (ix3 v w q) :=
  shapeCast_apply x h _ _ (by
    have hu : u.val = 0 := by omega
    have hv : v.val = 0 := by omega
    have hw : w.val = 0 := by omega
    rw [Shape.rowMajor_val_three, Shape.rowMajor_val_two]
    show (v.val * 1 + w.val) * n + q.val = u.val * n + q.val
    rw [hu, hv, hw])

/-- A row cast to `[1, 1, n]` reads, at `(0, 0, q)`, the row at `(0, q)`. -/
theorem cast_1n_11n (x : (⟨2, ![1, n]⟩ : Shape).Idx → α) (h : (⟨2, ![1, n]⟩ : Shape).ShapeCasts ⟨3, ![1, 1, n]⟩)
    (u v w : Fin 1) (q : Fin n) :
    shapeCast ⟨3, ![1, 1, n]⟩ x h (ix3 v w q) = x (ix2 u q) :=
  shapeCast_apply x h _ _ (by
    have hu : u.val = 0 := by omega
    have hv : v.val = 0 := by omega
    have hw : w.val = 0 := by omega
    rw [Shape.rowMajor_val_three, Shape.rowMajor_val_two]
    show u.val * n + q.val = (v.val * 1 + w.val) * n + q.val
    rw [hu, hv, hw])

end Layout

/-- Summing a `[2048, 512]` array over its rows: the row `k` inserted above column `j` is the entry `(k, j)`. -/
theorem lift_rows (j : Fin 512) (k : Fin (S2048x512.size 0)) :
    reduces_S2048x512_S512.lift (ix1 j) k = ix2 (n0 := 2048) k j := by
  funext c
  apply Fin.ext
  show reduces_S2048x512_S512.liftVal (ix1 j) k.val c = _
  unfold Shape.Reduces.liftVal
  match c with
  | ⟨0, _⟩ => rfl
  | ⟨1, _⟩ => rfl

/-! ## The affine layer of one block -/

/-- The dimension numbers of the body's product are the plain ones. -/
theorem dot_plain : dot_S2048x512_S512x512_S2048x512_1_0_0_1_n_n = DotDims.plain 2048 512 512 := rfl

/-- Entry `(r, j)` of the affine layer of one block: row `r` of the block's masked, rescaled activations against
    column `j` of the weight, plus the bias at `j`. -/
def blockLin (x0 : Vec Ideal S2048x512 .bf16) (x1 x2 : Vec Ideal S1x512 .f32) (x3 x4 : Vec Ideal S512 .f32)
    (x5 : Vec Ideal S2048x512 .f32) (x6 : Vec Ideal S512x512 .bf16) (x7 : Vec Ideal S512 .f32)
    (r : Fin 2048) (j : Fin 512) : EReal :=
  (∑ k : Fin 512, actOf (x0 (ix2 r k)) (x1 (ix2 0 k)) (x2 (ix2 0 k)) (x3 (ix1 k)) (x4 (ix1 k)) (x5 (ix2 r k))
      * x6 (ix2 k j)) + x7 (ix1 j)

/-- The product of the activations into a zero accumulator, at `(r, j)`. The mean is the operand `v11`, the variance
    the operand `v6`. -/
theorem pay8_apply (v3 : Vec Ideal S2048x512 .bf16) (v6 v11 : Vec Ideal S1x512 .f32) (v17 v21 : Vec Ideal S512 .f32)
    (v27 : Vec Ideal S2048x512 .f32) (v32 : Vec Ideal S512x512 .bf16) (r : Fin 2048) (j : Fin 512) :
    k1_pay8 (F := Ideal) v3 v6 v11 v17 v21 v27 v32 (ix2 r j)
      = ∑ k : Fin 512, actOf (v3 (ix2 r k)) (v11 (ix2 0 k)) (v6 (ix2 0 k)) (v17 (ix1 k)) (v21 (ix1 k)) (v27 (ix2 r k))
          * v32 (ix2 k j) := by
  unfold k1_pay8
  refine (Cert.PlainProduct.matmul_plain_apply _ dot_plain none _ _ r j).trans ?_
  refine Finset.sum_congr rfl fun k _ => ?_
  refine congrArg₂ (· * ·) ?_ (congrFun (shapeCast_self _ _) _)
  unfold actOf
  simp only [truncf_apply, mulf_apply, maximumf_apply, addf_apply, subf_apply, extf_apply, broadcast_apply,
    shapeCast_self, Cert.RowVector.rowBroadcast_apply]
  simp only [Cert.Lib.Repeat.rowRepeat_apply]
  rfl

/-- The bias repeated down the rows, at `(r, j)`. -/
theorem pay9_apply (v35 : Vec Ideal S512 .f32) (r : Fin 2048) (j : Fin 512) :
    k1_pay9 (F := Ideal) v35 (ix2 r j) = v35 (ix1 j) := by
  unfold k1_pay9
  exact Cert.RowVector.rowBroadcast_apply v35 _ _ r j

/-- The affine layer of the block, at `(r, j)`: the values the column sums are taken of. -/
theorem pay3_apply (x0 : Vec Ideal S2048x512 .bf16) (x1 x2 : Vec Ideal S1x512 .f32) (x3 x4 : Vec Ideal S512 .f32)
    (x5 : Vec Ideal S2048x512 .f32) (x6 : Vec Ideal S512x512 .bf16) (x7 : Vec Ideal S512 .f32)
    (r : Fin 2048) (j : Fin 512) :
    k1_pay3 (F := Ideal) (k1_pay8 x0 x2 x1 x3 x4 x5 x6) (k1_pay9 x7) (ix2 r j) = blockLin x0 x1 x2 x3 x4 x5 x6 x7 r j := by
  unfold k1_pay3 k1_pay1 blockLin
  exact congrArg₂ (· + ·) (pay8_apply x0 x2 x1 x3 x4 x5 x6 r j) (pay9_apply x7 r j)

/-- What the running row of sums receives: what it held plus the block's column sums. -/
theorem pay4_apply (x0 : Vec Ideal S2048x512 .bf16) (x1 x2 : Vec Ideal S1x512 .f32) (x3 x4 : Vec Ideal S512 .f32)
    (x5 : Vec Ideal S2048x512 .f32) (x6 : Vec Ideal S512x512 .bf16) (x7 : Vec Ideal S512 .f32)
    (v42 : Vec Ideal S1x1x512 .f32) (j : Fin 512) :
    k1_pay4 (F := Ideal) (k1_pay8 x0 x2 x1 x3 x4 x5 x6) (k1_pay9 x7) v42 (ix3 (0 : Fin 1) (0 : Fin 1) j)
      = v42 (ix3 (0 : Fin 1) (0 : Fin 1) j) + ∑ r : Fin 2048, blockLin x0 x1 x2 x3 x4 x5 x6 x7 r j := by
  unfold k1_pay4
  refine (cast_1n_11n _ shapeCasts_S1x512_S1x1x512 0 0 0 j).trans ?_
  refine congrArg₂ (· + ·) (cast_11n_1n v42 shapeCasts_S1x1x512_S1x512 0 0 0 j) ?_
  refine (cast_n_1n _ shapeCasts_S512_S1x512 0 j).trans ?_
  refine (Ideal.multiReduction_add_single (k1_pay3 (k1_pay8 x0 x2 x1 x3 x4 x5 x6) (k1_pay9 x7)) _ reduces_S2048x512_S512 _ _ (ix1 j)).trans ?_
  refine Finset.sum_congr rfl fun k _ => ?_
  rw [lift_rows]
  exact pay3_apply x0 x1 x2 x3 x4 x5 x6 x7 k j

/-- What the running row of sums of squares receives: what it held plus the block's column sums of squares. -/
theorem pay5_apply (x0 : Vec Ideal S2048x512 .bf16) (x1 x2 : Vec Ideal S1x512 .f32) (x3 x4 : Vec Ideal S512 .f32)
    (x5 : Vec Ideal S2048x512 .f32) (x6 : Vec Ideal S512x512 .bf16) (x7 : Vec Ideal S512 .f32)
    (v50 : Vec Ideal S1x1x512 .f32) (j : Fin 512) :
    k1_pay5 (F := Ideal) (k1_pay8 x0 x2 x1 x3 x4 x5 x6) (k1_pay9 x7) v50 (ix3 (0 : Fin 1) (0 : Fin 1) j)
      = v50 (ix3 (0 : Fin 1) (0 : Fin 1) j)
        + ∑ r : Fin 2048, blockLin x0 x1 x2 x3 x4 x5 x6 x7 r j * blockLin x0 x1 x2 x3 x4 x5 x6 x7 r j := by
  unfold k1_pay5
  refine (cast_1n_11n _ shapeCasts_S1x512_S1x1x512 0 0 0 j).trans ?_
  refine congrArg₂ (· + ·) (cast_11n_1n v50 shapeCasts_S1x1x512_S1x512 0 0 0 j) ?_
  refine (cast_n_1n _ shapeCasts_S512_S1x512 0 j).trans ?_
  refine (Ideal.multiReduction_add_single (mulf (k1_pay3 (k1_pay8 x0 x2 x1 x3 x4 x5 x6) (k1_pay9 x7))
    (k1_pay3 (k1_pay8 x0 x2 x1 x3 x4 x5 x6) (k1_pay9 x7))) _ reduces_S2048x512_S512 _ _ (ix1 j)).trans ?_
  refine Finset.sum_congr rfl fun k _ => ?_
  rw [lift_rows]
  exact congrArg₂ (· * ·) (pay3_apply x0 x1 x2 x3 x4 x5 x6 x7 k j) (pay3_apply x0 x1 x2 x3 x4 x5 x6 x7 k j)

/-- The zero row the running sums are reset to. -/
theorem pay6_apply (i : S1x1x512.Idx) : k1_pay6 (F := Ideal) i = 0 := by
  unfold k1_pay6
  obtain ⟨u, v, q, rfl⟩ : ∃ (u v : Fin 1) (q : Fin 512), i = ix3 u v q := ⟨i 0, i 1, i 2, eq_ix3 i⟩
  refine (cast_1n_11n _ shapeCasts_S1x512_S1x1x512 0 u v q).trans ?_
  exact Ideal.ofBits_zero_f32

/-- The zero row the running sums of squares are reset to. -/
theorem pay7_apply (i : S1x1x512.Idx) : k1_pay7 (F := Ideal) i = 0 := by
  unfold k1_pay7
  obtain ⟨u, v, q, rfl⟩ : ∃ (u v : Fin 1) (q : Fin 512), i = ix3 u v q := ⟨i 0, i 1, i 2, eq_ix3 i⟩
  refine (cast_1n_11n _ shapeCasts_S1x512_S1x1x512 0 u v q).trans ?_
  exact Ideal.ofBits_zero_f32

end Cert.KernelIdeal.RegionBAcc

end
-- ==== Proof.RegionBAccOut.lean ====
/-
  What one run of the second layer's body leaves in its two running rows, as functions of what it loaded.

  The body stores each running row whole, so what the row holds afterwards is the value of its last store. At the
  first grid point of a core the two rows are first overwritten with zeros and then read back; at the other points
  they are read as the point before left them.
-/
import proofs.«105324_j53815940219270_2_alg».proof.Proof.Gen.KernelIdeal.Frame
import Idealize.ShloMosaic.Lib.Pipeline.Value
import Idealize.ShloMosaic.Lib.Tactic

set_option maxRecDepth 16384

noncomputable section

namespace Cert.KernelIdeal.RegionBAcc

open Idealize.ShloMosaic Idealize.ShloMosaic.TcCoe Idealize.SL.Sem
open Idealize.ShloMosaic.Pipeline (Dat)
open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## A point that continues a core's run: the running rows are read as the point before left them -/

/-- The running row of sums: what it held plus the block's column sums. -/
theorem outB9 (c : Dev nD) (i : grid1.Coords) (arg2 : Memref sig .tc .vmem S2048x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S512 .f32) (harg5 : arg5.IsWhole) (arg6 : Memref sig .tc .vmem S512 .f32) (harg6 : arg6.IsWhole) (arg7 : Memref sig .tc .vmem S2048x512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S2048x512 .bf16) (harg10 : arg10.IsWhole) (arg11 : Memref sig .tc .vmem S1x1x512 .f32) (harg11 : arg11.IsWhole) (arg12 : Memref sig .tc .vmem S1x1x512 .f32) (harg12 : arg12.IsWhole) (hc0 : ¬cond1_0 i)
    (x0 : Vec F S2048x512 .bf16) (x1 : Vec F S1x512 .f32) (x2 : Vec F S1x512 .f32) (x3 : Vec F S512 .f32) (x4 : Vec F S512 .f32) (x5 : Vec F S2048x512 .f32) (x6 : Vec F S512x512 .bf16) (x7 : Vec F S512 .f32) (xo9 : Vec F S1x1x512 .f32) (xo10 : Vec F S1x1x512 .f32) :
    out1_B_9 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10 = k1_pay4 (k1_pay8 x0 x2 x1 x3 x4 x5 x6) (k1_pay9 x7) xo9 := by
  unfold out1_B_9
  rw [View.read_writes_eq_canon _ _ _ (cover1_B_9 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10)]
  unfold kernelRun1_B
  dsimp only
  try sl_unfold_words
  rw [View.canon_unit_zero hz3]
  simp only [View.readAt_eq_ld, harg2.read_unread, harg3.read_unread, harg4.read_unread, harg5.read_unread, harg6.read_unread,
    harg7.read_unread, harg8.read_unread, harg9.read_unread, harg11.read_unread, harg12.read_unread,
    View.ld_unit_zero (S := S2048x512) hz2, View.ld_unit_zero (S := S1x512) hz2, View.ld_unit_zero (S := S512) hz1,
    View.ld_unit_zero (S := S512x512) hz2, View.ld_unit_zero (S := S1x1x512) hz3]

/-- The running row of sums of squares: what it held plus the block's column sums of squares. -/
theorem outB10 (c : Dev nD) (i : grid1.Coords) (arg2 : Memref sig .tc .vmem S2048x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S512 .f32) (harg5 : arg5.IsWhole) (arg6 : Memref sig .tc .vmem S512 .f32) (harg6 : arg6.IsWhole) (arg7 : Memref sig .tc .vmem S2048x512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S2048x512 .bf16) (harg10 : arg10.IsWhole) (arg11 : Memref sig .tc .vmem S1x1x512 .f32) (harg11 : arg11.IsWhole) (arg12 : Memref sig .tc .vmem S1x1x512 .f32) (harg12 : arg12.IsWhole) (hc0 : ¬cond1_0 i)
    (x0 : Vec F S2048x512 .bf16) (x1 : Vec F S1x512 .f32) (x2 : Vec F S1x512 .f32) (x3 : Vec F S512 .f32) (x4 : Vec F S512 .f32) (x5 : Vec F S2048x512 .f32) (x6 : Vec F S512x512 .bf16) (x7 : Vec F S512 .f32) (xo9 : Vec F S1x1x512 .f32) (xo10 : Vec F S1x1x512 .f32) :
    out1_B_10 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10 = k1_pay5 (k1_pay8 x0 x2 x1 x3 x4 x5 x6) (k1_pay9 x7) xo10 := by
  unfold out1_B_10
  rw [View.read_writes_eq_canon _ _ _ (cover1_B_10 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10)]
  unfold kernelRun1_B
  dsimp only
  try sl_unfold_words
  rw [View.canon_unit_zero hz3]
  simp only [View.readAt_eq_ld, harg2.read_unread, harg3.read_unread, harg4.read_unread, harg5.read_unread, harg6.read_unread,
    harg7.read_unread, harg8.read_unread, harg9.read_unread, harg11.read_unread, harg12.read_unread,
    View.ld_unit_zero (S := S2048x512) hz2, View.ld_unit_zero (S := S1x512) hz2, View.ld_unit_zero (S := S512) hz1,
    View.ld_unit_zero (S := S512x512) hz2, View.ld_unit_zero (S := S1x1x512) hz3]

/-! ## The first point of a core's run: the running rows are zeroed first -/

/-- The running row of sums: the zero row plus the block's column sums. -/
theorem outA9 (c : Dev nD) (i : grid1.Coords) (arg2 : Memref sig .tc .vmem S2048x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S512 .f32) (harg5 : arg5.IsWhole) (arg6 : Memref sig .tc .vmem S512 .f32) (harg6 : arg6.IsWhole) (arg7 : Memref sig .tc .vmem S2048x512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S2048x512 .bf16) (harg10 : arg10.IsWhole) (arg11 : Memref sig .tc .vmem S1x1x512 .f32) (harg11 : arg11.IsWhole) (arg12 : Memref sig .tc .vmem S1x1x512 .f32) (harg12 : arg12.IsWhole) (hc0 : cond1_0 i)
    (x0 : Vec F S2048x512 .bf16) (x1 : Vec F S1x512 .f32) (x2 : Vec F S1x512 .f32) (x3 : Vec F S512 .f32) (x4 : Vec F S512 .f32) (x5 : Vec F S2048x512 .f32) (x6 : Vec F S512x512 .bf16) (x7 : Vec F S512 .f32) :
    out1_A_9 c i arg2 harg2 arg3 harg3 arg4 harg4 arg5 harg5 arg6 harg6 arg7 harg7 arg8 harg8 arg9 harg9 arg10 harg10 arg11 harg11 arg12 harg12 hc0 x0 x1 x2 x3 x4 x5 x6 x7 = k1_pay4 (k1_pay8 x0 x2 x1 x3 x4 x5 x6) (k1_pay9 x7) (k1_pay6 (F := F)) := by
  unfold out1_A_9
  rw [View.read_writes_eq_canon _ _ _ (cover1_A_9 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun1_A
  dsimp only
  try sl_unfold_words
  rw [View.canon_cons_unit_zero (S := S1x1x512) hz3, View.readCov_unit_zero (S := S1x1x512) _ hz3]
  simp only [View.readAt_eq_ld, harg2.read_unread, harg3.read_unread, harg4.read_unread, harg5.read_unread, harg6.read_unread,
    harg7.read_unread, harg8.read_unread, harg9.read_unread,
    View.ld_unit_zero (S := S2048x512) hz2, View.ld_unit_zero (S := S1x512) hz2, View.ld_unit_zero (S := S512) hz1,
    View.ld_unit_zero (S := S512x512) hz2]

/-- The running row of sums of squares: the zero row plus the block's column sums of squares. -/
theorem outA10 (c : Dev nD) (i : grid1.Coords) (arg2 : Memref sig .tc .vmem S2048x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S512 .f32) (harg5 : arg5.IsWhole) (arg6 : Memref sig .tc .vmem S512 .f32) (harg6 : arg6.IsWhole) (arg7 : Memref sig .tc .vmem S2048x512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S2048x512 .bf16) (harg10 : arg10.IsWhole) (arg11 : Memref sig .tc .vmem S1x1x512 .f32) (harg11 : arg11.IsWhole) (arg12 : Memref sig .tc .vmem S1x1x512 .f32) (harg12 : arg12.IsWhole) (hc0 : cond1_0 i)
    (x0 : Vec F S2048x512 .bf16) (x1 : Vec F S1x512 .f32) (x2 : Vec F S1x512 .f32) (x3 : Vec F S512 .f32) (x4 : Vec F S512 .f32) (x5 : Vec F S2048x512 .f32) (x6 : Vec F S512x512 .bf16) (x7 : Vec F S512 .f32) :
    out1_A_10 c i arg2 harg2 arg3 harg3 arg4 harg4 arg5 harg5 arg6 harg6 arg7 harg7 arg8 harg8 arg9 harg9 arg10 harg10 arg11 harg11 arg12 harg12 hc0 x0 x1 x2 x3 x4 x5 x6 x7 = k1_pay5 (k1_pay8 x0 x2 x1 x3 x4 x5 x6) (k1_pay9 x7) (k1_pay7 (F := F)) := by
  unfold out1_A_10
  rw [View.read_writes_eq_canon _ _ _ (cover1_A_10 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun1_A
  dsimp only
  try sl_unfold_words
  rw [View.canon_cons_unit_zero (S := S1x1x512) hz3, View.readCov_unit_zero (S := S1x1x512) _ hz3]
  simp only [View.readAt_eq_ld, harg2.read_unread, harg3.read_unread, harg4.read_unread, harg5.read_unread, harg6.read_unread,
    harg7.read_unread, harg8.read_unread, harg9.read_unread,
    View.ld_unit_zero (S := S2048x512) hz2, View.ld_unit_zero (S := S1x512) hz2, View.ld_unit_zero (S := S512) hz1,
    View.ld_unit_zero (S := S512x512) hz2]

end Cert.KernelIdeal.RegionBAcc

end
-- ==== Proof.RegionBAcc.lean ====
/-
  The two running rows of the second layer, after each grid point and when the region ends.

  Grid point t = 8·core + q stages rows 2048·t … 2048·t + 2047 of the activations and of the mask, and the whole of
  the six small operands; so the affine layer of the staged block at (r, j) is the affine layer of the arrays at
  row 2048·t + r. The two running rows restart at the first point of each core (every eighth point) and otherwise
  add the block's column sums, so after the last point of a core they hold the column sums, and the column sums of
  squares, over the core's eight blocks; that is when they are written back, to row `core` of their arrays.
-/
import proofs.«105324_j53815940219270_2_alg».proof.Proof.RegionBAccPay
import proofs.«105324_j53815940219270_2_alg».proof.Proof.RegionBAccOut
import proofs.«105324_j53815940219270_2_alg».proof.Proof.RegionASums
import proofs.«105324_j53815940219270_2_alg».proof.Proof.RegionC

set_option maxRecDepth 16384

open scoped BigOperators

noncomputable section

namespace Cert.KernelIdeal.RegionBAcc

open Idealize.ShloMosaic Idealize.ShloMosaic.TcCoe Idealize.ShloMosaic.ValueIdx Idealize.SL.Sem
open Idealize.ShloMosaic.Pipeline (Dat)
open Cert.KernelIdeal Cert.KernelIdeal.Gen
open Cert.KernelIdeal.RegionC (actOf act)
open Cert.KernelIdeal.RegionA (run_sum_last)

variable (V : (c : Dev nD) → (b : Ref sig .tc) → Buf (Elt Ideal) ((c : Thread nD τ).loc b))

/-! ## The running rows after each point -/

/-- Entry `(r, j)` of the affine layer of the block staged at point `t`. -/
def lin (c : Dev nD) (t : Fin cfg1.N) (r : Fin 2048) (j : Fin 512) : EReal :=
  blockLin (iblk1 V c 0 t) (iblk1 V c 1 t) (iblk1 V c 2 t) (iblk1 V c 3 t) (iblk1 V c 4 t) (iblk1 V c 5 t) (iblk1 V c 6 t) (iblk1 V c 7 t) r j

/-- Column `j`'s sum over the block staged at point `n` (zero past the grid). -/
def colSum (c : Dev nD) (j : Fin 512) (n : ℕ) : EReal :=
  if h : n < cfg1.N then ∑ r : Fin 2048, lin V c ⟨n, h⟩ r j else 0

/-- Column `j`'s sum of squares over the block staged at point `n` (zero past the grid). -/
def colSumSq (c : Dev nD) (j : Fin 512) (n : ℕ) : EReal :=
  if h : n < cfg1.N then ∑ r : Fin 2048, lin V c ⟨n, h⟩ r j * lin V c ⟨n, h⟩ r j else 0

/-- The running row of sums after point `n`, at column `j` (zero past the grid). -/
def run9 (c : Dev nD) (j : Fin 512) (n : ℕ) : EReal :=
  if h : n < cfg1.N then (outsAt1 V c n h).2.1 (ix3 (0 : Fin 1) (0 : Fin 1) j) else 0

/-- The running row of sums of squares after point `n`, at column `j` (zero past the grid). -/
def run10 (c : Dev nD) (j : Fin 512) (n : ℕ) : EReal :=
  if h : n < cfg1.N then (outsAt1 V c n h).2.2 (ix3 (0 : Fin 1) (0 : Fin 1) j) else 0

/-- At the first point of a core's run the running row of sums is the zero row plus the block's column sums. -/
theorem out9_first (c : Dev nD) (t : Fin cfg1.N) (h0 : t.val % 8 = 0) :
    (outsAt1 V c t.val t.isLt).2.1
      = k1_pay4 (k1_pay8 (iblk1 V c 0 t) (iblk1 V c 2 t) (iblk1 V c 1 t) (iblk1 V c 3 t) (iblk1 V c 4 t) (iblk1 V c 5 t) (iblk1 V c 6 t))
          (k1_pay9 (iblk1 V c 7 t)) (k1_pay6 (F := Ideal)) := by
  rw [outsAt1_A V c t h0]
  dsimp only
  exact outA9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t) (iblk1 V c 7 t)

/-- At the other points it is what the point before left plus the block's column sums. -/
theorem out9_step (c : Dev nD) (t : Fin cfg1.N) (h0 : ¬t.val % 8 = 0) :
    (outsAt1 V c t.val t.isLt).2.1
      = k1_pay4 (k1_pay8 (iblk1 V c 0 t) (iblk1 V c 2 t) (iblk1 V c 1 t) (iblk1 V c 3 t) (iblk1 V c 4 t) (iblk1 V c 5 t) (iblk1 V c 6 t))
          (k1_pay9 (iblk1 V c 7 t)) (outsAt1 V c (t.val - 1) (Nat.lt_of_le_of_lt (Nat.sub_le _ _) t.isLt)).2.1 := by
  rw [outsAt1_B V c t h0]
  dsimp only
  exact outB9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t)
      (outsAt1 V c (t.val - 1) (Nat.lt_of_le_of_lt (Nat.sub_le _ _) t.isLt)).2.1 (outsAt1 V c (t.val - 1) (Nat.lt_of_le_of_lt (Nat.sub_le _ _) t.isLt)).2.2

theorem out10_first (c : Dev nD) (t : Fin cfg1.N) (h0 : t.val % 8 = 0) :
    (outsAt1 V c t.val t.isLt).2.2
      = k1_pay5 (k1_pay8 (iblk1 V c 0 t) (iblk1 V c 2 t) (iblk1 V c 1 t) (iblk1 V c 3 t) (iblk1 V c 4 t) (iblk1 V c 5 t) (iblk1 V c 6 t))
          (k1_pay9 (iblk1 V c 7 t)) (k1_pay7 (F := Ideal)) := by
  rw [outsAt1_A V c t h0]
  dsimp only
  exact outA10 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t) (iblk1 V c 7 t)

theorem out10_step (c : Dev nD) (t : Fin cfg1.N) (h0 : ¬t.val % 8 = 0) :
    (outsAt1 V c t.val t.isLt).2.2
      = k1_pay5 (k1_pay8 (iblk1 V c 0 t) (iblk1 V c 2 t) (iblk1 V c 1 t) (iblk1 V c 3 t) (iblk1 V c 4 t) (iblk1 V c 5 t) (iblk1 V c 6 t))
          (k1_pay9 (iblk1 V c 7 t)) (outsAt1 V c (t.val - 1) (Nat.lt_of_le_of_lt (Nat.sub_le _ _) t.isLt)).2.2 := by
  rw [outsAt1_B V c t h0]
  dsimp only
  exact outB10 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t)
      (outsAt1 V c (t.val - 1) (Nat.lt_of_le_of_lt (Nat.sub_le _ _) t.isLt)).2.1 (outsAt1 V c (t.val - 1) (Nat.lt_of_le_of_lt (Nat.sub_le _ _) t.isLt)).2.2

/-- At the first point of a core's run the running row of sums holds the block's column sums. -/
theorem run9_first (c : Dev nD) (j : Fin 512) (n : ℕ) (h : n < cfg1.N) (h0 : n % 8 = 0) :
    run9 V c j n = colSum V c j n := by
  unfold run9 colSum
  rw [dif_pos h, dif_pos h]
  refine (congrFun (out9_first V c ⟨n, h⟩ h0) (ix3 (0 : Fin 1) (0 : Fin 1) j)).trans ?_
  refine (pay4_apply _ _ _ _ _ _ _ _ (k1_pay6 (F := Ideal)) j).trans ?_
  rw [pay6_apply, zero_add]
  rfl

/-- At the other points it adds the block's column sums to what the point before left. -/
theorem run9_step (c : Dev nD) (j : Fin 512) (n : ℕ) (h : n + 1 < cfg1.N) (h0 : ¬(n + 1) % 8 = 0) :
    run9 V c j (n + 1) = run9 V c j n + colSum V c j (n + 1) := by
  unfold run9 colSum
  rw [dif_pos h, dif_pos h, dif_pos (Nat.lt_of_succ_lt h)]
  refine (congrFun (out9_step V c ⟨n + 1, h⟩ h0) (ix3 (0 : Fin 1) (0 : Fin 1) j)).trans ?_
  refine (pay4_apply _ _ _ _ _ _ _ _ _ j).trans ?_
  rfl

theorem run10_first (c : Dev nD) (j : Fin 512) (n : ℕ) (h : n < cfg1.N) (h0 : n % 8 = 0) :
    run10 V c j n = colSumSq V c j n := by
  unfold run10 colSumSq
  rw [dif_pos h, dif_pos h]
  refine (congrFun (out10_first V c ⟨n, h⟩ h0) (ix3 (0 : Fin 1) (0 : Fin 1) j)).trans ?_
  refine (pay5_apply _ _ _ _ _ _ _ _ (k1_pay7 (F := Ideal)) j).trans ?_
  rw [pay7_apply, zero_add]
  rfl

theorem run10_step (c : Dev nD) (j : Fin 512) (n : ℕ) (h : n + 1 < cfg1.N) (h0 : ¬(n + 1) % 8 = 0) :
    run10 V c j (n + 1) = run10 V c j n + colSumSq V c j (n + 1) := by
  unfold run10 colSumSq
  rw [dif_pos h, dif_pos h, dif_pos (Nat.lt_of_succ_lt h)]
  refine (congrFun (out10_step V c ⟨n + 1, h⟩ h0) (ix3 (0 : Fin 1) (0 : Fin 1) j)).trans ?_
  refine (pay5_apply _ _ _ _ _ _ _ _ _ j).trans ?_
  rfl

/-- After the last point of core `q`'s run the running row of sums holds the column sums over the run's eight blocks. -/
theorem run9_last (c : Dev nD) (j : Fin 512) (q : ℕ) (h : q * 8 + 7 < cfg1.N) :
    (outsAt1 V c (q * 8 + 7) h).2.1 (ix3 (0 : Fin 1) (0 : Fin 1) j) = ∑ s : Fin 8, colSum V c j (q * 8 + s.val) := by
  have e := run_sum_last (run9 V c j) (colSum V c j) cfg1.N (run9_first V c j) (run9_step V c j) q h
  unfold run9 at e
  rw [dif_pos h] at e
  exact e

/-- And the running row of sums of squares holds the column sums of squares over the run's eight blocks. -/
theorem run10_last (c : Dev nD) (j : Fin 512) (q : ℕ) (h : q * 8 + 7 < cfg1.N) :
    (outsAt1 V c (q * 8 + 7) h).2.2 (ix3 (0 : Fin 1) (0 : Fin 1) j) = ∑ s : Fin 8, colSumSq V c j (q * 8 + s.val) := by
  have e := run_sum_last (run10 V c j) (colSumSq V c j) cfg1.N (run10_first V c j) (run10_step V c j) q h
  unfold run10 at e
  rw [dif_pos h] at e
  exact e

/-! ## The arrays the region reads, as it finds them -/

variable (c : Dev nD)

/-- The activations of the first layer, 32768 rows of 512. -/
abbrev arr0 : S32768x512.Idx → EReal := V c (Pipeline.arrRef spec1 0)
/-- The batch mean of each of the 512 columns, as one row. -/
abbrev arr1 : S1x512.Idx → EReal := V c (Pipeline.arrRef spec1 1)
/-- The batch variance of each column, as one row. -/
abbrev arr2 : S1x512.Idx → EReal := V c (Pipeline.arrRef spec1 2)
/-- The scale. -/
abbrev arr3 : S512.Idx → EReal := V c (Pipeline.arrRef spec1 3)
/-- The shift. -/
abbrev arr4 : S512.Idx → EReal := V c (Pipeline.arrRef spec1 4)
/-- The mask. -/
abbrev arr5 : S32768x512.Idx → EReal := V c (Pipeline.arrRef spec1 5)
/-- The weights, 512 rows of 512. -/
abbrev arr6 : S512x512.Idx → EReal := V c (Pipeline.arrRef spec1 6)
/-- The bias. -/
abbrev arr7 : S512.Idx → EReal := V c (Pipeline.arrRef spec1 7)

/-- The affine layer at row r and column j, from the eight arrays: row r of the masked, rescaled activations
    against column j of the weights, plus the bias at j. -/
def hval (A0 : S32768x512.Idx → EReal) (A1 A2 : S1x512.Idx → EReal) (A3 A4 : S512.Idx → EReal)
    (A5 : S32768x512.Idx → EReal) (A6 : S512x512.Idx → EReal) (A7 : S512.Idx → EReal)
    (r : Fin 32768) (j : Fin 512) : EReal :=
  (∑ k : Fin 512, act A0 A1 A2 A3 A4 A5 r k * A6 (ix2 k j)) + A7 (ix1 j)

/-- Row r of the q-th block of a core: the blocks of core 0 are the first eight, those of core 1 the last eight. -/
def rowOf (core : Fin 2) (q : Fin 8) (r : Fin 2048) : Fin 32768 :=
  ⟨(core.val * 8 + q.val) * 2048 + r.val, by have := core.isLt; have := q.isLt; have := r.isLt; omega⟩

/-- A [2, 1, 512] array holding, at (core, 0, j), the sum of `f · j` over the 8 · 2048 rows of the core. -/
def sumArr (f : Fin 32768 → Fin 512 → EReal) : S2x1x512.Idx → EReal :=
  fun i => ∑ q : Fin 8, ∑ r : Fin 2048, f (rowOf (i 0) q r) (i 2)

/-! ## Where each window's block sits in its array -/

/-- The block indices of the input windows over the grid: the activations and the mask move down one block of rows
    per point; the six small operands stay at their one block. -/
theorem idx_in : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 1) = 0
    ∧ win1_4.index t (0 : Fin 1) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 1) = 0 :=
  (by decide +kernel : ∀ t : Fin grid1.N, _)

/-- The block indices of the two running rows: row `t / 8` of their [2, 1, 512] arrays. -/
theorem idx_acc : ∀ t : Fin cfg1.N,
    win1_9.index t (0 : Fin 3) = t.val / 8 ∧ win1_9.index t (1 : Fin 3) = 0 ∧ win1_9.index t (2 : Fin 3) = 0
    ∧ win1_10.index t (0 : Fin 3) = t.val / 8 ∧ win1_10.index t (1 : Fin 3) = 0 ∧ win1_10.index t (2 : Fin 3) = 0 :=
  (by decide +kernel : ∀ t : Fin grid1.N, _)

/-- Row p of the block of activations staged at point t is row 2048·t + p of the array. -/
theorem blk0_apply (t : Fin cfg1.N) (p : Fin 2048) (k : Fin 512) (r : Fin 32768) (hr : r.val = 2048 * t.val + p.val) :
    (iblk1 V c 0 t : S2048x512.Idx → EReal) (ix2 p k) = arr0 V c (ix2 r k) := by
  obtain ⟨e0, e1, -⟩ := idx_in t
  have h : ((cfg1.win 0).blk t).view.emb (ix2 p k) = ((ix2 r k) : S32768x512.Idx) := by
    funext a; apply Fin.ext
    match a with
    | ⟨0, _⟩ => show win1_0.index t (0 : Fin 2) * 2048 + 1 * p.val = r.val; omega
    | ⟨1, _⟩ => show win1_0.index t (1 : Fin 2) * 512 + 1 * k.val = k.val; omega
  unfold iblk1
  rw [View.read_apply]
  show arr0 V c (((cfg1.win 0).blk t).view.emb (ix2 p k)) = _
  rw [h]

/-- The same for the mask. -/
theorem blk5_apply (t : Fin cfg1.N) (p : Fin 2048) (k : Fin 512) (r : Fin 32768) (hr : r.val = 2048 * t.val + p.val) :
    (iblk1 V c 5 t : S2048x512.Idx → EReal) (ix2 p k) = arr5 V c (ix2 r k) := by
  obtain ⟨-, -, -, -, -, -, -, -, e0, e1, -⟩ := idx_in t
  have h : ((cfg1.win 5).blk t).view.emb (ix2 p k) = ((ix2 r k) : S32768x512.Idx) := by
    funext a; apply Fin.ext
    match a with
    | ⟨0, _⟩ => show win1_5.index t (0 : Fin 2) * 2048 + 1 * p.val = r.val; omega
    | ⟨1, _⟩ => show win1_5.index t (1 : Fin 2) * 512 + 1 * k.val = k.val; omega
  unfold iblk1
  rw [View.read_apply]
  show arr5 V c (((cfg1.win 5).blk t).view.emb (ix2 p k)) = _
  rw [h]

/-- The staged row of means is the array's one row. -/
theorem blk1_apply (t : Fin cfg1.N) (k : Fin 512) :
    (iblk1 V c 1 t : S1x512.Idx → EReal) (ix2 (0 : Fin 1) k) = arr1 V c (ix2 (0 : Fin 1) k) := by
  obtain ⟨-, -, e0, e1, -⟩ := idx_in t
  have h : ((cfg1.win 1).blk t).view.emb (ix2 (0 : Fin 1) k) = ((ix2 (0 : Fin 1) k) : S1x512.Idx) := by
    funext a; apply Fin.ext
    match a with
    | ⟨0, _⟩ => show win1_1.index t (0 : Fin 2) * 1 + 1 * 0 = 0; omega
    | ⟨1, _⟩ => show win1_1.index t (1 : Fin 2) * 512 + 1 * k.val = k.val; omega
  unfold iblk1
  rw [View.read_apply]
  show arr1 V c (((cfg1.win 1).blk t).view.emb (ix2 (0 : Fin 1) k)) = _
  rw [h]

/-- The staged row of variances is the array's one row. -/
theorem blk2_apply (t : Fin cfg1.N) (k : Fin 512) :
    (iblk1 V c 2 t : S1x512.Idx → EReal) (ix2 (0 : Fin 1) k) = arr2 V c (ix2 (0 : Fin 1) k) := by
  obtain ⟨-, -, -, -, e0, e1, -⟩ := idx_in t
  have h : ((cfg1.win 2).blk t).view.emb (ix2 (0 : Fin 1) k) = ((ix2 (0 : Fin 1) k) : S1x512.Idx) := by
    funext a; apply Fin.ext
    match a with
    | ⟨0, _⟩ => show win1_2.index t (0 : Fin 2) * 1 + 1 * 0 = 0; omega
    | ⟨1, _⟩ => show win1_2.index t (1 : Fin 2) * 512 + 1 * k.val = k.val; omega
  unfold iblk1
  rw [View.read_apply]
  show arr2 V c (((cfg1.win 2).blk t).view.emb (ix2 (0 : Fin 1) k)) = _
  rw [h]

/-- The staged scale is the array. -/
theorem blk3_apply (t : Fin cfg1.N) (k : Fin 512) :
    (iblk1 V c 3 t : S512.Idx → EReal) (ix1 k) = arr3 V c (ix1 k) := by
  obtain ⟨-, -, -, -, -, -, e0, -⟩ := idx_in t
  have h : ((cfg1.win 3).blk t).view.emb (ix1 k) = ((ix1 k) : S512.Idx) := by
    funext a; apply Fin.ext
    match a with
    | ⟨0, _⟩ => show win1_3.index t (0 : Fin 1) * 512 + 1 * k.val = k.val; omega
  unfold iblk1
  rw [View.read_apply]
  show arr3 V c (((cfg1.win 3).blk t).view.emb (ix1 k)) = _
  rw [h]

/-- The staged shift is the array. -/
theorem blk4_apply (t : Fin cfg1.N) (k : Fin 512) :
    (iblk1 V c 4 t : S512.Idx → EReal) (ix1 k) = arr4 V c (ix1 k) := by
  obtain ⟨-, -, -, -, -, -, -, e0, -⟩ := idx_in t
  have h : ((cfg1.win 4).blk t).view.emb (ix1 k) = ((ix1 k) : S512.Idx) := by
    funext a; apply Fin.ext
    match a with
    | ⟨0, _⟩ => show win1_4.index t (0 : Fin 1) * 512 + 1 * k.val = k.val; omega
  unfold iblk1
  rw [View.read_apply]
  show arr4 V c (((cfg1.win 4).blk t).view.emb (ix1 k)) = _
  rw [h]

/-- The staged weights are the array. -/
theorem blk6_apply (t : Fin cfg1.N) (k : Fin 512) (j : Fin 512) :
    (iblk1 V c 6 t : S512x512.Idx → EReal) (ix2 k j) = arr6 V c (ix2 k j) := by
  obtain ⟨-, -, -, -, -, -, -, -, -, -, e0, e1, -⟩ := idx_in t
  have h : ((cfg1.win 6).blk t).view.emb (ix2 k j) = ((ix2 k j) : S512x512.Idx) := by
    funext a; apply Fin.ext
    match a with
    | ⟨0, _⟩ => show win1_6.index t (0 : Fin 2) * 512 + 1 * k.val = k.val; omega
    | ⟨1, _⟩ => show win1_6.index t (1 : Fin 2) * 512 + 1 * j.val = j.val; omega
  unfold iblk1
  rw [View.read_apply]
  show arr6 V c (((cfg1.win 6).blk t).view.emb (ix2 k j)) = _
  rw [h]

/-- The staged bias is the array. -/
theorem blk7_apply (t : Fin cfg1.N) (j : Fin 512) :
    (iblk1 V c 7 t : S512.Idx → EReal) (ix1 j) = arr7 V c (ix1 j) := by
  obtain ⟨-, -, -, -, -, -, -, -, -, -, -, -, e0⟩ := idx_in t
  have h : ((cfg1.win 7).blk t).view.emb (ix1 j) = ((ix1 j) : S512.Idx) := by
    funext a; apply Fin.ext
    match a with
    | ⟨0, _⟩ => show win1_7.index t (0 : Fin 1) * 512 + 1 * j.val = j.val; omega
  unfold iblk1
  rw [View.read_apply]
  show arr7 V c (((cfg1.win 7).blk t).view.emb (ix1 j)) = _
  rw [h]

/-- The affine layer of the block staged at point t, at row r, is the affine layer of the arrays at row 2048·t + r. -/
theorem lin_eq (t : Fin cfg1.N) (r : Fin 2048) (j : Fin 512) (ρ : Fin 32768) (hρ : ρ.val = 2048 * t.val + r.val) :
    lin V c t r j
      = hval (arr0 V c) (arr1 V c) (arr2 V c) (arr3 V c) (arr4 V c) (arr5 V c) (arr6 V c) (arr7 V c) ρ j := by
  unfold lin blockLin hval
  refine congrArg₂ (· + ·) (Finset.sum_congr rfl fun k _ => ?_) (blk7_apply V c t j)
  rw [blk0_apply V c t r k ρ hρ, blk5_apply V c t r k ρ hρ, blk1_apply V c t k, blk2_apply V c t k,
    blk3_apply V c t k, blk4_apply V c t k, blk6_apply V c t k j]
  rfl

/-! ## What is written back, and the two arrays when the region ends -/

/-- What the last point of a core writes back to the array of sums: that core's row of column sums. -/
theorem flushed9_eq (t : Fin cfg1.N) (hf : (cfg1.win 9).flush t = true) :
    (dat1 (F := Ideal) V c).flushed 9 t = ((cfg1.win 9).blk t).view.read (Elt Ideal) (sumArr (hval (arr0 V c) (arr1 V c) (arr2 V c) (arr3 V c) (arr4 V c) (arr5 V c) (arr6 V c) (arr7 V c))) := by
  obtain ⟨n, hn⟩ := t
  have h7 : n % 8 = 7 := (flush1_9 ⟨n, hn⟩).mp hf
  have hN : n < 16 := lt_of_lt_of_eq hn N_1
  obtain ⟨q, rfl⟩ : ∃ q, n = q * 8 + 7 := ⟨n / 8, by omega⟩
  obtain ⟨e0, e1, e2, -⟩ := idx_acc ⟨q * 8 + 7, hn⟩
  have e0' : win1_9.index ⟨q * 8 + 7, hn⟩ (0 : Fin 3) = (q * 8 + 7) / 8 := e0
  show (cfg1.win 9).cut (grid1.coords ⟨q * 8 + 7, hn⟩) ((dat1 V c).after 9 ⟨q * 8 + 7, hn⟩) = _
  rw [after1_9]
  funext y
  have hy0 : (y 0).val < 1 := (y 0).isLt
  have hy1 : (y 1).val < 1 := (y 1).isLt
  have hy2 : (y 2).val < 512 := (y 2).isLt
  rw [View.read_apply]
  have hx : (cfg1.win 9).xinj (grid1.coords ⟨q * 8 + 7, hn⟩) y
      = (ix3 (0 : Fin 1) (0 : Fin 1) (⟨(y 2).val, hy2⟩ : Fin 512) : S1x1x512.Idx) := by
    funext a; apply Fin.ext
    match a with
    | ⟨0, _⟩ => show (y 0).val = 0; omega
    | ⟨1, _⟩ => show (y 1).val = 0; omega
    | ⟨2, _⟩ => rfl
  have hi : ((cfg1.win 9).blk ⟨q * 8 + 7, hn⟩).view.emb y
      = (ix3 (⟨q, by omega⟩ : Fin 2) (0 : Fin 1) (⟨(y 2).val, hy2⟩ : Fin 512) : S2x1x512.Idx) := by
    funext a; apply Fin.ext
    match a with
    | ⟨0, _⟩ => show win1_9.index ⟨q * 8 + 7, hn⟩ (0 : Fin 3) * 1 + 1 * (y 0).val = q; omega
    | ⟨1, _⟩ => show win1_9.index ⟨q * 8 + 7, hn⟩ (1 : Fin 3) * 1 + 1 * (y 1).val = 0; omega
    | ⟨2, _⟩ => show win1_9.index ⟨q * 8 + 7, hn⟩ (2 : Fin 3) * 512 + 1 * (y 2).val = (y 2).val; omega
  show (outsAt1 V c (q * 8 + 7) hn).2.1 ((cfg1.win 9).xinj (grid1.coords ⟨q * 8 + 7, hn⟩) y)
    = (sumArr (hval (arr0 V c) (arr1 V c) (arr2 V c) (arr3 V c) (arr4 V c) (arr5 V c) (arr6 V c) (arr7 V c))) (((cfg1.win 9).blk ⟨q * 8 + 7, hn⟩).view.emb y)
  rw [hx, hi, run9_last V c ⟨(y 2).val, hy2⟩ q hn]
  show _ = ∑ s : Fin 8, ∑ r : Fin 2048, hval (arr0 V c) (arr1 V c) (arr2 V c) (arr3 V c) (arr4 V c) (arr5 V c) (arr6 V c) (arr7 V c) (rowOf (⟨q, by omega⟩ : Fin 2) s r) (⟨(y 2).val, hy2⟩ : Fin 512)
  refine Finset.sum_congr rfl fun s _ => ?_
  have hs : s.val < 8 := s.isLt
  unfold colSum
  rw [dif_pos (lt_of_lt_of_eq (by omega : q * 8 + s.val < 16) N_1.symm)]
  refine Finset.sum_congr rfl fun r _ => ?_
  have hr : r.val < 2048 := r.isLt
  have e := lin_eq V c ⟨q * 8 + s.val, lt_of_lt_of_eq (by omega : q * 8 + s.val < 16) N_1.symm⟩ r ⟨(y 2).val, hy2⟩
    (rowOf (⟨q, by omega⟩ : Fin 2) s r) (by show (q * 8 + s.val) * 2048 + r.val = 2048 * (q * 8 + s.val) + r.val; omega)
  rw [e]

/-- An index of the array is in point t's block iff each coordinate is in the block's range on its axis. -/
theorem mem_blk9 (t : Fin cfg1.N) (i : S2x1x512.Idx) :
    i ∈ ((cfg1.win 9).blk t).view.set ↔ ∀ a : Fin 3, win1_9.index t a * S1x1x512.size a ≤ (i a).val
      ∧ (i a).val < win1_9.index t a * S1x1x512.size a + S1x1x512.size a := by
  show i ∈ ((View.whole main_v19_1).slice (win1_9.rect t)).set ↔ _
  rw [View.set_slice_whole, Rect.mem_set_unit]
  exact Iff.rfl

/-- Row `core` of the array is the block written back at the last point of that core, point 8·core + 7. -/
theorem cover9 (i : S2x1x512.Idx) :
    ∃ t : Fin cfg1.N, (cfg1.win 9).flush t = true ∧ i ∈ ((cfg1.win 9).blk t).view.set := by
  have hi0 : (i 0).val < 2 := (i 0).isLt
  have hi1 : (i 1).val < 1 := (i 1).isLt
  have hi2 : (i 2).val < 512 := (i 2).isLt
  obtain ⟨t, ht⟩ : ∃ t : Fin cfg1.N, t.val = (i 0).val * 8 + 7 :=
    ⟨⟨(i 0).val * 8 + 7, lt_of_lt_of_eq (by omega : (i 0).val * 8 + 7 < 16) N_1.symm⟩, rfl⟩
  obtain ⟨e0, e1, e2, -⟩ := idx_acc t
  refine ⟨t, (flush1_9 t).mpr (by omega), ?_⟩
  rw [mem_blk9]
  intro a
  match a with
  | ⟨0, _⟩ =>
    show win1_9.index t (0 : Fin 3) * 1 ≤ (i 0).val ∧ (i 0).val < win1_9.index t (0 : Fin 3) * 1 + 1
    omega
  | ⟨1, _⟩ =>
    show win1_9.index t (1 : Fin 3) * 1 ≤ (i 1).val ∧ (i 1).val < win1_9.index t (1 : Fin 3) * 1 + 1
    omega
  | ⟨2, _⟩ =>
    show win1_9.index t (2 : Fin 3) * 512 ≤ (i 2).val ∧ (i 2).val < win1_9.index t (2 : Fin 3) * 512 + 512
    omega

/-- What the last point of a core writes back to the array of sums of squares: that core's row of column sums of squares. -/
theorem flushed10_eq (t : Fin cfg1.N) (hf : (cfg1.win 10).flush t = true) :
    (dat1 (F := Ideal) V c).flushed 10 t = ((cfg1.win 10).blk t).view.read (Elt Ideal) (sumArr (fun r j => hval (arr0 V c) (arr1 V c) (arr2 V c) (arr3 V c) (arr4 V c) (arr5 V c) (arr6 V c) (arr7 V c) r j * hval (arr0 V c) (arr1 V c) (arr2 V c) (arr3 V c) (arr4 V c) (arr5 V c) (arr6 V c) (arr7 V c) r j)) := by
  obtain ⟨n, hn⟩ := t
  have h7 : n % 8 = 7 := (flush1_10 ⟨n, hn⟩).mp hf
  have hN : n < 16 := lt_of_lt_of_eq hn N_1
  obtain ⟨q, rfl⟩ : ∃ q, n = q * 8 + 7 := ⟨n / 8, by omega⟩
  obtain ⟨-, -, -, e0, e1, e2⟩ := idx_acc ⟨q * 8 + 7, hn⟩
  have e0' : win1_10.index ⟨q * 8 + 7, hn⟩ (0 : Fin 3) = (q * 8 + 7) / 8 := e0
  show (cfg1.win 10).cut (grid1.coords ⟨q * 8 + 7, hn⟩) ((dat1 V c).after 10 ⟨q * 8 + 7, hn⟩) = _
  rw [after1_10]
  funext y
  have hy0 : (y 0).val < 1 := (y 0).isLt
  have hy1 : (y 1).val < 1 := (y 1).isLt
  have hy2 : (y 2).val < 512 := (y 2).isLt
  rw [View.read_apply]
  have hx : (cfg1.win 10).xinj (grid1.coords ⟨q * 8 + 7, hn⟩) y
      = (ix3 (0 : Fin 1) (0 : Fin 1) (⟨(y 2).val, hy2⟩ : Fin 512) : S1x1x512.Idx) := by
    funext a; apply Fin.ext
    match a with
    | ⟨0, _⟩ => show (y 0).val = 0; omega
    | ⟨1, _⟩ => show (y 1).val = 0; omega
    | ⟨2, _⟩ => rfl
  have hi : ((cfg1.win 10).blk ⟨q * 8 + 7, hn⟩).view.emb y
      = (ix3 (⟨q, by omega⟩ : Fin 2) (0 : Fin 1) (⟨(y 2).val, hy2⟩ : Fin 512) : S2x1x512.Idx) := by
    funext a; apply Fin.ext
    match a with
    | ⟨0, _⟩ => show win1_10.index ⟨q * 8 + 7, hn⟩ (0 : Fin 3) * 1 + 1 * (y 0).val = q; omega
    | ⟨1, _⟩ => show win1_10.index ⟨q * 8 + 7, hn⟩ (1 : Fin 3) * 1 + 1 * (y 1).val = 0; omega
    | ⟨2, _⟩ => show win1_10.index ⟨q * 8 + 7, hn⟩ (2 : Fin 3) * 512 + 1 * (y 2).val = (y 2).val; omega
  show (outsAt1 V c (q * 8 + 7) hn).2.2 ((cfg1.win 10).xinj (grid1.coords ⟨q * 8 + 7, hn⟩) y)
    = (sumArr (fun r j => hval (arr0 V c) (arr1 V c) (arr2 V c) (arr3 V c) (arr4 V c) (arr5 V c) (arr6 V c) (arr7 V c) r j * hval (arr0 V c) (arr1 V c) (arr2 V c) (arr3 V c) (arr4 V c) (arr5 V c) (arr6 V c) (arr7 V c) r j)) (((cfg1.win 10).blk ⟨q * 8 + 7, hn⟩).view.emb y)
  rw [hx, hi, run10_last V c ⟨(y 2).val, hy2⟩ q hn]
  show _ = ∑ s : Fin 8, ∑ r : Fin 2048, hval (arr0 V c) (arr1 V c) (arr2 V c) (arr3 V c) (arr4 V c) (arr5 V c) (arr6 V c) (arr7 V c) (rowOf (⟨q, by omega⟩ : Fin 2) s r) (⟨(y 2).val, hy2⟩ : Fin 512) * hval (arr0 V c) (arr1 V c) (arr2 V c) (arr3 V c) (arr4 V c) (arr5 V c) (arr6 V c) (arr7 V c) (rowOf (⟨q, by omega⟩ : Fin 2) s r) (⟨(y 2).val, hy2⟩ : Fin 512)
  refine Finset.sum_congr rfl fun s _ => ?_
  have hs : s.val < 8 := s.isLt
  unfold colSumSq
  rw [dif_pos (lt_of_lt_of_eq (by omega : q * 8 + s.val < 16) N_1.symm)]
  refine Finset.sum_congr rfl fun r _ => ?_
  have hr : r.val < 2048 := r.isLt
  have e := lin_eq V c ⟨q * 8 + s.val, lt_of_lt_of_eq (by omega : q * 8 + s.val < 16) N_1.symm⟩ r ⟨(y 2).val, hy2⟩
    (rowOf (⟨q, by omega⟩ : Fin 2) s r) (by show (q * 8 + s.val) * 2048 + r.val = 2048 * (q * 8 + s.val) + r.val; omega)
  rw [e]

/-- An index of the array is in point t's block iff each coordinate is in the block's range on its axis. -/
theorem mem_blk10 (t : Fin cfg1.N) (i : S2x1x512.Idx) :
    i ∈ ((cfg1.win 10).blk t).view.set ↔ ∀ a : Fin 3, win1_10.index t a * S1x1x512.size a ≤ (i a).val
      ∧ (i a).val < win1_10.index t a * S1x1x512.size a + S1x1x512.size a := by
  show i ∈ ((View.whole main_v19_2).slice (win1_10.rect t)).set ↔ _
  rw [View.set_slice_whole, Rect.mem_set_unit]
  exact Iff.rfl

/-- Row `core` of the array is the block written back at the last point of that core, point 8·core + 7. -/
theorem cover10 (i : S2x1x512.Idx) :
    ∃ t : Fin cfg1.N, (cfg1.win 10).flush t = true ∧ i ∈ ((cfg1.win 10).blk t).view.set := by
  have hi0 : (i 0).val < 2 := (i 0).isLt
  have hi1 : (i 1).val < 1 := (i 1).isLt
  have hi2 : (i 2).val < 512 := (i 2).isLt
  obtain ⟨t, ht⟩ : ∃ t : Fin cfg1.N, t.val = (i 0).val * 8 + 7 :=
    ⟨⟨(i 0).val * 8 + 7, lt_of_lt_of_eq (by omega : (i 0).val * 8 + 7 < 16) N_1.symm⟩, rfl⟩
  obtain ⟨-, -, -, e0, e1, e2⟩ := idx_acc t
  refine ⟨t, (flush1_10 t).mpr (by omega), ?_⟩
  rw [mem_blk10]
  intro a
  match a with
  | ⟨0, _⟩ =>
    show win1_10.index t (0 : Fin 3) * 1 ≤ (i 0).val ∧ (i 0).val < win1_10.index t (0 : Fin 3) * 1 + 1
    omega
  | ⟨1, _⟩ =>
    show win1_10.index t (1 : Fin 3) * 1 ≤ (i 1).val ∧ (i 1).val < win1_10.index t (1 : Fin 3) * 1 + 1
    omega
  | ⟨2, _⟩ =>
    show win1_10.index t (2 : Fin 3) * 512 ≤ (i 2).val ∧ (i 2).val < win1_10.index t (2 : Fin 3) * 512 + 512
    omega

/-- The array of sums when the region ends. -/
theorem final9 : (dat1 (F := Ideal) V c).arrAt 9 cfg1.N = sumArr (hval (arr0 V c) (arr1 V c) (arr2 V c) (arr3 V c) (arr4 V c) (arr5 V c) (arr6 V c) (arr7 V c)) :=
  (dat1 (F := Ideal) V c).arrAt_eq_of_cover 9 _ (fun t hf => flushed9_eq V c t hf) cover9

/-- The array of sums of squares when the region ends. -/
theorem final10 : (dat1 (F := Ideal) V c).arrAt 10 cfg1.N = sumArr (fun r j => hval (arr0 V c) (arr1 V c) (arr2 V c) (arr3 V c) (arr4 V c) (arr5 V c) (arr6 V c) (arr7 V c) r j * hval (arr0 V c) (arr1 V c) (arr2 V c) (arr3 V c) (arr4 V c) (arr5 V c) (arr6 V c) (arr7 V c) r j) :=
  (dat1 (F := Ideal) V c).arrAt_eq_of_cover 10 _ (fun t hf => flushed10_eq V c t hf) cover10

/-- Entry (core, 0, j) of the array of sums when the region ends: column j of the affine layer summed over the
    core's eight blocks of 2048 rows. -/
theorem arr_sum (core : Fin 2) (j : Fin 512) :
    ((dat1 (F := Ideal) V c).arrAt 9 cfg1.N : S2x1x512.Idx → EReal) (ix3 core (0 : Fin 1) j)
      = ∑ q : Fin 8, ∑ r : Fin 2048, hval (arr0 V c) (arr1 V c) (arr2 V c) (arr3 V c) (arr4 V c) (arr5 V c) (arr6 V c) (arr7 V c) (rowOf core q r) j := by
  rw [final9 V c]
  rfl

/-- Entry (core, 0, j) of the array of sums of squares when the region ends. -/
theorem arr_sumsq (core : Fin 2) (j : Fin 512) :
    ((dat1 (F := Ideal) V c).arrAt 10 cfg1.N : S2x1x512.Idx → EReal) (ix3 core (0 : Fin 1) j)
      = ∑ q : Fin 8, ∑ r : Fin 2048, hval (arr0 V c) (arr1 V c) (arr2 V c) (arr3 V c) (arr4 V c) (arr5 V c) (arr6 V c) (arr7 V c) (rowOf core q r) j * hval (arr0 V c) (arr1 V c) (arr2 V c) (arr3 V c) (arr4 V c) (arr5 V c) (arr6 V c) (arr7 V c) (rowOf core q r) j := by
  rw [final10 V c]
  rfl

end Cert.KernelIdeal.RegionBAcc

end
-- ==== Proof.RegionBBody.lean ====
/-
  The arithmetic of one block of the second layer, read entry by entry over the extended reals.

  For a block of 2048 rows the body normalises each entry of the incoming activations with the column's mean and
  variance, scales, shifts, rectifies, masks and rescales it, multiplies the resulting block by the weight matrix,
  adds the bias row, and adds the column sums of the result and of its square to two running rows.
-/
import proofs.«105324_j53815940219270_2_alg».proof.Proof.Gen.KernelIdeal.Skeleton
import Idealize.ShloMosaic.Lib.ValueIdx
import Idealize.ShloMosaic.Lib.ValueLayout
import Idealize.ShloMosaic.Lib.StackMember
import Idealize.ShloMosaic.Lib.KernelVsHost
import Idealize.ShloMosaic.PureOps.Ideal.Laws

noncomputable section

namespace Cert.KernelIdeal.RegionB

open Idealize.ShloMosaic Idealize.ShloMosaic.ValueIdx Idealize.ShloMosaic.StackMember
open Cert.KernelIdeal Cert.KernelIdeal.Gen

/-- The masked, rescaled, rectified normalisation of entry (r, k) of a block x0, with the column's mean x1, variance
    x2, scale x3, shift x4 and the mask x5. -/
def actB (x0 : Vec Ideal S2048x512 .bf16) (x1 x2 : Vec Ideal S1x512 .f32) (x3 x4 : Vec Ideal S512 .f32)
    (x5 : Vec Ideal S2048x512 .f32) (r : Fin 2048) (k : Fin 512) : EReal :=
  max (((x0 (ix2 r k) - x1 (ix2 (0 : Fin 1) k)) * Ideal.rsqrt (x2 (ix2 (0 : Fin 1) k) + Ideal.ofBits .f32 0x3727C5AC#32))
      * x3 (ix1 k) + x4 (ix1 k)) (Ideal.ofBits .f32 0x00000000#32) * x5 (ix2 r k) * Ideal.ofBits .f32 0x3FB6DB6E#32

theorem dims_plain : dot_S2048x512_S512x512_S2048x512_1_0_0_1_n_n = DotDims.plain 2048 512 512 := rfl

/-- Entry (r, j) of the product of the activated block with the weight matrix: the contraction over the 512 columns. -/
theorem pay8_apply (v3 : Vec Ideal S2048x512 .bf16) (v6 v11 : Vec Ideal S1x512 .f32) (v17 v21 : Vec Ideal S512 .f32)
    (v27 : Vec Ideal S2048x512 .f32) (v32 : Vec Ideal S512x512 .bf16) (r : Fin 2048) (j : Fin 512) :
    k1_pay8 (F := Ideal) v3 v6 v11 v17 v21 v27 v32 (ix2 r j)
      = ∑ k : Fin 512, actB v3 v11 v6 v17 v21 v27 r k * v32 (ix2 k j) := by
  unfold k1_pay8
  rw [dims_plain, matmul_zero_eq_dotGeneral]
  refine (dotGeneral_plain_apply none _ _ r j).trans ?_
  refine Finset.sum_congr rfl fun k _ => ?_
  simp only [truncf_apply, mulf_apply, maximumf_apply, addf_apply, subf_apply, extf_apply, broadcast_apply, shapeCast_self]
  rw [broadcastTo_1b_ab_apply, broadcastTo_1b_ab_apply, broadcastTo_1b_ab_apply, broadcastTo_1b_ab_apply,
    shapeCast_a_1a_apply, shapeCast_a_1a_apply]
  rfl

/-- The bias row repeated down the block. -/
theorem pay9_apply (v35 : Vec Ideal S512 .f32) (r : Fin 2048) (j : Fin 512) :
    k1_pay9 (F := Ideal) v35 (ix2 r j) = v35 (ix1 j) := by
  unfold k1_pay9
  rw [broadcastTo_1b_ab_apply, shapeCast_a_1a_apply]

theorem pay1_apply (v34 v37 : FVec Ideal S2048x512 .f32) (i : S2048x512.Idx) :
    k1_pay1 (F := Ideal) v34 v37 i = v34 i + v37 i := rfl

theorem pay2_apply (v34 v37 : FVec Ideal S2048x512 .f32) (i : S2048x512.Idx) :
    k1_pay2 (F := Ideal) v34 v37 i = v34 i + v37 i := rfl

theorem pay3_apply (v34 v37 : FVec Ideal S2048x512 .f32) (i : S2048x512.Idx) :
    k1_pay3 (F := Ideal) v34 v37 i = v34 i + v37 i := rfl

/-- The index of a sum down the rows of a block: the column j with the row q put back. -/
theorem lift_rows (h : S2048x512.Reduces [0] S512) (j : Fin 512) (q : Fin 2048) : h.lift (ix1 j) q = ix2 q j := by
  funext c
  refine Fin.ext ?_
  match c with
  | ⟨0, _⟩ => rfl
  | ⟨1, _⟩ => rfl

/-- Every index of a [1, 1, 512] array is (0, 0, j). -/
theorem eq_ix3_00 (i : S1x1x512.Idx) : i = ix3 (0 : Fin 1) (0 : Fin 1) (i 2) := by
  funext c
  match c with
  | ⟨0, _⟩ => exact Fin.ext (by have h : ((i 0 : Fin 1) : Nat) < 1 := (i 0).isLt; show ((i 0 : Fin 1) : Nat) = 0; omega)
  | ⟨1, _⟩ => exact Fin.ext (by have h : ((i 1 : Fin 1) : Nat) < 1 := (i 1).isLt; show ((i 1 : Fin 1) : Nat) = 0; omega)
  | ⟨2, _⟩ => rfl

/-- The running row of column sums after the block: what it held plus the sum down column j of the block. -/
theorem pay4_apply (v34 v37 : FVec Ideal S2048x512 .f32) (v42 : Vec Ideal S1x1x512 .f32) (j : Fin 512) :
    k1_pay4 (F := Ideal) v34 v37 v42 (ix3 (0 : Fin 1) (0 : Fin 1) j)
      = v42 (ix3 (0 : Fin 1) (0 : Fin 1) j) + ∑ r : Fin 2048, (v34 (ix2 r j) + v37 (ix2 r j)) := by
  unfold k1_pay4
  rw [shapeCast_ab_1ab_apply]
  simp only [addf_apply]
  rw [shapeCast_1ab_ab_apply, shapeCast_a_1a_apply]
  refine congrArg (fun t => v42 (ix3 (0 : Fin 1) (0 : Fin 1) j) + t) ?_
  exact (Ideal.multiReduction_add_single _ _ reduces_S2048x512_S512 _ _ (ix1 j)).trans
    (Finset.sum_congr rfl fun (q : Fin 2048) _ =>
      congrArg (k1_pay3 (F := Ideal) v34 v37) (lift_rows reduces_S2048x512_S512 j q))

/-- The running row of column sums of squares after the block. -/
theorem pay5_apply (v34 v37 : FVec Ideal S2048x512 .f32) (v50 : Vec Ideal S1x1x512 .f32) (j : Fin 512) :
    k1_pay5 (F := Ideal) v34 v37 v50 (ix3 (0 : Fin 1) (0 : Fin 1) j)
      = v50 (ix3 (0 : Fin 1) (0 : Fin 1) j)
        + ∑ r : Fin 2048, (v34 (ix2 r j) + v37 (ix2 r j)) * (v34 (ix2 r j) + v37 (ix2 r j)) := by
  unfold k1_pay5
  rw [shapeCast_ab_1ab_apply]
  simp only [addf_apply]
  rw [shapeCast_1ab_ab_apply, shapeCast_a_1a_apply]
  refine congrArg (fun t => v50 (ix3 (0 : Fin 1) (0 : Fin 1) j) + t) ?_
  exact (Ideal.multiReduction_add_single _ _ reduces_S2048x512_S512 _ _ (ix1 j)).trans
    (Finset.sum_congr rfl fun (q : Fin 2048) _ =>
      congrArg (mulf (k1_pay3 (F := Ideal) v34 v37) (k1_pay3 (F := Ideal) v34 v37)) (lift_rows reduces_S2048x512_S512 j q))

/-- The rows the first block of a core starts from are zero. -/
theorem pay6_apply (i : S1x1x512.Idx) : k1_pay6 (F := Ideal) i = Ideal.ofBits .f32 0x00000000#32 := rfl

theorem pay7_apply (i : S1x1x512.Idx) : k1_pay7 (F := Ideal) i = Ideal.ofBits .f32 0x00000000#32 := rfl

end Cert.KernelIdeal.RegionB

end
-- ==== Proof.RegionBPoints.lean ====
/-
  The blocks the body is given at a grid point, read off the arrays the region starts from.

  Point t (t = 8·core + i) is given rows 2048·t … 2048·t + 2047 of the activations and of the mask, and the whole of
  every other input. So the block of outputs the body computes at point t is rows 2048·t … of the layer's output.
-/
import proofs.«105324_j53815940219270_2_alg».proof.Proof.Gen.KernelIdeal.Frame
import proofs.«105324_j53815940219270_2_alg».proof.Proof.RegionBBody
import proofs.«105324_j53815940219270_2_alg».proof.Proof.RegionBSpec
import Idealize.ShloMosaic.Lib.Pipeline.Value

set_option maxRecDepth 16384

noncomputable section

namespace Cert.KernelIdeal.RegionB

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b)) (c : Dev nD)

/-! ## The index maps, decided over the sixteen points -/

theorem idx_rows : ∀ t : Fin cfg1.N, (win1_0.index t 0 = t.val ∧ win1_0.index t 1 = 0)
    ∧ (win1_5.index t 0 = t.val ∧ win1_5.index t 1 = 0) ∧ (win1_8.index t 0 = t.val ∧ win1_8.index t 1 = 0) :=
  (by decide +kernel : ∀ t : Fin grid1.N, (win1_0.index t 0 = t.val ∧ win1_0.index t 1 = 0)
    ∧ (win1_5.index t 0 = t.val ∧ win1_5.index t 1 = 0) ∧ (win1_8.index t 0 = t.val ∧ win1_8.index t 1 = 0))

theorem idx_whole : ∀ t : Fin cfg1.N, (win1_1.index t 0 = 0 ∧ win1_1.index t 1 = 0) ∧ (win1_2.index t 0 = 0 ∧ win1_2.index t 1 = 0)
    ∧ win1_3.index t 0 = 0 ∧ win1_4.index t 0 = 0 ∧ (win1_6.index t 0 = 0 ∧ win1_6.index t 1 = 0) ∧ win1_7.index t 0 = 0 :=
  (by decide +kernel : ∀ t : Fin grid1.N, (win1_1.index t 0 = 0 ∧ win1_1.index t 1 = 0) ∧ (win1_2.index t 0 = 0 ∧ win1_2.index t 1 = 0)
    ∧ win1_3.index t 0 = 0 ∧ win1_4.index t 0 = 0 ∧ (win1_6.index t 0 = 0 ∧ win1_6.index t 1 = 0) ∧ win1_7.index t 0 = 0)

theorem idx_core : ∀ t : Fin cfg1.N, (win1_9.index t 0 = t.val / 8 ∧ win1_9.index t 1 = 0 ∧ win1_9.index t 2 = 0)
    ∧ (win1_10.index t 0 = t.val / 8 ∧ win1_10.index t 1 = 0 ∧ win1_10.index t 2 = 0) :=
  (by decide +kernel : ∀ t : Fin grid1.N, (win1_9.index t 0 = t.val / 8 ∧ win1_9.index t 1 = 0 ∧ win1_9.index t 2 = 0)
    ∧ (win1_10.index t 0 = t.val / 8 ∧ win1_10.index t 1 = 0 ∧ win1_10.index t 2 = 0))

theorem point_lt (t : Fin cfg1.N) : t.val < 16 := lt_of_lt_of_eq t.isLt (show cfg1.N = 16 from N_1)

theorem point_row_lt (t : Fin cfg1.N) (r : Fin 2048) : t.val * 2048 + r.val < 32768 := by
  have := point_lt t; have := r.isLt; omega

/-! ## The input blocks -/

/-- The eight arrays the region reads, as it finds them. -/
abbrev A0 : S32768x512.Idx → EReal := V c (Pipeline.arrRef spec1 0)
abbrev A1 : S1x512.Idx → EReal := V c (Pipeline.arrRef spec1 1)
abbrev A2 : S1x512.Idx → EReal := V c (Pipeline.arrRef spec1 2)
abbrev A3 : S512.Idx → EReal := V c (Pipeline.arrRef spec1 3)
abbrev A4 : S512.Idx → EReal := V c (Pipeline.arrRef spec1 4)
abbrev A5 : S32768x512.Idx → EReal := V c (Pipeline.arrRef spec1 5)
abbrev A6 : S512x512.Idx → EReal := V c (Pipeline.arrRef spec1 6)
abbrev A7 : S512.Idx → EReal := V c (Pipeline.arrRef spec1 7)

theorem blk0_apply (t : Fin cfg1.N) (r : Fin 2048) (k : Fin 512) :
    (iblk1 V c 0 t : Vec Ideal S2048x512 .bf16) (ix2 r k) = A0 V c (ix2 ⟨t.val * 2048 + r.val, point_row_lt t r⟩ k) := by
  unfold iblk1
  rw [View.read_apply]
  show V c main_v8_0 _ = V c main_v8_0 _
  congr 1
  funext a
  apply Fin.ext
  match a with
  | ⟨0, _⟩ => show win1_0.index t 0 * 2048 + 1 * r.val = t.val * 2048 + r.val; rw [(idx_rows t).1.1]; omega
  | ⟨1, _⟩ => show win1_0.index t 1 * 512 + 1 * k.val = k.val; rw [(idx_rows t).1.2]; omega

theorem blk5_apply (t : Fin cfg1.N) (r : Fin 2048) (k : Fin 512) :
    (iblk1 V c 5 t : Vec Ideal S2048x512 .f32) (ix2 r k) = A5 V c (ix2 ⟨t.val * 2048 + r.val, point_row_lt t r⟩ k) := by
  unfold iblk1
  rw [View.read_apply]
  show V c main_arg11 _ = V c main_arg11 _
  congr 1
  funext a
  apply Fin.ext
  match a with
  | ⟨0, _⟩ => show win1_5.index t 0 * 2048 + 1 * r.val = t.val * 2048 + r.val; rw [(idx_rows t).2.1.1]; omega
  | ⟨1, _⟩ => show win1_5.index t 1 * 512 + 1 * k.val = k.val; rw [(idx_rows t).2.1.2]; omega

theorem blk1_eq (t : Fin cfg1.N) : (iblk1 V c 1 t : Vec Ideal S1x512 .f32) = A1 V c := by
  funext y
  unfold iblk1
  rw [View.read_apply]
  show V c main_v12 _ = V c main_v12 y
  congr 1
  funext a
  apply Fin.ext
  match a with
  | ⟨0, _⟩ => show win1_1.index t 0 * 1 + 1 * (y 0).val = (y 0).val; rw [(idx_whole t).1.1]; omega
  | ⟨1, _⟩ => show win1_1.index t 1 * 512 + 1 * (y 1).val = (y 1).val; rw [(idx_whole t).1.2]; omega

theorem blk2_eq (t : Fin cfg1.N) : (iblk1 V c 2 t : Vec Ideal S1x512 .f32) = A2 V c := by
  funext y
  unfold iblk1
  rw [View.read_apply]
  show V c main_v18 _ = V c main_v18 y
  congr 1
  funext a
  apply Fin.ext
  match a with
  | ⟨0, _⟩ => show win1_2.index t 0 * 1 + 1 * (y 0).val = (y 0).val; rw [(idx_whole t).2.1.1]; omega
  | ⟨1, _⟩ => show win1_2.index t 1 * 512 + 1 * (y 1).val = (y 1).val; rw [(idx_whole t).2.1.2]; omega

theorem blk3_eq (t : Fin cfg1.N) : (iblk1 V c 3 t : Vec Ideal S512 .f32) = A3 V c := by
  funext y
  unfold iblk1
  rw [View.read_apply]
  show V c main_arg3 _ = V c main_arg3 y
  congr 1
  funext a
  apply Fin.ext
  match a with
  | ⟨0, _⟩ => show win1_3.index t 0 * 512 + 1 * (y 0).val = (y 0).val; rw [(idx_whole t).2.2.1]; omega

theorem blk4_eq (t : Fin cfg1.N) : (iblk1 V c 4 t : Vec Ideal S512 .f32) = A4 V c := by
  funext y
  unfold iblk1
  rw [View.read_apply]
  show V c main_arg4 _ = V c main_arg4 y
  congr 1
  funext a
  apply Fin.ext
  match a with
  | ⟨0, _⟩ => show win1_4.index t 0 * 512 + 1 * (y 0).val = (y 0).val; rw [(idx_whole t).2.2.2.1]; omega

theorem blk6_eq (t : Fin cfg1.N) : (iblk1 V c 6 t : Vec Ideal S512x512 .bf16) = A6 V c := by
  funext y
  unfold iblk1
  rw [View.read_apply]
  show V c main_v3 _ = V c main_v3 y
  congr 1
  funext a
  apply Fin.ext
  match a with
  | ⟨0, _⟩ => show win1_6.index t 0 * 512 + 1 * (y 0).val = (y 0).val; rw [(idx_whole t).2.2.2.2.1.1]; omega
  | ⟨1, _⟩ => show win1_6.index t 1 * 512 + 1 * (y 1).val = (y 1).val; rw [(idx_whole t).2.2.2.2.1.2]; omega

theorem blk7_eq (t : Fin cfg1.N) : (iblk1 V c 7 t : Vec Ideal S512 .f32) = A7 V c := by
  funext y
  unfold iblk1
  rw [View.read_apply]
  show V c main_arg6 _ = V c main_arg6 y
  congr 1
  funext a
  apply Fin.ext
  match a with
  | ⟨0, _⟩ => show win1_7.index t 0 * 512 + 1 * (y 0).val = (y 0).val; rw [(idx_whole t).2.2.2.2.2]; omega

/-! ## The block of outputs at a point -/

/-- For blocks that are rows R + r of the two large arrays and the whole of the six others, entry (r, j) of the
    product block plus the bias is entry (R + r, j) of the layer's output. -/
theorem hblock_eq (x0 : Vec Ideal S2048x512 .bf16) (x1 x2 : Vec Ideal S1x512 .f32) (x3 x4 : Vec Ideal S512 .f32)
    (x5 : Vec Ideal S2048x512 .f32) (x6 : Vec Ideal S512x512 .bf16) (x7 : Vec Ideal S512 .f32)
    (a0 : S32768x512.Idx → EReal) (a1 a2 : S1x512.Idx → EReal) (a3 a4 : S512.Idx → EReal) (a5 : S32768x512.Idx → EReal)
    (a6 : S512x512.Idx → EReal) (a7 : S512.Idx → EReal) (R : Fin 32768) (r : Fin 2048)
    (h0 : ∀ k, x0 (ix2 r k) = a0 (ix2 R k)) (h1 : x1 = a1) (h2 : x2 = a2) (h3 : x3 = a3) (h4 : x4 = a4)
    (h5 : ∀ k, x5 (ix2 r k) = a5 (ix2 R k)) (h6 : x6 = a6) (h7 : x7 = a7) (j : Fin 512) :
    k1_pay8 (F := Ideal) x0 x2 x1 x3 x4 x5 x6 (ix2 r j) + k1_pay9 (F := Ideal) x7 (ix2 r j)
      = hval a0 a1 a2 a3 a4 a5 a6 a7 R j := by
  subst h1 h2 h3 h4 h6 h7
  rw [pay8_apply, pay9_apply]
  unfold hval act actB
  simp only [h0, h5]

/-- The product block at point t -/
abbrev prodAt (t : Fin cfg1.N) : FVec Ideal S2048x512 .f32 :=
  k1_pay8 (F := Ideal) (iblk1 V c 0 t) (iblk1 V c 2 t) (iblk1 V c 1 t) (iblk1 V c 3 t) (iblk1 V c 4 t) (iblk1 V c 5 t) (iblk1 V c 6 t)

/-- and the bias rows at point t. -/
abbrev biasAt (t : Fin cfg1.N) : FVec Ideal S2048x512 .f32 := k1_pay9 (F := Ideal) (iblk1 V c 7 t)

/-- Entry (r, j) of the block of outputs at point t is entry (2048·t + r, j) of the layer's output. -/
theorem hpoint_eq (t : Fin cfg1.N) (r : Fin 2048) (j : Fin 512) :
    prodAt V c t (ix2 r j) + biasAt V c t (ix2 r j)
      = hval (A0 V c) (A1 V c) (A2 V c) (A3 V c) (A4 V c) (A5 V c) (A6 V c) (A7 V c) ⟨t.val * 2048 + r.val, point_row_lt t r⟩ j :=
  hblock_eq (iblk1 V c 0 t) (iblk1 V c 1 t) (iblk1 V c 2 t) (iblk1 V c 3 t) (iblk1 V c 4 t) (iblk1 V c 5 t) (iblk1 V c 6 t)
    (iblk1 V c 7 t) (A0 V c) (A1 V c) (A2 V c) (A3 V c) (A4 V c) (A5 V c) (A6 V c) (A7 V c) ⟨t.val * 2048 + r.val, point_row_lt t r⟩ r
    (fun k => blk0_apply V c t r k) (blk1_eq V c t) (blk2_eq V c t) (blk3_eq V c t) (blk4_eq V c t)
    (fun k => blk5_apply V c t r k) (blk6_eq V c t) (blk7_eq V c t) j

end Cert.KernelIdeal.RegionB

end
-- ==== Proof.RegionBCases.lean ====
/-
  What one run of the body leaves in its three output buffers, as values of the blocks it was given.

  At the first block of a core the two running rows are first set to zero and read back; at every other block they
  are read as the block before left them. In both cases the body leaves: in the first buffer the product block plus
  the bias row; in the second the running row plus the column sums of that block; in the third the running row plus
  the column sums of its square.
-/
import proofs.«105324_j53815940219270_2_alg».proof.Proof.Gen.KernelIdeal.Frame
import Idealize.ShloMosaic.Lib.Pipeline.Value
import Idealize.ShloMosaic.Lib.Tactic

set_option maxRecDepth 16384

noncomputable section

namespace Cert.KernelIdeal.RegionB

open Idealize.ShloMosaic Idealize.ShloMosaic.TcCoe Idealize.SL.Sem Idealize.ShloMosaic.Tactic
open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The first block of a core -/

theorem out_A_8 (c : Dev nD) (i : grid1.Coords) (arg2 : Memref sig .tc .vmem S2048x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S512 .f32) (harg5 : arg5.IsWhole) (arg6 : Memref sig .tc .vmem S512 .f32) (harg6 : arg6.IsWhole) (arg7 : Memref sig .tc .vmem S2048x512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S2048x512 .bf16) (harg10 : arg10.IsWhole) (arg11 : Memref sig .tc .vmem S1x1x512 .f32) (harg11 : arg11.IsWhole) (arg12 : Memref sig .tc .vmem S1x1x512 .f32) (harg12 : arg12.IsWhole) (hc0 : cond1_0 i) (x0 : Vec F S2048x512 .bf16) (x1 : Vec F S1x512 .f32) (x2 : Vec F S1x512 .f32) (x3 : Vec F S512 .f32) (x4 : Vec F S512 .f32) (x5 : Vec F S2048x512 .f32) (x6 : Vec F S512x512 .bf16) (x7 : Vec F S512 .f32) :
    out1_A_8 c i arg2 harg2 arg3 harg3 arg4 harg4 arg5 harg5 arg6 harg6 arg7 harg7 arg8 harg8 arg9 harg9 arg10 harg10 arg11 harg11 arg12 harg12 hc0 x0 x1 x2 x3 x4 x5 x6 x7 = k1_pay2 (k1_pay8 x0 x2 x1 x3 x4 x5 x6) (k1_pay9 x7) := by
  unfold out1_A_8
  rw [View.read_writes_eq_canon _ _ _ (cover1_A_8 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun1_A
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg11.read_unread, harg12.read_unread,
    View.ld_unit_zero (S := S2048x512) hz2, View.ld_unit_zero (S := S1x512) hz2, View.ld_unit_zero (S := S512) hz1,
    View.ld_unit_zero (S := S512x512) hz2, View.ld_unit_zero (S := S1x1x512) hz3]

theorem out_A_9 (c : Dev nD) (i : grid1.Coords) (arg2 : Memref sig .tc .vmem S2048x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S512 .f32) (harg5 : arg5.IsWhole) (arg6 : Memref sig .tc .vmem S512 .f32) (harg6 : arg6.IsWhole) (arg7 : Memref sig .tc .vmem S2048x512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S2048x512 .bf16) (harg10 : arg10.IsWhole) (arg11 : Memref sig .tc .vmem S1x1x512 .f32) (harg11 : arg11.IsWhole) (arg12 : Memref sig .tc .vmem S1x1x512 .f32) (harg12 : arg12.IsWhole) (hc0 : cond1_0 i) (x0 : Vec F S2048x512 .bf16) (x1 : Vec F S1x512 .f32) (x2 : Vec F S1x512 .f32) (x3 : Vec F S512 .f32) (x4 : Vec F S512 .f32) (x5 : Vec F S2048x512 .f32) (x6 : Vec F S512x512 .bf16) (x7 : Vec F S512 .f32) :
    out1_A_9 c i arg2 harg2 arg3 harg3 arg4 harg4 arg5 harg5 arg6 harg6 arg7 harg7 arg8 harg8 arg9 harg9 arg10 harg10 arg11 harg11 arg12 harg12 hc0 x0 x1 x2 x3 x4 x5 x6 x7 = k1_pay4 (k1_pay8 x0 x2 x1 x3 x4 x5 x6) (k1_pay9 x7) k1_pay6 := by
  unfold out1_A_9
  rw [View.read_writes_eq_canon _ _ _ (cover1_A_9 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun1_A
  dsimp only
  sl_unfold_words
  rw [View.canon_cons_unit_zero (S := S1x1x512) hz3, View.readCov_unit_zero (S := S1x1x512) _ hz3]
  simp only [View.readAt_eq_ld, harg2.read_unread, harg3.read_unread, harg4.read_unread, harg5.read_unread,
    harg6.read_unread, harg7.read_unread, harg8.read_unread, harg9.read_unread, harg11.read_unread, harg12.read_unread,
    View.ld_unit_zero (S := S2048x512) hz2, View.ld_unit_zero (S := S1x512) hz2, View.ld_unit_zero (S := S512) hz1,
    View.ld_unit_zero (S := S512x512) hz2, View.ld_unit_zero (S := S1x1x512) hz3]

theorem out_A_10 (c : Dev nD) (i : grid1.Coords) (arg2 : Memref sig .tc .vmem S2048x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S512 .f32) (harg5 : arg5.IsWhole) (arg6 : Memref sig .tc .vmem S512 .f32) (harg6 : arg6.IsWhole) (arg7 : Memref sig .tc .vmem S2048x512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S2048x512 .bf16) (harg10 : arg10.IsWhole) (arg11 : Memref sig .tc .vmem S1x1x512 .f32) (harg11 : arg11.IsWhole) (arg12 : Memref sig .tc .vmem S1x1x512 .f32) (harg12 : arg12.IsWhole) (hc0 : cond1_0 i) (x0 : Vec F S2048x512 .bf16) (x1 : Vec F S1x512 .f32) (x2 : Vec F S1x512 .f32) (x3 : Vec F S512 .f32) (x4 : Vec F S512 .f32) (x5 : Vec F S2048x512 .f32) (x6 : Vec F S512x512 .bf16) (x7 : Vec F S512 .f32) :
    out1_A_10 c i arg2 harg2 arg3 harg3 arg4 harg4 arg5 harg5 arg6 harg6 arg7 harg7 arg8 harg8 arg9 harg9 arg10 harg10 arg11 harg11 arg12 harg12 hc0 x0 x1 x2 x3 x4 x5 x6 x7 = k1_pay5 (k1_pay8 x0 x2 x1 x3 x4 x5 x6) (k1_pay9 x7) k1_pay7 := by
  unfold out1_A_10
  rw [View.read_writes_eq_canon _ _ _ (cover1_A_10 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun1_A
  dsimp only
  sl_unfold_words
  rw [View.canon_cons_unit_zero (S := S1x1x512) hz3, View.readCov_unit_zero (S := S1x1x512) _ hz3]
  simp only [View.readAt_eq_ld, harg2.read_unread, harg3.read_unread, harg4.read_unread, harg5.read_unread,
    harg6.read_unread, harg7.read_unread, harg8.read_unread, harg9.read_unread, harg11.read_unread, harg12.read_unread,
    View.ld_unit_zero (S := S2048x512) hz2, View.ld_unit_zero (S := S1x512) hz2, View.ld_unit_zero (S := S512) hz1,
    View.ld_unit_zero (S := S512x512) hz2, View.ld_unit_zero (S := S1x1x512) hz3]

/-! ## Every other block -/

theorem out_B_8 (c : Dev nD) (i : grid1.Coords) (arg2 : Memref sig .tc .vmem S2048x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S512 .f32) (harg5 : arg5.IsWhole) (arg6 : Memref sig .tc .vmem S512 .f32) (harg6 : arg6.IsWhole) (arg7 : Memref sig .tc .vmem S2048x512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S2048x512 .bf16) (harg10 : arg10.IsWhole) (arg11 : Memref sig .tc .vmem S1x1x512 .f32) (harg11 : arg11.IsWhole) (arg12 : Memref sig .tc .vmem S1x1x512 .f32) (harg12 : arg12.IsWhole) (hc0 : ¬cond1_0 i) (x0 : Vec F S2048x512 .bf16) (x1 : Vec F S1x512 .f32) (x2 : Vec F S1x512 .f32) (x3 : Vec F S512 .f32) (x4 : Vec F S512 .f32) (x5 : Vec F S2048x512 .f32) (x6 : Vec F S512x512 .bf16) (x7 : Vec F S512 .f32) (xo9 : Vec F S1x1x512 .f32) (xo10 : Vec F S1x1x512 .f32) :
    out1_B_8 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10 = k1_pay2 (k1_pay8 x0 x2 x1 x3 x4 x5 x6) (k1_pay9 x7) := by
  unfold out1_B_8
  rw [View.read_writes_eq_canon _ _ _ (cover1_B_8 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10)]
  unfold kernelRun1_B
  dsimp only
  sl_unfold_words
  rw [View.canon_unit_zero hz2]
  simp only [View.readAt_eq_ld, harg2.read_unread, harg3.read_unread, harg4.read_unread, harg5.read_unread,
    harg6.read_unread, harg7.read_unread, harg8.read_unread, harg9.read_unread, harg11.read_unread, harg12.read_unread,
    View.ld_unit_zero (S := S2048x512) hz2, View.ld_unit_zero (S := S1x512) hz2, View.ld_unit_zero (S := S512) hz1,
    View.ld_unit_zero (S := S512x512) hz2, View.ld_unit_zero (S := S1x1x512) hz3]

theorem out_B_9 (c : Dev nD) (i : grid1.Coords) (arg2 : Memref sig .tc .vmem S2048x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S512 .f32) (harg5 : arg5.IsWhole) (arg6 : Memref sig .tc .vmem S512 .f32) (harg6 : arg6.IsWhole) (arg7 : Memref sig .tc .vmem S2048x512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S2048x512 .bf16) (harg10 : arg10.IsWhole) (arg11 : Memref sig .tc .vmem S1x1x512 .f32) (harg11 : arg11.IsWhole) (arg12 : Memref sig .tc .vmem S1x1x512 .f32) (harg12 : arg12.IsWhole) (hc0 : ¬cond1_0 i) (x0 : Vec F S2048x512 .bf16) (x1 : Vec F S1x512 .f32) (x2 : Vec F S1x512 .f32) (x3 : Vec F S512 .f32) (x4 : Vec F S512 .f32) (x5 : Vec F S2048x512 .f32) (x6 : Vec F S512x512 .bf16) (x7 : Vec F S512 .f32) (xo9 : Vec F S1x1x512 .f32) (xo10 : Vec F S1x1x512 .f32) :
    out1_B_9 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10 = k1_pay4 (k1_pay8 x0 x2 x1 x3 x4 x5 x6) (k1_pay9 x7) xo9 := by
  unfold out1_B_9
  rw [View.read_writes_eq_canon _ _ _ (cover1_B_9 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10)]
  unfold kernelRun1_B
  dsimp only
  sl_unfold_words
  rw [View.canon_unit_zero hz3]
  simp only [View.readAt_eq_ld, harg2.read_unread, harg3.read_unread, harg4.read_unread, harg5.read_unread,
    harg6.read_unread, harg7.read_unread, harg8.read_unread, harg9.read_unread, harg11.read_unread, harg12.read_unread,
    View.ld_unit_zero (S := S2048x512) hz2, View.ld_unit_zero (S := S1x512) hz2, View.ld_unit_zero (S := S512) hz1,
    View.ld_unit_zero (S := S512x512) hz2, View.ld_unit_zero (S := S1x1x512) hz3]

theorem out_B_10 (c : Dev nD) (i : grid1.Coords) (arg2 : Memref sig .tc .vmem S2048x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S512 .f32) (harg5 : arg5.IsWhole) (arg6 : Memref sig .tc .vmem S512 .f32) (harg6 : arg6.IsWhole) (arg7 : Memref sig .tc .vmem S2048x512 .f32) (harg7 : arg7.IsWhole) (arg8 : Memref sig .tc .vmem S512x512 .bf16) (harg8 : arg8.IsWhole) (arg9 : Memref sig .tc .vmem S512 .f32) (harg9 : arg9.IsWhole) (arg10 : Memref sig .tc .vmem S2048x512 .bf16) (harg10 : arg10.IsWhole) (arg11 : Memref sig .tc .vmem S1x1x512 .f32) (harg11 : arg11.IsWhole) (arg12 : Memref sig .tc .vmem S1x1x512 .f32) (harg12 : arg12.IsWhole) (hc0 : ¬cond1_0 i) (x0 : Vec F S2048x512 .bf16) (x1 : Vec F S1x512 .f32) (x2 : Vec F S1x512 .f32) (x3 : Vec F S512 .f32) (x4 : Vec F S512 .f32) (x5 : Vec F S2048x512 .f32) (x6 : Vec F S512x512 .bf16) (x7 : Vec F S512 .f32) (xo9 : Vec F S1x1x512 .f32) (xo10 : Vec F S1x1x512 .f32) :
    out1_B_10 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10 = k1_pay5 (k1_pay8 x0 x2 x1 x3 x4 x5 x6) (k1_pay9 x7) xo10 := by
  unfold out1_B_10
  rw [View.read_writes_eq_canon _ _ _ (cover1_B_10 c i arg2 harg2 arg3 harg3 arg4 harg4 arg5 harg5 arg6 harg6 arg7 harg7 arg8 harg8 arg9 harg9 arg10 harg10 arg11 harg11 arg12 harg12 hc0 x0 x1 x2 x3 x4 x5 x6 x7 xo9 xo10)]
  unfold kernelRun1_B
  dsimp only
  sl_unfold_words
  rw [View.canon_unit_zero hz3]
  simp only [View.readAt_eq_ld, harg2.read_unread, harg3.read_unread, harg4.read_unread, harg5.read_unread,
    harg6.read_unread, harg7.read_unread, harg8.read_unread, harg9.read_unread, harg11.read_unread, harg12.read_unread,
    View.ld_unit_zero (S := S2048x512) hz2, View.ld_unit_zero (S := S1x512) hz2, View.ld_unit_zero (S := S512) hz1,
    View.ld_unit_zero (S := S512x512) hz2, View.ld_unit_zero (S := S1x1x512) hz3]

end Cert.KernelIdeal.RegionB

end
-- ==== Proof.RegionBH.lean ====
/-
  The first output array of the second layer when its region ends.

  Every grid point writes its block of 2048 rows back, the sixteen blocks tile the 32768 rows, and the block point t
  writes is rows 2048·t … of the layer's output. So the array ends holding the layer's output, entry by entry.
-/
import proofs.«105324_j53815940219270_2_alg».proof.Proof.Gen.KernelIdeal.Frame
import proofs.«105324_j53815940219270_2_alg».proof.Proof.RegionBPoints
import proofs.«105324_j53815940219270_2_alg».proof.Proof.RegionBCases
import Idealize.ShloMosaic.Lib.Pipeline.Value

set_option maxRecDepth 16384

noncomputable section

namespace Cert.KernelIdeal.RegionB

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (V : (c : Dev nD) → (b : Ref sig .tc) → Buf (Elt Ideal) ((c : Thread nD τ).loc b)) (c : Dev nD)

/-- After the body at point t the first output buffer holds the block of outputs at t. -/
theorem outs_h (t : Fin cfg1.N) :
    (outsAt1 V c t.val t.isLt).1 = k1_pay2 (F := Ideal) (prodAt V c t) (biasAt V c t) := by
  show (outsAt1 V c t.val t.isLt).1 = k1_pay2 (F := Ideal) (k1_pay8 (F := Ideal) (iblk1 V c 0 t) (iblk1 V c 2 t) (iblk1 V c 1 t) (iblk1 V c 3 t) (iblk1 V c 4 t) (iblk1 V c 5 t) (iblk1 V c 6 t)) (k1_pay9 (F := Ideal) (iblk1 V c 7 t))
  by_cases h0 : t.val % 8 = 0
  · rw [outsAt1_A V c t h0]
    dsimp only
    exact out_A_8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t) (iblk1 V c 7 t)
  · rw [outsAt1_B V c t h0]
    dsimp only
    exact out_B_8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t)
      (outsAt1 V c (t.val - 1) (Nat.lt_of_le_of_lt (Nat.sub_le _ _) t.isLt)).2.1 (outsAt1 V c (t.val - 1) (Nat.lt_of_le_of_lt (Nat.sub_le _ _) t.isLt)).2.2

/-- The layer's output as one array. -/
def G8 : S32768x512.Idx → EReal := fun i =>
  hval (A0 V c) (A1 V c) (A2 V c) (A3 V c) (A4 V c) (A5 V c) (A6 V c) (A7 V c) (i 0) (i 1)

/-- What point t writes back to the first output array is rows 2048·t … of the layer's output. -/
theorem flushed8_eq (t : Fin cfg1.N) :
    (dat1 V c).flushed 8 t = ((cfg1.win 8).blk t).view.read (Elt Ideal) (G8 V c) := by
  show (cfg1.win 8).cut (grid1.coords t) ((dat1 V c).after 8 t) = _
  rw [after1_8, outs_h]
  funext y
  obtain ⟨r, k, rfl⟩ : ∃ (r : Fin 2048) (k : Fin 512), y = ix2 r k := ⟨y 0, y 1, eq_ix2 y⟩
  rw [View.read_apply]
  show prodAt V c t (ix2 r k) + biasAt V c t (ix2 r k) = G8 V c (((cfg1.win 8).blk t).view.emb (ix2 r k))
  rw [hpoint_eq]
  have e0 : (((cfg1.win 8).blk t).view.emb (ix2 r k) : S32768x512.Idx) 0 = ⟨t.val * 2048 + r.val, point_row_lt t r⟩ :=
    Fin.ext (by show win1_8.index t 0 * 2048 + 1 * r.val = t.val * 2048 + r.val; rw [(idx_rows t).2.2.1]; omega)
  have e1 : (((cfg1.win 8).blk t).view.emb (ix2 r k) : S32768x512.Idx) 1 = k :=
    Fin.ext (by show win1_8.index t 1 * 512 + 1 * k.val = k.val; rw [(idx_rows t).2.2.2]; omega)
  show _ = hval _ _ _ _ _ _ _ _ ((((cfg1.win 8).blk t).view.emb (ix2 r k) : S32768x512.Idx) 0)
    ((((cfg1.win 8).blk t).view.emb (ix2 r k) : S32768x512.Idx) 1)
  rw [e0, e1]
  rfl

/-- When the region ends the first output array holds the layer's output: row i₀ lies in the block of point
    i₀ / 2048, and every point writes its block back. -/
theorem arr_h_eq : (dat1 V c).arrAt 8 cfg1.N = G8 V c :=
  (dat1 V c).arrAt_eq_of_cover 8 (G8 V c) (fun t _ => flushed8_eq V c t) fun i => by
    have hi0 : (i 0 : Nat) < 32768 := (i 0).isLt
    have hi1 : (i 1 : Nat) < 512 := (i 1).isLt
    have hN : cfg1.N = 16 := N_1
    have hlt : (i 0 : Nat) / 2048 < cfg1.N := by rw [hN]; omega
    refine ⟨⟨(i 0 : Nat) / 2048, hlt⟩, flush1_8 _, ?_⟩
    show i ∈ ((View.whole main_v19_0).slice (win1_8.rect ⟨(i 0 : Nat) / 2048, hlt⟩)).set
    rw [View.set_slice_whole, Rect.mem_set_unit]
    intro a
    match a with
    | ⟨0, _⟩ =>
      show win1_8.index ⟨(i 0 : Nat) / 2048, _⟩ 0 * 2048 ≤ (i 0 : Nat)
        ∧ (i 0 : Nat) < win1_8.index ⟨(i 0 : Nat) / 2048, _⟩ 0 * 2048 + 2048
      rw [(idx_rows _).2.2.1]
      dsimp only
      omega
    | ⟨1, _⟩ =>
      show win1_8.index ⟨(i 0 : Nat) / 2048, _⟩ 1 * 512 ≤ (i 1 : Nat)
        ∧ (i 1 : Nat) < win1_8.index ⟨(i 0 : Nat) / 2048, _⟩ 1 * 512 + 512
      rw [(idx_rows _).2.2.2]
      omega

/-- Entry (r, j) of the first output array when the region ends. -/
theorem arr_h (r : Fin 32768) (j : Fin 512) :
    ((dat1 V c).arrAt 8 cfg1.N : S32768x512.Idx → EReal) (ix2 r j)
      = hval (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) (V c (Pipeline.arrRef spec1 7)) r j := by
  rw [arr_h_eq]
  rfl

end Cert.KernelIdeal.RegionB

end
-- ==== Proof.KernelValue.lean ====
/-
  The kernel program's result over real inputs.

  When the thirteen argument arrays are coercions of real arrays, every operand a region finds is the coercion of a
  real array — the launch arrays, the transposed weights, the previous region's activations, and the column means and
  variances the host glue forms from the previous region's per-core partial sums — so region by region the activations
  are the coercions of the real network's stages, and the result buffer, the first ten columns of the third region's
  output, is the coercion of the real network's output.
-/
import proofs.«105324_j53815940219270_2_alg».proof.Proof.FrameResult
import proofs.«105324_j53815940219270_2_alg».proof.Proof.KernelChain
import proofs.«105324_j53815940219270_2_alg».proof.Proof.KernelStage1
import proofs.«105324_j53815940219270_2_alg».proof.Proof.KernelStage2
import proofs.«105324_j53815940219270_2_alg».proof.Proof.KernelStage3
import proofs.«105324_j53815940219270_2_alg».proof.Proof.RegionBAcc
import proofs.«105324_j53815940219270_2_alg».proof.Proof.RegionBH

open Idealize.ShloMosaic Idealize.ShloMosaic.TcCoe Idealize.SL.Sem Idealize.ShloMosaic.ValueIdx
open Idealize.ShloMosaic.Pipeline (Dat)
open scoped BigOperators

noncomputable section

namespace Cert.KernelIdeal.Value

open Cert.KernelIdeal Cert.KernelIdeal.Gen Cert.KernelIdeal.HostRead Cert.KernelIdeal.Chain Cert.Spec

variable (x : Fin 32768 → Fin 784 → ℝ) (W1 : Fin 512 → Fin 784 → ℝ) (b1 g1 be1 : Fin 512 → ℝ)
  (W2 : Fin 512 → Fin 512 → ℝ) (b2 g2 be2 : Fin 512 → ℝ) (W3 : Fin 10 → Fin 512 → ℝ) (b3 : Fin 10 → ℝ)
  (m1 m2 : Fin 32768 → Fin 512 → ℝ)
  (m : (ℓ : Loc nD τ sig) → Buf (Elt Ideal) ℓ) (ρ : Dev nD → PrngReg)

theorem is2_congr {a b : ℕ} {A B : (⟨2, ![a, b]⟩ : Shape).Idx → EReal} {X : Fin a → Fin b → ℝ} (e : A = B) (h : Is2 B X) :
    Is2 A X := e ▸ h

theorem is1_congr {a : ℕ} {A B : (⟨1, ![a]⟩ : Shape).Idx → EReal} {X : Fin a → ℝ} (e : A = B) (h : Is1 B X) :
    Is1 A X := e ▸ h

/-- Row r of block q of core p's half of the batch. -/
def rowB (p : Fin 2) (q : Fin 8) (r : Fin 2048) : Fin 32768 := ⟨(p.val * 8 + q.val) * 2048 + r.val, RegionB.row_lt p q r⟩

/-- The first layer's output, its activations, the second layer's output and its activations, over the reals. -/
abbrev h1 := Spec.lin x W1 b1
abbrev a1 := Spec.bnDrop (h1 x W1 b1) g1 be1 m1 Cert.Consts.eps Cert.Consts.scl
abbrev h2 := Spec.lin (a1 x W1 b1 g1 be1 m1) W2 b2
abbrev a2 := Spec.bnDrop (h2 x W1 b1 g1 be1 W2 b2 m1) g2 be2 m2 Cert.Consts.eps Cert.Consts.scl

section OneCore
variable (c : Dev nD)
  (hx : Is2 (m ((c.tc : Thread nD τ).loc main_arg0)) x) (hW1 : Is2 (m ((c.tc : Thread nD τ).loc main_arg1)) W1)
  (hb1 : Is1 (m ((c.tc : Thread nD τ).loc main_arg2)) b1) (hg1 : Is1 (m ((c.tc : Thread nD τ).loc main_arg3)) g1)
  (hbe1 : Is1 (m ((c.tc : Thread nD τ).loc main_arg4)) be1) (hW2 : Is2 (m ((c.tc : Thread nD τ).loc main_arg5)) W2)
  (hb2 : Is1 (m ((c.tc : Thread nD τ).loc main_arg6)) b2) (hg2 : Is1 (m ((c.tc : Thread nD τ).loc main_arg7)) g2)
  (hbe2 : Is1 (m ((c.tc : Thread nD τ).loc main_arg8)) be2) (hW3 : Is2 (m ((c.tc : Thread nD τ).loc main_arg9)) W3)
  (hb3 : Is1 (m ((c.tc : Thread nD τ).loc main_arg10)) b3) (hm1 : Is2 (m ((c.tc : Thread nD τ).loc main_arg11)) m1)
  (hm2 : Is2 (m ((c.tc : Thread nD τ).loc main_arg12)) m2)

include hx hW1 hb1 in
/-- Region 0's activation output is the first layer. -/
theorem stage1_out : Is2 ((dat0 (F := Ideal) (V4 m ρ) c).arrAt 3 cfg0.N) (h1 x W1 b1) :=
  Stage1.out_real (V4 m ρ) c x W1 b1 (is2_congr (in0_0 m ρ c) hx)
    (fun k j => by rw [in0_1 m ρ c, wt1_apply]; exact hW1 j k) (is1_congr (in0_2 m ρ c) hb1)

include hx hW1 hb1 in
/-- The glue's column means and variances after region 0 are the first layer's batch statistics. -/
theorem stage1_stats (k : Fin 512) :
    colMean ((dat0 (F := Ideal) (V4 m ρ) c).arrAt 4 cfg0.N) (ix2 (0 : Fin 1) k) = ((Spec.mean (h1 x W1 b1) k : ℝ) : EReal)
      ∧ colVar ((dat0 (F := Ideal) (V4 m ρ) c).arrAt 4 cfg0.N) ((dat0 (F := Ideal) (V4 m ρ) c).arrAt 5 cfg0.N) (ix2 (0 : Fin 1) k)
          = ((Spec.var (h1 x W1 b1) k : ℝ) : EReal) :=
  Stage1.stats_real (V4 m ρ) c x W1 b1 (is2_congr (in0_0 m ρ c) hx)
    (fun k j => by rw [in0_1 m ρ c, wt1_apply]; exact hW1 j k) (is1_congr (in0_2 m ρ c) hb1) k

/-! ### Region 1 -/

include hx hW1 hb1 hg1 hbe1 hW2 hb2 hm1 in
/-- Region 1's eight operands are coercions of real arrays. -/
theorem ops1 :
    Is2 (RegionBAcc.arr0 (V6 m ρ) c) (h1 x W1 b1)
    ∧ (∀ k, RegionBAcc.arr1 (V6 m ρ) c (ix2 (0 : Fin 1) k) = ((Spec.mean (h1 x W1 b1) k : ℝ) : EReal))
    ∧ (∀ k, RegionBAcc.arr2 (V6 m ρ) c (ix2 (0 : Fin 1) k) = ((Spec.var (h1 x W1 b1) k : ℝ) : EReal))
    ∧ Is1 (RegionBAcc.arr3 (V6 m ρ) c) g1 ∧ Is1 (RegionBAcc.arr4 (V6 m ρ) c) be1 ∧ Is2 (RegionBAcc.arr5 (V6 m ρ) c) m1
    ∧ (∀ k j : Fin 512, RegionBAcc.arr6 (V6 m ρ) c (ix2 k j) = ((W2 j k : ℝ) : EReal))
    ∧ Is1 (RegionBAcc.arr7 (V6 m ρ) c) b2 := by
  refine ⟨is2_congr (in1_0 m ρ c) (stage1_out x W1 b1 m ρ c hx hW1 hb1), fun k => ?_, fun k => ?_,
    is1_congr (in1_3 m ρ c) hg1, is1_congr (in1_4 m ρ c) hbe1, is2_congr (in1_5 m ρ c) hm1, fun k j => ?_,
    is1_congr (in1_7 m ρ c) hb2⟩
  · show (V6 m ρ c (Pipeline.arrRef spec1 1) : S1x512.Idx → EReal) (ix2 (0 : Fin 1) k) = _
    rw [in1_1 m ρ c]; exact (stage1_stats x W1 b1 m ρ c hx hW1 hb1 k).1
  · show (V6 m ρ c (Pipeline.arrRef spec1 2) : S1x512.Idx → EReal) (ix2 (0 : Fin 1) k) = _
    rw [in1_2 m ρ c]; exact (stage1_stats x W1 b1 m ρ c hx hW1 hb1 k).2
  · show (V6 m ρ c (Pipeline.arrRef spec1 6) : S512x512.Idx → EReal) (ix2 k j) = _
    rw [in1_6 m ρ c, wt2_apply]; exact hW2 j k

include hx hW1 hb1 hg1 hbe1 hW2 hb2 hm1 in
/-- Region 1's activation output is the second layer. -/
theorem stage2_out : Is2 ((dat1 (F := Ideal) (V6 m ρ) c).arrAt 8 cfg1.N) (h2 x W1 b1 g1 be1 W2 b2 m1) := by
  obtain ⟨e0, e1, e2, e3, e4, e5, e6, e7⟩ := ops1 x W1 b1 g1 be1 W2 b2 m1 m ρ c hx hW1 hb1 hg1 hbe1 hW2 hb2 hm1
  intro r j
  refine (RegionB.arr_h (V6 m ρ) c r j).trans ?_
  exact Stage2.hval_real (h1 x W1 b1) g1 be1 m1 W2 b2 (RegionBAcc.arr0 (V6 m ρ) c) (RegionBAcc.arr1 (V6 m ρ) c)
    (RegionBAcc.arr2 (V6 m ρ) c) (RegionBAcc.arr3 (V6 m ρ) c) (RegionBAcc.arr4 (V6 m ρ) c) (RegionBAcc.arr5 (V6 m ρ) c)
    (RegionBAcc.arr6 (V6 m ρ) c) (RegionBAcc.arr7 (V6 m ρ) c) e0 e1 e2 e3 e4 e5 e6 e7 r j

include hx hW1 hb1 hg1 hbe1 hW2 hb2 hm1 in
/-- The glue's column means and variances after region 1 are the second layer's batch statistics. -/
theorem stage2_stats (k : Fin 512) :
    colMean ((dat1 (F := Ideal) (V6 m ρ) c).arrAt 9 cfg1.N) (ix2 (0 : Fin 1) k)
        = ((Spec.mean (h2 x W1 b1 g1 be1 W2 b2 m1) k : ℝ) : EReal)
      ∧ colVar ((dat1 (F := Ideal) (V6 m ρ) c).arrAt 9 cfg1.N) ((dat1 (F := Ideal) (V6 m ρ) c).arrAt 10 cfg1.N) (ix2 (0 : Fin 1) k)
        = ((Spec.var (h2 x W1 b1 g1 be1 W2 b2 m1) k : ℝ) : EReal) := by
  obtain ⟨e0, e1, e2, e3, e4, e5, e6, e7⟩ := ops1 x W1 b1 g1 be1 W2 b2 m1 m ρ c hx hW1 hb1 hg1 hbe1 hW2 hb2 hm1
  exact Stage2.stats_real (h1 x W1 b1) g1 be1 m1 W2 b2 (RegionBAcc.arr0 (V6 m ρ) c) (RegionBAcc.arr1 (V6 m ρ) c)
    (RegionBAcc.arr2 (V6 m ρ) c) (RegionBAcc.arr3 (V6 m ρ) c) (RegionBAcc.arr4 (V6 m ρ) c) (RegionBAcc.arr5 (V6 m ρ) c)
    (RegionBAcc.arr6 (V6 m ρ) c) (RegionBAcc.arr7 (V6 m ρ) c) e0 e1 e2 e3 e4 e5 e6 e7 _ _ k RegionBAcc.rowOf (fun _ _ _ => rfl)
    (fun core => RegionBAcc.arr_sum (V6 m ρ) c core k) (fun core => RegionBAcc.arr_sumsq (V6 m ρ) c core k)

/-! ### Region 2 and the result -/

include hx hW1 hb1 hg1 hbe1 hW2 hb2 hg2 hbe2 hW3 hb3 hm1 hm2 in
/-- Region 2's eight operands are coercions of real arrays (the padded weights and bias on their first ten columns). -/
theorem ops2 :
    Is2 (RegionC.arr0 (V8 m ρ) c) (h2 x W1 b1 g1 be1 W2 b2 m1)
    ∧ (∀ k, RegionC.arr1 (V8 m ρ) c (ix2 (0 : Fin 1) k) = ((Spec.mean (h2 x W1 b1 g1 be1 W2 b2 m1) k : ℝ) : EReal))
    ∧ (∀ k, RegionC.arr2 (V8 m ρ) c (ix2 (0 : Fin 1) k) = ((Spec.var (h2 x W1 b1 g1 be1 W2 b2 m1) k : ℝ) : EReal))
    ∧ Is1 (RegionC.arr3 (V8 m ρ) c) g2 ∧ Is1 (RegionC.arr4 (V8 m ρ) c) be2 ∧ Is2 (RegionC.arr5 (V8 m ρ) c) m2
    ∧ (∀ (k : Fin 512) (j : Fin 10), RegionC.arr6 (V8 m ρ) c (ix2 k (⟨j.val, by omega⟩ : Fin 128)) = ((W3 j k : ℝ) : EReal))
    ∧ (∀ j : Fin 10, RegionC.arr7 (V8 m ρ) c (ix1 (⟨j.val, by omega⟩ : Fin 128)) = ((b3 j : ℝ) : EReal)) := by
  refine ⟨is2_congr (in2_0 m ρ c) (stage2_out x W1 b1 g1 be1 W2 b2 m1 m ρ c hx hW1 hb1 hg1 hbe1 hW2 hb2 hm1),
    fun k => ?_, fun k => ?_, is1_congr (in2_3 m ρ c) hg2, is1_congr (in2_4 m ρ c) hbe2, is2_congr (in2_5 m ρ c) hm2,
    fun k j => ?_, fun j => ?_⟩
  · show (V8 m ρ c (Pipeline.arrRef spec2 1) : S1x512.Idx → EReal) (ix2 (0 : Fin 1) k) = _
    rw [in2_1 m ρ c]; exact (stage2_stats x W1 b1 g1 be1 W2 b2 m1 m ρ c hx hW1 hb1 hg1 hbe1 hW2 hb2 hm1 k).1
  · show (V8 m ρ c (Pipeline.arrRef spec2 2) : S1x512.Idx → EReal) (ix2 (0 : Fin 1) k) = _
    rw [in2_2 m ρ c]; exact (stage2_stats x W1 b1 g1 be1 W2 b2 m1 m ρ c hx hW1 hb1 hg1 hbe1 hW2 hb2 hm1 k).2
  · show (V8 m ρ c (Pipeline.arrRef spec2 6) : S512x128.Idx → EReal) (ix2 k (⟨j.val, by omega⟩ : Fin 128)) = _
    rw [in2_6 m ρ c, wt3_apply]; exact hW3 j k
  · show (V8 m ρ c (Pipeline.arrRef spec2 7) : S128.Idx → EReal) (ix1 (⟨j.val, by omega⟩ : Fin 128)) = _
    rw [in2_7 m ρ c, bias3_apply]; exact hb3 j

include hx hW1 hb1 hg1 hbe1 hW2 hb2 hg2 hbe2 hW3 hb3 hm1 hm2 in
/-- The result buffer — the first ten columns of region 2's output — is the real network's output. -/
theorem result_is : Is2 (W10 m ρ c (Proc.devRef .tc main_v31))
    (Spec.net x W1 b1 g1 be1 W2 b2 g2 be2 W3 b3 m1 m2 Cert.Consts.eps Cert.Consts.scl) := by
  obtain ⟨f0, f1, f2, f3, f4, f5, f6, f7⟩ :=
    ops2 x W1 b1 g1 be1 W2 b2 g2 be2 W3 b3 m1 m2 m ρ c hx hW1 hb1 hg1 hbe1 hW2 hb2 hg2 hbe2 hW3 hb3 hm1 hm2
  intro r j
  rw [result_eq m ρ c]
  rw [extractStridedSlice_apply _ _ slices_S32768x128_S32768x10_0_0 (ix2 r j) (ix2 r (⟨j.val, by omega⟩ : Fin 128))
    (fun a => by match a with | ⟨0, _⟩ => simp | ⟨1, _⟩ => simp)]
  exact Stage3.out_real (V8 m ρ) c (h2 x W1 b1 g1 be1 W2 b2 m1) g2 be2 m2 W3 b3 f0 f1 f2 f3 f4 f5 f6 f7 r j

end OneCore

/-- THE KERNEL PROGRAM OVER REAL INPUTS: every weakly fair execution terminates without a fault, the result buffer is
    the coercion of the real network's output, and the argument arrays are as launched. -/
theorem kernel_net
    (hyps : ∀ c : Dev nD,
      Spec.Is2 (m ((c.tc : Thread nD τ).loc main_arg0)) x
      ∧ Spec.Is2 (m ((c.tc : Thread nD τ).loc main_arg1)) W1
      ∧ Spec.Is1 (m ((c.tc : Thread nD τ).loc main_arg2)) b1
      ∧ Spec.Is1 (m ((c.tc : Thread nD τ).loc main_arg3)) g1
      ∧ Spec.Is1 (m ((c.tc : Thread nD τ).loc main_arg4)) be1
      ∧ Spec.Is2 (m ((c.tc : Thread nD τ).loc main_arg5)) W2
      ∧ Spec.Is1 (m ((c.tc : Thread nD τ).loc main_arg6)) b2
      ∧ Spec.Is1 (m ((c.tc : Thread nD τ).loc main_arg7)) g2
      ∧ Spec.Is1 (m ((c.tc : Thread nD τ).loc main_arg8)) be2
      ∧ Spec.Is2 (m ((c.tc : Thread nD τ).loc main_arg9)) W3
      ∧ Spec.Is1 (m ((c.tc : Thread nD τ).loc main_arg10)) b3
      ∧ Spec.Is2 (m ((c.tc : Thread nD τ).loc main_arg11)) m1
      ∧ Spec.Is2 (m ((c.tc : Thread nD τ).loc main_arg12)) m2) :
    θ_run (defs (F := Ideal)) (onTc (τ := τ) (main (F := Ideal))) ⟨m, fun _ => 0, ρ⟩ fun r => ∀ c : Dev nD,
      Spec.Is2 (r.2.mem ((c.tc : Thread nD τ).loc main_v31))
        (Spec.net x W1 b1 g1 be1 W2 b2 g2 be2 W3 b3 m1 m2 Cert.Consts.eps Cert.Consts.scl)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => by
    obtain ⟨hx, hW1, hb1, hg1, hbe1, hW2, hb2, hg2, hbe2, hW3, hb3, hm1, hm2⟩ := hyps c
    exact ⟨is2_congr (h c).1
      (result_is x W1 b1 g1 be1 W2 b2 g2 be2 W3 b3 m1 m2 m ρ c hx hW1 hb1 hg1 hbe1 hW2 hb2 hg2 hbe2 hW3 hb3 hm1 hm2), (h c).2⟩)
    (Cert.KernelIdeal.GenP.frame_result (F := Ideal) m ρ)

end Cert.KernelIdeal.Value

end
-- ==== Proof.lean ====
/-
  A three-layer perceptron with training-mode batch normalisation, a rectifier and a dropout mask after each of the
  first two layers, written as three tiled kernels with a little host glue between them, against the plain array program.

  Both programs, read over the extended reals from argument arrays whose entries are all finite, compute the same real
  network (Proof/Spec.lean): each affine layer is a finite sum of products; the kernel forms a column's variance as mean
  of squares minus square of the mean, floored at zero, from per-core partial sums, the reference as the mean of the
  squared deviations, and on real columns these agree and are nonnegative; with the positive stabiliser added the
  reciprocal square root of the one is the reciprocal of the square root of the other. The reference's run and its value
  are Proof/RefRun.lean and Proof/RefValue.lean, the kernel program's value region by region Proof/RegionA.lean,
  Proof/RegionBH.lean, Proof/RegionBAcc.lean and Proof/RegionC.lean, joined through the host glue in Proof/KernelValue.lean;
  Proof/Assemble.lean takes the real arrays from the precondition and puts the five claims together. The two rewrites
  of the idealisation (a narrowing to half precision followed by the widening back) are the identity over the extended
  reals.
-/
import proofs.«105324_j53815940219270_2_alg».proof.Proof.Assemble
import proofs.«105324_j53815940219270_2_alg».proof.Proof.KernelValue

noncomputable section

namespace Cert.Proof

theorem claim : Cert.Claim := Cert.Proof.Assemble.claim_of Cert.KernelIdeal.Value.kernel_net

end Cert.Proof

end
